-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x39 : Shape := ⟨2, ![8192, 39]⟩
abbrev S1000000x1 : Shape := ⟨2, ![1000000, 1]⟩
abbrev S1000000x16 : Shape := ⟨2, ![1000000, 16]⟩
abbrev S1 : Shape := ⟨1, ![1]⟩
abbrev S16x16 : Shape := ⟨2, ![16, 16]⟩
abbrev S16 : Shape := ⟨1, ![16]⟩
abbrev S16x1 : Shape := ⟨2, ![16, 1]⟩
abbrev S_ : Shape := ⟨0, ![]⟩

class Facts : Prop where
  bcast_S_S8192x39 : S_.BroadcastsInDim S8192x39 (![] : Fin 0 → Fin S8192x39.rank)
  reducesTo_S8192x39_S_d0_1 : S8192x39.ReducesTo [0, 1] S_
  h_S_ : 0 < S_.numel
  bcast_S_S1000000x1 : S_.BroadcastsInDim S1000000x1 (![] : Fin 0 → Fin S1000000x1.rank)
  reducesTo_S1000000x1_S_d0_1 : S1000000x1.ReducesTo [0, 1] S_
  bcast_S_S1000000x16 : S_.BroadcastsInDim S1000000x16 (![] : Fin 0 → Fin S1000000x16.rank)
  reducesTo_S1000000x16_S_d0_1 : S1000000x16.ReducesTo [0, 1] S_
  bcast_S_S1 : S_.BroadcastsInDim S1 (![] : Fin 0 → Fin S1.rank)
  reducesTo_S1_S_d0 : S1.ReducesTo [0] S_
  bcast_S_S16x16 : S_.BroadcastsInDim S16x16 (![] : Fin 0 → Fin S16x16.rank)
  reducesTo_S16x16_S_d0_1 : S16x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_

variable [Facts]

def fn_part2 {F : FTy → Type} [FloatOps F] (main_arg8 : FVec F S16x1 .f32) (main_v33 : IVec S_ 1) : IVec S_ 1 :=
  let main_v34 : FVec F S16x1 .f32 := Host.absf main_arg8
  let main_cst_12 : FVec F S_ .f32 := constant S_ .f32 0x7F800000#32
  let main_v35 : FVec F S16x1 .f32 := broadcastInDim S16x1 ![] bcast_S_S16x1 main_cst_12
  let main_v36 : IVec S16x1 1 := cmpf .olt main_v34 main_v35
  let main_c_13 : IVec S_ 1 := constantI S_ 1 1#1
  let main_v37 : IVec S_ 1 := (fun x v => Host.reduce IntOp.andi x v reducesTo_S16x1_S_d0_1 h_S_) main_v36 main_c_13
  let main_v38 : IVec S_ 1 := andi main_v33 main_v37
  main_v38

def fn_part1 {F : FTy → Type} [FloatOps F] (main_arg5 : FVec F S16x16 .f32) (main_arg6 : FVec F S16 .f32) (main_arg7 : FVec F S16x1 .f32) (main_arg8 : FVec F S16x1 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S16x16 .f32 := Host.absf main_arg5
  let main_cst_6 : FVec F S_ .f32 := constant S_ .f32 0x7F800000#32
  let main_v20 : FVec F S16x16 .f32 := broadcastInDim S16x16 ![] bcast_S_S16x16 main_cst_6
  let main_v21 : IVec S16x16 1 := cmpf .olt main_v19 main_v20
  let main_c_7 : IVec S_ 1 := constantI S_ 1 1#1
  let main_v22 : IVec S_ 1 := (fun x v => Host.reduce IntOp.andi x v reducesTo_S16x16_S_d0_1 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16x1 .f32 := Host.absf main_arg7
  let main_cst_10 : FVec F S_ .f32 := constant S_ .f32 0x7F800000#32
  let main_v30 : FVec F S16x1 .f32 := broadcastInDim S16x1 ![] bcast_S_S16x1 main_cst_10
  let main_v31 : IVec S16x1 1 := cmpf .olt main_v29 main_v30
  let main_c_11 : IVec S_ 1 := constantI S_ 1 1#1
  let main_v32 : IVec S_ 1 := (fun x v => Host.reduce IntOp.andi x v reducesTo_S16x1_S_d0_1 h_S_) main_v31 main_c_11
  let main_v33 : IVec S_ 1 := andi main_v28 main_v32
  fn_part2 (F := F) main_arg8 main_v33

def fn {F : FTy → Type} [FloatOps F] (main_arg0 : IVec S8192x39 32) (main_arg1 : FVec F S8192x39 .f32) (main_arg2 : FVec F S1000000x1 .f32) (main_arg3 : FVec F S1000000x16 .f32) (main_arg4 : FVec F S1 .f32) (main_arg5 : FVec F S16x16 .f32) (main_arg6 : FVec F S16 .f32) (main_arg7 : FVec F S16x1 .f32) (main_arg8 : FVec F S16x1 .f32) : IVec S_ 1 :=
  let main_v0 : FVec F S8192x39 .f32 := Host.absf main_arg1
  let main_cst : FVec F S_ .f32 := constant S_ .f32 0x7F800000#32
  let main_v1 : FVec F S8192x39 .f32 := broadcastInDim S8192x39 ![] bcast_S_S8192x39 main_cst
  let main_v2 : IVec S8192x39 1 := cmpf .olt main_v0 main_v1
  let main_c : IVec S_ 1 := constantI S_ 1 1#1
  let main_v3 : IVec S_ 1 := (fun x v => Host.reduce IntOp.andi x v reducesTo_S8192x39_S_d0_1 h_S_) main_v2 main_c
  let main_v4 : FVec F S1000000x1 .f32 := Host.absf main_arg2
  let main_cst_0 : FVec F S_ .f32 := constant S_ .f32 0x7F800000#32
  let main_v5 : FVec F S1000000x1 .f32 := broadcastInDim S1000000x1 ![] bcast_S_S1000000x1 main_cst_0
  let main_v6 : IVec S1000000x1 1 := cmpf .olt main_v4 main_v5
  let main_c_1 : IVec S_ 1 := constantI S_ 1 1#1
  let main_v7 : IVec S_ 1 := (fun x v => Host.reduce IntOp.andi x v reducesTo_S1000000x1_S_d0_1 h_S_) main_v6 main_c_1
  let main_v8 : IVec S_ 1 := andi main_v3 main_v7
  let main_v9 : FVec F S1000000x16 .f32 := Host.absf main_arg3
  let main_cst_2 : FVec F S_ .f32 := constant S_ .f32 0x7F800000#32
  let main_v10 : FVec F S1000000x16 .f32 := broadcastInDim S1000000x16 ![] bcast_S_S1000000x16 main_cst_2
  let main_v11 : IVec S1000000x16 1 := cmpf .olt main_v9 main_v10
  let main_c_3 : IVec S_ 1 := constantI S_ 1 1#1
  let main_v12 : IVec S_ 1 := (fun x v => Host.reduce IntOp.andi x v reducesTo_S1000000x16_S_d0_1 h_S_) main_v11 main_c_3
  let main_v13 : IVec S_ 1 := andi main_v8 main_v12
  let main_v14 : FVec F S1 .f32 := Host.absf main_arg4
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg5 main_arg6 main_arg7 main_arg8 main_v13 main_v16
-- ==== Kernel.lean ====
abbrev S8192x39 : Shape := ⟨2, ![8192, 39]⟩
abbrev S1000000x1 : Shape := ⟨2, ![1000000, 1]⟩
abbrev S1000000x16 : Shape := ⟨2, ![1000000, 16]⟩
abbrev S1 : Shape := ⟨1, ![1]⟩
abbrev S16x16 : Shape := ⟨2, ![16, 16]⟩
abbrev S16 : Shape := ⟨1, ![16]⟩
abbrev S16x1 : Shape := ⟨2, ![16, 1]⟩
abbrev S8192x39x1 : Shape := ⟨3, ![8192, 39, 1]⟩
abbrev S_ : Shape := ⟨0, ![]⟩
abbrev S8192 : Shape := ⟨1, ![8192]⟩
abbrev S8192x39x16 : Shape := ⟨3, ![8192, 39, 16]⟩
abbrev S39x16x8192 : Shape := ⟨3, ![39, 16, 8192]⟩
abbrev S1x8192 : Shape := ⟨2, ![1, 8192]⟩
abbrev S1x1 : Shape := ⟨2, ![1, 1]⟩
abbrev S1x16 : Shape := ⟨2, ![1, 16]⟩
abbrev S39x16x128 : Shape := ⟨3, ![39, 16, 128]⟩
abbrev S1x128 : Shape := ⟨2, ![1, 128]⟩
abbrev S741x16x128 : Shape := ⟨3, ![741, 16, 128]⟩
abbrev S741x128 : Shape := ⟨2, ![741, 128]⟩
abbrev S1x16x128 : Shape := ⟨3, ![1, 16, 128]⟩
abbrev S16x128 : Shape := ⟨2, ![16, 128]⟩
abbrev S38x16x128 : Shape := ⟨3, ![38, 16, 128]⟩
abbrev S37x16x128 : Shape := ⟨3, ![37, 16, 128]⟩
abbrev S36x16x128 : Shape := ⟨3, ![36, 16, 128]⟩
abbrev S35x16x128 : Shape := ⟨3, ![35, 16, 128]⟩
abbrev S34x16x128 : Shape := ⟨3, ![34, 16, 128]⟩
abbrev S33x16x128 : Shape := ⟨3, ![33, 16, 128]⟩
abbrev S32x16x128 : Shape := ⟨3, ![32, 16, 128]⟩
abbrev S31x16x128 : Shape := ⟨3, ![31, 16, 128]⟩
abbrev S30x16x128 : Shape := ⟨3, ![30, 16, 128]⟩
abbrev S29x16x128 : Shape := ⟨3, ![29, 16, 128]⟩
abbrev S28x16x128 : Shape := ⟨3, ![28, 16, 128]⟩
abbrev S27x16x128 : Shape := ⟨3, ![27, 16, 128]⟩
abbrev S26x16x128 : Shape := ⟨3, ![26, 16, 128]⟩
abbrev S25x16x128 : Shape := ⟨3, ![25, 16, 128]⟩
abbrev S24x16x128 : Shape := ⟨3, ![24, 16, 128]⟩
abbrev S23x16x128 : Shape := ⟨3, ![23, 16, 128]⟩
abbrev S22x16x128 : Shape := ⟨3, ![22, 16, 128]⟩
abbrev S21x16x128 : Shape := ⟨3, ![21, 16, 128]⟩
abbrev S20x16x128 : Shape := ⟨3, ![20, 16, 128]⟩
abbrev S19x16x128 : Shape := ⟨3, ![19, 16, 128]⟩
abbrev S18x16x128 : Shape := ⟨3, ![18, 16, 128]⟩
abbrev S17x16x128 : Shape := ⟨3, ![17, 16, 128]⟩
abbrev S16x16x128 : Shape := ⟨3, ![16, 16, 128]⟩
abbrev S15x16x128 : Shape := ⟨3, ![15, 16, 128]⟩
abbrev S14x16x128 : Shape := ⟨3, ![14, 16, 128]⟩
abbrev S13x16x128 : Shape := ⟨3, ![13, 16, 128]⟩
abbrev S12x16x128 : Shape := ⟨3, ![12, 16, 128]⟩
abbrev S11x16x128 : Shape := ⟨3, ![11, 16, 128]⟩
abbrev S10x16x128 : Shape := ⟨3, ![10, 16, 128]⟩
abbrev S9x16x128 : Shape := ⟨3, ![9, 16, 128]⟩
abbrev S8x16x128 : Shape := ⟨3, ![8, 16, 128]⟩
abbrev S7x16x128 : Shape := ⟨3, ![7, 16, 128]⟩
abbrev S6x16x128 : Shape := ⟨3, ![6, 16, 128]⟩
abbrev S5x16x128 : Shape := ⟨3, ![5, 16, 128]⟩
abbrev S4x16x128 : Shape := ⟨3, ![4, 16, 128]⟩
abbrev S3x16x128 : Shape := ⟨3, ![3, 16, 128]⟩
abbrev S2x16x128 : Shape := ⟨3, ![2, 16, 128]⟩
abbrev S1x16x1 : Shape := ⟨3, ![1, 16, 1]⟩
abbrev S741x1x128 : Shape := ⟨3, ![741, 1, 128]⟩
abbrev S128 : Shape := ⟨1, ![128]⟩

abbrev nBuf : Space → Nat
  | .hbm => 40
  | .vmem => 14
  | .smem => 0
  | _ => 0

abbrev bufTy : (tb : Table) → Fin (tcTables nBuf tb) → BufTy
  | .hbm, ⟨0, _⟩ => ⟨S8192x39, .i32⟩
  | .hbm, ⟨1, _⟩ => ⟨S8192x39, .f32⟩
  | .hbm, ⟨2, _⟩ => ⟨S1000000x1, .f32⟩
  | .hbm, ⟨3, _⟩ => ⟨S1000000x16, .f32⟩
  | .hbm, ⟨4, _⟩ => ⟨S1, .f32⟩
  | .hbm, ⟨5, _⟩ => ⟨S16x16, .f32⟩
  | .hbm, ⟨6, _⟩ => ⟨S16, .f32⟩
  | .hbm, ⟨7, _⟩ => ⟨S16x1, .f32⟩
  | .hbm, ⟨8, _⟩ => ⟨S16x1, .f32⟩
  | .hbm, ⟨9, _⟩ => ⟨S8192x39x1, .f32⟩
  | .hbm, ⟨10, _⟩ => ⟨S_, .i32⟩
  | .hbm, ⟨11, _⟩ => ⟨S8192x39, .i32⟩
  | .hbm, ⟨12, _⟩ => ⟨S8192x39, .i1⟩
  | .hbm, ⟨13, _⟩ => ⟨S_, .i32⟩
  | .hbm, ⟨14, _⟩ => ⟨S8192x39, .i32⟩
  | .hbm, ⟨15, _⟩ => ⟨S8192x39, .i32⟩
  | .hbm, ⟨16, _⟩ => ⟨S8192x39, .i32⟩
  | .hbm, ⟨17, _⟩ => ⟨S8192x39x1, .i32⟩
  | .hbm, ⟨18, _⟩ => ⟨S8192x39x1, .f32⟩
  | .hbm, ⟨19, _⟩ => ⟨S8192x39, .f32⟩
  | .hbm, ⟨20, _⟩ => ⟨S8192x39, .f32⟩
  | .hbm, ⟨21, _⟩ => ⟨S_, .f32⟩
  | .hbm, ⟨22, _⟩ => ⟨S8192, .f32⟩
  | .hbm, ⟨23, _⟩ => ⟨S_, .i32⟩
  | .hbm, ⟨24, _⟩ => ⟨S8192x39, .i32⟩
  | .hbm, ⟨25, _⟩ => ⟨S8192x39, .i1⟩
  | .hbm, ⟨26, _⟩ => ⟨S_, .i32⟩
  | .hbm, ⟨27, _⟩ => ⟨S8192x39, .i32⟩
  | .hbm, ⟨28, _⟩ => ⟨S8192x39, .i32⟩
  | .hbm, ⟨29, _⟩ => ⟨S8192x39, .i32⟩
  | .hbm, ⟨30, _⟩ => ⟨S8192x39x1, .i32⟩
  | .hbm, ⟨31, _⟩ => ⟨S8192x39x16, .f32⟩
  | .hbm, ⟨32, _⟩ => ⟨S8192x39x16, .f32⟩
  | .hbm, ⟨33, _⟩ => ⟨S8192x39x16, .f32⟩
  | .hbm, ⟨34, _⟩ => ⟨S39x16x8192, .f32⟩
  | .hbm, ⟨35, _⟩ => ⟨S1x8192, .f32⟩
  | .hbm, ⟨36, _⟩ => ⟨S1x1, .f32⟩
  | .hbm, ⟨37, _⟩ => ⟨S1x16, .f32⟩
  | .hbm, ⟨38, _⟩ => ⟨S1x8192, .f32⟩
  | .hbm, ⟨39, _⟩ => ⟨S8192, .f32⟩
  | .local _ .vmem, ⟨0, _⟩ => ⟨S39x16x128, .f32⟩
  | .local _ .vmem, ⟨1, _⟩ => ⟨S39x16x128, .f32⟩
  | .local _ .vmem, ⟨2, _⟩ => ⟨S1x128, .f32⟩
  | .local _ .vmem, ⟨3, _⟩ => ⟨S1x128, .f32⟩
  | .local _ .vmem, ⟨4, _⟩ => ⟨S1x1, .f32⟩
  | .local _ .vmem, ⟨5, _⟩ => ⟨S16x16, .f32⟩
  | .local _ .vmem, ⟨6, _⟩ => ⟨S1x16, .f32⟩
  | .local _ .vmem, ⟨7, _⟩ => ⟨S16x1, .f32⟩
  | .local _ .vmem, ⟨8, _⟩ => ⟨S16x1, .f32⟩
  | .local _ .vmem, ⟨9, _⟩ => ⟨S1x128, .f32⟩
  | .local _ .vmem, ⟨10, _⟩ => ⟨S1x128, .f32⟩
  | .local _ .vmem, ⟨11, _⟩ => ⟨S741x16x128, .f32⟩
  | .local _ .vmem, ⟨12, _⟩ => ⟨S741x16x128, .f32⟩
  | .local _ .vmem, ⟨13, _⟩ => ⟨S741x128, .f32⟩
  | _, _ => ⟨S8192x39, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S39x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S8192x39_S8192x39x1_0_1 : S8192x39.BroadcastsInDim S8192x39x1 (![0, 1] : Fin 2 → Fin S8192x39x1.rank)
  bcast_S_S8192x39 : S_.BroadcastsInDim S8192x39 (![] : Fin 0 → Fin S8192x39.rank)
  shapeCasts_S8192x39x1_S8192x39 : S8192x39x1.ShapeCasts S8192x39
  reducesTo_S8192x39_S8192_d1 : S8192x39.ReducesTo [1] S8192
  h_S_ : 0 < S_.numel
  bcast_S8192x39x1_S8192x39x16_0_1_2 : S8192x39x1.BroadcastsInDim S8192x39x16 (![0, 1, 2] : Fin 3 → Fin S8192x39x16.rank)
  transposes_S8192x39x16_S39x16x8192_1_2_0 : S8192x39x16.Transposes [1, 2, 0] S39x16x8192
  shapeCasts_S8192_S1x8192 : S8192.ShapeCasts S1x8192
  shapeCasts_S1_S1x1 : S1.ShapeCasts S1x1
  shapeCasts_S16_S1x16 : S16.ShapeCasts S1x16
  inb_S39x16x128_S39x16x128_0_0_0 : ∀ a, (![0, 0, 0] : Fin 3 → Nat) a + S39x16x128.size a ≤ S39x16x128.size a
  h_S39x16x128 : 0 < S39x16x128.numel
  shapeCasts_S39x16x128_S39x16x128 : S39x16x128.ShapeCasts S39x16x128
  slices_S39x16x128_o0_0_0_S1x16x128 : S39x16x128.Slices ![0, 0, 0] S1x16x128
  shapeCasts_S1x16x128_S16x128 : S1x16x128.ShapeCasts S16x128
  slices_S39x16x128_o1_0_0_S38x16x128 : S39x16x128.Slices ![1, 0, 0] S38x16x128
  shapeCasts_S16x128_S1x16x128 : S16x128.ShapeCasts S1x16x128
  broadcasts_S1x16x128_S38x16x128 : S1x16x128.Broadcasts S38x16x128
  inb_S741x16x128_S38x16x128_0_0_0 : ∀ a, (![0, 0, 0] : Fin 3 → Nat) a + S38x16x128.size a ≤ S741x16x128.size a
  h_S38x16x128 : 0 < S38x16x128.numel
  shapeCasts_S38x16x128_S38x16x128 : S38x16x128.ShapeCasts S38x16x128
  slices_S39x16x128_o1_0_0_S1x16x128 : S39x16x128.Slices ![1, 0, 0] S1x16x128
  slices_S39x16x128_o2_0_0_S37x16x128 : S39x16x128.Slices ![2, 0, 0] S37x16x128
  broadcasts_S1x16x128_S37x16x128 : S1x16x128.Broadcasts S37x16x128
  inb_S741x16x128_S37x16x128_38_0_0 : ∀ a, (![38, 0, 0] : Fin 3 → Nat) a + S37x16x128.size a ≤ S741x16x128.size a
  h_S37x16x128 : 0 < S37x16x128.numel
  shapeCasts_S37x16x128_S37x16x128 : S37x16x128.ShapeCasts S37x16x128
  slices_S39x16x128_o2_0_0_S1x16x128 : S39x16x128.Slices ![2, 0, 0] S1x16x128
  slices_S39x16x128_o3_0_0_S36x16x128 : S39x16x128.Slices ![3, 0, 0] S36x16x128
  broadcasts_S1x16x128_S36x16x128 : S1x16x128.Broadcasts S36x16x128
  inb_S741x16x128_S36x16x128_75_0_0 : ∀ a, (![75, 0, 0] : Fin 3 → Nat) a + S36x16x128.size a ≤ S741x16x128.size a
  h_S36x16x128 : 0 < S36x16x128.numel
  shapeCasts_S36x16x128_S36x16x128 : S36x16x128.ShapeCasts S36x16x128
  slices_S39x16x128_o3_0_0_S1x16x128 : S39x16x128.Slices ![3, 0, 0] S1x16x128
  slices_S39x16x128_o4_0_0_S35x16x128 : S39x16x128.Slices ![4, 0, 0] S35x16x128
  broadcasts_S1x16x128_S35x16x128 : S1x16x128.Broadcasts S35x16x128
  inb_S741x16x128_S35x16x128_111_0_0 : ∀ a, (![111, 0, 0] : Fin 3 → Nat) a + S35x16x128.size a ≤ S741x16x128.size a
  h_S35x16x128 : 0 < S35x16x128.numel
  shapeCasts_S35x16x128_S35x16x128 : S35x16x128.ShapeCasts S35x16x128
  slices_S39x16x128_o4_0_0_S1x16x128 : S39x16x128.Slices ![4, 0, 0] S1x16x128
  slices_S39x16x128_o5_0_0_S34x16x128 : S39x16x128.Slices ![5, 0, 0] S34x16x128
  broadcasts_S1x16x128_S34x16x128 : S1x16x128.Broadcasts S34x16x128
  inb_S741x16x128_S34x16x128_146_0_0 : ∀ a, (![146, 0, 0] : Fin 3 → Nat) a + S34x16x128.size a ≤ S741x16x128.size a
  h_S34x16x128 : 0 < S34x16x128.numel
  shapeCasts_S34x16x128_S34x16x128 : S34x16x128.ShapeCasts S34x16x128
  slices_S39x16x128_o5_0_0_S1x16x128 : S39x16x128.Slices ![5, 0, 0] S1x16x128
  slices_S39x16x128_o6_0_0_S33x16x128 : S39x16x128.Slices ![6, 0, 0] S33x16x128
  broadcasts_S1x16x128_S33x16x128 : S1x16x128.Broadcasts S33x16x128
  inb_S741x16x128_S33x16x128_180_0_0 : ∀ a, (![180, 0, 0] : Fin 3 → Nat) a + S33x16x128.size a ≤ S741x16x128.size a
  h_S33x16x128 : 0 < S33x16x128.numel
  shapeCasts_S33x16x128_S33x16x128 : S33x16x128.ShapeCasts S33x16x128
  slices_S39x16x128_o6_0_0_S1x16x128 : S39x16x128.Slices ![6, 0, 0] S1x16x128
  slices_S39x16x128_o7_0_0_S32x16x128 : S39x16x128.Slices ![7, 0, 0] S32x16x128
  broadcasts_S1x16x128_S32x16x128 : S1x16x128.Broadcasts S32x16x128
  inb_S741x16x128_S32x16x128_213_0_0 : ∀ a, (![213, 0, 0] : Fin 3 → Nat) a + S32x16x128.size a ≤ S741x16x128.size a
  h_S32x16x128 : 0 < S32x16x128.numel
  shapeCasts_S32x16x128_S32x16x128 : S32x16x128.ShapeCasts S32x16x128
  slices_S39x16x128_o7_0_0_S1x16x128 : S39x16x128.Slices ![7, 0, 0] S1x16x128
  slices_S39x16x128_o8_0_0_S31x16x128 : S39x16x128.Slices ![8, 0, 0] S31x16x128
  broadcasts_S1x16x128_S31x16x128 : S1x16x128.Broadcasts S31x16x128
  inb_S741x16x128_S31x16x128_245_0_0 : ∀ a, (![245, 0, 0] : Fin 3 → Nat) a + S31x16x128.size a ≤ S741x16x128.size a
  h_S31x16x128 : 0 < S31x16x128.numel
  shapeCasts_S31x16x128_S31x16x128 : S31x16x128.ShapeCasts S31x16x128
  slices_S39x16x128_o8_0_0_S1x16x128 : S39x16x128.Slices ![8, 0, 0] S1x16x128
  slices_S39x16x128_o9_0_0_S30x16x128 : S39x16x128.Slices ![9, 0, 0] S30x16x128
  broadcasts_S1x16x128_S30x16x128 : S1x16x128.Broadcasts S30x16x128
  inb_S741x16x128_S30x16x128_276_0_0 : ∀ a, (![276, 0, 0] : Fin 3 → Nat) a + S30x16x128.size a ≤ S741x16x128.size a
  h_S30x16x128 : 0 < S30x16x128.numel
  shapeCasts_S30x16x128_S30x16x128 : S30x16x128.ShapeCasts S30x16x128
  slices_S39x16x128_o9_0_0_S1x16x128 : S39x16x128.Slices ![9, 0, 0] S1x16x128
  slices_S39x16x128_o10_0_0_S29x16x128 : S39x16x128.Slices ![10, 0, 0] S29x16x128
  broadcasts_S1x16x128_S29x16x128 : S1x16x128.Broadcasts S29x16x128
  inb_S741x16x128_S29x16x128_306_0_0 : ∀ a, (![306, 0, 0] : Fin 3 → Nat) a + S29x16x128.size a ≤ S741x16x128.size a
  h_S29x16x128 : 0 < S29x16x128.numel
  shapeCasts_S29x16x128_S29x16x128 : S29x16x128.ShapeCasts S29x16x128
  slices_S39x16x128_o10_0_0_S1x16x128 : S39x16x128.Slices ![10, 0, 0] S1x16x128
  slices_S39x16x128_o11_0_0_S28x16x128 : S39x16x128.Slices ![11, 0, 0] S28x16x128
  broadcasts_S1x16x128_S28x16x128 : S1x16x128.Broadcasts S28x16x128
  inb_S741x16x128_S28x16x128_335_0_0 : ∀ a, (![335, 0, 0] : Fin 3 → Nat) a + S28x16x128.size a ≤ S741x16x128.size a
  h_S28x16x128 : 0 < S28x16x128.numel
  shapeCasts_S28x16x128_S28x16x128 : S28x16x128.ShapeCasts S28x16x128
  slices_S39x16x128_o11_0_0_S1x16x128 : S39x16x128.Slices ![11, 0, 0] S1x16x128
  slices_S39x16x128_o12_0_0_S27x16x128 : S39x16x128.Slices ![12, 0, 0] S27x16x128
  broadcasts_S1x16x128_S27x16x128 : S1x16x128.Broadcasts S27x16x128
  inb_S741x16x128_S27x16x128_363_0_0 : ∀ a, (![363, 0, 0] : Fin 3 → Nat) a + S27x16x128.size a ≤ S741x16x128.size a
  h_S27x16x128 : 0 < S27x16x128.numel
  shapeCasts_S27x16x128_S27x16x128 : S27x16x128.ShapeCasts S27x16x128
  slices_S39x16x128_o12_0_0_S1x16x128 : S39x16x128.Slices ![12, 0, 0] S1x16x128
  slices_S39x16x128_o13_0_0_S26x16x128 : S39x16x128.Slices ![13, 0, 0] S26x16x128
  broadcasts_S1x16x128_S26x16x128 : S1x16x128.Broadcasts S26x16x128
  inb_S741x16x128_S26x16x128_390_0_0 : ∀ a, (![390, 0, 0] : Fin 3 → Nat) a + S26x16x128.size a ≤ S741x16x128.size a
  h_S26x16x128 : 0 < S26x16x128.numel
  shapeCasts_S26x16x128_S26x16x128 : S26x16x128.ShapeCasts S26x16x128
  slices_S39x16x128_o13_0_0_S1x16x128 : S39x16x128.Slices ![13, 0, 0] S1x16x128
  slices_S39x16x128_o14_0_0_S25x16x128 : S39x16x128.Slices ![14, 0, 0] S25x16x128
  broadcasts_S1x16x128_S25x16x128 : S1x16x128.Broadcasts S25x16x128
  inb_S741x16x128_S25x16x128_416_0_0 : ∀ a, (![416, 0, 0] : Fin 3 → Nat) a + S25x16x128.size a ≤ S741x16x128.size a
  h_S25x16x128 : 0 < S25x16x128.numel
  shapeCasts_S25x16x128_S25x16x128 : S25x16x128.ShapeCasts S25x16x128
  slices_S39x16x128_o14_0_0_S1x16x128 : S39x16x128.Slices ![14, 0, 0] S1x16x128
  slices_S39x16x128_o15_0_0_S24x16x128 : S39x16x128.Slices ![15, 0, 0] S24x16x128
  broadcasts_S1x16x128_S24x16x128 : S1x16x128.Broadcasts S24x16x128
  inb_S741x16x128_S24x16x128_441_0_0 : ∀ a, (![441, 0, 0] : Fin 3 → Nat) a + S24x16x128.size a ≤ S741x16x128.size a
  h_S24x16x128 : 0 < S24x16x128.numel
  shapeCasts_S24x16x128_S24x16x128 : S24x16x128.ShapeCasts S24x16x128
  slices_S39x16x128_o15_0_0_S1x16x128 : S39x16x128.Slices ![15, 0, 0] S1x16x128
  slices_S39x16x128_o16_0_0_S23x16x128 : S39x16x128.Slices ![16, 0, 0] S23x16x128
  broadcasts_S1x16x128_S23x16x128 : S1x16x128.Broadcasts S23x16x128
  inb_S741x16x128_S23x16x128_465_0_0 : ∀ a, (![465, 0, 0] : Fin 3 → Nat) a + S23x16x128.size a ≤ S741x16x128.size a
  h_S23x16x128 : 0 < S23x16x128.numel
  shapeCasts_S23x16x128_S23x16x128 : S23x16x128.ShapeCasts S23x16x128
  slices_S39x16x128_o16_0_0_S1x16x128 : S39x16x128.Slices ![16, 0, 0] S1x16x128
  slices_S39x16x128_o17_0_0_S22x16x128 : S39x16x128.Slices ![17, 0, 0] S22x16x128
  broadcasts_S1x16x128_S22x16x128 : S1x16x128.Broadcasts S22x16x128
  inb_S741x16x128_S22x16x128_488_0_0 : ∀ a, (![488, 0, 0] : Fin 3 → Nat) a + S22x16x128.size a ≤ S741x16x128.size a
  h_S22x16x128 : 0 < S22x16x128.numel
  shapeCasts_S22x16x128_S22x16x128 : S22x16x128.ShapeCasts S22x16x128
  slices_S39x16x128_o17_0_0_S1x16x128 : S39x16x128.Slices ![17, 0, 0] S1x16x128
  slices_S39x16x128_o18_0_0_S21x16x128 : S39x16x128.Slices ![18, 0, 0] S21x16x128
  broadcasts_S1x16x128_S21x16x128 : S1x16x128.Broadcasts S21x16x128
  inb_S741x16x128_S21x16x128_510_0_0 : ∀ a, (![510, 0, 0] : Fin 3 → Nat) a + S21x16x128.size a ≤ S741x16x128.size a
  h_S21x16x128 : 0 < S21x16x128.numel
  shapeCasts_S21x16x128_S21x16x128 : S21x16x128.ShapeCasts S21x16x128
  slices_S39x16x128_o18_0_0_S1x16x128 : S39x16x128.Slices ![18, 0, 0] S1x16x128
  slices_S39x16x128_o19_0_0_S20x16x128 : S39x16x128.Slices ![19, 0, 0] S20x16x128
  broadcasts_S1x16x128_S20x16x128 : S1x16x128.Broadcasts S20x16x128
  inb_S741x16x128_S20x16x128_531_0_0 : ∀ a, (![531, 0, 0] : Fin 3 → Nat) a + S20x16x128.size a ≤ S741x16x128.size a
  h_S20x16x128 : 0 < S20x16x128.numel
  shapeCasts_S20x16x128_S20x16x128 : S20x16x128.ShapeCasts S20x16x128
  slices_S39x16x128_o19_0_0_S1x16x128 : S39x16x128.Slices ![19, 0, 0] S1x16x128
  slices_S39x16x128_o20_0_0_S19x16x128 : S39x16x128.Slices ![20, 0, 0] S19x16x128
  broadcasts_S1x16x128_S19x16x128 : S1x16x128.Broadcasts S19x16x128
  inb_S741x16x128_S19x16x128_551_0_0 : ∀ a, (![551, 0, 0] : Fin 3 → Nat) a + S19x16x128.size a ≤ S741x16x128.size a
  h_S19x16x128 : 0 < S19x16x128.numel
  shapeCasts_S19x16x128_S19x16x128 : S19x16x128.ShapeCasts S19x16x128
  slices_S39x16x128_o20_0_0_S1x16x128 : S39x16x128.Slices ![20, 0, 0] S1x16x128
  slices_S39x16x128_o21_0_0_S18x16x128 : S39x16x128.Slices ![21, 0, 0] S18x16x128
  broadcasts_S1x16x128_S18x16x128 : S1x16x128.Broadcasts S18x16x128
  inb_S741x16x128_S18x16x128_570_0_0 : ∀ a, (![570, 0, 0] : Fin 3 → Nat) a + S18x16x128.size a ≤ S741x16x128.size a
  h_S18x16x128 : 0 < S18x16x128.numel
  shapeCasts_S18x16x128_S18x16x128 : S18x16x128.ShapeCasts S18x16x128
  slices_S39x16x128_o21_0_0_S1x16x128 : S39x16x128.Slices ![21, 0, 0] S1x16x128
  slices_S39x16x128_o22_0_0_S17x16x128 : S39x16x128.Slices ![22, 0, 0] S17x16x128
  broadcasts_S1x16x128_S17x16x128 : S1x16x128.Broadcasts S17x16x128
  inb_S741x16x128_S17x16x128_588_0_0 : ∀ a, (![588, 0, 0] : Fin 3 → Nat) a + S17x16x128.size a ≤ S741x16x128.size a
  h_S17x16x128 : 0 < S17x16x128.numel
  shapeCasts_S17x16x128_S17x16x128 : S17x16x128.ShapeCasts S17x16x128
  slices_S39x16x128_o22_0_0_S1x16x128 : S39x16x128.Slices ![22, 0, 0] S1x16x128
  slices_S39x16x128_o23_0_0_S16x16x128 : S39x16x128.Slices ![23, 0, 0] S16x16x128
  broadcasts_S1x16x128_S16x16x128 : S1x16x128.Broadcasts S16x16x128
  inb_S741x16x128_S16x16x128_605_0_0 : ∀ a, (![605, 0, 0] : Fin 3 → Nat) a + S16x16x128.size a ≤ S741x16x128.size a
  h_S16x16x128 : 0 < S16x16x128.numel
  shapeCasts_S16x16x128_S16x16x128 : S16x16x128.ShapeCasts S16x16x128
  slices_S39x16x128_o23_0_0_S1x16x128 : S39x16x128.Slices ![23, 0, 0] S1x16x128
  slices_S39x16x128_o24_0_0_S15x16x128 : S39x16x128.Slices ![24, 0, 0] S15x16x128
  broadcasts_S1x16x128_S15x16x128 : S1x16x128.Broadcasts S15x16x128
  inb_S741x16x128_S15x16x128_621_0_0 : ∀ a, (![621, 0, 0] : Fin 3 → Nat) a + S15x16x128.size a ≤ S741x16x128.size a
  h_S15x16x128 : 0 < S15x16x128.numel
  shapeCasts_S15x16x128_S15x16x128 : S15x16x128.ShapeCasts S15x16x128
  slices_S39x16x128_o24_0_0_S1x16x128 : S39x16x128.Slices ![24, 0, 0] S1x16x128
  slices_S39x16x128_o25_0_0_S14x16x128 : S39x16x128.Slices ![25, 0, 0] S14x16x128
  broadcasts_S1x16x128_S14x16x128 : S1x16x128.Broadcasts S14x16x128
  inb_S741x16x128_S14x16x128_636_0_0 : ∀ a, (![636, 0, 0] : Fin 3 → Nat) a + S14x16x128.size a ≤ S741x16x128.size a
  h_S14x16x128 : 0 < S14x16x128.numel
  shapeCasts_S14x16x128_S14x16x128 : S14x16x128.ShapeCasts S14x16x128
  slices_S39x16x128_o25_0_0_S1x16x128 : S39x16x128.Slices ![25, 0, 0] S1x16x128
  slices_S39x16x128_o26_0_0_S13x16x128 : S39x16x128.Slices ![26, 0, 0] S13x16x128
  broadcasts_S1x16x128_S13x16x128 : S1x16x128.Broadcasts S13x16x128
  inb_S741x16x128_S13x16x128_650_0_0 : ∀ a, (![650, 0, 0] : Fin 3 → Nat) a + S13x16x128.size a ≤ S741x16x128.size a
  h_S13x16x128 : 0 < S13x16x128.numel
  shapeCasts_S13x16x128_S13x16x128 : S13x16x128.ShapeCasts S13x16x128
  slices_S39x16x128_o26_0_0_S1x16x128 : S39x16x128.Slices ![26, 0, 0] S1x16x128
  slices_S39x16x128_o27_0_0_S12x16x128 : S39x16x128.Slices ![27, 0, 0] S12x16x128
  broadcasts_S1x16x128_S12x16x128 : S1x16x128.Broadcasts S12x16x128
  inb_S741x16x128_S12x16x128_663_0_0 : ∀ a, (![663, 0, 0] : Fin 3 → Nat) a + S12x16x128.size a ≤ S741x16x128.size a
  h_S12x16x128 : 0 < S12x16x128.numel
  shapeCasts_S12x16x128_S12x16x128 : S12x16x128.ShapeCasts S12x16x128
  slices_S39x16x128_o27_0_0_S1x16x128 : S39x16x128.Slices ![27, 0, 0] S1x16x128
  slices_S39x16x128_o28_0_0_S11x16x128 : S39x16x128.Slices ![28, 0, 0] S11x16x128
  broadcasts_S1x16x128_S11x16x128 : S1x16x128.Broadcasts S11x16x128
  inb_S741x16x128_S11x16x128_675_0_0 : ∀ a, (![675, 0, 0] : Fin 3 → Nat) a + S11x16x128.size a ≤ S741x16x128.size a
  h_S11x16x128 : 0 < S11x16x128.numel
  shapeCasts_S11x16x128_S11x16x128 : S11x16x128.ShapeCasts S11x16x128
  slices_S39x16x128_o28_0_0_S1x16x128 : S39x16x128.Slices ![28, 0, 0] S1x16x128
  slices_S39x16x128_o29_0_0_S10x16x128 : S39x16x128.Slices ![29, 0, 0] S10x16x128
  broadcasts_S1x16x128_S10x16x128 : S1x16x128.Broadcasts S10x16x128
  inb_S741x16x128_S10x16x128_686_0_0 : ∀ a, (![686, 0, 0] : Fin 3 → Nat) a + S10x16x128.size a ≤ S741x16x128.size a
  h_S10x16x128 : 0 < S10x16x128.numel
  shapeCasts_S10x16x128_S10x16x128 : S10x16x128.ShapeCasts S10x16x128
  slices_S39x16x128_o29_0_0_S1x16x128 : S39x16x128.Slices ![29, 0, 0] S1x16x128
  slices_S39x16x128_o30_0_0_S9x16x128 : S39x16x128.Slices ![30, 0, 0] S9x16x128
  broadcasts_S1x16x128_S9x16x128 : S1x16x128.Broadcasts S9x16x128
  inb_S741x16x128_S9x16x128_696_0_0 : ∀ a, (![696, 0, 0] : Fin 3 → Nat) a + S9x16x128.size a ≤ S741x16x128.size a
  h_S9x16x128 : 0 < S9x16x128.numel
  shapeCasts_S9x16x128_S9x16x128 : S9x16x128.ShapeCasts S9x16x128
  slices_S39x16x128_o30_0_0_S1x16x128 : S39x16x128.Slices ![30, 0, 0] S1x16x128
  slices_S39x16x128_o31_0_0_S8x16x128 : S39x16x128.Slices ![31, 0, 0] S8x16x128
  broadcasts_S1x16x128_S8x16x128 : S1x16x128.Broadcasts S8x16x128
  inb_S741x16x128_S8x16x128_705_0_0 : ∀ a, (![705, 0, 0] : Fin 3 → Nat) a + S8x16x128.size a ≤ S741x16x128.size a
  h_S8x16x128 : 0 < S8x16x128.numel
  shapeCasts_S8x16x128_S8x16x128 : S8x16x128.ShapeCasts S8x16x128
  slices_S39x16x128_o31_0_0_S1x16x128 : S39x16x128.Slices ![31, 0, 0] S1x16x128
  slices_S39x16x128_o32_0_0_S7x16x128 : S39x16x128.Slices ![32, 0, 0] S7x16x128
  broadcasts_S1x16x128_S7x16x128 : S1x16x128.Broadcasts S7x16x128
  inb_S741x16x128_S7x16x128_713_0_0 : ∀ a, (![713, 0, 0] : Fin 3 → Nat) a + S7x16x128.size a ≤ S741x16x128.size a
  h_S7x16x128 : 0 < S7x16x128.numel
  shapeCasts_S7x16x128_S7x16x128 : S7x16x128.ShapeCasts S7x16x128
  slices_S39x16x128_o32_0_0_S1x16x128 : S39x16x128.Slices ![32, 0, 0] S1x16x128
  slices_S39x16x128_o33_0_0_S6x16x128 : S39x16x128.Slices ![33, 0, 0] S6x16x128
  broadcasts_S1x16x128_S6x16x128 : S1x16x128.Broadcasts S6x16x128
  inb_S741x16x128_S6x16x128_720_0_0 : ∀ a, (![720, 0, 0] : Fin 3 → Nat) a + S6x16x128.size a ≤ S741x16x128.size a
  h_S6x16x128 : 0 < S6x16x128.numel
  shapeCasts_S6x16x128_S6x16x128 : S6x16x128.ShapeCasts S6x16x128
  slices_S39x16x128_o33_0_0_S1x16x128 : S39x16x128.Slices ![33, 0, 0] S1x16x128
  slices_S39x16x128_o34_0_0_S5x16x128 : S39x16x128.Slices ![34, 0, 0] S5x16x128
  broadcasts_S1x16x128_S5x16x128 : S1x16x128.Broadcasts S5x16x128
  inb_S741x16x128_S5x16x128_726_0_0 : ∀ a, (![726, 0, 0] : Fin 3 → Nat) a + S5x16x128.size a ≤ S741x16x128.size a
  h_S5x16x128 : 0 < S5x16x128.numel
  shapeCasts_S5x16x128_S5x16x128 : S5x16x128.ShapeCasts S5x16x128
  slices_S39x16x128_o34_0_0_S1x16x128 : S39x16x128.Slices ![34, 0, 0] S1x16x128
  slices_S39x16x128_o35_0_0_S4x16x128 : S39x16x128.Slices ![35, 0, 0] S4x16x128
  broadcasts_S1x16x128_S4x16x128 : S1x16x128.Broadcasts S4x16x128
  inb_S741x16x128_S4x16x128_731_0_0 : ∀ a, (![731, 0, 0] : Fin 3 → Nat) a + S4x16x128.size a ≤ S741x16x128.size a
  h_S4x16x128 : 0 < S4x16x128.numel
  shapeCasts_S4x16x128_S4x16x128 : S4x16x128.ShapeCasts S4x16x128
  slices_S39x16x128_o35_0_0_S1x16x128 : S39x16x128.Slices ![35, 0, 0] S1x16x128
  slices_S39x16x128_o36_0_0_S3x16x128 : S39x16x128.Slices ![36, 0, 0] S3x16x128
  broadcasts_S1x16x128_S3x16x128 : S1x16x128.Broadcasts S3x16x128
  inb_S741x16x128_S3x16x128_735_0_0 : ∀ a, (![735, 0, 0] : Fin 3 → Nat) a + S3x16x128.size a ≤ S741x16x128.size a
  h_S3x16x128 : 0 < S3x16x128.numel
  shapeCasts_S3x16x128_S3x16x128 : S3x16x128.ShapeCasts S3x16x128
  slices_S39x16x128_o36_0_0_S1x16x128 : S39x16x128.Slices ![36, 0, 0] S1x16x128
  slices_S39x16x128_o37_0_0_S2x16x128 : S39x16x128.Slices ![37, 0, 0] S2x16x128
  broadcasts_S1x16x128_S2x16x128 : S1x16x128.Broadcasts S2x16x128
  inb_S741x16x128_S2x16x128_738_0_0 : ∀ a, (![738, 0, 0] : Fin 3 → Nat) a + S2x16x128.size a ≤ S741x16x128.size a
  h_S2x16x128 : 0 < S2x16x128.numel
  shapeCasts_S2x16x128_S2x16x128 : S2x16x128.ShapeCasts S2x16x128
  slices_S39x16x128_o37_0_0_S1x16x128 : S39x16x128.Slices ![37, 0, 0] S1x16x128
  slices_S39x16x128_o38_0_0_S1x16x128 : S39x16x128.Slices ![38, 0, 0] S1x16x128
  inb_S741x16x128_S1x16x128_740_0_0 : ∀ a, (![740, 0, 0] : Fin 3 → Nat) a + S1x16x128.size a ≤ S741x16x128.size a
  h_S1x16x128 : 0 < S1x16x128.numel
  shapeCasts_S1x16x128_S1x16x128 : S1x16x128.ShapeCasts S1x16x128
  inb_S16x16_S16x16_0_0 : ∀ a, (![0, 0] : Fin 2 → Nat) a + S16x16.size a ≤ S16x16.size a
  h_S16x16 : 0 < S16x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  inb_S16x1_S16x1_0_0 : ∀ a, (![0, 0] : Fin 2 → Nat) a + S16x1.size a ≤ S16x1.size a
  h_S16x1 : 0 < S16x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S1x16_S16 : S1x16.ShapeCasts S16
  shapeCasts_S16_S1x16x1 : S16.ShapeCasts S1x16x1
  shapeCasts_S1x16x1_S1x16x1 : S1x16x1.ShapeCasts S1x16x1
  broadcasts_S1x16x1_S741x16x128 : S1x16x1.Broadcasts S741x16x128
  inb_S741x16x128_S741x16x128_0_0_0 : ∀ a, (![0, 0, 0] : Fin 3 → Nat) a + S741x16x128.size a ≤ S741x16x128.size a
  h_S741x16x128 : 0 < S741x16x128.numel
  shapeCasts_S741x16x128_S741x16x128 : S741x16x128.ShapeCasts S741x16x128
  slices_S16x16_o0_0_S1x16 : S16x16.Slices ![0, 0] S1x16
  inb_S741x16x128_S741x1x128_0_0_0 : ∀ a, (![0, 0, 0] : Fin 3 → Nat) a + S741x1x128.size a ≤ S741x16x128.size a
  h_S741x1x128 : 0 < S741x1x128.numel
  shapeCasts_S741x1x128_S741x128 : S741x1x128.ShapeCasts S741x128
  shapeCasts_S741x128_S741x1x128 : S741x128.ShapeCasts S741x1x128
  broadcasts_S741x1x128_S741x16x128 : S741x1x128.Broadcasts S741x16x128
  slices_S16x16_o1_0_S1x16 : S16x16.Slices ![1, 0] S1x16
  inb_S741x16x128_S741x1x128_0_1_0 : ∀ a, (![0, 1, 0] : Fin 3 → Nat) a + S741x1x128.size a ≤ S741x16x128.size a
  slices_S16x16_o2_0_S1x16 : S16x16.Slices ![2, 0] S1x16
  inb_S741x16x128_S741x1x128_0_2_0 : ∀ a, (![0, 2, 0] : Fin 3 → Nat) a + S741x1x128.size a ≤ S741x16x128.size a
  slices_S16x16_o3_0_S1x16 : S16x16.Slices ![3, 0] S1x16
  inb_S741x16x128_S741x1x128_0_3_0 : ∀ a, (![0, 3, 0] : Fin 3 → Nat) a + S741x1x128.size a ≤ S741x16x128.size a
  slices_S16x16_o4_0_S1x16 : S16x16.Slices ![4, 0] S1x16
  inb_S741x16x128_S741x1x128_0_4_0 : ∀ a, (![0, 4, 0] : Fin 3 → Nat) a + S741x1x128.size a ≤ S741x16x128.size a
  slices_S16x16_o5_0_S1x16 : S16x16.Slices ![5, 0] S1x16
  inb_S741x16x128_S741x1x128_0_5_0 : ∀ a, (![0, 5, 0] : Fin 3 → Nat) a + S741x1x128.size a ≤ S741x16x128.size a
  slices_S16x16_o6_0_S1x16 : S16x16.Slices ![6, 0] S1x16
  inb_S741x16x128_S741x1x128_0_6_0 : ∀ a, (![0, 6, 0] : Fin 3 → Nat) a + S741x1x128.size a ≤ S741x16x128.size a
  slices_S16x16_o7_0_S1x16 : S16x16.Slices ![7, 0] S1x16
  inb_S741x16x128_S741x1x128_0_7_0 : ∀ a, (![0, 7, 0] : Fin 3 → Nat) a + S741x1x128.size a ≤ S741x16x128.size a
  slices_S16x16_o8_0_S1x16 : S16x16.Slices ![8, 0] S1x16
  inb_S741x16x128_S741x1x128_0_8_0 : ∀ a, (![0, 8, 0] : Fin 3 → Nat) a + S741x1x128.size a ≤ S741x16x128.size a
  slices_S16x16_o9_0_S1x16 : S16x16.Slices ![9, 0] S1x16
  inb_S741x16x128_S741x1x128_0_9_0 : ∀ a, (![0, 9, 0] : Fin 3 → Nat) a + S741x1x128.size a ≤ S741x16x128.size a
  slices_S16x16_o10_0_S1x16 : S16x16.Slices ![10, 0] S1x16
  inb_S741x16x128_S741x1x128_0_10_0 : ∀ a, (![0, 10, 0] : Fin 3 → Nat) a + S741x1x128.size a ≤ S741x16x128.size a
  slices_S16x16_o11_0_S1x16 : S16x16.Slices ![11, 0] S1x16
  inb_S741x16x128_S741x1x128_0_11_0 : ∀ a, (![0, 11, 0] : Fin 3 → Nat) a + S741x1x128.size a ≤ S741x16x128.size a
  slices_S16x16_o12_0_S1x16 : S16x16.Slices ![12, 0] S1x16
  inb_S741x16x128_S741x1x128_0_12_0 : ∀ a, (![0, 12, 0] : Fin 3 → Nat) a + S741x1x128.size a ≤ S741x16x128.size a
  slices_S16x16_o13_0_S1x16 : S16x16.Slices ![13, 0] S1x16
  inb_S741x16x128_S741x1x128_0_13_0 : ∀ a, (![0, 13, 0] : Fin 3 → Nat) a + S741x1x128.size a ≤ S741x16x128.size a
  slices_S16x16_o14_0_S1x16 : S16x16.Slices ![14, 0] S1x16
  inb_S741x16x128_S741x1x128_0_14_0 : ∀ a, (![0, 14, 0] : Fin 3 → Nat) a + S741x1x128.size a ≤ S741x16x128.size a
  slices_S16x16_o15_0_S1x16 : S16x16.Slices ![15, 0] S1x16
  inb_S741x16x128_S741x1x128_0_15_0 : ∀ a, (![0, 15, 0] : Fin 3 → Nat) a + S741x1x128.size a ≤ S741x16x128.size a
  inb_S741x128_S741x128_0_0 : ∀ a, (![0, 0] : Fin 2 → Nat) a + S741x128.size a ≤ S741x128.size a
  h_S741x128 : 0 < S741x128.numel
  shapeCasts_S741x128_S741x128 : S741x128.ShapeCasts S741x128
  slices_S16x1_o0_0_S1x1 : S16x1.Slices ![0, 0] S1x1
  inpos_S1x1_p0_0 : ∀ a, (![0, 0] : Fin 2 → Nat) a < S1x1.size a
  slices_S16x1_o1_0_S1x1 : S16x1.Slices ![1, 0] S1x1
  slices_S16x1_o2_0_S1x1 : S16x1.Slices ![2, 0] S1x1
  slices_S16x1_o3_0_S1x1 : S16x1.Slices ![3, 0] S1x1
  slices_S16x1_o4_0_S1x1 : S16x1.Slices ![4, 0] S1x1
  slices_S16x1_o5_0_S1x1 : S16x1.Slices ![5, 0] S1x1
  slices_S16x1_o6_0_S1x1 : S16x1.Slices ![6, 0] S1x1
  slices_S16x1_o7_0_S1x1 : S16x1.Slices ![7, 0] S1x1
  slices_S16x1_o8_0_S1x1 : S16x1.Slices ![8, 0] S1x1
  slices_S16x1_o9_0_S1x1 : S16x1.Slices ![9, 0] S1x1
  slices_S16x1_o10_0_S1x1 : S16x1.Slices ![10, 0] S1x1
  slices_S16x1_o11_0_S1x1 : S16x1.Slices ![11, 0] S1x1
  slices_S16x1_o12_0_S1x1 : S16x1.Slices ![12, 0] S1x1
  slices_S16x1_o13_0_S1x1 : S16x1.Slices ![13, 0] S1x1
  slices_S16x1_o14_0_S1x1 : S16x1.Slices ![14, 0] S1x1
  slices_S16x1_o15_0_S1x1 : S16x1.Slices ![15, 0] S1x1
  reduces_S741x128_S128 : S741x128.Reduces [0] S128
  shapeCasts_S128_S1x128 : S128.ShapeCasts S1x128
  broadcasts_S1x128_S741x128 : S1x128.Broadcasts S741x128
  broadcasts_S1x1_S1x128 : S1x1.Broadcasts S1x128
  shapeCasts_S1x8192_S8192 : S1x8192.ShapeCasts S8192
  gather_S1000000x1_S8192x39x1_S8192x39x1_2_0_n_n_0_2_11_wf : GatherDims.WF S1000000x1 S8192x39x1 S8192x39x1 [2] [0] [] [0] [] 2 ![1, 1]
  gather_S1000000x16_S8192x39x1_S8192x39x16_2_0_n_n_0_2_116_wf : GatherDims.WF S1000000x16 S8192x39x1 S8192x39x16 [2] [0] [] [0] [] 2 ![1, 16]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S39x16x128.size a ≤ S39x16x8192.size a
  hwx0_0 : ∀ i : grid0.Coords, EltTy.bits .f32 = 32 ∨ (Rect.block (s := S39x16x8192) S39x16x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x8192.size a
  hwx0_1 : ∀ i : grid0.Coords, EltTy.bits .f32 = 32 ∨ (Rect.block (s := S1x8192) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x16.size a ≤ S16x16.size a
  hwx0_3 : ∀ i : grid0.Coords, EltTy.bits .f32 = 32 ∨ (Rect.block (s := S16x16) S16x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x1.size a ≤ S16x1.size a
  hwx0_5 : ∀ i : grid0.Coords, EltTy.bits .f32 = 32 ∨ (Rect.block (s := S16x1) S16x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x1.size a ≤ S16x1.size a
  hwx0_6 : ∀ i : grid0.Coords, EltTy.bits .f32 = 32 ∨ (Rect.block (s := S16x1) S16x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x8192.size a
  hwx0_7 : ∀ i : grid0.Coords, EltTy.bits .f32 = 32 ∨ (Rect.block (s := S1x8192) S1x128.size (cc0_transform_7 i) (hinb0_7 i)).WholeWords (EltTy.packing .f32)

variable [Facts₀]

def gather_S1000000x1_S8192x39x1_S8192x39x1_2_0_n_n_0_2_11 : GatherDims S1000000x1 S8192x39x1 S8192x39x1 where
  offsetDims := [2]
  collapsedSliceDims := [0]
  operandBatchingDims := []
  startIndicesBatchingDims := []
  startIndexMap := [0]
  indexVectorDim := 2
  sliceSizes := ![1, 1]
  wf := gather_S1000000x1_S8192x39x1_S8192x39x1_2_0_n_n_0_2_11_wf
def gather_S1000000x16_S8192x39x1_S8192x39x16_2_0_n_n_0_2_116 : GatherDims S1000000x16 S8192x39x1 S8192x39x16 where
  offsetDims := [2]
  collapsedSliceDims := [0]
  operandBatchingDims := []
  startIndicesBatchingDims := []
  startIndexMap := [0]
  indexVectorDim := 2
  sliceSizes := ![1, 16]
  wf := gather_S1000000x16_S8192x39x1_S8192x39x16_2_0_n_n_0_2_116_wf

abbrev win0_0 : Pipeline.Window sig grid0 :=
  Pipeline.Window.ofSpec (Memref.whole main_v20) S39x16x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S1x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S16x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S16x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S16x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v24) S1x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x39 : Shape := ⟨2, ![8192, 39]⟩
abbrev S1000000x1 : Shape := ⟨2, ![1000000, 1]⟩
abbrev S1000000x16 : Shape := ⟨2, ![1000000, 16]⟩
abbrev S1 : Shape := ⟨1, ![1]⟩
abbrev S16x16 : Shape := ⟨2, ![16, 16]⟩
abbrev S16 : Shape := ⟨1, ![16]⟩
abbrev S16x1 : Shape := ⟨2, ![16, 1]⟩
abbrev S741 : Shape := ⟨1, ![741]⟩
abbrev S8192x39x1 : Shape := ⟨3, ![8192, 39, 1]⟩
abbrev S_ : Shape := ⟨0, ![]⟩
abbrev S8192x1 : Shape := ⟨2, ![8192, 1]⟩
abbrev S8192 : Shape := ⟨1, ![8192]⟩
abbrev S8192x39x16 : Shape := ⟨3, ![8192, 39, 16]⟩
abbrev S741x1 : Shape := ⟨2, ![741, 1]⟩
abbrev S8192x741x16 : Shape := ⟨3, ![8192, 741, 16]⟩
abbrev S1x1x16 : Shape := ⟨3, ![1, 1, 16]⟩
abbrev S8192x741x1 : Shape := ⟨3, ![8192, 741, 1]⟩
abbrev S8192x1x1 : Shape := ⟨3, ![8192, 1, 1]⟩
abbrev S8192x16 : Shape := ⟨2, ![8192, 16]⟩

abbrev nBuf : Space → Nat
  | .hbm => 90
  | .vmem => 0
  | .smem => 0
  | _ => 0

abbrev bufTy : (tb : Table) → Fin (tcTables nBuf tb) → BufTy
  | .hbm, ⟨0, _⟩ => ⟨S8192x39, .i32⟩
  | .hbm, ⟨1, _⟩ => ⟨S8192x39, .f32⟩
  | .hbm, ⟨2, _⟩ => ⟨S1000000x1, .f32⟩
  | .hbm, ⟨3, _⟩ => ⟨S1000000x16, .f32⟩
  | .hbm, ⟨4, _⟩ => ⟨S1, .f32⟩
  | .hbm, ⟨5, _⟩ => ⟨S16x16, .f32⟩
  | .hbm, ⟨6, _⟩ => ⟨S16, .f32⟩
  | .hbm, ⟨7, _⟩ => ⟨S16x1, .f32⟩
  | .hbm, ⟨8, _⟩ => ⟨S16x1, .f32⟩
  | .hbm, ⟨9, _⟩ => ⟨S741, .i32⟩
  | .hbm, ⟨10, _⟩ => ⟨S741, .i1⟩
  | .hbm, ⟨11, _⟩ => ⟨S741, .i32⟩
  | .hbm, ⟨12, _⟩ => ⟨S741, .i1⟩
  | .hbm, ⟨13, _⟩ => ⟨S8192x39x1, .f32⟩
  | .hbm, ⟨14, _⟩ => ⟨S_, .i32⟩
  | .hbm, ⟨15, _⟩ => ⟨S8192x39, .i32⟩
  | .hbm, ⟨16, _⟩ => ⟨S8192x39, .i1⟩
  | .hbm, ⟨17, _⟩ => ⟨S_, .i32⟩
  | .hbm, ⟨18, _⟩ => ⟨S8192x39, .i32⟩
  | .hbm, ⟨19, _⟩ => ⟨S8192x39, .i32⟩
  | .hbm, ⟨20, _⟩ => ⟨S8192x39, .i32⟩
  | .hbm, ⟨21, _⟩ => ⟨S8192x39x1, .i32⟩
  | .hbm, ⟨22, _⟩ => ⟨S8192x39x1, .f32⟩
  | .hbm, ⟨23, _⟩ => ⟨S8192x39x1, .f32⟩
  | .hbm, ⟨24, _⟩ => ⟨S_, .f32⟩
  | .hbm, ⟨25, _⟩ => ⟨S8192x1, .f32⟩
  | .hbm, ⟨26, _⟩ => ⟨S8192, .f32⟩
  | .hbm, ⟨27, _⟩ => ⟨S_, .i32⟩
  | .hbm, ⟨28, _⟩ => ⟨S8192x39, .i32⟩
  | .hbm, ⟨29, _⟩ => ⟨S8192x39, .i1⟩
  | .hbm, ⟨30, _⟩ => ⟨S_, .i32⟩
  | .hbm, ⟨31, _⟩ => ⟨S8192x39, .i32⟩
  | .hbm, ⟨32, _⟩ => ⟨S8192x39, .i32⟩
  | .hbm, ⟨33, _⟩ => ⟨S8192x39, .i32⟩
  | .hbm, ⟨34, _⟩ => ⟨S8192x39x1, .i32⟩
  | .hbm, ⟨35, _⟩ => ⟨S8192x39x16, .f32⟩
  | .hbm, ⟨36, _⟩ => ⟨S8192x39x16, .f32⟩
  | .hbm, ⟨37, _⟩ => ⟨S8192x39x16, .f32⟩
  | .hbm, ⟨38, _⟩ => ⟨S_, .i32⟩
  | .hbm, ⟨39, _⟩ => ⟨S741, .i32⟩
  | .hbm, ⟨40, _⟩ => ⟨S741, .i32⟩
  | .hbm, ⟨41, _⟩ => ⟨S741, .i32⟩
  | .hbm, ⟨42, _⟩ => ⟨S741x1, .i32⟩
  | .hbm, ⟨43, _⟩ => ⟨S8192x741x16, .f32⟩
  | .hbm, ⟨44, _⟩ => ⟨S_, .i32⟩
  | .hbm, ⟨45, _⟩ => ⟨S741, .i32⟩
  | .hbm, ⟨46, _⟩ => ⟨S741, .i32⟩
  | .hbm, ⟨47, _⟩ => ⟨S741, .i32⟩
  | .hbm, ⟨48, _⟩ => ⟨S741x1, .i32⟩
  | .hbm, ⟨49, _⟩ => ⟨S8192x741x16, .f32⟩
  | .hbm, ⟨50, _⟩ => ⟨S8192x741x16, .f32⟩
  | .hbm, ⟨51, _⟩ => ⟨S8192x741x16, .f32⟩
  | .hbm, ⟨52, _⟩ => ⟨S1x1x16, .f32⟩
  | .hbm, ⟨53, _⟩ => ⟨S8192x741x16, .f32⟩
  | .hbm, ⟨54, _⟩ => ⟨S8192x741x16, .f32⟩
  | .hbm, ⟨55, _⟩ => ⟨S_, .f32⟩
  | .hbm, ⟨56, _⟩ => ⟨S8192x741x16, .f32⟩
  | .hbm, ⟨57, _⟩ => ⟨S8192x741x16, .f32⟩
  | .hbm, ⟨58, _⟩ => ⟨S8192x741x1, .f32⟩
  | .hbm, ⟨59, _⟩ => ⟨S_, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S8192x1x1, .f32⟩
  | .hbm, ⟨65, _⟩ => ⟨S8192x741x1, .f32⟩
  | .hbm, ⟨66, _⟩ => ⟨S8192x741x1, .f32⟩
  | .hbm, ⟨67, _⟩ => ⟨S8192x741x1, .f32⟩
  | .hbm, ⟨68, _⟩ => ⟨S_, .f32⟩
  | .hbm, ⟨69, _⟩ => ⟨S8192x1, .f32⟩
  | .hbm, ⟨70, _⟩ => ⟨S8192x1x1, .f32⟩
  | .hbm, ⟨71, _⟩ => ⟨S8192x741x1, .f32⟩
  | .hbm, ⟨72, _⟩ => ⟨S8192x741x1, .f32⟩
  | .hbm, ⟨73, _⟩ => ⟨S8192x741x16, .f32⟩
  | .hbm, ⟨74, _⟩ => ⟨S8192x741x16, .f32⟩
  | .hbm, ⟨75, _⟩ => ⟨S_, .f32⟩
  | .hbm, ⟨76, _⟩ => ⟨S8192x16, .f32⟩
  | .hbm, ⟨77, _⟩ => ⟨S8192x1, .f32⟩
  | .hbm, ⟨78, _⟩ => ⟨S8192, .f32⟩
  | .hbm, ⟨79, _⟩ => ⟨S8192, .f32⟩
  | .hbm, ⟨80, _⟩ => ⟨S8192, .f32⟩
  | .hbm, ⟨81, _⟩ => ⟨S8192, .f32⟩
  | .hbm, ⟨82, _⟩ => ⟨S8192, .f32⟩
  | .hbm, ⟨83, _⟩ => ⟨S8192, .f32⟩
  | .hbm, ⟨84, _⟩ => ⟨S_, .f32⟩
  | .hbm, ⟨85, _⟩ => ⟨S8192, .f32⟩
  | .hbm, ⟨86, _⟩ => ⟨S8192, .f32⟩
  | .hbm, ⟨87, _⟩ => ⟨S_, .f32⟩
  | .hbm, ⟨88, _⟩ => ⟨S8192, .f32⟩
  | .hbm, ⟨89, _⟩ => ⟨S8192, .f32⟩
  | _, _ => ⟨S8192x39, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_c_1 : Ref sig .tc := ⟨.hbm, 11, rfl⟩
abbrev main_c_2 : Ref sig .tc := ⟨.hbm, 12, rfl⟩
abbrev main_v0 : Ref sig .tc := ⟨.hbm, 13, rfl⟩
abbrev main_c_3 : Ref sig .tc := ⟨.hbm, 14, rfl⟩
abbrev main_v1 : Ref sig .tc := ⟨.hbm, 15, rfl⟩
abbrev main_v2 : Ref sig .tc := ⟨.hbm, 16, rfl⟩
abbrev main_c_4 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_v10 : Ref sig .tc := ⟨.hbm, 26, rfl⟩
abbrev main_c_5 : Ref sig .tc := ⟨.hbm, 27, rfl⟩
abbrev main_v11 : Ref sig .tc := ⟨.hbm, 28, rfl⟩
abbrev main_v12 : Ref sig .tc := ⟨.hbm, 29, rfl⟩
abbrev main_c_6 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_7 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_8 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_call0_cst : Ref sig .tc := ⟨.hbm, 55, rfl⟩
abbrev main_call0_v0 : Ref sig .tc := ⟨.hbm, 56, rfl⟩
abbrev main_v35 : Ref sig .tc := ⟨.hbm, 57, rfl⟩
abbrev main_v36 : Ref sig .tc := ⟨.hbm, 58, rfl⟩
abbrev main_cst_9 : Ref sig .tc := ⟨.hbm, 59, rfl⟩
abbrev main_v37 : Ref sig .tc := ⟨.hbm, 60, rfl⟩
abbrev main_cst_10 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_11 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_12 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_13 : Ref sig .tc := ⟨.hbm, 84, rfl⟩
abbrev main_v58 : Ref sig .tc := ⟨.hbm, 85, rfl⟩
abbrev main_v59 : Ref sig .tc := ⟨.hbm, 86, rfl⟩
abbrev main_cst_14 : Ref sig .tc := ⟨.hbm, 87, rfl⟩
abbrev main_v60 : Ref sig .tc := ⟨.hbm, 88, rfl⟩
abbrev main_v61 : Ref sig .tc := ⟨.hbm, 89, rfl⟩

abbrev nD : Nat := 1
abbrev τ : Topo := Topo.v7x

variable {F : FTy → Type} [FloatOps F]

class Facts₀ : Prop where
  bcast_S8192x39_S8192x39x1_0_1 : S8192x39.BroadcastsInDim S8192x39x1 (![0, 1] : Fin 2 → Fin S8192x39x1.rank)
  bcast_S_S8192x39 : S_.BroadcastsInDim S8192x39 (![] : Fin 0 → Fin S8192x39.rank)
  reducesTo_S8192x39x1_S8192x1_d1 : S8192x39x1.ReducesTo [1] S8192x1
  h_S_ : 0 < S_.numel
  shapeCasts_S8192x1_S8192 : S8192x1.ShapeCasts S8192
  bcast_S8192x39x1_S8192x39x16_0_1_2 : S8192x39x1.BroadcastsInDim S8192x39x16 (![0, 1, 2] : Fin 3 → Fin S8192x39x16.rank)
  bcast_S_S741 : S_.BroadcastsInDim S741 (![] : Fin 0 → Fin S741.rank)
  bcast_S741_S741x1_0 : S741.BroadcastsInDim S741x1 (![0] : Fin 1 → Fin S741x1.rank)
  bcast_S16_S1x1x16_2 : S16.BroadcastsInDim S1x1x16 (![2] : Fin 1 → Fin S1x1x16.rank)
  bcast_S1x1x16_S8192x741x16_0_1_2 : S1x1x16.BroadcastsInDim S8192x741x16 (![0, 1, 2] : Fin 3 → Fin S8192x741x16.rank)
  bcast_S_S8192x741x16 : S_.BroadcastsInDim S8192x741x16 (![] : Fin 0 → Fin S8192x741x16.rank)
  reducesTo_S8192x741x1_S8192x1_d1 : S8192x741x1.ReducesTo [1] S8192x1
  bcast_S_S8192x1 : S_.BroadcastsInDim S8192x1 (![] : Fin 0 → Fin S8192x1.rank)
  bcast_S8192x1_S8192x1x1_0_2 : S8192x1.BroadcastsInDim S8192x1x1 (![0, 2] : Fin 2 → Fin S8192x1x1.rank)
  bcast_S8192x1x1_S8192x741x1_0_1_2 : S8192x1x1.BroadcastsInDim S8192x741x1 (![0, 1, 2] : Fin 3 → Fin S8192x741x1.rank)
  bcast_S8192x741x1_S8192x741x16_0_1_2 : S8192x741x1.BroadcastsInDim S8192x741x16 (![0, 1, 2] : Fin 3 → Fin S8192x741x16.rank)
  reducesTo_S8192x741x16_S8192x16_d1 : S8192x741x16.ReducesTo [1] S8192x16
  bcast_S1_S8192_0 : S1.BroadcastsInDim S8192 (![0] : Fin 1 → Fin S8192.rank)
  bcast_S_S8192 : S_.BroadcastsInDim S8192 (![] : Fin 0 → Fin S8192.rank)
  gather_S1000000x1_S8192x39x1_S8192x39x1_2_0_n_n_0_2_11_wf : GatherDims.WF S1000000x1 S8192x39x1 S8192x39x1 [2] [0] [] [0] [] 2 ![1, 1]
  gather_S1000000x16_S8192x39x1_S8192x39x16_2_0_n_n_0_2_116_wf : GatherDims.WF S1000000x16 S8192x39x1 S8192x39x16 [2] [0] [] [0] [] 2 ![1, 16]
  gather_S8192x39x16_S741x1_S8192x741x16_02_1_n_n_1_1_8192116_wf : GatherDims.WF S8192x39x16 S741x1 S8192x741x16 [0, 2] [1] [] [1] [] 1 ![8192, 1, 16]
  dot_S8192x741x16_S16x16_S8192x741x16_2_0_01_1_n_n_wf : DotDims.WF S8192x741x16 S16x16 S8192x741x16 [2] [0] [0, 1] [1] [] []
  dot_S8192x741x16_S16x1_S8192x741x1_2_0_01_1_n_n_wf : DotDims.WF S8192x741x16 S16x1 S8192x741x1 [2] [0] [0, 1] [1] [] []
  dot_S8192x16_S16x1_S8192x1_1_0_0_1_n_n_wf : DotDims.WF S8192x16 S16x1 S8192x1 [1] [0] [0] [1] [] []

variable [Facts₀]

def gather_S1000000x1_S8192x39x1_S8192x39x1_2_0_n_n_0_2_11 : GatherDims S1000000x1 S8192x39x1 S8192x39x1 where
  offsetDims := [2]
  collapsedSliceDims := [0]
  operandBatchingDims := []
  startIndicesBatchingDims := []
  startIndexMap := [0]
  indexVectorDim := 2
  sliceSizes := ![1, 1]
  wf := gather_S1000000x1_S8192x39x1_S8192x39x1_2_0_n_n_0_2_11_wf
def gather_S1000000x16_S8192x39x1_S8192x39x16_2_0_n_n_0_2_116 : GatherDims S1000000x16 S8192x39x1 S8192x39x16 where
  offsetDims := [2]
  collapsedSliceDims := [0]
  operandBatchingDims := []
  startIndicesBatchingDims := []
  startIndexMap := [0]
  indexVectorDim := 2
  sliceSizes := ![1, 16]
  wf := gather_S1000000x16_S8192x39x1_S8192x39x16_2_0_n_n_0_2_116_wf
def gather_S8192x39x16_S741x1_S8192x741x16_02_1_n_n_1_1_8192116 : GatherDims S8192x39x16 S741x1 S8192x741x16 where
  offsetDims := [0, 2]
  collapsedSliceDims := [1]
  operandBatchingDims := []
  startIndicesBatchingDims := []
  startIndexMap := [1]
  indexVectorDim := 1
  sliceSizes := ![8192, 1, 16]
  wf := gather_S8192x39x16_S741x1_S8192x741x16_02_1_n_n_1_1_8192116_wf
def dot_S8192x741x16_S16x16_S8192x741x16_2_0_01_1_n_n : DotDims S8192x741x16 S16x16 S8192x741x16 where
  lhsContracting := [2]
  rhsContracting := [0]
  lhsNonContracting := [0, 1]
  rhsNonContracting := [1]
  lhsBatch := []
  rhsBatch := []
  wf := dot_S8192x741x16_S16x16_S8192x741x16_2_0_01_1_n_n_wf
def dot_S8192x741x16_S16x1_S8192x741x1_2_0_01_1_n_n : DotDims S8192x741x16 S16x1 S8192x741x1 where
  lhsContracting := [2]
  rhsContracting := [0]
  lhsNonContracting := [0, 1]
  rhsNonContracting := [1]
  lhsBatch := []
  rhsBatch := []
  wf := dot_S8192x741x16_S16x1_S8192x741x1_2_0_01_1_n_n_wf
def dot_S8192x16_S16x1_S8192x1_1_0_0_1_n_n : DotDims S8192x16 S16x1 S8192x1 where
  lhsContracting := [1]
  rhsContracting := [0]
  lhsNonContracting := [0]
  rhsNonContracting := [1]
  lhsBatch := []
  rhsBatch := []
  wf := dot_S8192x16_S16x1_S8192x1_1_0_0_1_n_n_wf

class Facts : Prop extends Facts₀ where

variable [Facts]
-- ==== Proof.Spec.lean ====
/-
  The function both programs compute, stated once over plain finite index types and the extended reals.

  For a batch row `b`, the scaled embeddings `E b f e` (39 fields, 16 channels) give 741 pairwise products
  `bi b p e = E b (iu p) e * E b (ju p) e`, one per pair `iu p < ju p` of fields in row-major order of the strict upper
  triangle. A dense layer with bias and a rectified maximum, `att b p a = max (Σ_e bi b p e · aw e a + ab a) 0`, is
  projected to one logit per pair, `score b p = Σ_a att b p a · ph a`; the logits are turned into softmax weights over
  the 741 pairs (shifted by their supremum, exponentiated, divided by their sum); the weighted pairs are pooled per
  channel and projected, `second b = Σ_e (Σ_p prob b p · bi b p e) · pp e`; and the result is the logistic function of
  `(bias + Y b) + second b`, with `Y` the first-order term.
-/
import Idealize.ShloMosaic.PureOps.Ideal

noncomputable section

namespace Cert.Spec

open Idealize.ShloMosaic
open scoped BigOperators

/-! ## The pair tables: row-major enumeration of the strict upper triangle of a 39 × 39 matrix -/

/-- Walk the rows of the triangle: row `i` has `w` pairs `(i, i + 1), …, (i, i + w)`; position `p` is in this row when
    `p < w`, and otherwise `p - w` positions into the rows below. -/
def pairAux : Nat → Nat → Nat → Nat → Nat × Nat
  | 0, i, _, p => (i, i + 1 + p)
  | fuel + 1, i, w, p => if p < w then (i, i + 1 + p) else pairAux fuel (i + 1) (w - 1) (p - w)

/-- The pair at position `p` of the 741. -/
def pairNat (p : Nat) : Nat × Nat := pairAux 38 0 38 p

theorem pair_bound : ∀ p : Fin 741, (pairNat p.val).1 < 39 ∧ (pairNat p.val).2 < 39 := by decide +kernel

/-- The smaller field of pair `p`. -/
def iu (p : Fin 741) : Fin 39 := ⟨(pairNat p.val).1, (pair_bound p).1⟩

/-- The larger field of pair `p`. -/
def ju (p : Fin 741) : Fin 39 := ⟨(pairNat p.val).2, (pair_bound p).2⟩

/-! ## The arguments, and the function -/

/-- What the function depends on: the scaled embeddings, the first-order term, and the small dense parameters. -/
structure Args where
  E : Fin 8192 → Fin 39 → Fin 16 → EReal
  Y : Fin 8192 → EReal
  bias : EReal
  aw : Fin 16 → Fin 16 → EReal
  ab : Fin 16 → EReal
  ph : Fin 16 → EReal
  pp : Fin 16 → EReal

variable (A : Args)

/-- The product of the two fields of pair `p`, channel by channel. -/
def bi (b : Fin 8192) (p : Fin 741) (e : Fin 16) : EReal := A.E b (iu p) e * A.E b (ju p) e

/-- The dense layer with its bias, rectified. -/
def att (b : Fin 8192) (p : Fin 741) (a : Fin 16) : EReal := max (∑ e : Fin 16, bi A b p e * A.aw e a + A.ab a) 0

/-- One logit per pair. -/
def score (b : Fin 8192) (p : Fin 741) : EReal := ∑ a : Fin 16, att A b p a * A.ph a

/-- The supremum of a row's logits. -/
def top (b : Fin 8192) : EReal := Finset.univ.sup (score A b)

/-- The shifted exponentials. -/
def ex (b : Fin 8192) (p : Fin 741) : EReal := Ideal.exp (score A b p - top A b)

/-- Their sum over the pairs. -/
def den (b : Fin 8192) : EReal := ∑ p : Fin 741, ex A b p

/-- The softmax weight of pair `p`. -/
def prob (b : Fin 8192) (p : Fin 741) : EReal := Ideal.div (ex A b p) (den A b)

/-- The weighted pairs pooled per channel. -/
def pooled (b : Fin 8192) (e : Fin 16) : EReal := ∑ p : Fin 741, prob A b p * bi A b p e

/-- The pooled vector projected to one number. -/
def second (b : Fin 8192) : EReal := ∑ e : Fin 16, pooled A b e * A.pp e

/-- The result at batch row `b`. -/
def out (b : Fin 8192) : EReal := Ideal.logistic ((A.bias + A.Y b) + second A b)

end Cert.Spec

end
-- ==== Proof.KBody0.lean ====
/-
  One lane's arguments of the function.

  At a grid point the body sees a block of 128 batch rows on the lane axis. Lane `l` of the scaled embeddings' block and of the
  first-order row, with the dense parameters whole, are the arguments of `Spec.out` for that lane's batch row.
-/
import proofs.«158778_j51101520888212_2_alg».proof.Proof.Gen.KernelIdeal
import proofs.«158778_j51101520888212_2_alg».proof.Proof.Spec
import Idealize.ShloMosaic.Lib.ValueIdx

noncomputable section

namespace Cert.KernelIdeal.KValue

open Idealize.ShloMosaic ValueIdx
open Cert.KernelIdeal

/-- One lane's arguments of the function: the lane's column of every blocked operand, the dense parameters whole. -/
def laneArgs (x0 : Vec Ideal S39x16x128 .f32) (x1 : Vec Ideal S1x128 .f32) (x2 : Vec Ideal S1x1 .f32) (x3 : Vec Ideal S16x16 .f32)
    (x4 : Vec Ideal S1x16 .f32) (x5 : Vec Ideal S16x1 .f32) (x6 : Vec Ideal S16x1 .f32) (l : Fin 128) : Cert.Spec.Args where
  E _ f e := x0 (ix3 f e l)
  Y _ := x1 (ix2 0 l)
  bias := x2 (ix2 0 0)
  aw e a := x3 (ix2 e a)
  ab a := x4 (ix2 0 a)
  ph a := x5 (ix2 a 0)
  pp e := x6 (ix2 e 0)

end Cert.KernelIdeal.KValue

end
-- ==== Proof.KOps.lean ====
/-
  The body's layout operations read at an index, at the literal shapes the body uses.

  Every vector the body computes is read here at an index built from literal-size coordinates: a shape cast that adds or
  drops a unit axis keeps the other coordinates, a broadcast along an axis forgets that axis's coordinate, a one-row or
  one-entry slice of a small matrix reads the row or entry it names, and a reduction along the leading axis of a
  [741,128] array is a sum (or a fold of max) over the 741 rows.
-/
import Idealize.ShloMosaic.Lib.ValueIdx
import Idealize.ShloMosaic.Lib.ValueLayout
import Idealize.ShloMosaic.Lib.Pipeline.Value
import Idealize.ShloMosaic.PureOps.Ideal.Laws

noncomputable section

namespace Cert.KOps

open Idealize.ShloMosaic ValueIdx

variable {α : Type}

/-- A [n,1,m] array viewed [n,m]: entry (p, l) is entry (p, 0, l). -/
theorem cast_n1m_nm {n m : ℕ} (v : (⟨3, ![n, 1, m]⟩ : Shape).Idx → α) (h : (⟨3, ![n, 1, m]⟩ : Shape).ShapeCasts ⟨2, ![n, m]⟩)
    (p : Fin n) (l : Fin m) : shapeCast ⟨2, ![n, m]⟩ v h (ix2 p l) = v (ix3 p (0 : Fin 1) l) :=
  shapeCast_apply v h _ _ (by
    rw [Shape.rowMajor_val_three, Shape.rowMajor_val_two]
    show (p.val * 1 + 0) * m + l.val = p.val * m + l.val
    rw [Nat.mul_one, Nat.add_zero])

/-- A [n,m] array viewed [n,1,m]: entry (p, u, l) is entry (p, l). -/
theorem cast_nm_n1m {n m : ℕ} (v : (⟨2, ![n, m]⟩ : Shape).Idx → α) (h : (⟨2, ![n, m]⟩ : Shape).ShapeCasts ⟨3, ![n, 1, m]⟩)
    (p : Fin n) (u : Fin 1) (l : Fin m) : shapeCast ⟨3, ![n, 1, m]⟩ v h (ix3 p u l) = v (ix2 p l) :=
  shapeCast_apply v h _ _ (by
    have hu : u.val = 0 := by omega
    rw [Shape.rowMajor_val_three, Shape.rowMajor_val_two]
    show p.val * m + l.val = (p.val * 1 + u.val) * m + l.val
    rw [hu, Nat.mul_one, Nat.add_zero])

/-- A vector of length a viewed [1,a,1]: entry (u, i, w) is entry i. -/
theorem cast_a_1a1 {a : ℕ} (v : (⟨1, ![a]⟩ : Shape).Idx → α) (h : (⟨1, ![a]⟩ : Shape).ShapeCasts ⟨3, ![1, a, 1]⟩)
    (u : Fin 1) (i : Fin a) (w : Fin 1) : shapeCast ⟨3, ![1, a, 1]⟩ v h (ix3 u i w) = v (ix1 i) :=
  shapeCast_apply v h _ _ (by
    have hu : u.val = 0 := by omega
    have hw : w.val = 0 := by omega
    rw [Shape.rowMajor_val_three, Shape.rowMajor_val_one]
    show i.val = (u.val * a + i.val) * 1 + w.val
    rw [hu, hw, Nat.zero_mul, Nat.zero_add, Nat.mul_one, Nat.add_zero])

/-- A [1,a,1] array broadcast to [n,a,m]: entry (p, i, l) is entry (0, i, 0). -/
theorem bcast_1a1_nam {n a m : ℕ} (v : (⟨3, ![1, a, 1]⟩ : Shape).Idx → α) (h : (⟨3, ![1, a, 1]⟩ : Shape).Broadcasts ⟨3, ![n, a, m]⟩)
    (p : Fin n) (i : Fin a) (l : Fin m) (ha : a ≠ 1) :
    broadcastTo ⟨3, ![n, a, m]⟩ v h (ix3 p i l) = v (ix3 (0 : Fin 1) i (0 : Fin 1)) :=
  broadcastTo_apply v h _ _ (fun ax => by
    match ax with
    | ⟨0, _⟩ => rfl
    | ⟨1, _⟩ => show i.val = if a = 1 then 0 else i.val; rw [if_neg ha]
    | ⟨2, _⟩ => rfl)

/-- A [n,1,m] array broadcast to [n,a,m]: entry (p, i, l) is entry (p, 0, l). -/
theorem bcast_n1m_nam {n a m : ℕ} (v : (⟨3, ![n, 1, m]⟩ : Shape).Idx → α) (h : (⟨3, ![n, 1, m]⟩ : Shape).Broadcasts ⟨3, ![n, a, m]⟩)
    (p : Fin n) (i : Fin a) (l : Fin m) (hn : n ≠ 1) (hm : m ≠ 1) :
    broadcastTo ⟨3, ![n, a, m]⟩ v h (ix3 p i l) = v (ix3 p (0 : Fin 1) l) :=
  broadcastTo_apply v h _ _ (fun ax => by
    match ax with
    | ⟨0, _⟩ => show p.val = if n = 1 then 0 else p.val; rw [if_neg hn]
    | ⟨1, _⟩ => rfl
    | ⟨2, _⟩ => show l.val = if m = 1 then 0 else l.val; rw [if_neg hm])

/-- A [1,1] array broadcast to [1,m]: every entry is the one entry. -/
theorem bcast_11_1m {m : ℕ} (v : (⟨2, ![1, 1]⟩ : Shape).Idx → α) (h : (⟨2, ![1, 1]⟩ : Shape).Broadcasts ⟨2, ![1, m]⟩)
    (u : Fin 1) (l : Fin m) : broadcastTo ⟨2, ![1, m]⟩ v h (ix2 u l) = v (ix2 (0 : Fin 1) (0 : Fin 1)) :=
  broadcastTo_apply v h _ _ (fun ax => by
    match ax with
    | ⟨0, _⟩ => rfl
    | ⟨1, _⟩ => rfl)

/-- One row of a matrix, as a one-row matrix: entry (u, i) of row e is entry (e, i). -/
theorem row_slice {n a : ℕ} (e : ℕ) (v : (⟨2, ![n, a]⟩ : Shape).Idx → α) (h : (⟨2, ![n, a]⟩ : Shape).Slices ![e, 0] ⟨2, ![1, a]⟩)
    (u : Fin 1) (i : Fin a) (k : Fin n) (hk : k.val = e) :
    extractStridedSlice ⟨2, ![1, a]⟩ ![e, 0] v h (ix2 u i) = v (ix2 k i) :=
  slice2_axis0_apply e v h u i k (by rw [hk]; have : u.val = 0 := by omega
                                     rw [this, Nat.add_zero])

/-- A [741,1,128] array broadcast along its unit axis to [741,16,128]. -/
theorem bcast_col (v : (⟨3, ![741, 1, 128]⟩ : Shape).Idx → α) (h : (⟨3, ![741, 1, 128]⟩ : Shape).Broadcasts ⟨3, ![741, 16, 128]⟩)
    (p : Fin 741) (i : Fin 16) (l : Fin 128) : broadcastTo ⟨3, ![741, 16, 128]⟩ v h (ix3 p i l) = v (ix3 p (0 : Fin 1) l) :=
  bcast_n1m_nam v h p i l (by decide) (by decide)

/-- A [1,16,1] array broadcast along its unit axes to [741,16,128]. -/
theorem bcast_row (v : (⟨3, ![1, 16, 1]⟩ : Shape).Idx → α) (h : (⟨3, ![1, 16, 1]⟩ : Shape).Broadcasts ⟨3, ![741, 16, 128]⟩)
    (p : Fin 741) (i : Fin 16) (l : Fin 128) : broadcastTo ⟨3, ![741, 16, 128]⟩ v h (ix3 p i l) = v (ix3 (0 : Fin 1) i (0 : Fin 1)) :=
  bcast_1a1_nam v h p i l (by decide)

/-- A [1,m] row broadcast to [n,m]: entry (p, l) is entry (0, l). -/
theorem bcast_1m_nm {n m : ℕ} (v : (⟨2, ![1, m]⟩ : Shape).Idx → α) (h : (⟨2, ![1, m]⟩ : Shape).Broadcasts ⟨2, ![n, m]⟩)
    (p : Fin n) (l : Fin m) (hm : m ≠ 1) : broadcastTo ⟨2, ![n, m]⟩ v h (ix2 p l) = v (ix2 (0 : Fin 1) l) :=
  broadcastTo_apply v h _ _ (fun ax => by
    match ax with
    | ⟨0, _⟩ => rfl
    | ⟨1, _⟩ => show l.val = if m = 1 then 0 else l.val; rw [if_neg hm])

/-- A [1,128] row broadcast to [741,128]. -/
theorem bcast_lane (v : (⟨2, ![1, 128]⟩ : Shape).Idx → α) (h : (⟨2, ![1, 128]⟩ : Shape).Broadcasts ⟨2, ![741, 128]⟩)
    (p : Fin 741) (l : Fin 128) : broadcastTo ⟨2, ![741, 128]⟩ v h (ix2 p l) = v (ix2 (0 : Fin 1) l) :=
  bcast_1m_nm v h p l (by decide)

/-- The index, in a [741,16,128] buffer, of entry (p, 0, l) of the column-`a` box [741,1,128]. -/
theorem col_idx (a : ℕ) (ha : a < 16) (inb : ∀ ax, (![0, a, 0] : Fin 3 → ℕ) ax + (⟨3, ![741, 1, 128]⟩ : Shape).size ax ≤ (⟨3, ![741, 16, 128]⟩ : Shape).size ax)
    (p : Fin 741) (l : Fin 128) :
    (Rect.unit (s := ⟨3, ![741, 16, 128]⟩) ![0, a, 0] (⟨3, ![741, 1, 128]⟩ : Shape).size inb).toLoadRect.idx (ix3 p (0 : Fin 1) l)
      = ix3 p (⟨a, ha⟩ : Fin 16) l := by
  funext ax
  apply Fin.ext
  simp only [LoadRect.idx_apply, Rect.emb_apply, Rect.off_unit, Rect.stride_unit, Nat.one_mul]
  match ax with
  | ⟨0, _⟩ => show 0 + p.val = p.val; omega
  | ⟨1, _⟩ => show a + 0 = a; omega
  | ⟨2, _⟩ => show 0 + l.val = l.val; omega

/-- The one entry of a [1,1] array. -/
theorem extractAt_11 (v : (⟨2, ![1, 1]⟩ : Shape).Idx → α) (h : ∀ a, (![0, 0] : Fin 2 → ℕ) a < (⟨2, ![1, 1]⟩ : Shape).size a) :
    extractAt ![0, 0] v h = v (ix2 (0 : Fin 1) (0 : Fin 1)) := by
  unfold extractAt
  exact congrArg v (funext fun a => by
    match a with
    | ⟨0, _⟩ => rfl
    | ⟨1, _⟩ => rfl)

theorem hz2 : (![0, 0] : Fin 2 → Nat) = fun _ => 0 := funext fun a => by fin_cases a <;> rfl

theorem hz3 : (![0, 0, 0] : Fin 3 → Nat) = fun _ => 0 := funext fun a => by fin_cases a <;> rfl

end Cert.KOps

end
-- ==== Proof.KOps2.lean ====
/-
  Reductions along the pair axis, and the small entries, read at an index.

  A `multi_reduction` of a [741,128] array along its leading axis, read at lane `l`, is the sum (or the fold of `max` from the
  least element) over the 741 rows of column `l`; a [128] vector viewed as one row keeps its entries; one entry of a
  sixteen-entry column, cut out as a [1,1] array, is that entry.
-/
import proofs.«158778_j51101520888212_2_alg».proof.Proof.KOps

noncomputable section

namespace Cert.KOps

open Idealize.ShloMosaic ValueIdx

/-- Over lane `l`, row `q` of the [741,128] array is entry (q, l). -/
theorem lift0 (h : (⟨2, ![741, 128]⟩ : Shape).Reduces [(0 : Fin 2)] ⟨1, ![128]⟩) (l : Fin 128) (q : Fin 741) :
    h.lift (ix1 l) q = ix2 q l := by
  funext c
  apply Fin.ext
  show h.liftVal (ix1 l) q.val c = (ix2 q l c).val
  unfold Shape.Reduces.liftVal
  match c with
  | ⟨0, _⟩ => exact (dif_pos rfl).trans rfl
  | ⟨1, _⟩ => exact (dif_neg (show ¬ (1 : ℕ) = 0 from by decide)).trans ((dif_neg (Nat.not_lt_zero 1)).trans rfl)

/-- A sum over the pair axis, read at lane `l`. -/
theorem colsum (src : FVec Ideal ⟨2, ![741, 128]⟩ .f32) (h : (⟨2, ![741, 128]⟩ : Shape).Reduces [(0 : Fin 2)] ⟨1, ![128]⟩) (hφ : FKind.Formats .f32)
    (hacc : (0x00000000#32 : BitVec 32) = FKind.add.neutral .f32 hφ) (l : Fin 128) :
    multiReduction .add [(0 : Fin 2)] ⟨1, ![128]⟩ src 0x00000000#32 h hφ hacc (ix1 l) = ∑ q : Fin 741, src (ix2 q l) :=
  (Ideal.multiReduction_add_single src 0x00000000#32 h hφ hacc (ix1 l)).trans
    (Finset.sum_congr rfl fun q _ => congrArg src (lift0 h l q))

theorem neg_inf : Ideal.ofBits .f32 0xFF800000#32 = (⊥ : EReal) := by simp [Ideal.ofBits, Ideal.ieee]

/-- A maximum over the pair axis, read at lane `l`: the fold of `max` from the least element. -/
theorem colmax (src : FVec Ideal ⟨2, ![741, 128]⟩ .f32) (h : (⟨2, ![741, 128]⟩ : Shape).Reduces [(0 : Fin 2)] ⟨1, ![128]⟩) (hφ : FKind.Formats .f32)
    (hacc : (0xFF800000#32 : BitVec 32) = FKind.maximumf.neutral .f32 hφ) (l : Fin 128) :
    multiReduction .maximumf [(0 : Fin 2)] ⟨1, ![128]⟩ src 0xFF800000#32 h hφ hacc (ix1 l)
      = (Finset.univ : Finset (Fin 741)).fold max (⊥ : EReal) (fun q => src (ix2 q l)) := by
  refine (Ideal.multiReduction_maximumf_single src 0xFF800000#32 h hφ hacc (ix1 l)).trans ?_
  rw [show (src ∘ h.lift (ix1 l)) = fun q => src (ix2 q l) from funext fun q => congrArg src (lift0 h l q)]
  rw [show FloatOps.ofBits (F := Ideal) .f32 0xFF800000#32 = (⊥ : EReal) from neg_inf]
  rfl

/-- Entry `e` of a sixteen-entry column, cut out as a [1,1] array. -/
theorem col_entry (e : ℕ) (he : e < 16) {α : Type} (v : (⟨2, ![16, 1]⟩ : Shape).Idx → α) (h : (⟨2, ![16, 1]⟩ : Shape).Slices ![e, 0] ⟨2, ![1, 1]⟩) :
    extractStridedSlice ⟨2, ![1, 1]⟩ ![e, 0] v h (ix2 (0 : Fin 1) (0 : Fin 1)) = v (ix2 (⟨e, he⟩ : Fin 16) (0 : Fin 1)) :=
  row_slice e v h 0 0 ⟨e, he⟩ rfl

theorem vexp_apply {s : Shape} (x : FVec Ideal s .f32) (i : s.Idx) : exp x i = Ideal.exp (x i) := rfl

theorem vlogistic_apply {s : Shape} (x : FVec Ideal s .f32) (i : s.Idx) : logistic x i = Ideal.logistic (x i) := rfl

end Cert.KOps

end
-- ==== Proof.KLane.lean ====
/-
  The same function in the order the kernel computes it, and that the order does not matter.

  The kernel accumulates each of its three short contractions one term at a time — the dense layer from its bias, the
  logit and the pooled projection from zero — multiplies the pairwise product by the softmax weight rather than the weight
  by the product, and takes the maximum over the pairs as a fold from the least element. Over the extended reals addition
  and multiplication are commutative and associative, so each accumulated sum is the plain sum of its sixteen terms, and
  a fold of `max` from the least element is the supremum: the kernel's order computes `Spec.out`.
-/
import proofs.«158778_j51101520888212_2_alg».proof.Proof.Spec

noncomputable section

namespace Cert.KLane

open Idealize.ShloMosaic Cert.Spec
open scoped BigOperators

/-- The sum of the first `k` of sixteen terms. -/
def part (f : Fin 16 → EReal) (k : Nat) : EReal := ∑ e ∈ Finset.range k, if h : e < 16 then f ⟨e, h⟩ else 0

theorem part_zero (f : Fin 16 → EReal) : part f 0 = 0 := by simp [part]

theorem part_succ (f : Fin 16 → EReal) (k : Nat) (hk : k < 16) : part f (k + 1) = part f k + f ⟨k, hk⟩ := by
  unfold part; rw [Finset.sum_range_succ, dif_pos hk]

theorem part_full (f : Fin 16 → EReal) : part f 16 = ∑ e : Fin 16, f e := by
  unfold part
  rw [← Fin.sum_univ_eq_sum_range (fun e => if h : e < 16 then f ⟨e, h⟩ else 0) 16]
  exact Finset.sum_congr rfl fun e _ => by rw [dif_pos e.isLt]

variable (A : Args) (b : Fin 8192)

/-- The dense layer accumulated channel by channel from its bias. -/
def attK (p : Fin 741) (a : Fin 16) (k : Nat) : EReal := A.ab a + part (fun e => bi A b p e * A.aw e a) k

/-- Rectified. -/
def reluK (p : Fin 741) (a : Fin 16) : EReal := max (attK A b p a 16) 0

/-- The logit accumulated from zero. -/
def scoreK (p : Fin 741) (k : Nat) : EReal := 0 + part (fun a => reluK A b p a * A.ph a) k

/-- The maximum of the logits as a fold from the least element. -/
def topK : EReal := (Finset.univ : Finset (Fin 741)).fold max ⊥ (fun p => scoreK A b p 16)

def exK (p : Fin 741) : EReal := Ideal.exp (scoreK A b p 16 - topK A b)

def denK : EReal := ∑ p : Fin 741, exK A b p

def probK (p : Fin 741) : EReal := Ideal.div (exK A b p) (denK A b)

/-- The pooled channel: the product times the weight. -/
def poolK (e : Fin 16) : EReal := ∑ p : Fin 741, bi A b p e * probK A b p

/-- The projection of the pooled vector accumulated from zero. -/
def awK (k : Nat) : EReal := 0 + part (fun e => poolK A b e * A.pp e) k

def outK : EReal := Ideal.logistic ((A.bias + A.Y b) + awK A b 16)

theorem reluK_eq (p : Fin 741) (a : Fin 16) : reluK A b p a = att A b p a := by
  unfold reluK attK att
  rw [part_full, add_comm]

theorem scoreK_eq (p : Fin 741) : scoreK A b p 16 = score A b p := by
  unfold scoreK score
  rw [part_full, zero_add]
  exact Finset.sum_congr rfl fun a _ => by rw [reluK_eq]

theorem topK_eq : topK A b = top A b := by
  unfold topK top
  rw [show (fun p => scoreK A b p 16) = score A b from funext (scoreK_eq A b)]
  rfl

theorem exK_eq (p : Fin 741) : exK A b p = ex A b p := by
  unfold exK ex; rw [scoreK_eq, topK_eq]

theorem denK_eq : denK A b = den A b := by
  unfold denK den; exact Finset.sum_congr rfl fun p _ => exK_eq A b p

theorem probK_eq (p : Fin 741) : probK A b p = prob A b p := by
  unfold probK prob; rw [exK_eq, denK_eq]

theorem poolK_eq (e : Fin 16) : poolK A b e = pooled A b e := by
  unfold poolK pooled
  exact Finset.sum_congr rfl fun p _ => by rw [probK_eq, mul_comm]

theorem awK_eq : awK A b 16 = second A b := by
  unfold awK second
  rw [part_full, zero_add]
  exact Finset.sum_congr rfl fun e _ => by rw [poolK_eq]

/-- The kernel's order computes the function. -/
theorem outK_eq : outK A b = out A b := by
  unfold outK out; rw [awK_eq]

end Cert.KLane

end
-- ==== Proof.KPairs.lean ====
/-
  What the 38 slice stores leave in the first scratch buffer.

  The body takes the 39 fields' embedding rows `x0 (f, e, l)` and, for each field `i = 0, …, 37`, stores the rows
  `i + 1, …, 38` each multiplied by row `i` at rows `off i, …, off i + (37 - i)` of a buffer of 741 rows, where
  `off i = 38 + 37 + … + (39 - i)`. Row `off i + r` therefore holds field `i + 1 + r` times field `i`, and position
  `off i + r` of the row-major strict upper triangle of a 39 × 39 matrix is the pair `(i, i + 1 + r)`: the 38 stores
  are 38 blocks of ONE function of the buffer's index — at pair `p`, the product of the pair's two fields — and they
  cover the buffer, so the buffer holds that function.
-/
import proofs.«158778_j51101520888212_2_alg».proof.Proof.Gen.KernelIdeal.Frame
import proofs.«158778_j51101520888212_2_alg».proof.Proof.Spec
import Idealize.ShloMosaic.Lib.ValueIdx
import Idealize.ShloMosaic.Lib.ValueLayout
import Idealize.ShloMosaic.Lib.Pipeline.Value
import Idealize.ShloMosaic.Lib.Tactic
import Idealize.ShloMosaic.Lib.Ring

set_option maxRecDepth 16384

noncomputable section

namespace Cert.KernelIdeal.KValue

open Idealize.ShloMosaic Idealize.ShloMosaic.TcCoe Idealize.ShloMosaic.Tactic Idealize.SL.Sem ValueIdx
open Cert.KernelIdeal Cert.KernelIdeal.Gen

namespace Pairs

/-! ## Reading the block of embeddings at a field given as a natural number -/

/-- Field `f` of the block of embeddings at channel `e` and lane `l`, the field given as a natural number (zero past
    the 39 fields: never read there). -/
def atN (X : FVec Ideal S39x16x128 .f32) (f : Nat) (e : Fin 16) (l : Fin 128) : EReal :=
  if h : f < 39 then X (ix3 ⟨f, h⟩ e l) else 0

/-- Rows `o, o + 1, …` of the block, read at row `r`, are the block at field `o + r`. -/
theorem rows_apply {m : Nat} (o : Nat) (X : FVec Ideal S39x16x128 .f32)
    (h : S39x16x128.Slices ![o, 0, 0] ⟨3, ![m, 16, 128]⟩) (r : Fin m) (e : Fin 16) (l : Fin 128) :
    extractStridedSlice ⟨3, ![m, 16, 128]⟩ ![o, 0, 0] X h (ix3 r e l) = atN X (o + r.val) e l := by
  have hm : o + m ≤ 39 := h.2 0
  have hlt : o + r.val < 39 := by have := r.isLt; omega
  unfold atN
  rw [dif_pos hlt]
  exact extractStridedSlice_apply _ _ _ _ _ (fun ax => by
    match ax with
    | ⟨0, _⟩ => rfl
    | ⟨1, _⟩ => exact (Nat.zero_add _).symm
    | ⟨2, _⟩ => exact (Nat.zero_add _).symm)

/-- One row stretched over `n` rows reads, at any row, that one row. -/
theorem stretch_rows_apply {α : Type} {n : Nat} (v : (⟨3, ![1, 16, 128]⟩ : Shape).Idx → α)
    (h : (⟨3, ![1, 16, 128]⟩ : Shape).Broadcasts ⟨3, ![n, 16, 128]⟩) (r : Fin n) (e : Fin 16) (l : Fin 128) :
    broadcastTo ⟨3, ![n, 16, 128]⟩ v h (ix3 r e l) = v (ix3 (0 : Fin 1) e l) := by
  refine broadcastTo_apply v h (ix3 r e l) (ix3 (0 : Fin 1) e l) fun ax => ?_
  match ax with
  | ⟨0, _⟩ => rfl
  | ⟨1, _⟩ => rfl
  | ⟨2, _⟩ => rfl

/-- The product of rows `j, j + 1, …` of the block with row `i` stretched over them, as the body computes it: row `r`
    is field `j + r` times field `i`. -/
theorem prod_apply {n : Nat} (i j : Nat) (X : FVec Ideal S39x16x128 .f32)
    (hs1 : S39x16x128.Slices ![i, 0, 0] S1x16x128) (hc1 : S1x16x128.ShapeCasts S16x128)
    (hs2 : S39x16x128.Slices ![j, 0, 0] ⟨3, ![n, 16, 128]⟩) (hc2 : S16x128.ShapeCasts S1x16x128)
    (hb : S1x16x128.Broadcasts ⟨3, ![n, 16, 128]⟩)
    (hc3 : (⟨3, ![n, 16, 128]⟩ : Shape).ShapeCasts ⟨3, ![n, 16, 128]⟩)
    (r : Fin n) (e : Fin 16) (l : Fin 128) :
    shapeCast ⟨3, ![n, 16, 128]⟩
        (mulf (extractStridedSlice ⟨3, ![n, 16, 128]⟩ ![j, 0, 0] X hs2)
          (broadcastTo ⟨3, ![n, 16, 128]⟩
            (shapeCast S1x16x128 (shapeCast S16x128 (extractStridedSlice S1x16x128 ![i, 0, 0] X hs1) hc1) hc2) hb))
        hc3 (ix3 r e l)
      = atN X (j + r.val) e l * atN X i e l := by
  rw [shapeCast_self, mulf_apply, shapeCast_shapeCast, stretch_rows_apply, rows_apply, rows_apply]
  rfl

/-! ## The buffer as one function of its index -/

/-- What the buffer holds at pair `y 0`, channel `y 1`, lane `y 2`: the larger field of the pair times the smaller. -/
def pairsOf (X : FVec Ideal S39x16x128 .f32) : S741x16x128.Idx → EReal := fun y =>
  atN X (Cert.Spec.pairNat (y 0).val).2 (y 1) (y 2) * atN X (Cert.Spec.pairNat (y 0).val).1 (y 1) (y 2)

/-- A store of `n` rows at row `off` whose row `r` is field `j + r` times field `i`, where positions `off + r` of the
    triangle are the pairs `(i, j + r)`, is the block of `pairsOf` its rectangle names. -/
theorem piece_ok {n : Nat} (off i j : Nat) (X : FVec Ideal S39x16x128 .f32)
    (inb : ∀ a, (![off, 0, 0] : Fin S741x16x128.rank → Nat) a + (⟨3, ![n, 16, 128]⟩ : Shape).size a ≤ S741x16x128.size a)
    (w : (⟨3, ![n, 16, 128]⟩ : Shape).Idx → EReal)
    (hw : ∀ (r : Fin n) (e : Fin 16) (l : Fin 128), w (ix3 r e l) = atN X (j + r.val) e l * atN X i e l)
    (htab : ∀ r : Fin n, Cert.Spec.pairNat (off + r.val) = (i, j + r.val)) :
    ∀ x : (Rect.unit (s := S741x16x128) ![off, 0, 0] (⟨3, ![n, 16, 128]⟩ : Shape).size inb).shape.Idx,
      w x = pairsOf X ((Rect.unit (s := S741x16x128) ![off, 0, 0] (⟨3, ![n, 16, 128]⟩ : Shape).size inb).emb x) := by
  intro x
  obtain ⟨r, e, l, rfl⟩ : ∃ (r : Fin n) (e : Fin 16) (l : Fin 128), x = ix3 r e l := ⟨x 0, x 1, x 2, eq_ix3 x⟩
  have h0 : off + n ≤ 741 := inb 0
  have hlt : off + r.val < 741 := by have := r.isLt; omega
  have hemb : (Rect.unit (s := S741x16x128) ![off, 0, 0] (⟨3, ![n, 16, 128]⟩ : Shape).size inb).emb (ix3 r e l)
      = ix3 (⟨off + r.val, hlt⟩ : Fin 741) e l := by
    funext a
    apply Fin.ext
    match a with
    | ⟨0, _⟩ => show off + 1 * r.val = off + r.val; omega
    | ⟨1, _⟩ => show 0 + 1 * e.val = e.val; omega
    | ⟨2, _⟩ => show 0 + 1 * l.val = l.val; omega
  rw [hw r e l, hemb]
  show _ = atN X (Cert.Spec.pairNat (off + r.val)).2 e l * atN X (Cert.Spec.pairNat (off + r.val)).1 e l
  rw [htab r]

/-- One more piece in front of a list of pieces that are blocks of one function. -/
theorem pieces_cons {Val : EltTy → Type} {S : Shape} {t : EltTy} (G : S.Idx → Val t) (q : Rect S) (w : q.shape.Idx → Val t)
    (L : List (View.Piece Val S t)) (h1 : ∀ x : q.shape.Idx, w x = G (q.emb x))
    (h2 : ∀ p ∈ L, ∀ x : p.1.shape.Idx, p.2 x = G (p.1.emb x)) :
    ∀ p ∈ (⟨q, w⟩ : View.Piece Val S t) :: L, ∀ x : p.1.shape.Idx, p.2 x = G (p.1.emb x) :=
  List.forall_mem_cons.2 ⟨h1, h2⟩

/-- Pieces that cover the rows below `off`, with one more piece of `n` rows at row `off` in front, cover the rows below
    `off + n`. -/
theorem cover_cons {Val : EltTy → Type} {n : Nat} (off : Nat)
    (inb : ∀ a, (![off, 0, 0] : Fin S741x16x128.rank → Nat) a + (⟨3, ![n, 16, 128]⟩ : Shape).size a ≤ S741x16x128.size a)
    (w : (Rect.unit (s := S741x16x128) ![off, 0, 0] (⟨3, ![n, 16, 128]⟩ : Shape).size inb).shape.Idx → Val .f32)
    (L : List (View.Piece Val S741x16x128 .f32)) (hi : Nat) (hhi : hi = off + n)
    (h : ∀ y : S741x16x128.Idx, (y 0).val < off → ∃ p ∈ L, y ∈ p.1.set) :
    ∀ y : S741x16x128.Idx, (y 0).val < hi →
      ∃ p ∈ (⟨Rect.unit (s := S741x16x128) ![off, 0, 0] (⟨3, ![n, 16, 128]⟩ : Shape).size inb, w⟩ :
          View.Piece Val S741x16x128 .f32) :: L, y ∈ p.1.set := by
  intro y hy
  by_cases hlo : (y 0).val < off
  · obtain ⟨p, hp, hm⟩ := h y hlo
    exact ⟨p, List.mem_cons_of_mem _ hp, hm⟩
  · refine ⟨_, List.mem_cons_self, ?_⟩
    rw [Rect.mem_set_unit]
    intro a
    match a with
    | ⟨0, _⟩ => show off ≤ (y 0).val ∧ (y 0).val < off + n; omega
    | ⟨1, _⟩ => have h1 : (y 1).val < 16 := (y 1).isLt
                show 0 ≤ (y 1).val ∧ (y 1).val < 0 + 16; omega
    | ⟨2, _⟩ => have h2 : (y 2).val < 128 := (y 2).isLt
                show 0 ≤ (y 2).val ∧ (y 2).val < 0 + 128; omega

/-- The last row of the triangle: one row times one row, nothing stretched. -/
theorem prod1_apply (i j : Nat) (X : FVec Ideal S39x16x128 .f32)
    (hs1 : S39x16x128.Slices ![i, 0, 0] S1x16x128) (hc1 : S1x16x128.ShapeCasts S16x128)
    (hs2 : S39x16x128.Slices ![j, 0, 0] S1x16x128) (hc2 : S16x128.ShapeCasts S1x16x128)
    (hc3 : S1x16x128.ShapeCasts S1x16x128) (r : Fin 1) (e : Fin 16) (l : Fin 128) :
    shapeCast S1x16x128
        (mulf (extractStridedSlice S1x16x128 ![j, 0, 0] X hs2)
          (shapeCast S1x16x128 (shapeCast S16x128 (extractStridedSlice S1x16x128 ![i, 0, 0] X hs1) hc1) hc2))
        hc3 (ix3 r e l)
      = atN X (j + r.val) e l * atN X i e l := by
  have hr : r.val = 0 := by omega
  rw [shapeCast_self, mulf_apply, shapeCast_shapeCast, rows_apply, rows_apply, hr]
  rfl

/-! ## The 38 stores -/

section Stores

variable (c : Dev nD) (arg1 : Memref sig .tc .vmem S39x16x128 .f32) (harg1 : arg1.IsWhole) (x0 : Vec Ideal S39x16x128 .f32)

local notation "X₀" => kernelRun0_A.sl.r (F := Ideal) c arg1 harg1 x0

/-- Every piece the 38 stores leave is the block of `pairsOf` its rectangle names: store `i` writes, at rows
    `off i, …, off i + (37 - i)`, the fields `i + 1, …, 38` times field `i`, and those positions of the triangle are
    the pairs `(i, i + 1), …, (i, 38)`. -/
theorem pieces : ∀ p ∈ kernelRun0_A.sl.HS0_38 (F := Ideal) c arg1 harg1 x0, ∀ x : p.1.shape.Idx,
    p.2 x = pairsOf X₀ (p.1.emb x) := by
  unfold kernelRun0_A.sl.HS0_38
  refine pieces_cons _ _ _ _ (piece_ok (n := 1) 740 37 38 X₀ _ _ (fun r e l => prod1_apply 37 38 X₀ _ _ _ _ _ r e l) (by decide +kernel)) ?_
  refine pieces_cons _ _ _ _ (piece_ok (n := 2) 738 36 37 X₀ _ _ (fun r e l => prod_apply 36 37 X₀ _ _ _ _ _ _ r e l) (by decide +kernel)) ?_
  refine pieces_cons _ _ _ _ (piece_ok (n := 3) 735 35 36 X₀ _ _ (fun r e l => prod_apply 35 36 X₀ _ _ _ _ _ _ r e l) (by decide +kernel)) ?_
  refine pieces_cons _ _ _ _ (piece_ok (n := 4) 731 34 35 X₀ _ _ (fun r e l => prod_apply 34 35 X₀ _ _ _ _ _ _ r e l) (by decide +kernel)) ?_
  refine pieces_cons _ _ _ _ (piece_ok (n := 5) 726 33 34 X₀ _ _ (fun r e l => prod_apply 33 34 X₀ _ _ _ _ _ _ r e l) (by decide +kernel)) ?_
  refine pieces_cons _ _ _ _ (piece_ok (n := 6) 720 32 33 X₀ _ _ (fun r e l => prod_apply 32 33 X₀ _ _ _ _ _ _ r e l) (by decide +kernel)) ?_
  refine pieces_cons _ _ _ _ (piece_ok (n := 7) 713 31 32 X₀ _ _ (fun r e l => prod_apply 31 32 X₀ _ _ _ _ _ _ r e l) (by decide +kernel)) ?_
  refine pieces_cons _ _ _ _ (piece_ok (n := 8) 705 30 31 X₀ _ _ (fun r e l => prod_apply 30 31 X₀ _ _ _ _ _ _ r e l) (by decide +kernel)) ?_
  refine pieces_cons _ _ _ _ (piece_ok (n := 9) 696 29 30 X₀ _ _ (fun r e l => prod_apply 29 30 X₀ _ _ _ _ _ _ r e l) (by decide +kernel)) ?_
  refine pieces_cons _ _ _ _ (piece_ok (n := 10) 686 28 29 X₀ _ _ (fun r e l => prod_apply 28 29 X₀ _ _ _ _ _ _ r e l) (by decide +kernel)) ?_
  refine pieces_cons _ _ _ _ (piece_ok (n := 11) 675 27 28 X₀ _ _ (fun r e l => prod_apply 27 28 X₀ slices_S39x16x128_o27_0_0_S1x16x128 shapeCasts_S1x16x128_S16x128 slices_S39x16x128_o28_0_0_S11x16x128 shapeCasts_S16x128_S1x16x128 broadcasts_S1x16x128_S11x16x128 shapeCasts_S11x16x128_S11x16x128 r e l) (by decide +kernel)) ?_
  refine pieces_cons _ _ _ _ (piece_ok (n := 12) 663 26 27 X₀ _ _ (fun r e l => prod_apply 26 27 X₀ _ _ _ _ _ _ r e l) (by decide +kernel)) ?_
  refine pieces_cons _ _ _ _ (piece_ok (n := 13) 650 25 26 X₀ _ _ (fun r e l => prod_apply 25 26 X₀ _ _ _ _ _ _ r e l) (by decide +kernel)) ?_
  refine pieces_cons _ _ _ _ (piece_ok (n := 14) 636 24 25 X₀ _ _ (fun r e l => prod_apply 24 25 X₀ _ _ _ _ _ _ r e l) (by decide +kernel)) ?_
  refine pieces_cons _ _ _ _ (piece_ok (n := 15) 621 23 24 X₀ _ _ (fun r e l => prod_apply 23 24 X₀ _ _ _ _ _ _ r e l) (by decide +kernel)) ?_
  refine pieces_cons _ _ _ _ (piece_ok (n := 16) 605 22 23 X₀ _ _ (fun r e l => prod_apply 22 23 X₀ _ _ _ _ _ _ r e l) (by decide +kernel)) ?_
  refine pieces_cons _ _ _ _ (piece_ok (n := 17) 588 21 22 X₀ _ _ (fun r e l => prod_apply 21 22 X₀ _ _ _ _ _ _ r e l) (by decide +kernel)) ?_
  refine pieces_cons _ _ _ _ (piece_ok (n := 18) 570 20 21 X₀ _ _ (fun r e l => prod_apply 20 21 X₀ _ _ _ _ _ _ r e l) (by decide +kernel)) ?_
  refine pieces_cons _ _ _ _ (piece_ok (n := 19) 551 19 20 X₀ _ _ (fun r e l => prod_apply 19 20 X₀ _ _ _ _ _ _ r e l) (by decide +kernel)) ?_
  refine pieces_cons _ _ _ _ (piece_ok (n := 20) 531 18 19 X₀ _ _ (fun r e l => prod_apply 18 19 X₀ _ _ _ _ _ _ r e l) (by decide +kernel)) ?_
  refine pieces_cons _ _ _ _ (piece_ok (n := 21) 510 17 18 X₀ _ _ (fun r e l => prod_apply 17 18 X₀ _ _ _ _ _ _ r e l) (by decide +kernel)) ?_
  refine pieces_cons _ _ _ _ (piece_ok (n := 22) 488 16 17 X₀ _ _ (fun r e l => prod_apply 16 17 X₀ _ _ _ _ _ _ r e l) (by decide +kernel)) ?_
  refine pieces_cons _ _ _ _ (piece_ok (n := 23) 465 15 16 X₀ _ _ (fun r e l => prod_apply 15 16 X₀ _ _ _ _ _ _ r e l) (by decide +kernel)) ?_
  refine pieces_cons _ _ _ _ (piece_ok (n := 24) 441 14 15 X₀ _ _ (fun r e l => prod_apply 14 15 X₀ _ _ _ _ _ _ r e l) (by decide +kernel)) ?_
  refine pieces_cons _ _ _ _ (piece_ok (n := 25) 416 13 14 X₀ _ _ (fun r e l => prod_apply 13 14 X₀ slices_S39x16x128_o13_0_0_S1x16x128 shapeCasts_S1x16x128_S16x128 slices_S39x16x128_o14_0_0_S25x16x128 shapeCasts_S16x128_S1x16x128 broadcasts_S1x16x128_S25x16x128 shapeCasts_S25x16x128_S25x16x128 r e l) (by decide +kernel)) ?_
  refine pieces_cons _ _ _ _ (piece_ok (n := 26) 390 12 13 X₀ _ _ (fun r e l => prod_apply 12 13 X₀ _ _ _ _ _ _ r e l) (by decide +kernel)) ?_
  refine pieces_cons _ _ _ _ (piece_ok (n := 27) 363 11 12 X₀ _ _ (fun r e l => prod_apply 11 12 X₀ _ _ _ _ _ _ r e l) (by decide +kernel)) ?_
  refine pieces_cons _ _ _ _ (piece_ok (n := 28) 335 10 11 X₀ _ _ (fun r e l => prod_apply 10 11 X₀ _ _ _ _ _ _ r e l) (by decide +kernel)) ?_
  refine pieces_cons _ _ _ _ (piece_ok (n := 29) 306 9 10 X₀ _ _ (fun r e l => prod_apply 9 10 X₀ _ _ _ _ _ _ r e l) (by decide +kernel)) ?_
  refine pieces_cons _ _ _ _ (piece_ok (n := 30) 276 8 9 X₀ _ _ (fun r e l => prod_apply 8 9 X₀ _ _ _ _ _ _ r e l) (by decide +kernel)) ?_
  refine pieces_cons _ _ _ _ (piece_ok (n := 31) 245 7 8 X₀ _ _ (fun r e l => prod_apply 7 8 X₀ _ _ _ _ _ _ r e l) (by decide +kernel)) ?_
  refine pieces_cons _ _ _ _ (piece_ok (n := 32) 213 6 7 X₀ _ _ (fun r e l => prod_apply 6 7 X₀ _ _ _ _ _ _ r e l) (by decide +kernel)) ?_
  refine pieces_cons _ _ _ _ (piece_ok (n := 33) 180 5 6 X₀ _ _ (fun r e l => prod_apply 5 6 X₀ _ _ _ _ _ _ r e l) (by decide +kernel)) ?_
  refine pieces_cons _ _ _ _ (piece_ok (n := 34) 146 4 5 X₀ _ _ (fun r e l => prod_apply 4 5 X₀ slices_S39x16x128_o4_0_0_S1x16x128 shapeCasts_S1x16x128_S16x128 slices_S39x16x128_o5_0_0_S34x16x128 shapeCasts_S16x128_S1x16x128 broadcasts_S1x16x128_S34x16x128 shapeCasts_S34x16x128_S34x16x128 r e l) (by decide +kernel)) ?_
  refine pieces_cons _ _ _ _ (piece_ok (n := 35) 111 3 4 X₀ _ _ (fun r e l => prod_apply 3 4 X₀ _ _ _ _ _ _ r e l) (by decide +kernel)) ?_
  refine pieces_cons _ _ _ _ (piece_ok (n := 36) 75 2 3 X₀ _ _ (fun r e l => prod_apply 2 3 X₀ _ _ _ _ _ _ r e l) (by decide +kernel)) ?_
  refine pieces_cons _ _ _ _ (piece_ok (n := 37) 38 1 2 X₀ _ _ (fun r e l => prod_apply 1 2 X₀ _ _ _ _ _ _ r e l) (by decide +kernel)) ?_
  refine pieces_cons _ _ _ _ (piece_ok (n := 38) 0 0 1 X₀ _ _ (fun r e l => prod_apply 0 1 X₀ _ _ _ _ _ _ r e l) (by decide +kernel)) ?_
  exact fun _ h => absurd h List.not_mem_nil

/-- The 38 pieces cover the buffer: going down the list, each piece continues the rows where the pieces after it stop. -/
theorem cover (y : S741x16x128.Idx) : ∃ p ∈ kernelRun0_A.sl.HS0_38 (F := Ideal) c arg1 harg1 x0, y ∈ p.1.set := by
  have hy : (y 0).val < 741 := (y 0).isLt
  revert y
  unfold kernelRun0_A.sl.HS0_38
  refine cover_cons (n := 1) 740 _ _ _ 741 rfl ?_
  refine cover_cons (n := 2) 738 _ _ _ 740 rfl ?_
  refine cover_cons (n := 3) 735 _ _ _ 738 rfl ?_
  refine cover_cons (n := 4) 731 _ _ _ 735 rfl ?_
  refine cover_cons (n := 5) 726 _ _ _ 731 rfl ?_
  refine cover_cons (n := 6) 720 _ _ _ 726 rfl ?_
  refine cover_cons (n := 7) 713 _ _ _ 720 rfl ?_
  refine cover_cons (n := 8) 705 _ _ _ 713 rfl ?_
  refine cover_cons (n := 9) 696 _ _ _ 705 rfl ?_
  refine cover_cons (n := 10) 686 _ _ _ 696 rfl ?_
  refine cover_cons (n := 11) 675 _ _ _ 686 rfl ?_
  refine cover_cons (n := 12) 663 _ _ _ 675 rfl ?_
  refine cover_cons (n := 13) 650 _ _ _ 663 rfl ?_
  refine cover_cons (n := 14) 636 _ _ _ 650 rfl ?_
  refine cover_cons (n := 15) 621 _ _ _ 636 rfl ?_
  refine cover_cons (n := 16) 605 _ _ _ 621 rfl ?_
  refine cover_cons (n := 17) 588 _ _ _ 605 rfl ?_
  refine cover_cons (n := 18) 570 _ _ _ 588 rfl ?_
  refine cover_cons (n := 19) 551 _ _ _ 570 rfl ?_
  refine cover_cons (n := 20) 531 _ _ _ 551 rfl ?_
  refine cover_cons (n := 21) 510 _ _ _ 531 rfl ?_
  refine cover_cons (n := 22) 488 _ _ _ 510 rfl ?_
  refine cover_cons (n := 23) 465 _ _ _ 488 rfl ?_
  refine cover_cons (n := 24) 441 _ _ _ 465 rfl ?_
  refine cover_cons (n := 25) 416 _ _ _ 441 rfl ?_
  refine cover_cons (n := 26) 390 _ _ _ 416 rfl ?_
  refine cover_cons (n := 27) 363 _ _ _ 390 rfl ?_
  refine cover_cons (n := 28) 335 _ _ _ 363 rfl ?_
  refine cover_cons (n := 29) 306 _ _ _ 335 rfl ?_
  refine cover_cons (n := 30) 276 _ _ _ 306 rfl ?_
  refine cover_cons (n := 31) 245 _ _ _ 276 rfl ?_
  refine cover_cons (n := 32) 213 _ _ _ 245 rfl ?_
  refine cover_cons (n := 33) 180 _ _ _ 213 rfl ?_
  refine cover_cons (n := 34) 146 _ _ _ 180 rfl ?_
  refine cover_cons (n := 35) 111 _ _ _ 146 rfl ?_
  refine cover_cons (n := 36) 75 _ _ _ 111 rfl ?_
  refine cover_cons (n := 37) 38 _ _ _ 75 rfl ?_
  refine cover_cons (n := 38) 0 _ _ _ 38 rfl ?_
  exact fun y h => absurd h (Nat.not_lt_zero _)

/-- The block the products are taken of is the block of embeddings: the load reads the whole staged block, and the cast
    to its own shape changes nothing. -/
theorem block_eq : X₀ = x0 := by
  have hz : (![0, 0, 0] : Fin 3 → Nat) = fun _ => 0 := by
    funext a; match a with | ⟨0, _⟩ => rfl | ⟨1, _⟩ => rfl | ⟨2, _⟩ => rfl
  unfold kernelRun0_A.sl.r k0_pay2
  rw [shapeCast_self, View.readAt_eq_ld, harg1.read_unread, View.ld_unit_zero hz]

end Stores

end Pairs

/-- After the 38 stores the buffer holds, at pair `p`, channel `e`, lane `l`, the product of the pair's two fields. -/
theorem pairs_canon (c : Dev nD) (arg1 : Memref sig .tc .vmem S39x16x128 .f32) (harg1 : arg1.IsWhole)
    (x0 : Vec Ideal S39x16x128 .f32) (p : Fin 741) (e : Fin 16) (l : Fin 128) :
    View.canon (kernelRun0_A.sl.HS0_38 (F := Ideal) c arg1 harg1 x0) (ix3 p e l)
      = x0 (ix3 (Cert.Spec.ju p) e l) * x0 (ix3 (Cert.Spec.iu p) e l) := by
  rw [View.canon_apply_of_pieces (Pairs.pairsOf (kernelRun0_A.sl.r (F := Ideal) c arg1 harg1 x0)) _
    (Pairs.pieces c arg1 harg1 x0) (ix3 p e l) (Pairs.cover c arg1 harg1 x0 _), Pairs.block_eq]
  show Pairs.atN x0 (Cert.Spec.pairNat p.val).2 e l * Pairs.atN x0 (Cert.Spec.pairNat p.val).1 e l = _
  unfold Pairs.atN
  rw [dif_pos (Cert.Spec.pair_bound p).2, dif_pos (Cert.Spec.pair_bound p).1]
  rfl

end Cert.KernelIdeal.KValue

end
-- ==== Proof.KBi.lean ====
/-
  The pairwise products read back, one channel at a time.

  Channel `e` of the first scratch buffer, loaded as a [741,1,128] column, holds at (p, 0, l) the product of the two fields of
  pair `p` at channel `e` and lane `l`.
-/
import proofs.«158778_j51101520888212_2_alg».proof.Proof.Gen.KernelIdeal.Frame
import proofs.«158778_j51101520888212_2_alg».proof.Proof.KOps
import proofs.«158778_j51101520888212_2_alg».proof.Proof.KPairs
import Idealize.ShloMosaic.Lib.Pipeline.Value
import Idealize.ShloMosaic.Lib.Tactic

set_option maxRecDepth 16384

noncomputable section

namespace Cert.KernelIdeal.KValue

open Idealize.ShloMosaic Idealize.ShloMosaic.TcCoe Idealize.ShloMosaic.Tactic Idealize.SL.Sem
open ValueIdx Cert.KOps Cert.KernelIdeal Cert.KernelIdeal.Gen

theorem bi_col0 (c : Dev nD) (arg1 : Memref sig .tc .vmem S39x16x128 .f32) (harg1 : arg1.IsWhole) (arg9 : Memref sig .tc .vmem S741x16x128 .f32) (x0 : Vec Ideal S39x16x128 .f32) (p : Fin 741) (l : Fin 128) :
    kernelRun0_A.sl.v361 (F := Ideal) c arg1 harg1 arg9 x0 (ix3 p (0 : Fin 1) l) = x0 (ix3 (Cert.Spec.ju p) (0 : Fin 16) l) * x0 (ix3 (Cert.Spec.iu p) (0 : Fin 16) l) := by
  unfold kernelRun0_A.sl.v361
  rw [View.readCov_eq_canon']
  beta_reduce
  rw [col_idx 0 (by decide)]
  exact pairs_canon c arg1 harg1 x0 p (0 : Fin 16) l

theorem bi_col1 (c : Dev nD) (arg1 : Memref sig .tc .vmem S39x16x128 .f32) (harg1 : arg1.IsWhole) (arg9 : Memref sig .tc .vmem S741x16x128 .f32) (x0 : Vec Ideal S39x16x128 .f32) (p : Fin 741) (l : Fin 128) :
    kernelRun0_A.sl.v375 (F := Ideal) c arg1 harg1 arg9 x0 (ix3 p (0 : Fin 1) l) = x0 (ix3 (Cert.Spec.ju p) (1 : Fin 16) l) * x0 (ix3 (Cert.Spec.iu p) (1 : Fin 16) l) := by
  unfold kernelRun0_A.sl.v375
  rw [View.readCov_eq_canon']
  beta_reduce
  rw [col_idx 1 (by decide)]
  exact pairs_canon c arg1 harg1 x0 p (1 : Fin 16) l

theorem bi_col2 (c : Dev nD) (arg1 : Memref sig .tc .vmem S39x16x128 .f32) (harg1 : arg1.IsWhole) (arg9 : Memref sig .tc .vmem S741x16x128 .f32) (x0 : Vec Ideal S39x16x128 .f32) (p : Fin 741) (l : Fin 128) :
    kernelRun0_A.sl.v389 (F := Ideal) c arg1 harg1 arg9 x0 (ix3 p (0 : Fin 1) l) = x0 (ix3 (Cert.Spec.ju p) (2 : Fin 16) l) * x0 (ix3 (Cert.Spec.iu p) (2 : Fin 16) l) := by
  unfold kernelRun0_A.sl.v389
  rw [View.readCov_eq_canon']
  beta_reduce
  rw [col_idx 2 (by decide)]
  exact pairs_canon c arg1 harg1 x0 p (2 : Fin 16) l

theorem bi_col3 (c : Dev nD) (arg1 : Memref sig .tc .vmem S39x16x128 .f32) (harg1 : arg1.IsWhole) (arg9 : Memref sig .tc .vmem S741x16x128 .f32) (x0 : Vec Ideal S39x16x128 .f32) (p : Fin 741) (l : Fin 128) :
    kernelRun0_A.sl.v403 (F := Ideal) c arg1 harg1 arg9 x0 (ix3 p (0 : Fin 1) l) = x0 (ix3 (Cert.Spec.ju p) (3 : Fin 16) l) * x0 (ix3 (Cert.Spec.iu p) (3 : Fin 16) l) := by
  unfold kernelRun0_A.sl.v403
  rw [View.readCov_eq_canon']
  beta_reduce
  rw [col_idx 3 (by decide)]
  exact pairs_canon c arg1 harg1 x0 p (3 : Fin 16) l

theorem bi_col4 (c : Dev nD) (arg1 : Memref sig .tc .vmem S39x16x128 .f32) (harg1 : arg1.IsWhole) (arg9 : Memref sig .tc .vmem S741x16x128 .f32) (x0 : Vec Ideal S39x16x128 .f32) (p : Fin 741) (l : Fin 128) :
    kernelRun0_A.sl.v417 (F := Ideal) c arg1 harg1 arg9 x0 (ix3 p (0 : Fin 1) l) = x0 (ix3 (Cert.Spec.ju p) (4 : Fin 16) l) * x0 (ix3 (Cert.Spec.iu p) (4 : Fin 16) l) := by
  unfold kernelRun0_A.sl.v417
  rw [View.readCov_eq_canon']
  beta_reduce
  rw [col_idx 4 (by decide)]
  exact pairs_canon c arg1 harg1 x0 p (4 : Fin 16) l

theorem bi_col5 (c : Dev nD) (arg1 : Memref sig .tc .vmem S39x16x128 .f32) (harg1 : arg1.IsWhole) (arg9 : Memref sig .tc .vmem S741x16x128 .f32) (x0 : Vec Ideal S39x16x128 .f32) (p : Fin 741) (l : Fin 128) :
    kernelRun0_A.sl.v431 (F := Ideal) c arg1 harg1 arg9 x0 (ix3 p (0 : Fin 1) l) = x0 (ix3 (Cert.Spec.ju p) (5 : Fin 16) l) * x0 (ix3 (Cert.Spec.iu p) (5 : Fin 16) l) := by
  unfold kernelRun0_A.sl.v431
  rw [View.readCov_eq_canon']
  beta_reduce
  rw [col_idx 5 (by decide)]
  exact pairs_canon c arg1 harg1 x0 p (5 : Fin 16) l

theorem bi_col6 (c : Dev nD) (arg1 : Memref sig .tc .vmem S39x16x128 .f32) (harg1 : arg1.IsWhole) (arg9 : Memref sig .tc .vmem S741x16x128 .f32) (x0 : Vec Ideal S39x16x128 .f32) (p : Fin 741) (l : Fin 128) :
    kernelRun0_A.sl.v445 (F := Ideal) c arg1 harg1 arg9 x0 (ix3 p (0 : Fin 1) l) = x0 (ix3 (Cert.Spec.ju p) (6 : Fin 16) l) * x0 (ix3 (Cert.Spec.iu p) (6 : Fin 16) l) := by
  unfold kernelRun0_A.sl.v445
  rw [View.readCov_eq_canon']
  beta_reduce
  rw [col_idx 6 (by decide)]
  exact pairs_canon c arg1 harg1 x0 p (6 : Fin 16) l

theorem bi_col7 (c : Dev nD) (arg1 : Memref sig .tc .vmem S39x16x128 .f32) (harg1 : arg1.IsWhole) (arg9 : Memref sig .tc .vmem S741x16x128 .f32) (x0 : Vec Ideal S39x16x128 .f32) (p : Fin 741) (l : Fin 128) :
    kernelRun0_A.sl.v459 (F := Ideal) c arg1 harg1 arg9 x0 (ix3 p (0 : Fin 1) l) = x0 (ix3 (Cert.Spec.ju p) (7 : Fin 16) l) * x0 (ix3 (Cert.Spec.iu p) (7 : Fin 16) l) := by
  unfold kernelRun0_A.sl.v459
  rw [View.readCov_eq_canon']
  beta_reduce
  rw [col_idx 7 (by decide)]
  exact pairs_canon c arg1 harg1 x0 p (7 : Fin 16) l

theorem bi_col8 (c : Dev nD) (arg1 : Memref sig .tc .vmem S39x16x128 .f32) (harg1 : arg1.IsWhole) (arg9 : Memref sig .tc .vmem S741x16x128 .f32) (x0 : Vec Ideal S39x16x128 .f32) (p : Fin 741) (l : Fin 128) :
    kernelRun0_A.sl.v473 (F := Ideal) c arg1 harg1 arg9 x0 (ix3 p (0 : Fin 1) l) = x0 (ix3 (Cert.Spec.ju p) (8 : Fin 16) l) * x0 (ix3 (Cert.Spec.iu p) (8 : Fin 16) l) := by
  unfold kernelRun0_A.sl.v473
  rw [View.readCov_eq_canon']
  beta_reduce
  rw [col_idx 8 (by decide)]
  exact pairs_canon c arg1 harg1 x0 p (8 : Fin 16) l

theorem bi_col9 (c : Dev nD) (arg1 : Memref sig .tc .vmem S39x16x128 .f32) (harg1 : arg1.IsWhole) (arg9 : Memref sig .tc .vmem S741x16x128 .f32) (x0 : Vec Ideal S39x16x128 .f32) (p : Fin 741) (l : Fin 128) :
    kernelRun0_A.sl.v487 (F := Ideal) c arg1 harg1 arg9 x0 (ix3 p (0 : Fin 1) l) = x0 (ix3 (Cert.Spec.ju p) (9 : Fin 16) l) * x0 (ix3 (Cert.Spec.iu p) (9 : Fin 16) l) := by
  unfold kernelRun0_A.sl.v487
  rw [View.readCov_eq_canon']
  beta_reduce
  rw [col_idx 9 (by decide)]
  exact pairs_canon c arg1 harg1 x0 p (9 : Fin 16) l

theorem bi_col10 (c : Dev nD) (arg1 : Memref sig .tc .vmem S39x16x128 .f32) (harg1 : arg1.IsWhole) (arg9 : Memref sig .tc .vmem S741x16x128 .f32) (x0 : Vec Ideal S39x16x128 .f32) (p : Fin 741) (l : Fin 128) :
    kernelRun0_A.sl.v501 (F := Ideal) c arg1 harg1 arg9 x0 (ix3 p (0 : Fin 1) l) = x0 (ix3 (Cert.Spec.ju p) (10 : Fin 16) l) * x0 (ix3 (Cert.Spec.iu p) (10 : Fin 16) l) := by
  unfold kernelRun0_A.sl.v501
  rw [View.readCov_eq_canon']
  beta_reduce
  rw [col_idx 10 (by decide)]
  exact pairs_canon c arg1 harg1 x0 p (10 : Fin 16) l

theorem bi_col11 (c : Dev nD) (arg1 : Memref sig .tc .vmem S39x16x128 .f32) (harg1 : arg1.IsWhole) (arg9 : Memref sig .tc .vmem S741x16x128 .f32) (x0 : Vec Ideal S39x16x128 .f32) (p : Fin 741) (l : Fin 128) :
    kernelRun0_A.sl.v515 (F := Ideal) c arg1 harg1 arg9 x0 (ix3 p (0 : Fin 1) l) = x0 (ix3 (Cert.Spec.ju p) (11 : Fin 16) l) * x0 (ix3 (Cert.Spec.iu p) (11 : Fin 16) l) := by
  unfold kernelRun0_A.sl.v515
  rw [View.readCov_eq_canon']
  beta_reduce
  rw [col_idx 11 (by decide)]
  exact pairs_canon c arg1 harg1 x0 p (11 : Fin 16) l

theorem bi_col12 (c : Dev nD) (arg1 : Memref sig .tc .vmem S39x16x128 .f32) (harg1 : arg1.IsWhole) (arg9 : Memref sig .tc .vmem S741x16x128 .f32) (x0 : Vec Ideal S39x16x128 .f32) (p : Fin 741) (l : Fin 128) :
    kernelRun0_A.sl.v529 (F := Ideal) c arg1 harg1 arg9 x0 (ix3 p (0 : Fin 1) l) = x0 (ix3 (Cert.Spec.ju p) (12 : Fin 16) l) * x0 (ix3 (Cert.Spec.iu p) (12 : Fin 16) l) := by
  unfold kernelRun0_A.sl.v529
  rw [View.readCov_eq_canon']
  beta_reduce
  rw [col_idx 12 (by decide)]
  exact pairs_canon c arg1 harg1 x0 p (12 : Fin 16) l

theorem bi_col13 (c : Dev nD) (arg1 : Memref sig .tc .vmem S39x16x128 .f32) (harg1 : arg1.IsWhole) (arg9 : Memref sig .tc .vmem S741x16x128 .f32) (x0 : Vec Ideal S39x16x128 .f32) (p : Fin 741) (l : Fin 128) :
    kernelRun0_A.sl.v543 (F := Ideal) c arg1 harg1 arg9 x0 (ix3 p (0 : Fin 1) l) = x0 (ix3 (Cert.Spec.ju p) (13 : Fin 16) l) * x0 (ix3 (Cert.Spec.iu p) (13 : Fin 16) l) := by
  unfold kernelRun0_A.sl.v543
  rw [View.readCov_eq_canon']
  beta_reduce
  rw [col_idx 13 (by decide)]
  exact pairs_canon c arg1 harg1 x0 p (13 : Fin 16) l

theorem bi_col14 (c : Dev nD) (arg1 : Memref sig .tc .vmem S39x16x128 .f32) (harg1 : arg1.IsWhole) (arg9 : Memref sig .tc .vmem S741x16x128 .f32) (x0 : Vec Ideal S39x16x128 .f32) (p : Fin 741) (l : Fin 128) :
    kernelRun0_A.sl.v557 (F := Ideal) c arg1 harg1 arg9 x0 (ix3 p (0 : Fin 1) l) = x0 (ix3 (Cert.Spec.ju p) (14 : Fin 16) l) * x0 (ix3 (Cert.Spec.iu p) (14 : Fin 16) l) := by
  unfold kernelRun0_A.sl.v557
  rw [View.readCov_eq_canon']
  beta_reduce
  rw [col_idx 14 (by decide)]
  exact pairs_canon c arg1 harg1 x0 p (14 : Fin 16) l

theorem bi_col15 (c : Dev nD) (arg1 : Memref sig .tc .vmem S39x16x128 .f32) (harg1 : arg1.IsWhole) (arg9 : Memref sig .tc .vmem S741x16x128 .f32) (x0 : Vec Ideal S39x16x128 .f32) (p : Fin 741) (l : Fin 128) :
    kernelRun0_A.sl.v571 (F := Ideal) c arg1 harg1 arg9 x0 (ix3 p (0 : Fin 1) l) = x0 (ix3 (Cert.Spec.ju p) (15 : Fin 16) l) * x0 (ix3 (Cert.Spec.iu p) (15 : Fin 16) l) := by
  unfold kernelRun0_A.sl.v571
  rw [View.readCov_eq_canon']
  beta_reduce
  rw [col_idx 15 (by decide)]
  exact pairs_canon c arg1 harg1 x0 p (15 : Fin 16) l

end Cert.KernelIdeal.KValue

end
-- ==== Proof.KAtt.lean ====
/-
  The dense layer's accumulator, one store at a time.

  The second scratch buffer starts as the layer's bias broadcast over pairs and lanes; each of sixteen steps reads it back
  whole, adds the pairwise products' channel `e` (a column of the first scratch buffer, broadcast over the sixteen outputs)
  times row `e` of the layer's matrix (broadcast over pairs and lanes), and stores it whole again; a last step rectifies it.
  Each lemma reads one of these stores at an entry (p, a, l) in terms of the store before it.
-/
import proofs.«158778_j51101520888212_2_alg».proof.Proof.Gen.KernelIdeal.Frame
import proofs.«158778_j51101520888212_2_alg».proof.Proof.KOps
import Idealize.ShloMosaic.Lib.Pipeline.Value
import Idealize.ShloMosaic.Lib.Tactic

set_option maxRecDepth 16384

noncomputable section

namespace Cert.KernelIdeal.KValue

open Idealize.ShloMosaic Idealize.ShloMosaic.TcCoe Idealize.ShloMosaic.Tactic Idealize.SL.Sem
open ValueIdx Cert.KOps Cert.KernelIdeal Cert.KernelIdeal.Gen

/-- Before the first step the accumulator holds the bias of output `a`. -/
theorem att_start (c : Dev nD) (arg5 : Memref sig .tc .vmem S1x16 .f32) (harg5 : arg5.IsWhole) (arg10 : Memref sig .tc .vmem S741x16x128 .f32) (x4 : Vec Ideal S1x16 .f32) (p : Fin 741) (a : Fin 16) (l : Fin 128) :
    kernelRun0_A.sl.v363 (F := Ideal) c arg5 harg5 arg10 x4 (ix3 p a l) = x4 (ix2 (0 : Fin 1) a) := by
  unfold kernelRun0_A.sl.v363 kernelRun0_A.sl.HS1_1
  rw [View.readCov_unit_zero _ hz3]
  unfold k0_pay52
  simp only [View.readAt_eq_ld, harg5.read_unread, View.ld_unit_zero (S := S1x16) hz2, shapeCast_self]
  rw [bcast_row, cast_a_1a1, shapeCast_1a_a_apply]

/-- Step 0: the accumulator gains channel 0 of the pairwise products times entry (0, a) of the matrix. -/
theorem att_step0 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg9 : Memref sig .tc .vmem S741x16x128 .f32) (arg10 : Memref sig .tc .vmem S741x16x128 .f32) (x0 : Vec Ideal S39x16x128 .f32) (x3 : Vec Ideal S16x16 .f32) (x4 : Vec Ideal S1x16 .f32) (p : Fin 741) (a : Fin 16) (l : Fin 128) :
    kernelRun0_A.sl.v377 (F := Ideal) c arg1 harg1 arg4 harg4 arg5 harg5 arg9 arg10 x0 x3 x4 (ix3 p a l)
      = kernelRun0_A.sl.v363 (F := Ideal) c arg5 harg5 arg10 x4 (ix3 p a l) + kernelRun0_A.sl.v361 (F := Ideal) c arg1 harg1 arg9 x0 (ix3 p (0 : Fin 1) l) * x3 (ix2 (0 : Fin 16) a) := by
  unfold kernelRun0_A.sl.v377 kernelRun0_A.sl.HS1_2
  rw [View.readCov_cons_toLoadRect]
  simp only [k0_pay55, k0_pay53, k0_pay54, kernelRun0_A.sl.r_15, kernelRun0_A.sl.r_16, View.readAt_eq_ld, harg4.read_unread, View.ld_unit_zero (S := S16x16) hz2, shapeCast_self]
  simp only [addf_apply, mulf_apply, bcast_col, bcast_row, cast_nm_n1m, cast_n1m_nm, cast_a_1a1, shapeCast_1a_a_apply]
  rw [row_slice 0 _ _ 0 a (0 : Fin 16) rfl]

/-- Step 1: the accumulator gains channel 1 of the pairwise products times entry (1, a) of the matrix. -/
theorem att_step1 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg9 : Memref sig .tc .vmem S741x16x128 .f32) (arg10 : Memref sig .tc .vmem S741x16x128 .f32) (x0 : Vec Ideal S39x16x128 .f32) (x3 : Vec Ideal S16x16 .f32) (x4 : Vec Ideal S1x16 .f32) (p : Fin 741) (a : Fin 16) (l : Fin 128) :
    kernelRun0_A.sl.v391 (F := Ideal) c arg1 harg1 arg4 harg4 arg5 harg5 arg9 arg10 x0 x3 x4 (ix3 p a l)
      = kernelRun0_A.sl.v377 (F := Ideal) c arg1 harg1 arg4 harg4 arg5 harg5 arg9 arg10 x0 x3 x4 (ix3 p a l) + kernelRun0_A.sl.v375 (F := Ideal) c arg1 harg1 arg9 x0 (ix3 p (0 : Fin 1) l) * x3 (ix2 (1 : Fin 16) a) := by
  unfold kernelRun0_A.sl.v391 kernelRun0_A.sl.HS1_3
  rw [View.readCov_cons_toLoadRect]
  simp only [k0_pay56, kernelRun0_A.sl.r_10, View.readAt_eq_ld, harg4.read_unread, View.ld_unit_zero (S := S16x16) hz2, shapeCast_self]
  simp only [addf_apply, mulf_apply, bcast_col, bcast_row, cast_nm_n1m, cast_n1m_nm, cast_a_1a1, shapeCast_1a_a_apply]
  rw [row_slice 1 _ _ 0 a (1 : Fin 16) rfl]

/-- Step 2: the accumulator gains channel 2 of the pairwise products times entry (2, a) of the matrix. -/
theorem att_step2 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg9 : Memref sig .tc .vmem S741x16x128 .f32) (arg10 : Memref sig .tc .vmem S741x16x128 .f32) (x0 : Vec Ideal S39x16x128 .f32) (x3 : Vec Ideal S16x16 .f32) (x4 : Vec Ideal S1x16 .f32) (p : Fin 741) (a : Fin 16) (l : Fin 128) :
    kernelRun0_A.sl.v405 (F := Ideal) c arg1 harg1 arg4 harg4 arg5 harg5 arg9 arg10 x0 x3 x4 (ix3 p a l)
      = kernelRun0_A.sl.v391 (F := Ideal) c arg1 harg1 arg4 harg4 arg5 harg5 arg9 arg10 x0 x3 x4 (ix3 p a l) + kernelRun0_A.sl.v389 (F := Ideal) c arg1 harg1 arg9 x0 (ix3 p (0 : Fin 1) l) * x3 (ix2 (2 : Fin 16) a) := by
  unfold kernelRun0_A.sl.v405 kernelRun0_A.sl.HS1_4
  rw [View.readCov_cons_toLoadRect]
  simp only [k0_pay58, k0_pay57, kernelRun0_A.sl.r_17, kernelRun0_A.sl.r_10, View.readAt_eq_ld, harg4.read_unread, View.ld_unit_zero (S := S16x16) hz2, shapeCast_self]
  simp only [addf_apply, mulf_apply, bcast_col, bcast_row, cast_nm_n1m, cast_n1m_nm, cast_a_1a1, shapeCast_1a_a_apply]
  rw [row_slice 2 _ _ 0 a (2 : Fin 16) rfl]

/-- Step 3: the accumulator gains channel 3 of the pairwise products times entry (3, a) of the matrix. -/
theorem att_step3 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg9 : Memref sig .tc .vmem S741x16x128 .f32) (arg10 : Memref sig .tc .vmem S741x16x128 .f32) (x0 : Vec Ideal S39x16x128 .f32) (x3 : Vec Ideal S16x16 .f32) (x4 : Vec Ideal S1x16 .f32) (p : Fin 741) (a : Fin 16) (l : Fin 128) :
    kernelRun0_A.sl.v419 (F := Ideal) c arg1 harg1 arg4 harg4 arg5 harg5 arg9 arg10 x0 x3 x4 (ix3 p a l)
      = kernelRun0_A.sl.v405 (F := Ideal) c arg1 harg1 arg4 harg4 arg5 harg5 arg9 arg10 x0 x3 x4 (ix3 p a l) + kernelRun0_A.sl.v403 (F := Ideal) c arg1 harg1 arg9 x0 (ix3 p (0 : Fin 1) l) * x3 (ix2 (3 : Fin 16) a) := by
  unfold kernelRun0_A.sl.v419 kernelRun0_A.sl.HS1_5
  rw [View.readCov_cons_toLoadRect]
  simp only [k0_pay59, kernelRun0_A.sl.r_10, View.readAt_eq_ld, harg4.read_unread, View.ld_unit_zero (S := S16x16) hz2, shapeCast_self]
  simp only [addf_apply, mulf_apply, bcast_col, bcast_row, cast_nm_n1m, cast_n1m_nm, cast_a_1a1, shapeCast_1a_a_apply]
  rw [row_slice 3 _ _ 0 a (3 : Fin 16) rfl]

/-- Step 4: the accumulator gains channel 4 of the pairwise products times entry (4, a) of the matrix. -/
theorem att_step4 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg9 : Memref sig .tc .vmem S741x16x128 .f32) (arg10 : Memref sig .tc .vmem S741x16x128 .f32) (x0 : Vec Ideal S39x16x128 .f32) (x3 : Vec Ideal S16x16 .f32) (x4 : Vec Ideal S1x16 .f32) (p : Fin 741) (a : Fin 16) (l : Fin 128) :
    kernelRun0_A.sl.v433 (F := Ideal) c arg1 harg1 arg4 harg4 arg5 harg5 arg9 arg10 x0 x3 x4 (ix3 p a l)
      = kernelRun0_A.sl.v419 (F := Ideal) c arg1 harg1 arg4 harg4 arg5 harg5 arg9 arg10 x0 x3 x4 (ix3 p a l) + kernelRun0_A.sl.v417 (F := Ideal) c arg1 harg1 arg9 x0 (ix3 p (0 : Fin 1) l) * x3 (ix2 (4 : Fin 16) a) := by
  unfold kernelRun0_A.sl.v433 kernelRun0_A.sl.HS1_6
  rw [View.readCov_cons_toLoadRect]
  simp only [k0_pay60, kernelRun0_A.sl.r_10, View.readAt_eq_ld, harg4.read_unread, View.ld_unit_zero (S := S16x16) hz2, shapeCast_self]
  simp only [addf_apply, mulf_apply, bcast_col, bcast_row, cast_nm_n1m, cast_n1m_nm, cast_a_1a1, shapeCast_1a_a_apply]
  rw [row_slice 4 _ _ 0 a (4 : Fin 16) rfl]

/-- Step 5: the accumulator gains channel 5 of the pairwise products times entry (5, a) of the matrix. -/
theorem att_step5 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg9 : Memref sig .tc .vmem S741x16x128 .f32) (arg10 : Memref sig .tc .vmem S741x16x128 .f32) (x0 : Vec Ideal S39x16x128 .f32) (x3 : Vec Ideal S16x16 .f32) (x4 : Vec Ideal S1x16 .f32) (p : Fin 741) (a : Fin 16) (l : Fin 128) :
    kernelRun0_A.sl.v447 (F := Ideal) c arg1 harg1 arg4 harg4 arg5 harg5 arg9 arg10 x0 x3 x4 (ix3 p a l)
      = kernelRun0_A.sl.v433 (F := Ideal) c arg1 harg1 arg4 harg4 arg5 harg5 arg9 arg10 x0 x3 x4 (ix3 p a l) + kernelRun0_A.sl.v431 (F := Ideal) c arg1 harg1 arg9 x0 (ix3 p (0 : Fin 1) l) * x3 (ix2 (5 : Fin 16) a) := by
  unfold kernelRun0_A.sl.v447 kernelRun0_A.sl.HS1_7
  rw [View.readCov_cons_toLoadRect]
  simp only [k0_pay63, k0_pay61, k0_pay62, kernelRun0_A.sl.r_18, kernelRun0_A.sl.r_10, kernelRun0_A.sl.r_19, View.readAt_eq_ld, harg4.read_unread, View.ld_unit_zero (S := S16x16) hz2, shapeCast_self]
  simp only [addf_apply, mulf_apply, bcast_col, bcast_row, cast_nm_n1m, cast_n1m_nm, cast_a_1a1, shapeCast_1a_a_apply]
  rw [row_slice 5 _ _ 0 a (5 : Fin 16) rfl]

/-- Step 6: the accumulator gains channel 6 of the pairwise products times entry (6, a) of the matrix. -/
theorem att_step6 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg9 : Memref sig .tc .vmem S741x16x128 .f32) (arg10 : Memref sig .tc .vmem S741x16x128 .f32) (x0 : Vec Ideal S39x16x128 .f32) (x3 : Vec Ideal S16x16 .f32) (x4 : Vec Ideal S1x16 .f32) (p : Fin 741) (a : Fin 16) (l : Fin 128) :
    kernelRun0_A.sl.v461 (F := Ideal) c arg1 harg1 arg4 harg4 arg5 harg5 arg9 arg10 x0 x3 x4 (ix3 p a l)
      = kernelRun0_A.sl.v447 (F := Ideal) c arg1 harg1 arg4 harg4 arg5 harg5 arg9 arg10 x0 x3 x4 (ix3 p a l) + kernelRun0_A.sl.v445 (F := Ideal) c arg1 harg1 arg9 x0 (ix3 p (0 : Fin 1) l) * x3 (ix2 (6 : Fin 16) a) := by
  unfold kernelRun0_A.sl.v461 kernelRun0_A.sl.HS1_8
  rw [View.readCov_cons_toLoadRect]
  simp only [k0_pay64, kernelRun0_A.sl.r_10, View.readAt_eq_ld, harg4.read_unread, View.ld_unit_zero (S := S16x16) hz2, shapeCast_self]
  simp only [addf_apply, mulf_apply, bcast_col, bcast_row, cast_nm_n1m, cast_n1m_nm, cast_a_1a1, shapeCast_1a_a_apply]
  rw [row_slice 6 _ _ 0 a (6 : Fin 16) rfl]

/-- Step 7: the accumulator gains channel 7 of the pairwise products times entry (7, a) of the matrix. -/
theorem att_step7 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg9 : Memref sig .tc .vmem S741x16x128 .f32) (arg10 : Memref sig .tc .vmem S741x16x128 .f32) (x0 : Vec Ideal S39x16x128 .f32) (x3 : Vec Ideal S16x16 .f32) (x4 : Vec Ideal S1x16 .f32) (p : Fin 741) (a : Fin 16) (l : Fin 128) :
    kernelRun0_A.sl.v475 (F := Ideal) c arg1 harg1 arg4 harg4 arg5 harg5 arg9 arg10 x0 x3 x4 (ix3 p a l)
      = kernelRun0_A.sl.v461 (F := Ideal) c arg1 harg1 arg4 harg4 arg5 harg5 arg9 arg10 x0 x3 x4 (ix3 p a l) + kernelRun0_A.sl.v459 (F := Ideal) c arg1 harg1 arg9 x0 (ix3 p (0 : Fin 1) l) * x3 (ix2 (7 : Fin 16) a) := by
  unfold kernelRun0_A.sl.v475 kernelRun0_A.sl.HS1_9
  rw [View.readCov_cons_toLoadRect]
  simp only [k0_pay66, k0_pay65, kernelRun0_A.sl.r_20, kernelRun0_A.sl.r_10, View.readAt_eq_ld, harg4.read_unread, View.ld_unit_zero (S := S16x16) hz2, shapeCast_self]
  simp only [addf_apply, mulf_apply, bcast_col, bcast_row, cast_nm_n1m, cast_n1m_nm, cast_a_1a1, shapeCast_1a_a_apply]
  rw [row_slice 7 _ _ 0 a (7 : Fin 16) rfl]

/-- Step 8: the accumulator gains channel 8 of the pairwise products times entry (8, a) of the matrix. -/
theorem att_step8 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg9 : Memref sig .tc .vmem S741x16x128 .f32) (arg10 : Memref sig .tc .vmem S741x16x128 .f32) (x0 : Vec Ideal S39x16x128 .f32) (x3 : Vec Ideal S16x16 .f32) (x4 : Vec Ideal S1x16 .f32) (p : Fin 741) (a : Fin 16) (l : Fin 128) :
    kernelRun0_A.sl.v489 (F := Ideal) c arg1 harg1 arg4 harg4 arg5 harg5 arg9 arg10 x0 x3 x4 (ix3 p a l)
      = kernelRun0_A.sl.v475 (F := Ideal) c arg1 harg1 arg4 harg4 arg5 harg5 arg9 arg10 x0 x3 x4 (ix3 p a l) + kernelRun0_A.sl.v473 (F := Ideal) c arg1 harg1 arg9 x0 (ix3 p (0 : Fin 1) l) * x3 (ix2 (8 : Fin 16) a) := by
  unfold kernelRun0_A.sl.v489 kernelRun0_A.sl.HS1_10
  rw [View.readCov_cons_toLoadRect]
  simp only [k0_pay67, kernelRun0_A.sl.r_10, View.readAt_eq_ld, harg4.read_unread, View.ld_unit_zero (S := S16x16) hz2, shapeCast_self]
  simp only [addf_apply, mulf_apply, bcast_col, bcast_row, cast_nm_n1m, cast_n1m_nm, cast_a_1a1, shapeCast_1a_a_apply]
  rw [row_slice 8 _ _ 0 a (8 : Fin 16) rfl]

/-- Step 9: the accumulator gains channel 9 of the pairwise products times entry (9, a) of the matrix. -/
theorem att_step9 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg9 : Memref sig .tc .vmem S741x16x128 .f32) (arg10 : Memref sig .tc .vmem S741x16x128 .f32) (x0 : Vec Ideal S39x16x128 .f32) (x3 : Vec Ideal S16x16 .f32) (x4 : Vec Ideal S1x16 .f32) (p : Fin 741) (a : Fin 16) (l : Fin 128) :
    kernelRun0_A.sl.v503 (F := Ideal) c arg1 harg1 arg4 harg4 arg5 harg5 arg9 arg10 x0 x3 x4 (ix3 p a l)
      = kernelRun0_A.sl.v489 (F := Ideal) c arg1 harg1 arg4 harg4 arg5 harg5 arg9 arg10 x0 x3 x4 (ix3 p a l) + kernelRun0_A.sl.v487 (F := Ideal) c arg1 harg1 arg9 x0 (ix3 p (0 : Fin 1) l) * x3 (ix2 (9 : Fin 16) a) := by
  unfold kernelRun0_A.sl.v503 kernelRun0_A.sl.HS1_11
  rw [View.readCov_cons_toLoadRect]
  simp only [k0_pay68, kernelRun0_A.sl.r_10, View.readAt_eq_ld, harg4.read_unread, View.ld_unit_zero (S := S16x16) hz2, shapeCast_self]
  simp only [addf_apply, mulf_apply, bcast_col, bcast_row, cast_nm_n1m, cast_n1m_nm, cast_a_1a1, shapeCast_1a_a_apply]
  rw [row_slice 9 _ _ 0 a (9 : Fin 16) rfl]

/-- Step 10: the accumulator gains channel 10 of the pairwise products times entry (10, a) of the matrix. -/
theorem att_step10 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg9 : Memref sig .tc .vmem S741x16x128 .f32) (arg10 : Memref sig .tc .vmem S741x16x128 .f32) (x0 : Vec Ideal S39x16x128 .f32) (x3 : Vec Ideal S16x16 .f32) (x4 : Vec Ideal S1x16 .f32) (p : Fin 741) (a : Fin 16) (l : Fin 128) :
    kernelRun0_A.sl.v517 (F := Ideal) c arg1 harg1 arg4 harg4 arg5 harg5 arg9 arg10 x0 x3 x4 (ix3 p a l)
      = kernelRun0_A.sl.v503 (F := Ideal) c arg1 harg1 arg4 harg4 arg5 harg5 arg9 arg10 x0 x3 x4 (ix3 p a l) + kernelRun0_A.sl.v501 (F := Ideal) c arg1 harg1 arg9 x0 (ix3 p (0 : Fin 1) l) * x3 (ix2 (10 : Fin 16) a) := by
  unfold kernelRun0_A.sl.v517 kernelRun0_A.sl.HS1_12
  rw [View.readCov_cons_toLoadRect]
  simp only [k0_pay71, k0_pay69, k0_pay70, kernelRun0_A.sl.r_21, kernelRun0_A.sl.r_10, kernelRun0_A.sl.r_22, View.readAt_eq_ld, harg4.read_unread, View.ld_unit_zero (S := S16x16) hz2, shapeCast_self]
  simp only [addf_apply, mulf_apply, bcast_col, bcast_row, cast_nm_n1m, cast_n1m_nm, cast_a_1a1, shapeCast_1a_a_apply]
  rw [row_slice 10 _ _ 0 a (10 : Fin 16) rfl]

/-- Step 11: the accumulator gains channel 11 of the pairwise products times entry (11, a) of the matrix. -/
theorem att_step11 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg9 : Memref sig .tc .vmem S741x16x128 .f32) (arg10 : Memref sig .tc .vmem S741x16x128 .f32) (x0 : Vec Ideal S39x16x128 .f32) (x3 : Vec Ideal S16x16 .f32) (x4 : Vec Ideal S1x16 .f32) (p : Fin 741) (a : Fin 16) (l : Fin 128) :
    kernelRun0_A.sl.v531 (F := Ideal) c arg1 harg1 arg4 harg4 arg5 harg5 arg9 arg10 x0 x3 x4 (ix3 p a l)
      = kernelRun0_A.sl.v517 (F := Ideal) c arg1 harg1 arg4 harg4 arg5 harg5 arg9 arg10 x0 x3 x4 (ix3 p a l) + kernelRun0_A.sl.v515 (F := Ideal) c arg1 harg1 arg9 x0 (ix3 p (0 : Fin 1) l) * x3 (ix2 (11 : Fin 16) a) := by
  unfold kernelRun0_A.sl.v531 kernelRun0_A.sl.HS1_13
  rw [View.readCov_cons_toLoadRect]
  simp only [k0_pay72, kernelRun0_A.sl.r_10, View.readAt_eq_ld, harg4.read_unread, View.ld_unit_zero (S := S16x16) hz2, shapeCast_self]
  simp only [addf_apply, mulf_apply, bcast_col, bcast_row, cast_nm_n1m, cast_n1m_nm, cast_a_1a1, shapeCast_1a_a_apply]
  rw [row_slice 11 _ _ 0 a (11 : Fin 16) rfl]

/-- Step 12: the accumulator gains channel 12 of the pairwise products times entry (12, a) of the matrix. -/
theorem att_step12 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg9 : Memref sig .tc .vmem S741x16x128 .f32) (arg10 : Memref sig .tc .vmem S741x16x128 .f32) (x0 : Vec Ideal S39x16x128 .f32) (x3 : Vec Ideal S16x16 .f32) (x4 : Vec Ideal S1x16 .f32) (p : Fin 741) (a : Fin 16) (l : Fin 128) :
    kernelRun0_A.sl.v545 (F := Ideal) c arg1 harg1 arg4 harg4 arg5 harg5 arg9 arg10 x0 x3 x4 (ix3 p a l)
      = kernelRun0_A.sl.v531 (F := Ideal) c arg1 harg1 arg4 harg4 arg5 harg5 arg9 arg10 x0 x3 x4 (ix3 p a l) + kernelRun0_A.sl.v529 (F := Ideal) c arg1 harg1 arg9 x0 (ix3 p (0 : Fin 1) l) * x3 (ix2 (12 : Fin 16) a) := by
  unfold kernelRun0_A.sl.v545 kernelRun0_A.sl.HS1_14
  rw [View.readCov_cons_toLoadRect]
  simp only [k0_pay74, k0_pay73, kernelRun0_A.sl.r_23, kernelRun0_A.sl.r_10, View.readAt_eq_ld, harg4.read_unread, View.ld_unit_zero (S := S16x16) hz2, shapeCast_self]
  simp only [addf_apply, mulf_apply, bcast_col, bcast_row, cast_nm_n1m, cast_n1m_nm, cast_a_1a1, shapeCast_1a_a_apply]
  rw [row_slice 12 _ _ 0 a (12 : Fin 16) rfl]

/-- Step 13: the accumulator gains channel 13 of the pairwise products times entry (13, a) of the matrix. -/
theorem att_step13 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg9 : Memref sig .tc .vmem S741x16x128 .f32) (arg10 : Memref sig .tc .vmem S741x16x128 .f32) (x0 : Vec Ideal S39x16x128 .f32) (x3 : Vec Ideal S16x16 .f32) (x4 : Vec Ideal S1x16 .f32) (p : Fin 741) (a : Fin 16) (l : Fin 128) :
    kernelRun0_A.sl.v559 (F := Ideal) c arg1 harg1 arg4 harg4 arg5 harg5 arg9 arg10 x0 x3 x4 (ix3 p a l)
      = kernelRun0_A.sl.v545 (F := Ideal) c arg1 harg1 arg4 harg4 arg5 harg5 arg9 arg10 x0 x3 x4 (ix3 p a l) + kernelRun0_A.sl.v543 (F := Ideal) c arg1 harg1 arg9 x0 (ix3 p (0 : Fin 1) l) * x3 (ix2 (13 : Fin 16) a) := by
  unfold kernelRun0_A.sl.v559 kernelRun0_A.sl.HS1_15
  rw [View.readCov_cons_toLoadRect]
  simp only [k0_pay75, kernelRun0_A.sl.r_10, View.readAt_eq_ld, harg4.read_unread, View.ld_unit_zero (S := S16x16) hz2, shapeCast_self]
  simp only [addf_apply, mulf_apply, bcast_col, bcast_row, cast_nm_n1m, cast_n1m_nm, cast_a_1a1, shapeCast_1a_a_apply]
  rw [row_slice 13 _ _ 0 a (13 : Fin 16) rfl]

/-- Step 14: the accumulator gains channel 14 of the pairwise products times entry (14, a) of the matrix. -/
theorem att_step14 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg9 : Memref sig .tc .vmem S741x16x128 .f32) (arg10 : Memref sig .tc .vmem S741x16x128 .f32) (x0 : Vec Ideal S39x16x128 .f32) (x3 : Vec Ideal S16x16 .f32) (x4 : Vec Ideal S1x16 .f32) (p : Fin 741) (a : Fin 16) (l : Fin 128) :
    kernelRun0_A.sl.v573 (F := Ideal) c arg1 harg1 arg4 harg4 arg5 harg5 arg9 arg10 x0 x3 x4 (ix3 p a l)
      = kernelRun0_A.sl.v559 (F := Ideal) c arg1 harg1 arg4 harg4 arg5 harg5 arg9 arg10 x0 x3 x4 (ix3 p a l) + kernelRun0_A.sl.v557 (F := Ideal) c arg1 harg1 arg9 x0 (ix3 p (0 : Fin 1) l) * x3 (ix2 (14 : Fin 16) a) := by
  unfold kernelRun0_A.sl.v573 kernelRun0_A.sl.HS1_16
  rw [View.readCov_cons_toLoadRect]
  simp only [k0_pay76, kernelRun0_A.sl.r_10, View.readAt_eq_ld, harg4.read_unread, View.ld_unit_zero (S := S16x16) hz2, shapeCast_self]
  simp only [addf_apply, mulf_apply, bcast_col, bcast_row, cast_nm_n1m, cast_n1m_nm, cast_a_1a1, shapeCast_1a_a_apply]
  rw [row_slice 14 _ _ 0 a (14 : Fin 16) rfl]

/-- Step 15: the accumulator gains channel 15 of the pairwise products times entry (15, a) of the matrix. -/
theorem att_step15 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg9 : Memref sig .tc .vmem S741x16x128 .f32) (arg10 : Memref sig .tc .vmem S741x16x128 .f32) (x0 : Vec Ideal S39x16x128 .f32) (x3 : Vec Ideal S16x16 .f32) (x4 : Vec Ideal S1x16 .f32) (p : Fin 741) (a : Fin 16) (l : Fin 128) :
    kernelRun0_A.sl.v583 (F := Ideal) c arg1 harg1 arg4 harg4 arg5 harg5 arg9 arg10 x0 x3 x4 (ix3 p a l)
      = kernelRun0_A.sl.v573 (F := Ideal) c arg1 harg1 arg4 harg4 arg5 harg5 arg9 arg10 x0 x3 x4 (ix3 p a l) + kernelRun0_A.sl.v571 (F := Ideal) c arg1 harg1 arg9 x0 (ix3 p (0 : Fin 1) l) * x3 (ix2 (15 : Fin 16) a) := by
  unfold kernelRun0_A.sl.v583 kernelRun0_A.sl.HS1_17
  rw [View.readCov_cons_toLoadRect]
  simp only [k0_pay79, k0_pay77, k0_pay78, kernelRun0_A.sl.r_24, kernelRun0_A.sl.r_10, kernelRun0_A.sl.r_25, View.readAt_eq_ld, harg4.read_unread, View.ld_unit_zero (S := S16x16) hz2, shapeCast_self]
  simp only [addf_apply, mulf_apply, bcast_col, bcast_row, cast_nm_n1m, cast_n1m_nm, cast_a_1a1, shapeCast_1a_a_apply]
  rw [row_slice 15 _ _ 0 a (15 : Fin 16) rfl]

/-- Column 0 of the rectified accumulator. -/
theorem relu_col0 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg9 : Memref sig .tc .vmem S741x16x128 .f32) (arg10 : Memref sig .tc .vmem S741x16x128 .f32) (x0 : Vec Ideal S39x16x128 .f32) (x3 : Vec Ideal S16x16 .f32) (x4 : Vec Ideal S1x16 .f32) (p : Fin 741) (l : Fin 128) :
    kernelRun0_A.sl.v596 (F := Ideal) c arg1 harg1 arg4 harg4 arg5 harg5 arg9 arg10 x0 x3 x4 (ix3 p (0 : Fin 1) l) = max (kernelRun0_A.sl.v583 (F := Ideal) c arg1 harg1 arg4 harg4 arg5 harg5 arg9 arg10 x0 x3 x4 (ix3 p (0 : Fin 16) l)) (Ideal.ofBits .f32 0x00000000#32) := by
  unfold kernelRun0_A.sl.v596 kernelRun0_A.sl.HS1_18
  rw [View.readCov_eq_canon', View.canon_cons_unit_zero hz3]
  beta_reduce
  rw [col_idx 0 (by decide)]
  unfold k0_pay80
  simp only [shapeCast_self]
  rfl

/-- Column 1 of the rectified accumulator. -/
theorem relu_col1 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg9 : Memref sig .tc .vmem S741x16x128 .f32) (arg10 : Memref sig .tc .vmem S741x16x128 .f32) (x0 : Vec Ideal S39x16x128 .f32) (x3 : Vec Ideal S16x16 .f32) (x4 : Vec Ideal S1x16 .f32) (p : Fin 741) (l : Fin 128) :
    kernelRun0_A.sl.v607 (F := Ideal) c arg1 harg1 arg4 harg4 arg5 harg5 arg9 arg10 x0 x3 x4 (ix3 p (0 : Fin 1) l) = max (kernelRun0_A.sl.v583 (F := Ideal) c arg1 harg1 arg4 harg4 arg5 harg5 arg9 arg10 x0 x3 x4 (ix3 p (1 : Fin 16) l)) (Ideal.ofBits .f32 0x00000000#32) := by
  unfold kernelRun0_A.sl.v607 kernelRun0_A.sl.HS1_18
  rw [View.readCov_eq_canon', View.canon_cons_unit_zero hz3]
  beta_reduce
  rw [col_idx 1 (by decide)]
  unfold k0_pay80
  simp only [shapeCast_self]
  rfl

/-- Column 2 of the rectified accumulator. -/
theorem relu_col2 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg9 : Memref sig .tc .vmem S741x16x128 .f32) (arg10 : Memref sig .tc .vmem S741x16x128 .f32) (x0 : Vec Ideal S39x16x128 .f32) (x3 : Vec Ideal S16x16 .f32) (x4 : Vec Ideal S1x16 .f32) (p : Fin 741) (l : Fin 128) :
    kernelRun0_A.sl.v618 (F := Ideal) c arg1 harg1 arg4 harg4 arg5 harg5 arg9 arg10 x0 x3 x4 (ix3 p (0 : Fin 1) l) = max (kernelRun0_A.sl.v583 (F := Ideal) c arg1 harg1 arg4 harg4 arg5 harg5 arg9 arg10 x0 x3 x4 (ix3 p (2 : Fin 16) l)) (Ideal.ofBits .f32 0x00000000#32) := by
  unfold kernelRun0_A.sl.v618 kernelRun0_A.sl.HS1_18
  rw [View.readCov_eq_canon', View.canon_cons_unit_zero hz3]
  beta_reduce
  rw [col_idx 2 (by decide)]
  unfold k0_pay80
  simp only [shapeCast_self]
  rfl

/-- Column 3 of the rectified accumulator. -/
theorem relu_col3 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg9 : Memref sig .tc .vmem S741x16x128 .f32) (arg10 : Memref sig .tc .vmem S741x16x128 .f32) (x0 : Vec Ideal S39x16x128 .f32) (x3 : Vec Ideal S16x16 .f32) (x4 : Vec Ideal S1x16 .f32) (p : Fin 741) (l : Fin 128) :
    kernelRun0_A.sl.v629 (F := Ideal) c arg1 harg1 arg4 harg4 arg5 harg5 arg9 arg10 x0 x3 x4 (ix3 p (0 : Fin 1) l) = max (kernelRun0_A.sl.v583 (F := Ideal) c arg1 harg1 arg4 harg4 arg5 harg5 arg9 arg10 x0 x3 x4 (ix3 p (3 : Fin 16) l)) (Ideal.ofBits .f32 0x00000000#32) := by
  unfold kernelRun0_A.sl.v629 kernelRun0_A.sl.HS1_18
  rw [View.readCov_eq_canon', View.canon_cons_unit_zero hz3]
  beta_reduce
  rw [col_idx 3 (by decide)]
  unfold k0_pay80
  simp only [shapeCast_self]
  rfl

/-- Column 4 of the rectified accumulator. -/
theorem relu_col4 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg9 : Memref sig .tc .vmem S741x16x128 .f32) (arg10 : Memref sig .tc .vmem S741x16x128 .f32) (x0 : Vec Ideal S39x16x128 .f32) (x3 : Vec Ideal S16x16 .f32) (x4 : Vec Ideal S1x16 .f32) (p : Fin 741) (l : Fin 128) :
    kernelRun0_A.sl.v640 (F := Ideal) c arg1 harg1 arg4 harg4 arg5 harg5 arg9 arg10 x0 x3 x4 (ix3 p (0 : Fin 1) l) = max (kernelRun0_A.sl.v583 (F := Ideal) c arg1 harg1 arg4 harg4 arg5 harg5 arg9 arg10 x0 x3 x4 (ix3 p (4 : Fin 16) l)) (Ideal.ofBits .f32 0x00000000#32) := by
  unfold kernelRun0_A.sl.v640 kernelRun0_A.sl.HS1_18
  rw [View.readCov_eq_canon', View.canon_cons_unit_zero hz3]
  beta_reduce
  rw [col_idx 4 (by decide)]
  unfold k0_pay80
  simp only [shapeCast_self]
  rfl

/-- Column 5 of the rectified accumulator. -/
theorem relu_col5 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg9 : Memref sig .tc .vmem S741x16x128 .f32) (arg10 : Memref sig .tc .vmem S741x16x128 .f32) (x0 : Vec Ideal S39x16x128 .f32) (x3 : Vec Ideal S16x16 .f32) (x4 : Vec Ideal S1x16 .f32) (p : Fin 741) (l : Fin 128) :
    kernelRun0_A.sl.v651 (F := Ideal) c arg1 harg1 arg4 harg4 arg5 harg5 arg9 arg10 x0 x3 x4 (ix3 p (0 : Fin 1) l) = max (kernelRun0_A.sl.v583 (F := Ideal) c arg1 harg1 arg4 harg4 arg5 harg5 arg9 arg10 x0 x3 x4 (ix3 p (5 : Fin 16) l)) (Ideal.ofBits .f32 0x00000000#32) := by
  unfold kernelRun0_A.sl.v651 kernelRun0_A.sl.HS1_18
  rw [View.readCov_eq_canon', View.canon_cons_unit_zero hz3]
  beta_reduce
  rw [col_idx 5 (by decide)]
  unfold k0_pay80
  simp only [shapeCast_self]
  rfl

/-- Column 6 of the rectified accumulator. -/
theorem relu_col6 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg9 : Memref sig .tc .vmem S741x16x128 .f32) (arg10 : Memref sig .tc .vmem S741x16x128 .f32) (x0 : Vec Ideal S39x16x128 .f32) (x3 : Vec Ideal S16x16 .f32) (x4 : Vec Ideal S1x16 .f32) (p : Fin 741) (l : Fin 128) :
    kernelRun0_A.sl.v662 (F := Ideal) c arg1 harg1 arg4 harg4 arg5 harg5 arg9 arg10 x0 x3 x4 (ix3 p (0 : Fin 1) l) = max (kernelRun0_A.sl.v583 (F := Ideal) c arg1 harg1 arg4 harg4 arg5 harg5 arg9 arg10 x0 x3 x4 (ix3 p (6 : Fin 16) l)) (Ideal.ofBits .f32 0x00000000#32) := by
  unfold kernelRun0_A.sl.v662 kernelRun0_A.sl.HS1_18
  rw [View.readCov_eq_canon', View.canon_cons_unit_zero hz3]
  beta_reduce
  rw [col_idx 6 (by decide)]
  unfold k0_pay80
  simp only [shapeCast_self]
  rfl

/-- Column 7 of the rectified accumulator. -/
theorem relu_col7 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg9 : Memref sig .tc .vmem S741x16x128 .f32) (arg10 : Memref sig .tc .vmem S741x16x128 .f32) (x0 : Vec Ideal S39x16x128 .f32) (x3 : Vec Ideal S16x16 .f32) (x4 : Vec Ideal S1x16 .f32) (p : Fin 741) (l : Fin 128) :
    kernelRun0_A.sl.v673 (F := Ideal) c arg1 harg1 arg4 harg4 arg5 harg5 arg9 arg10 x0 x3 x4 (ix3 p (0 : Fin 1) l) = max (kernelRun0_A.sl.v583 (F := Ideal) c arg1 harg1 arg4 harg4 arg5 harg5 arg9 arg10 x0 x3 x4 (ix3 p (7 : Fin 16) l)) (Ideal.ofBits .f32 0x00000000#32) := by
  unfold kernelRun0_A.sl.v673 kernelRun0_A.sl.HS1_18
  rw [View.readCov_eq_canon', View.canon_cons_unit_zero hz3]
  beta_reduce
  rw [col_idx 7 (by decide)]
  unfold k0_pay80
  simp only [shapeCast_self]
  rfl

/-- Column 8 of the rectified accumulator. -/
theorem relu_col8 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg9 : Memref sig .tc .vmem S741x16x128 .f32) (arg10 : Memref sig .tc .vmem S741x16x128 .f32) (x0 : Vec Ideal S39x16x128 .f32) (x3 : Vec Ideal S16x16 .f32) (x4 : Vec Ideal S1x16 .f32) (p : Fin 741) (l : Fin 128) :
    kernelRun0_A.sl.v684 (F := Ideal) c arg1 harg1 arg4 harg4 arg5 harg5 arg9 arg10 x0 x3 x4 (ix3 p (0 : Fin 1) l) = max (kernelRun0_A.sl.v583 (F := Ideal) c arg1 harg1 arg4 harg4 arg5 harg5 arg9 arg10 x0 x3 x4 (ix3 p (8 : Fin 16) l)) (Ideal.ofBits .f32 0x00000000#32) := by
  unfold kernelRun0_A.sl.v684 kernelRun0_A.sl.HS1_18
  rw [View.readCov_eq_canon', View.canon_cons_unit_zero hz3]
  beta_reduce
  rw [col_idx 8 (by decide)]
  unfold k0_pay80
  simp only [shapeCast_self]
  rfl

/-- Column 9 of the rectified accumulator. -/
theorem relu_col9 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg9 : Memref sig .tc .vmem S741x16x128 .f32) (arg10 : Memref sig .tc .vmem S741x16x128 .f32) (x0 : Vec Ideal S39x16x128 .f32) (x3 : Vec Ideal S16x16 .f32) (x4 : Vec Ideal S1x16 .f32) (p : Fin 741) (l : Fin 128) :
    kernelRun0_A.sl.v695 (F := Ideal) c arg1 harg1 arg4 harg4 arg5 harg5 arg9 arg10 x0 x3 x4 (ix3 p (0 : Fin 1) l) = max (kernelRun0_A.sl.v583 (F := Ideal) c arg1 harg1 arg4 harg4 arg5 harg5 arg9 arg10 x0 x3 x4 (ix3 p (9 : Fin 16) l)) (Ideal.ofBits .f32 0x00000000#32) := by
  unfold kernelRun0_A.sl.v695 kernelRun0_A.sl.HS1_18
  rw [View.readCov_eq_canon', View.canon_cons_unit_zero hz3]
  beta_reduce
  rw [col_idx 9 (by decide)]
  unfold k0_pay80
  simp only [shapeCast_self]
  rfl

/-- Column 10 of the rectified accumulator. -/
theorem relu_col10 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg9 : Memref sig .tc .vmem S741x16x128 .f32) (arg10 : Memref sig .tc .vmem S741x16x128 .f32) (x0 : Vec Ideal S39x16x128 .f32) (x3 : Vec Ideal S16x16 .f32) (x4 : Vec Ideal S1x16 .f32) (p : Fin 741) (l : Fin 128) :
    kernelRun0_A.sl.v706 (F := Ideal) c arg1 harg1 arg4 harg4 arg5 harg5 arg9 arg10 x0 x3 x4 (ix3 p (0 : Fin 1) l) = max (kernelRun0_A.sl.v583 (F := Ideal) c arg1 harg1 arg4 harg4 arg5 harg5 arg9 arg10 x0 x3 x4 (ix3 p (10 : Fin 16) l)) (Ideal.ofBits .f32 0x00000000#32) := by
  unfold kernelRun0_A.sl.v706 kernelRun0_A.sl.HS1_18
  rw [View.readCov_eq_canon', View.canon_cons_unit_zero hz3]
  beta_reduce
  rw [col_idx 10 (by decide)]
  unfold k0_pay80
  simp only [shapeCast_self]
  rfl

/-- Column 11 of the rectified accumulator. -/
theorem relu_col11 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg9 : Memref sig .tc .vmem S741x16x128 .f32) (arg10 : Memref sig .tc .vmem S741x16x128 .f32) (x0 : Vec Ideal S39x16x128 .f32) (x3 : Vec Ideal S16x16 .f32) (x4 : Vec Ideal S1x16 .f32) (p : Fin 741) (l : Fin 128) :
    kernelRun0_A.sl.v717 (F := Ideal) c arg1 harg1 arg4 harg4 arg5 harg5 arg9 arg10 x0 x3 x4 (ix3 p (0 : Fin 1) l) = max (kernelRun0_A.sl.v583 (F := Ideal) c arg1 harg1 arg4 harg4 arg5 harg5 arg9 arg10 x0 x3 x4 (ix3 p (11 : Fin 16) l)) (Ideal.ofBits .f32 0x00000000#32) := by
  unfold kernelRun0_A.sl.v717 kernelRun0_A.sl.HS1_18
  rw [View.readCov_eq_canon', View.canon_cons_unit_zero hz3]
  beta_reduce
  rw [col_idx 11 (by decide)]
  unfold k0_pay80
  simp only [shapeCast_self]
  rfl

/-- Column 12 of the rectified accumulator. -/
theorem relu_col12 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg9 : Memref sig .tc .vmem S741x16x128 .f32) (arg10 : Memref sig .tc .vmem S741x16x128 .f32) (x0 : Vec Ideal S39x16x128 .f32) (x3 : Vec Ideal S16x16 .f32) (x4 : Vec Ideal S1x16 .f32) (p : Fin 741) (l : Fin 128) :
    kernelRun0_A.sl.v728 (F := Ideal) c arg1 harg1 arg4 harg4 arg5 harg5 arg9 arg10 x0 x3 x4 (ix3 p (0 : Fin 1) l) = max (kernelRun0_A.sl.v583 (F := Ideal) c arg1 harg1 arg4 harg4 arg5 harg5 arg9 arg10 x0 x3 x4 (ix3 p (12 : Fin 16) l)) (Ideal.ofBits .f32 0x00000000#32) := by
  unfold kernelRun0_A.sl.v728 kernelRun0_A.sl.HS1_18
  rw [View.readCov_eq_canon', View.canon_cons_unit_zero hz3]
  beta_reduce
  rw [col_idx 12 (by decide)]
  unfold k0_pay80
  simp only [shapeCast_self]
  rfl

/-- Column 13 of the rectified accumulator. -/
theorem relu_col13 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg9 : Memref sig .tc .vmem S741x16x128 .f32) (arg10 : Memref sig .tc .vmem S741x16x128 .f32) (x0 : Vec Ideal S39x16x128 .f32) (x3 : Vec Ideal S16x16 .f32) (x4 : Vec Ideal S1x16 .f32) (p : Fin 741) (l : Fin 128) :
    kernelRun0_A.sl.v739 (F := Ideal) c arg1 harg1 arg4 harg4 arg5 harg5 arg9 arg10 x0 x3 x4 (ix3 p (0 : Fin 1) l) = max (kernelRun0_A.sl.v583 (F := Ideal) c arg1 harg1 arg4 harg4 arg5 harg5 arg9 arg10 x0 x3 x4 (ix3 p (13 : Fin 16) l)) (Ideal.ofBits .f32 0x00000000#32) := by
  unfold kernelRun0_A.sl.v739 kernelRun0_A.sl.HS1_18
  rw [View.readCov_eq_canon', View.canon_cons_unit_zero hz3]
  beta_reduce
  rw [col_idx 13 (by decide)]
  unfold k0_pay80
  simp only [shapeCast_self]
  rfl

/-- Column 14 of the rectified accumulator. -/
theorem relu_col14 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg9 : Memref sig .tc .vmem S741x16x128 .f32) (arg10 : Memref sig .tc .vmem S741x16x128 .f32) (x0 : Vec Ideal S39x16x128 .f32) (x3 : Vec Ideal S16x16 .f32) (x4 : Vec Ideal S1x16 .f32) (p : Fin 741) (l : Fin 128) :
    kernelRun0_A.sl.v750 (F := Ideal) c arg1 harg1 arg4 harg4 arg5 harg5 arg9 arg10 x0 x3 x4 (ix3 p (0 : Fin 1) l) = max (kernelRun0_A.sl.v583 (F := Ideal) c arg1 harg1 arg4 harg4 arg5 harg5 arg9 arg10 x0 x3 x4 (ix3 p (14 : Fin 16) l)) (Ideal.ofBits .f32 0x00000000#32) := by
  unfold kernelRun0_A.sl.v750 kernelRun0_A.sl.HS1_18
  rw [View.readCov_eq_canon', View.canon_cons_unit_zero hz3]
  beta_reduce
  rw [col_idx 14 (by decide)]
  unfold k0_pay80
  simp only [shapeCast_self]
  rfl

/-- Column 15 of the rectified accumulator. -/
theorem relu_col15 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg9 : Memref sig .tc .vmem S741x16x128 .f32) (arg10 : Memref sig .tc .vmem S741x16x128 .f32) (x0 : Vec Ideal S39x16x128 .f32) (x3 : Vec Ideal S16x16 .f32) (x4 : Vec Ideal S1x16 .f32) (p : Fin 741) (l : Fin 128) :
    kernelRun0_A.sl.v761 (F := Ideal) c arg1 harg1 arg4 harg4 arg5 harg5 arg9 arg10 x0 x3 x4 (ix3 p (0 : Fin 1) l) = max (kernelRun0_A.sl.v583 (F := Ideal) c arg1 harg1 arg4 harg4 arg5 harg5 arg9 arg10 x0 x3 x4 (ix3 p (15 : Fin 16) l)) (Ideal.ofBits .f32 0x00000000#32) := by
  unfold kernelRun0_A.sl.v761 kernelRun0_A.sl.HS1_18
  rw [View.readCov_eq_canon', View.canon_cons_unit_zero hz3]
  beta_reduce
  rw [col_idx 15 (by decide)]
  unfold k0_pay80
  simp only [shapeCast_self]
  rfl

end Cert.KernelIdeal.KValue

end
-- ==== Proof.KScore.lean ====
/-
  The logit's accumulator, one store at a time.

  The third scratch buffer starts at zero; each of sixteen steps reads it back whole, adds column `a` of the rectified dense
  layer times entry `a` of the logit projection, and stores it whole again. Each lemma reads one of these stores at an
  entry (p, l) in terms of the store before it.
-/
import proofs.«158778_j51101520888212_2_alg».proof.Proof.Gen.KernelIdeal.Frame
import proofs.«158778_j51101520888212_2_alg».proof.Proof.KOps
import Idealize.ShloMosaic.Lib.Pipeline.Value
import Idealize.ShloMosaic.Lib.Tactic

set_option maxRecDepth 16384

noncomputable section

namespace Cert.KernelIdeal.KValue

open Idealize.ShloMosaic Idealize.ShloMosaic.TcCoe Idealize.ShloMosaic.Tactic Idealize.SL.Sem
open ValueIdx Cert.KOps Cert.KernelIdeal Cert.KernelIdeal.Gen

/-- Before the first step the accumulator holds zero. -/
theorem score_start (c : Dev nD) (arg11 : Memref sig .tc .vmem S741x128 .f32) (p : Fin 741) (l : Fin 128) :
    kernelRun0_A.sl.v595 (F := Ideal) c arg11 (ix2 p l) = Ideal.ofBits .f32 0x00000000#32 := by
  unfold kernelRun0_A.sl.v595 kernelRun0_A.sl.HS2_1
  rw [View.readCov_unit_zero _ hz2]
  unfold k0_pay81
  simp only [shapeCast_self]
  rfl

/-- Step 0: the accumulator gains column 0 of the rectified layer times entry 0 of the projection. -/
theorem score_step0 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg6 : Memref sig .tc .vmem S16x1 .f32) (harg6 : arg6.IsWhole) (arg9 : Memref sig .tc .vmem S741x16x128 .f32) (arg10 : Memref sig .tc .vmem S741x16x128 .f32) (arg11 : Memref sig .tc .vmem S741x128 .f32) (x0 : Vec Ideal S39x16x128 .f32) (x3 : Vec Ideal S16x16 .f32) (x4 : Vec Ideal S1x16 .f32) (x5 : Vec Ideal S16x1 .f32) (p : Fin 741) (l : Fin 128) :
    kernelRun0_A.sl.v606 (F := Ideal) c arg1 harg1 arg4 harg4 arg5 harg5 arg6 harg6 arg9 arg10 arg11 x0 x3 x4 x5 (ix2 p l)
      = kernelRun0_A.sl.v595 (F := Ideal) c arg11 (ix2 p l) + kernelRun0_A.sl.v596 (F := Ideal) c arg1 harg1 arg4 harg4 arg5 harg5 arg9 arg10 x0 x3 x4 (ix3 p (0 : Fin 1) l) * x5 (ix2 (0 : Fin 16) (0 : Fin 1)) := by
  unfold kernelRun0_A.sl.v606 kernelRun0_A.sl.HS2_2
  rw [View.readCov_cons_toLoadRect]
  simp only [k0_pay82, kernelRun0_A.sl.r_11, View.readAt_eq_ld, harg6.read_unread, View.ld_unit_zero (S := S16x1) hz2, shapeCast_self]
  simp only [addf_apply, mulf_apply, cast_n1m_nm, broadcast_apply, extractAt_11]
  rw [row_slice 0 _ _ 0 0 (0 : Fin 16) rfl]

/-- Step 1: the accumulator gains column 1 of the rectified layer times entry 1 of the projection. -/
theorem score_step1 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg6 : Memref sig .tc .vmem S16x1 .f32) (harg6 : arg6.IsWhole) (arg9 : Memref sig .tc .vmem S741x16x128 .f32) (arg10 : Memref sig .tc .vmem S741x16x128 .f32) (arg11 : Memref sig .tc .vmem S741x128 .f32) (x0 : Vec Ideal S39x16x128 .f32) (x3 : Vec Ideal S16x16 .f32) (x4 : Vec Ideal S1x16 .f32) (x5 : Vec Ideal S16x1 .f32) (p : Fin 741) (l : Fin 128) :
    kernelRun0_A.sl.v617 (F := Ideal) c arg1 harg1 arg4 harg4 arg5 harg5 arg6 harg6 arg9 arg10 arg11 x0 x3 x4 x5 (ix2 p l)
      = kernelRun0_A.sl.v606 (F := Ideal) c arg1 harg1 arg4 harg4 arg5 harg5 arg6 harg6 arg9 arg10 arg11 x0 x3 x4 x5 (ix2 p l) + kernelRun0_A.sl.v607 (F := Ideal) c arg1 harg1 arg4 harg4 arg5 harg5 arg9 arg10 x0 x3 x4 (ix3 p (0 : Fin 1) l) * x5 (ix2 (1 : Fin 16) (0 : Fin 1)) := by
  unfold kernelRun0_A.sl.v617 kernelRun0_A.sl.HS2_3
  rw [View.readCov_cons_toLoadRect]
  simp only [k0_pay84, k0_pay83, kernelRun0_A.sl.r_26, kernelRun0_A.sl.r_11, View.readAt_eq_ld, harg6.read_unread, View.ld_unit_zero (S := S16x1) hz2, shapeCast_self]
  simp only [addf_apply, mulf_apply, cast_n1m_nm, broadcast_apply, extractAt_11]
  rw [row_slice 1 _ _ 0 0 (1 : Fin 16) rfl]

/-- Step 2: the accumulator gains column 2 of the rectified layer times entry 2 of the projection. -/
theorem score_step2 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg6 : Memref sig .tc .vmem S16x1 .f32) (harg6 : arg6.IsWhole) (arg9 : Memref sig .tc .vmem S741x16x128 .f32) (arg10 : Memref sig .tc .vmem S741x16x128 .f32) (arg11 : Memref sig .tc .vmem S741x128 .f32) (x0 : Vec Ideal S39x16x128 .f32) (x3 : Vec Ideal S16x16 .f32) (x4 : Vec Ideal S1x16 .f32) (x5 : Vec Ideal S16x1 .f32) (p : Fin 741) (l : Fin 128) :
    kernelRun0_A.sl.v628 (F := Ideal) c arg1 harg1 arg4 harg4 arg5 harg5 arg6 harg6 arg9 arg10 arg11 x0 x3 x4 x5 (ix2 p l)
      = kernelRun0_A.sl.v617 (F := Ideal) c arg1 harg1 arg4 harg4 arg5 harg5 arg6 harg6 arg9 arg10 arg11 x0 x3 x4 x5 (ix2 p l) + kernelRun0_A.sl.v618 (F := Ideal) c arg1 harg1 arg4 harg4 arg5 harg5 arg9 arg10 x0 x3 x4 (ix3 p (0 : Fin 1) l) * x5 (ix2 (2 : Fin 16) (0 : Fin 1)) := by
  unfold kernelRun0_A.sl.v628 kernelRun0_A.sl.HS2_4
  rw [View.readCov_cons_toLoadRect]
  simp only [k0_pay85, kernelRun0_A.sl.r_11, View.readAt_eq_ld, harg6.read_unread, View.ld_unit_zero (S := S16x1) hz2, shapeCast_self]
  simp only [addf_apply, mulf_apply, cast_n1m_nm, broadcast_apply, extractAt_11]
  rw [row_slice 2 _ _ 0 0 (2 : Fin 16) rfl]

/-- Step 3: the accumulator gains column 3 of the rectified layer times entry 3 of the projection. -/
theorem score_step3 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg6 : Memref sig .tc .vmem S16x1 .f32) (harg6 : arg6.IsWhole) (arg9 : Memref sig .tc .vmem S741x16x128 .f32) (arg10 : Memref sig .tc .vmem S741x16x128 .f32) (arg11 : Memref sig .tc .vmem S741x128 .f32) (x0 : Vec Ideal S39x16x128 .f32) (x3 : Vec Ideal S16x16 .f32) (x4 : Vec Ideal S1x16 .f32) (x5 : Vec Ideal S16x1 .f32) (p : Fin 741) (l : Fin 128) :
    kernelRun0_A.sl.v639 (F := Ideal) c arg1 harg1 arg4 harg4 arg5 harg5 arg6 harg6 arg9 arg10 arg11 x0 x3 x4 x5 (ix2 p l)
      = kernelRun0_A.sl.v628 (F := Ideal) c arg1 harg1 arg4 harg4 arg5 harg5 arg6 harg6 arg9 arg10 arg11 x0 x3 x4 x5 (ix2 p l) + kernelRun0_A.sl.v629 (F := Ideal) c arg1 harg1 arg4 harg4 arg5 harg5 arg9 arg10 x0 x3 x4 (ix3 p (0 : Fin 1) l) * x5 (ix2 (3 : Fin 16) (0 : Fin 1)) := by
  unfold kernelRun0_A.sl.v639 kernelRun0_A.sl.HS2_5
  rw [View.readCov_cons_toLoadRect]
  simp only [k0_pay86, kernelRun0_A.sl.r_11, View.readAt_eq_ld, harg6.read_unread, View.ld_unit_zero (S := S16x1) hz2, shapeCast_self]
  simp only [addf_apply, mulf_apply, cast_n1m_nm, broadcast_apply, extractAt_11]
  rw [row_slice 3 _ _ 0 0 (3 : Fin 16) rfl]

/-- Step 4: the accumulator gains column 4 of the rectified layer times entry 4 of the projection. -/
theorem score_step4 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg6 : Memref sig .tc .vmem S16x1 .f32) (harg6 : arg6.IsWhole) (arg9 : Memref sig .tc .vmem S741x16x128 .f32) (arg10 : Memref sig .tc .vmem S741x16x128 .f32) (arg11 : Memref sig .tc .vmem S741x128 .f32) (x0 : Vec Ideal S39x16x128 .f32) (x3 : Vec Ideal S16x16 .f32) (x4 : Vec Ideal S1x16 .f32) (x5 : Vec Ideal S16x1 .f32) (p : Fin 741) (l : Fin 128) :
    kernelRun0_A.sl.v650 (F := Ideal) c arg1 harg1 arg4 harg4 arg5 harg5 arg6 harg6 arg9 arg10 arg11 x0 x3 x4 x5 (ix2 p l)
      = kernelRun0_A.sl.v639 (F := Ideal) c arg1 harg1 arg4 harg4 arg5 harg5 arg6 harg6 arg9 arg10 arg11 x0 x3 x4 x5 (ix2 p l) + kernelRun0_A.sl.v640 (F := Ideal) c arg1 harg1 arg4 harg4 arg5 harg5 arg9 arg10 x0 x3 x4 (ix3 p (0 : Fin 1) l) * x5 (ix2 (4 : Fin 16) (0 : Fin 1)) := by
  unfold kernelRun0_A.sl.v650 kernelRun0_A.sl.HS2_6
  rw [View.readCov_cons_toLoadRect]
  simp only [k0_pay88, k0_pay87, kernelRun0_A.sl.r_27, kernelRun0_A.sl.r_11, View.readAt_eq_ld, harg6.read_unread, View.ld_unit_zero (S := S16x1) hz2, shapeCast_self]
  simp only [addf_apply, mulf_apply, cast_n1m_nm, broadcast_apply, extractAt_11]
  rw [row_slice 4 _ _ 0 0 (4 : Fin 16) rfl]

/-- Step 5: the accumulator gains column 5 of the rectified layer times entry 5 of the projection. -/
theorem score_step5 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg6 : Memref sig .tc .vmem S16x1 .f32) (harg6 : arg6.IsWhole) (arg9 : Memref sig .tc .vmem S741x16x128 .f32) (arg10 : Memref sig .tc .vmem S741x16x128 .f32) (arg11 : Memref sig .tc .vmem S741x128 .f32) (x0 : Vec Ideal S39x16x128 .f32) (x3 : Vec Ideal S16x16 .f32) (x4 : Vec Ideal S1x16 .f32) (x5 : Vec Ideal S16x1 .f32) (p : Fin 741) (l : Fin 128) :
    kernelRun0_A.sl.v661 (F := Ideal) c arg1 harg1 arg4 harg4 arg5 harg5 arg6 harg6 arg9 arg10 arg11 x0 x3 x4 x5 (ix2 p l)
      = kernelRun0_A.sl.v650 (F := Ideal) c arg1 harg1 arg4 harg4 arg5 harg5 arg6 harg6 arg9 arg10 arg11 x0 x3 x4 x5 (ix2 p l) + kernelRun0_A.sl.v651 (F := Ideal) c arg1 harg1 arg4 harg4 arg5 harg5 arg9 arg10 x0 x3 x4 (ix3 p (0 : Fin 1) l) * x5 (ix2 (5 : Fin 16) (0 : Fin 1)) := by
  unfold kernelRun0_A.sl.v661 kernelRun0_A.sl.HS2_7
  rw [View.readCov_cons_toLoadRect]
  simp only [k0_pay89, kernelRun0_A.sl.r_11, View.readAt_eq_ld, harg6.read_unread, View.ld_unit_zero (S := S16x1) hz2, shapeCast_self]
  simp only [addf_apply, mulf_apply, cast_n1m_nm, broadcast_apply, extractAt_11]
  rw [row_slice 5 _ _ 0 0 (5 : Fin 16) rfl]

/-- Step 6: the accumulator gains column 6 of the rectified layer times entry 6 of the projection. -/
theorem score_step6 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg6 : Memref sig .tc .vmem S16x1 .f32) (harg6 : arg6.IsWhole) (arg9 : Memref sig .tc .vmem S741x16x128 .f32) (arg10 : Memref sig .tc .vmem S741x16x128 .f32) (arg11 : Memref sig .tc .vmem S741x128 .f32) (x0 : Vec Ideal S39x16x128 .f32) (x3 : Vec Ideal S16x16 .f32) (x4 : Vec Ideal S1x16 .f32) (x5 : Vec Ideal S16x1 .f32) (p : Fin 741) (l : Fin 128) :
    kernelRun0_A.sl.v672 (F := Ideal) c arg1 harg1 arg4 harg4 arg5 harg5 arg6 harg6 arg9 arg10 arg11 x0 x3 x4 x5 (ix2 p l)
      = kernelRun0_A.sl.v661 (F := Ideal) c arg1 harg1 arg4 harg4 arg5 harg5 arg6 harg6 arg9 arg10 arg11 x0 x3 x4 x5 (ix2 p l) + kernelRun0_A.sl.v662 (F := Ideal) c arg1 harg1 arg4 harg4 arg5 harg5 arg9 arg10 x0 x3 x4 (ix3 p (0 : Fin 1) l) * x5 (ix2 (6 : Fin 16) (0 : Fin 1)) := by
  unfold kernelRun0_A.sl.v672 kernelRun0_A.sl.HS2_8
  rw [View.readCov_cons_toLoadRect]
  simp only [k0_pay90, kernelRun0_A.sl.r_11, View.readAt_eq_ld, harg6.read_unread, View.ld_unit_zero (S := S16x1) hz2, shapeCast_self]
  simp only [addf_apply, mulf_apply, cast_n1m_nm, broadcast_apply, extractAt_11]
  rw [row_slice 6 _ _ 0 0 (6 : Fin 16) rfl]

/-- Step 7: the accumulator gains column 7 of the rectified layer times entry 7 of the projection. -/
theorem score_step7 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg6 : Memref sig .tc .vmem S16x1 .f32) (harg6 : arg6.IsWhole) (arg9 : Memref sig .tc .vmem S741x16x128 .f32) (arg10 : Memref sig .tc .vmem S741x16x128 .f32) (arg11 : Memref sig .tc .vmem S741x128 .f32) (x0 : Vec Ideal S39x16x128 .f32) (x3 : Vec Ideal S16x16 .f32) (x4 : Vec Ideal S1x16 .f32) (x5 : Vec Ideal S16x1 .f32) (p : Fin 741) (l : Fin 128) :
    kernelRun0_A.sl.v683 (F := Ideal) c arg1 harg1 arg4 harg4 arg5 harg5 arg6 harg6 arg9 arg10 arg11 x0 x3 x4 x5 (ix2 p l)
      = kernelRun0_A.sl.v672 (F := Ideal) c arg1 harg1 arg4 harg4 arg5 harg5 arg6 harg6 arg9 arg10 arg11 x0 x3 x4 x5 (ix2 p l) + kernelRun0_A.sl.v673 (F := Ideal) c arg1 harg1 arg4 harg4 arg5 harg5 arg9 arg10 x0 x3 x4 (ix3 p (0 : Fin 1) l) * x5 (ix2 (7 : Fin 16) (0 : Fin 1)) := by
  unfold kernelRun0_A.sl.v683 kernelRun0_A.sl.HS2_9
  rw [View.readCov_cons_toLoadRect]
  simp only [k0_pay93, k0_pay91, k0_pay92, kernelRun0_A.sl.r_28, kernelRun0_A.sl.r_11, kernelRun0_A.sl.r_29, View.readAt_eq_ld, harg6.read_unread, View.ld_unit_zero (S := S16x1) hz2, shapeCast_self]
  simp only [addf_apply, mulf_apply, cast_n1m_nm, broadcast_apply, extractAt_11]
  rw [row_slice 7 _ _ 0 0 (7 : Fin 16) rfl]

/-- Step 8: the accumulator gains column 8 of the rectified layer times entry 8 of the projection. -/
theorem score_step8 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg6 : Memref sig .tc .vmem S16x1 .f32) (harg6 : arg6.IsWhole) (arg9 : Memref sig .tc .vmem S741x16x128 .f32) (arg10 : Memref sig .tc .vmem S741x16x128 .f32) (arg11 : Memref sig .tc .vmem S741x128 .f32) (x0 : Vec Ideal S39x16x128 .f32) (x3 : Vec Ideal S16x16 .f32) (x4 : Vec Ideal S1x16 .f32) (x5 : Vec Ideal S16x1 .f32) (p : Fin 741) (l : Fin 128) :
    kernelRun0_A.sl.v694 (F := Ideal) c arg1 harg1 arg4 harg4 arg5 harg5 arg6 harg6 arg9 arg10 arg11 x0 x3 x4 x5 (ix2 p l)
      = kernelRun0_A.sl.v683 (F := Ideal) c arg1 harg1 arg4 harg4 arg5 harg5 arg6 harg6 arg9 arg10 arg11 x0 x3 x4 x5 (ix2 p l) + kernelRun0_A.sl.v684 (F := Ideal) c arg1 harg1 arg4 harg4 arg5 harg5 arg9 arg10 x0 x3 x4 (ix3 p (0 : Fin 1) l) * x5 (ix2 (8 : Fin 16) (0 : Fin 1)) := by
  unfold kernelRun0_A.sl.v694 kernelRun0_A.sl.HS2_10
  rw [View.readCov_cons_toLoadRect]
  simp only [k0_pay94, kernelRun0_A.sl.r_11, View.readAt_eq_ld, harg6.read_unread, View.ld_unit_zero (S := S16x1) hz2, shapeCast_self]
  simp only [addf_apply, mulf_apply, cast_n1m_nm, broadcast_apply, extractAt_11]
  rw [row_slice 8 _ _ 0 0 (8 : Fin 16) rfl]

/-- Step 9: the accumulator gains column 9 of the rectified layer times entry 9 of the projection. -/
theorem score_step9 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg6 : Memref sig .tc .vmem S16x1 .f32) (harg6 : arg6.IsWhole) (arg9 : Memref sig .tc .vmem S741x16x128 .f32) (arg10 : Memref sig .tc .vmem S741x16x128 .f32) (arg11 : Memref sig .tc .vmem S741x128 .f32) (x0 : Vec Ideal S39x16x128 .f32) (x3 : Vec Ideal S16x16 .f32) (x4 : Vec Ideal S1x16 .f32) (x5 : Vec Ideal S16x1 .f32) (p : Fin 741) (l : Fin 128) :
    kernelRun0_A.sl.v705 (F := Ideal) c arg1 harg1 arg4 harg4 arg5 harg5 arg6 harg6 arg9 arg10 arg11 x0 x3 x4 x5 (ix2 p l)
      = kernelRun0_A.sl.v694 (F := Ideal) c arg1 harg1 arg4 harg4 arg5 harg5 arg6 harg6 arg9 arg10 arg11 x0 x3 x4 x5 (ix2 p l) + kernelRun0_A.sl.v695 (F := Ideal) c arg1 harg1 arg4 harg4 arg5 harg5 arg9 arg10 x0 x3 x4 (ix3 p (0 : Fin 1) l) * x5 (ix2 (9 : Fin 16) (0 : Fin 1)) := by
  unfold kernelRun0_A.sl.v705 kernelRun0_A.sl.HS2_11
  rw [View.readCov_cons_toLoadRect]
  simp only [k0_pay95, kernelRun0_A.sl.r_11, View.readAt_eq_ld, harg6.read_unread, View.ld_unit_zero (S := S16x1) hz2, shapeCast_self]
  simp only [addf_apply, mulf_apply, cast_n1m_nm, broadcast_apply, extractAt_11]
  rw [row_slice 9 _ _ 0 0 (9 : Fin 16) rfl]

/-- Step 10: the accumulator gains column 10 of the rectified layer times entry 10 of the projection. -/
theorem score_step10 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg6 : Memref sig .tc .vmem S16x1 .f32) (harg6 : arg6.IsWhole) (arg9 : Memref sig .tc .vmem S741x16x128 .f32) (arg10 : Memref sig .tc .vmem S741x16x128 .f32) (arg11 : Memref sig .tc .vmem S741x128 .f32) (x0 : Vec Ideal S39x16x128 .f32) (x3 : Vec Ideal S16x16 .f32) (x4 : Vec Ideal S1x16 .f32) (x5 : Vec Ideal S16x1 .f32) (p : Fin 741) (l : Fin 128) :
    kernelRun0_A.sl.v716 (F := Ideal) c arg1 harg1 arg4 harg4 arg5 harg5 arg6 harg6 arg9 arg10 arg11 x0 x3 x4 x5 (ix2 p l)
      = kernelRun0_A.sl.v705 (F := Ideal) c arg1 harg1 arg4 harg4 arg5 harg5 arg6 harg6 arg9 arg10 arg11 x0 x3 x4 x5 (ix2 p l) + kernelRun0_A.sl.v706 (F := Ideal) c arg1 harg1 arg4 harg4 arg5 harg5 arg9 arg10 x0 x3 x4 (ix3 p (0 : Fin 1) l) * x5 (ix2 (10 : Fin 16) (0 : Fin 1)) := by
  unfold kernelRun0_A.sl.v716 kernelRun0_A.sl.HS2_12
  rw [View.readCov_cons_toLoadRect]
  simp only [k0_pay97, k0_pay96, kernelRun0_A.sl.r_30, kernelRun0_A.sl.r_11, View.readAt_eq_ld, harg6.read_unread, View.ld_unit_zero (S := S16x1) hz2, shapeCast_self]
  simp only [addf_apply, mulf_apply, cast_n1m_nm, broadcast_apply, extractAt_11]
  rw [row_slice 10 _ _ 0 0 (10 : Fin 16) rfl]

/-- Step 11: the accumulator gains column 11 of the rectified layer times entry 11 of the projection. -/
theorem score_step11 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg6 : Memref sig .tc .vmem S16x1 .f32) (harg6 : arg6.IsWhole) (arg9 : Memref sig .tc .vmem S741x16x128 .f32) (arg10 : Memref sig .tc .vmem S741x16x128 .f32) (arg11 : Memref sig .tc .vmem S741x128 .f32) (x0 : Vec Ideal S39x16x128 .f32) (x3 : Vec Ideal S16x16 .f32) (x4 : Vec Ideal S1x16 .f32) (x5 : Vec Ideal S16x1 .f32) (p : Fin 741) (l : Fin 128) :
    kernelRun0_A.sl.v727 (F := Ideal) c arg1 harg1 arg4 harg4 arg5 harg5 arg6 harg6 arg9 arg10 arg11 x0 x3 x4 x5 (ix2 p l)
      = kernelRun0_A.sl.v716 (F := Ideal) c arg1 harg1 arg4 harg4 arg5 harg5 arg6 harg6 arg9 arg10 arg11 x0 x3 x4 x5 (ix2 p l) + kernelRun0_A.sl.v717 (F := Ideal) c arg1 harg1 arg4 harg4 arg5 harg5 arg9 arg10 x0 x3 x4 (ix3 p (0 : Fin 1) l) * x5 (ix2 (11 : Fin 16) (0 : Fin 1)) := by
  unfold kernelRun0_A.sl.v727 kernelRun0_A.sl.HS2_13
  rw [View.readCov_cons_toLoadRect]
  simp only [k0_pay98, kernelRun0_A.sl.r_11, View.readAt_eq_ld, harg6.read_unread, View.ld_unit_zero (S := S16x1) hz2, shapeCast_self]
  simp only [addf_apply, mulf_apply, cast_n1m_nm, broadcast_apply, extractAt_11]
  rw [row_slice 11 _ _ 0 0 (11 : Fin 16) rfl]

/-- Step 12: the accumulator gains column 12 of the rectified layer times entry 12 of the projection. -/
theorem score_step12 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg6 : Memref sig .tc .vmem S16x1 .f32) (harg6 : arg6.IsWhole) (arg9 : Memref sig .tc .vmem S741x16x128 .f32) (arg10 : Memref sig .tc .vmem S741x16x128 .f32) (arg11 : Memref sig .tc .vmem S741x128 .f32) (x0 : Vec Ideal S39x16x128 .f32) (x3 : Vec Ideal S16x16 .f32) (x4 : Vec Ideal S1x16 .f32) (x5 : Vec Ideal S16x1 .f32) (p : Fin 741) (l : Fin 128) :
    kernelRun0_A.sl.v738 (F := Ideal) c arg1 harg1 arg4 harg4 arg5 harg5 arg6 harg6 arg9 arg10 arg11 x0 x3 x4 x5 (ix2 p l)
      = kernelRun0_A.sl.v727 (F := Ideal) c arg1 harg1 arg4 harg4 arg5 harg5 arg6 harg6 arg9 arg10 arg11 x0 x3 x4 x5 (ix2 p l) + kernelRun0_A.sl.v728 (F := Ideal) c arg1 harg1 arg4 harg4 arg5 harg5 arg9 arg10 x0 x3 x4 (ix3 p (0 : Fin 1) l) * x5 (ix2 (12 : Fin 16) (0 : Fin 1)) := by
  unfold kernelRun0_A.sl.v738 kernelRun0_A.sl.HS2_14
  rw [View.readCov_cons_toLoadRect]
  simp only [k0_pay99, kernelRun0_A.sl.r_11, View.readAt_eq_ld, harg6.read_unread, View.ld_unit_zero (S := S16x1) hz2, shapeCast_self]
  simp only [addf_apply, mulf_apply, cast_n1m_nm, broadcast_apply, extractAt_11]
  rw [row_slice 12 _ _ 0 0 (12 : Fin 16) rfl]

/-- Step 13: the accumulator gains column 13 of the rectified layer times entry 13 of the projection. -/
theorem score_step13 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg6 : Memref sig .tc .vmem S16x1 .f32) (harg6 : arg6.IsWhole) (arg9 : Memref sig .tc .vmem S741x16x128 .f32) (arg10 : Memref sig .tc .vmem S741x16x128 .f32) (arg11 : Memref sig .tc .vmem S741x128 .f32) (x0 : Vec Ideal S39x16x128 .f32) (x3 : Vec Ideal S16x16 .f32) (x4 : Vec Ideal S1x16 .f32) (x5 : Vec Ideal S16x1 .f32) (p : Fin 741) (l : Fin 128) :
    kernelRun0_A.sl.v749 (F := Ideal) c arg1 harg1 arg4 harg4 arg5 harg5 arg6 harg6 arg9 arg10 arg11 x0 x3 x4 x5 (ix2 p l)
      = kernelRun0_A.sl.v738 (F := Ideal) c arg1 harg1 arg4 harg4 arg5 harg5 arg6 harg6 arg9 arg10 arg11 x0 x3 x4 x5 (ix2 p l) + kernelRun0_A.sl.v739 (F := Ideal) c arg1 harg1 arg4 harg4 arg5 harg5 arg9 arg10 x0 x3 x4 (ix3 p (0 : Fin 1) l) * x5 (ix2 (13 : Fin 16) (0 : Fin 1)) := by
  unfold kernelRun0_A.sl.v749 kernelRun0_A.sl.HS2_15
  rw [View.readCov_cons_toLoadRect]
  simp only [k0_pay101, k0_pay100, kernelRun0_A.sl.r_31, kernelRun0_A.sl.r_11, View.readAt_eq_ld, harg6.read_unread, View.ld_unit_zero (S := S16x1) hz2, shapeCast_self]
  simp only [addf_apply, mulf_apply, cast_n1m_nm, broadcast_apply, extractAt_11]
  rw [row_slice 13 _ _ 0 0 (13 : Fin 16) rfl]

/-- Step 14: the accumulator gains column 14 of the rectified layer times entry 14 of the projection. -/
theorem score_step14 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg6 : Memref sig .tc .vmem S16x1 .f32) (harg6 : arg6.IsWhole) (arg9 : Memref sig .tc .vmem S741x16x128 .f32) (arg10 : Memref sig .tc .vmem S741x16x128 .f32) (arg11 : Memref sig .tc .vmem S741x128 .f32) (x0 : Vec Ideal S39x16x128 .f32) (x3 : Vec Ideal S16x16 .f32) (x4 : Vec Ideal S1x16 .f32) (x5 : Vec Ideal S16x1 .f32) (p : Fin 741) (l : Fin 128) :
    kernelRun0_A.sl.v760 (F := Ideal) c arg1 harg1 arg4 harg4 arg5 harg5 arg6 harg6 arg9 arg10 arg11 x0 x3 x4 x5 (ix2 p l)
      = kernelRun0_A.sl.v749 (F := Ideal) c arg1 harg1 arg4 harg4 arg5 harg5 arg6 harg6 arg9 arg10 arg11 x0 x3 x4 x5 (ix2 p l) + kernelRun0_A.sl.v750 (F := Ideal) c arg1 harg1 arg4 harg4 arg5 harg5 arg9 arg10 x0 x3 x4 (ix3 p (0 : Fin 1) l) * x5 (ix2 (14 : Fin 16) (0 : Fin 1)) := by
  unfold kernelRun0_A.sl.v760 kernelRun0_A.sl.HS2_16
  rw [View.readCov_cons_toLoadRect]
  simp only [k0_pay102, kernelRun0_A.sl.r_11, View.readAt_eq_ld, harg6.read_unread, View.ld_unit_zero (S := S16x1) hz2, shapeCast_self]
  simp only [addf_apply, mulf_apply, cast_n1m_nm, broadcast_apply, extractAt_11]
  rw [row_slice 14 _ _ 0 0 (14 : Fin 16) rfl]

/-- Step 15: the accumulator gains column 15 of the rectified layer times entry 15 of the projection. -/
theorem score_step15 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg6 : Memref sig .tc .vmem S16x1 .f32) (harg6 : arg6.IsWhole) (arg9 : Memref sig .tc .vmem S741x16x128 .f32) (arg10 : Memref sig .tc .vmem S741x16x128 .f32) (arg11 : Memref sig .tc .vmem S741x128 .f32) (x0 : Vec Ideal S39x16x128 .f32) (x3 : Vec Ideal S16x16 .f32) (x4 : Vec Ideal S1x16 .f32) (x5 : Vec Ideal S16x1 .f32) (p : Fin 741) (l : Fin 128) :
    kernelRun0_A.sl.v769 (F := Ideal) c arg1 harg1 arg4 harg4 arg5 harg5 arg6 harg6 arg9 arg10 arg11 x0 x3 x4 x5 (ix2 p l)
      = kernelRun0_A.sl.v760 (F := Ideal) c arg1 harg1 arg4 harg4 arg5 harg5 arg6 harg6 arg9 arg10 arg11 x0 x3 x4 x5 (ix2 p l) + kernelRun0_A.sl.v761 (F := Ideal) c arg1 harg1 arg4 harg4 arg5 harg5 arg9 arg10 x0 x3 x4 (ix3 p (0 : Fin 1) l) * x5 (ix2 (15 : Fin 16) (0 : Fin 1)) := by
  unfold kernelRun0_A.sl.v769 kernelRun0_A.sl.HS2_17
  rw [View.readCov_cons_toLoadRect]
  simp only [k0_pay103, kernelRun0_A.sl.r_11, View.readAt_eq_ld, harg6.read_unread, View.ld_unit_zero (S := S16x1) hz2, shapeCast_self]
  simp only [addf_apply, mulf_apply, cast_n1m_nm, broadcast_apply, extractAt_11]
  rw [row_slice 15 _ _ 0 0 (15 : Fin 16) rfl]

end Cert.KernelIdeal.KValue

end
-- ==== Proof.KSoft.lean ====
/-
  The softmax weights, the pooled channels and the stored block.

  From the finished logits the body takes, lane by lane, the maximum over the 741 pairs, the shifted exponentials, their sum
  and the quotients; then, channel by channel, the sum over the pairs of the pairwise product times its weight, accumulated
  against the pooling projection from zero; and it stores the logistic function of the bias plus the first-order term plus
  that projection. Each lemma reads one named value of the run at an index in terms of the values before it.
-/
import proofs.«158778_j51101520888212_2_alg».proof.Proof.Gen.KernelIdeal.Frame
import proofs.«158778_j51101520888212_2_alg».proof.Proof.KOps2
import Idealize.ShloMosaic.Lib.Pipeline.Value
import Idealize.ShloMosaic.Lib.Tactic

set_option maxRecDepth 16384

noncomputable section

namespace Cert.KernelIdeal.KValue

open Idealize.ShloMosaic Idealize.ShloMosaic.TcCoe Idealize.ShloMosaic.Tactic Idealize.SL.Sem
open ValueIdx Cert.KOps Cert.KernelIdeal Cert.KernelIdeal.Gen

/-- A sum over the pair axis at the body's own shapes, read at lane `l`. -/
theorem pairsum (src : FVec Ideal S741x128 .f32) (h : S741x128.Reduces [0] S128) (hφ : FKind.Formats .f32)
    (hacc : (0x00000000#32 : BitVec 32) = 0x00000000#32) (l : Fin 128) :
    multiReduction .add [0] S128 src 0x00000000#32 h hφ hacc (ix1 l) = ∑ q : Fin 741, src (ix2 q l) :=
  colsum src h hφ hacc l

/-- A maximum over the pair axis at the body's own shapes, read at lane `l`. -/
theorem pairmax (src : FVec Ideal S741x128 .f32) (h : S741x128.Reduces [0] S128) (hφ : FKind.Formats .f32)
    (hacc : (0xFF800000#32 : BitVec 32) = 0xFF800000#32) (l : Fin 128) :
    multiReduction .maximumf [0] S128 src 0xFF800000#32 h hφ hacc (ix1 l)
      = (Finset.univ : Finset (Fin 741)).fold max (⊥ : EReal) (fun q => src (ix2 q l)) :=
  colmax src h hφ hacc l

/-- The softmax weight of pair `p` at lane `l`, from the finished logits. -/
theorem probs_apply (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg6 : Memref sig .tc .vmem S16x1 .f32) (harg6 : arg6.IsWhole) (arg9 : Memref sig .tc .vmem S741x16x128 .f32) (arg10 : Memref sig .tc .vmem S741x16x128 .f32) (arg11 : Memref sig .tc .vmem S741x128 .f32) (x0 : Vec Ideal S39x16x128 .f32) (x3 : Vec Ideal S16x16 .f32) (x4 : Vec Ideal S1x16 .f32) (x5 : Vec Ideal S16x1 .f32) (p : Fin 741) (l : Fin 128) :
    kernelRun0_A.sl.r_32 (F := Ideal) c arg1 harg1 arg4 harg4 arg5 harg5 arg6 harg6 arg9 arg10 arg11 x0 x3 x4 x5 (ix2 p l)
      = Ideal.div (Ideal.exp (kernelRun0_A.sl.v769 (F := Ideal) c arg1 harg1 arg4 harg4 arg5 harg5 arg6 harg6 arg9 arg10 arg11 x0 x3 x4 x5 (ix2 p l) - ((Finset.univ : Finset (Fin 741)).fold max (⊥ : EReal) (fun q => kernelRun0_A.sl.v769 (F := Ideal) c arg1 harg1 arg4 harg4 arg5 harg5 arg6 harg6 arg9 arg10 arg11 x0 x3 x4 x5 (ix2 q l)))))
          (∑ q : Fin 741, Ideal.exp (kernelRun0_A.sl.v769 (F := Ideal) c arg1 harg1 arg4 harg4 arg5 harg5 arg6 harg6 arg9 arg10 arg11 x0 x3 x4 x5 (ix2 q l) - ((Finset.univ : Finset (Fin 741)).fold max (⊥ : EReal) (fun q => kernelRun0_A.sl.v769 (F := Ideal) c arg1 harg1 arg4 harg4 arg5 harg5 arg6 harg6 arg9 arg10 arg11 x0 x3 x4 x5 (ix2 q l))))) := by
  unfold kernelRun0_A.sl.r_32 k0_pay104
  simp only [divf_apply, vexp_apply, subf_apply, bcast_lane, shapeCast_a_1a_apply, pairsum _ _ _ _ l, pairmax _ _ _ _ l]

/-- Channels 0 to 3 of the pooled projection, accumulated from zero. -/
theorem pool_a (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg6 : Memref sig .tc .vmem S16x1 .f32) (harg6 : arg6.IsWhole) (arg7 : Memref sig .tc .vmem S16x1 .f32) (harg7 : arg7.IsWhole) (arg9 : Memref sig .tc .vmem S741x16x128 .f32) (arg10 : Memref sig .tc .vmem S741x16x128 .f32) (arg11 : Memref sig .tc .vmem S741x128 .f32) (x0 : Vec Ideal S39x16x128 .f32) (x3 : Vec Ideal S16x16 .f32) (x4 : Vec Ideal S1x16 .f32) (x5 : Vec Ideal S16x1 .f32) (x6 : Vec Ideal S16x1 .f32) (l : Fin 128) :
    kernelRun0_A.sl.r_33 (F := Ideal) c arg1 harg1 arg4 harg4 arg5 harg5 arg6 harg6 arg7 harg7 arg9 arg10 arg11 x0 x3 x4 x5 x6 (ix2 (0 : Fin 1) l)
      = (((Ideal.ofBits .f32 0x00000000#32 + (∑ q : Fin 741, kernelRun0_A.sl.v361 (F := Ideal) c arg1 harg1 arg9 x0 (ix3 q (0 : Fin 1) l) * kernelRun0_A.sl.r_32 (F := Ideal) c arg1 harg1 arg4 harg4 arg5 harg5 arg6 harg6 arg9 arg10 arg11 x0 x3 x4 x5 (ix2 q l)) * x6 (ix2 (0 : Fin 16) (0 : Fin 1))) + (∑ q : Fin 741, kernelRun0_A.sl.v375 (F := Ideal) c arg1 harg1 arg9 x0 (ix3 q (0 : Fin 1) l) * kernelRun0_A.sl.r_32 (F := Ideal) c arg1 harg1 arg4 harg4 arg5 harg5 arg6 harg6 arg9 arg10 arg11 x0 x3 x4 x5 (ix2 q l)) * x6 (ix2 (1 : Fin 16) (0 : Fin 1))) + (∑ q : Fin 741, kernelRun0_A.sl.v389 (F := Ideal) c arg1 harg1 arg9 x0 (ix3 q (0 : Fin 1) l) * kernelRun0_A.sl.r_32 (F := Ideal) c arg1 harg1 arg4 harg4 arg5 harg5 arg6 harg6 arg9 arg10 arg11 x0 x3 x4 x5 (ix2 q l)) * x6 (ix2 (2 : Fin 16) (0 : Fin 1))) + (∑ q : Fin 741, kernelRun0_A.sl.v403 (F := Ideal) c arg1 harg1 arg9 x0 (ix3 q (0 : Fin 1) l) * kernelRun0_A.sl.r_32 (F := Ideal) c arg1 harg1 arg4 harg4 arg5 harg5 arg6 harg6 arg9 arg10 arg11 x0 x3 x4 x5 (ix2 q l)) * x6 (ix2 (3 : Fin 16) (0 : Fin 1)) := by
  unfold kernelRun0_A.sl.r_33 k0_pay106 k0_pay105 kernelRun0_A.sl.r_12
  simp only [View.readAt_eq_ld, harg7.read_unread, View.ld_unit_zero (S := S16x1) hz2, shapeCast_self]
  simp only [addf_apply, mulf_apply, broadcast_apply, extractAt_11, shapeCast_a_1a_apply, pairsum _ _ _ _ l, cast_n1m_nm, col_entry 0 (by decide), col_entry 1 (by decide), col_entry 2 (by decide), col_entry 3 (by decide)]
  rfl

/-- Channel 4's weighted products. -/
theorem pool_b (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg6 : Memref sig .tc .vmem S16x1 .f32) (harg6 : arg6.IsWhole) (arg9 : Memref sig .tc .vmem S741x16x128 .f32) (arg10 : Memref sig .tc .vmem S741x16x128 .f32) (arg11 : Memref sig .tc .vmem S741x128 .f32) (x0 : Vec Ideal S39x16x128 .f32) (x3 : Vec Ideal S16x16 .f32) (x4 : Vec Ideal S1x16 .f32) (x5 : Vec Ideal S16x1 .f32) (q : Fin 741) (l : Fin 128) :
    kernelRun0_A.sl.r_34 (F := Ideal) c arg1 harg1 arg4 harg4 arg5 harg5 arg6 harg6 arg9 arg10 arg11 x0 x3 x4 x5 (ix2 q l) = kernelRun0_A.sl.v417 (F := Ideal) c arg1 harg1 arg9 x0 (ix3 q (0 : Fin 1) l) * kernelRun0_A.sl.r_32 (F := Ideal) c arg1 harg1 arg4 harg4 arg5 harg5 arg6 harg6 arg9 arg10 arg11 x0 x3 x4 x5 (ix2 q l) := by
  unfold kernelRun0_A.sl.r_34 k0_pay107
  simp only [mulf_apply, cast_n1m_nm]

/-- Channels 4 to 7. -/
theorem pool_c (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg6 : Memref sig .tc .vmem S16x1 .f32) (harg6 : arg6.IsWhole) (arg7 : Memref sig .tc .vmem S16x1 .f32) (harg7 : arg7.IsWhole) (arg9 : Memref sig .tc .vmem S741x16x128 .f32) (arg10 : Memref sig .tc .vmem S741x16x128 .f32) (arg11 : Memref sig .tc .vmem S741x128 .f32) (x0 : Vec Ideal S39x16x128 .f32) (x3 : Vec Ideal S16x16 .f32) (x4 : Vec Ideal S1x16 .f32) (x5 : Vec Ideal S16x1 .f32) (x6 : Vec Ideal S16x1 .f32) (l : Fin 128) :
    kernelRun0_A.sl.r_35 (F := Ideal) c arg1 harg1 arg4 harg4 arg5 harg5 arg6 harg6 arg7 harg7 arg9 arg10 arg11 x0 x3 x4 x5 x6 (ix2 (0 : Fin 1) l)
      = (((kernelRun0_A.sl.r_33 (F := Ideal) c arg1 harg1 arg4 harg4 arg5 harg5 arg6 harg6 arg7 harg7 arg9 arg10 arg11 x0 x3 x4 x5 x6 (ix2 (0 : Fin 1) l) + (∑ q : Fin 741, kernelRun0_A.sl.r_34 (F := Ideal) c arg1 harg1 arg4 harg4 arg5 harg5 arg6 harg6 arg9 arg10 arg11 x0 x3 x4 x5 (ix2 q l)) * x6 (ix2 (4 : Fin 16) (0 : Fin 1))) + (∑ q : Fin 741, kernelRun0_A.sl.v431 (F := Ideal) c arg1 harg1 arg9 x0 (ix3 q (0 : Fin 1) l) * kernelRun0_A.sl.r_32 (F := Ideal) c arg1 harg1 arg4 harg4 arg5 harg5 arg6 harg6 arg9 arg10 arg11 x0 x3 x4 x5 (ix2 q l)) * x6 (ix2 (5 : Fin 16) (0 : Fin 1))) + (∑ q : Fin 741, kernelRun0_A.sl.v445 (F := Ideal) c arg1 harg1 arg9 x0 (ix3 q (0 : Fin 1) l) * kernelRun0_A.sl.r_32 (F := Ideal) c arg1 harg1 arg4 harg4 arg5 harg5 arg6 harg6 arg9 arg10 arg11 x0 x3 x4 x5 (ix2 q l)) * x6 (ix2 (6 : Fin 16) (0 : Fin 1))) + (∑ q : Fin 741, kernelRun0_A.sl.v459 (F := Ideal) c arg1 harg1 arg9 x0 (ix3 q (0 : Fin 1) l) * kernelRun0_A.sl.r_32 (F := Ideal) c arg1 harg1 arg4 harg4 arg5 harg5 arg6 harg6 arg9 arg10 arg11 x0 x3 x4 x5 (ix2 q l)) * x6 (ix2 (7 : Fin 16) (0 : Fin 1)) := by
  unfold kernelRun0_A.sl.r_35 k0_pay108 kernelRun0_A.sl.r_12
  simp only [View.readAt_eq_ld, harg7.read_unread, View.ld_unit_zero (S := S16x1) hz2, shapeCast_self]
  simp only [addf_apply, mulf_apply, broadcast_apply, extractAt_11, shapeCast_a_1a_apply, pairsum _ _ _ _ l, cast_n1m_nm, col_entry 4 (by decide), col_entry 5 (by decide), col_entry 6 (by decide), col_entry 7 (by decide)]
  all_goals rfl

/-- Channel 8's pooled sum. -/
theorem pool_d (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg6 : Memref sig .tc .vmem S16x1 .f32) (harg6 : arg6.IsWhole) (arg9 : Memref sig .tc .vmem S741x16x128 .f32) (arg10 : Memref sig .tc .vmem S741x16x128 .f32) (arg11 : Memref sig .tc .vmem S741x128 .f32) (x0 : Vec Ideal S39x16x128 .f32) (x3 : Vec Ideal S16x16 .f32) (x4 : Vec Ideal S1x16 .f32) (x5 : Vec Ideal S16x1 .f32) (l : Fin 128) :
    kernelRun0_A.sl.r_36 (F := Ideal) c arg1 harg1 arg4 harg4 arg5 harg5 arg6 harg6 arg9 arg10 arg11 x0 x3 x4 x5 (ix2 (0 : Fin 1) l) = (∑ q : Fin 741, kernelRun0_A.sl.v473 (F := Ideal) c arg1 harg1 arg9 x0 (ix3 q (0 : Fin 1) l) * kernelRun0_A.sl.r_32 (F := Ideal) c arg1 harg1 arg4 harg4 arg5 harg5 arg6 harg6 arg9 arg10 arg11 x0 x3 x4 x5 (ix2 q l)) := by
  unfold kernelRun0_A.sl.r_36 k0_pay109
  simp only [addf_apply, mulf_apply, broadcast_apply, extractAt_11, shapeCast_a_1a_apply, pairsum _ _ _ _ l, cast_n1m_nm]
  all_goals rfl

/-- Entry 8 of the pooling projection. -/
theorem pool_e (c : Dev nD) (arg7 : Memref sig .tc .vmem S16x1 .f32) (harg7 : arg7.IsWhole) (x6 : Vec Ideal S16x1 .f32) : kernelRun0_A.sl.r_37 (F := Ideal) c arg7 harg7 x6 = x6 (ix2 (8 : Fin 16) (0 : Fin 1)) := by
  unfold kernelRun0_A.sl.r_37 k0_pay110 kernelRun0_A.sl.r_12
  simp only [View.readAt_eq_ld, harg7.read_unread, View.ld_unit_zero (S := S16x1) hz2, shapeCast_self]
  simp only [extractAt_11, col_entry 8 (by decide)]
  all_goals rfl

/-- Channels 8 to 12. -/
theorem pool_f (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg6 : Memref sig .tc .vmem S16x1 .f32) (harg6 : arg6.IsWhole) (arg7 : Memref sig .tc .vmem S16x1 .f32) (harg7 : arg7.IsWhole) (arg9 : Memref sig .tc .vmem S741x16x128 .f32) (arg10 : Memref sig .tc .vmem S741x16x128 .f32) (arg11 : Memref sig .tc .vmem S741x128 .f32) (x0 : Vec Ideal S39x16x128 .f32) (x3 : Vec Ideal S16x16 .f32) (x4 : Vec Ideal S1x16 .f32) (x5 : Vec Ideal S16x1 .f32) (x6 : Vec Ideal S16x1 .f32) (l : Fin 128) :
    kernelRun0_A.sl.r_38 (F := Ideal) c arg1 harg1 arg4 harg4 arg5 harg5 arg6 harg6 arg7 harg7 arg9 arg10 arg11 x0 x3 x4 x5 x6 (ix2 (0 : Fin 1) l)
      = ((((kernelRun0_A.sl.r_35 (F := Ideal) c arg1 harg1 arg4 harg4 arg5 harg5 arg6 harg6 arg7 harg7 arg9 arg10 arg11 x0 x3 x4 x5 x6 (ix2 (0 : Fin 1) l) + kernelRun0_A.sl.r_36 (F := Ideal) c arg1 harg1 arg4 harg4 arg5 harg5 arg6 harg6 arg9 arg10 arg11 x0 x3 x4 x5 (ix2 (0 : Fin 1) l) * kernelRun0_A.sl.r_37 (F := Ideal) c arg7 harg7 x6) + (∑ q : Fin 741, kernelRun0_A.sl.v487 (F := Ideal) c arg1 harg1 arg9 x0 (ix3 q (0 : Fin 1) l) * kernelRun0_A.sl.r_32 (F := Ideal) c arg1 harg1 arg4 harg4 arg5 harg5 arg6 harg6 arg9 arg10 arg11 x0 x3 x4 x5 (ix2 q l)) * x6 (ix2 (9 : Fin 16) (0 : Fin 1))) + (∑ q : Fin 741, kernelRun0_A.sl.v501 (F := Ideal) c arg1 harg1 arg9 x0 (ix3 q (0 : Fin 1) l) * kernelRun0_A.sl.r_32 (F := Ideal) c arg1 harg1 arg4 harg4 arg5 harg5 arg6 harg6 arg9 arg10 arg11 x0 x3 x4 x5 (ix2 q l)) * x6 (ix2 (10 : Fin 16) (0 : Fin 1))) + (∑ q : Fin 741, kernelRun0_A.sl.v515 (F := Ideal) c arg1 harg1 arg9 x0 (ix3 q (0 : Fin 1) l) * kernelRun0_A.sl.r_32 (F := Ideal) c arg1 harg1 arg4 harg4 arg5 harg5 arg6 harg6 arg9 arg10 arg11 x0 x3 x4 x5 (ix2 q l)) * x6 (ix2 (11 : Fin 16) (0 : Fin 1))) + (∑ q : Fin 741, kernelRun0_A.sl.v529 (F := Ideal) c arg1 harg1 arg9 x0 (ix3 q (0 : Fin 1) l) * kernelRun0_A.sl.r_32 (F := Ideal) c arg1 harg1 arg4 harg4 arg5 harg5 arg6 harg6 arg9 arg10 arg11 x0 x3 x4 x5 (ix2 q l)) * x6 (ix2 (12 : Fin 16) (0 : Fin 1)) := by
  unfold kernelRun0_A.sl.r_38 k0_pay111 kernelRun0_A.sl.r_12
  simp only [View.readAt_eq_ld, harg7.read_unread, View.ld_unit_zero (S := S16x1) hz2, shapeCast_self]
  simp only [addf_apply, mulf_apply, broadcast_apply, extractAt_11, shapeCast_a_1a_apply, pairsum _ _ _ _ l, cast_n1m_nm, col_entry 9 (by decide), col_entry 10 (by decide), col_entry 11 (by decide), col_entry 12 (by decide)]
  all_goals rfl

/-- Channels 13 and 14. -/
theorem pool_g (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg6 : Memref sig .tc .vmem S16x1 .f32) (harg6 : arg6.IsWhole) (arg7 : Memref sig .tc .vmem S16x1 .f32) (harg7 : arg7.IsWhole) (arg9 : Memref sig .tc .vmem S741x16x128 .f32) (arg10 : Memref sig .tc .vmem S741x16x128 .f32) (arg11 : Memref sig .tc .vmem S741x128 .f32) (x0 : Vec Ideal S39x16x128 .f32) (x3 : Vec Ideal S16x16 .f32) (x4 : Vec Ideal S1x16 .f32) (x5 : Vec Ideal S16x1 .f32) (x6 : Vec Ideal S16x1 .f32) (l : Fin 128) :
    kernelRun0_A.sl.r_39 (F := Ideal) c arg1 harg1 arg4 harg4 arg5 harg5 arg6 harg6 arg7 harg7 arg9 arg10 arg11 x0 x3 x4 x5 x6 (ix2 (0 : Fin 1) l)
      = (kernelRun0_A.sl.r_38 (F := Ideal) c arg1 harg1 arg4 harg4 arg5 harg5 arg6 harg6 arg7 harg7 arg9 arg10 arg11 x0 x3 x4 x5 x6 (ix2 (0 : Fin 1) l) + (∑ q : Fin 741, kernelRun0_A.sl.v543 (F := Ideal) c arg1 harg1 arg9 x0 (ix3 q (0 : Fin 1) l) * kernelRun0_A.sl.r_32 (F := Ideal) c arg1 harg1 arg4 harg4 arg5 harg5 arg6 harg6 arg9 arg10 arg11 x0 x3 x4 x5 (ix2 q l)) * x6 (ix2 (13 : Fin 16) (0 : Fin 1))) + (∑ q : Fin 741, kernelRun0_A.sl.v557 (F := Ideal) c arg1 harg1 arg9 x0 (ix3 q (0 : Fin 1) l) * kernelRun0_A.sl.r_32 (F := Ideal) c arg1 harg1 arg4 harg4 arg5 harg5 arg6 harg6 arg9 arg10 arg11 x0 x3 x4 x5 (ix2 q l)) * x6 (ix2 (14 : Fin 16) (0 : Fin 1)) := by
  unfold kernelRun0_A.sl.r_39 k0_pay112 kernelRun0_A.sl.r_12
  simp only [View.readAt_eq_ld, harg7.read_unread, View.ld_unit_zero (S := S16x1) hz2, shapeCast_self]
  simp only [addf_apply, mulf_apply, broadcast_apply, extractAt_11, shapeCast_a_1a_apply, pairsum _ _ _ _ l, cast_n1m_nm, col_entry 13 (by decide), col_entry 14 (by decide)]
  all_goals rfl

/-- Channel 15's pooled sum. -/
theorem pool_h (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg6 : Memref sig .tc .vmem S16x1 .f32) (harg6 : arg6.IsWhole) (arg9 : Memref sig .tc .vmem S741x16x128 .f32) (arg10 : Memref sig .tc .vmem S741x16x128 .f32) (arg11 : Memref sig .tc .vmem S741x128 .f32) (x0 : Vec Ideal S39x16x128 .f32) (x3 : Vec Ideal S16x16 .f32) (x4 : Vec Ideal S1x16 .f32) (x5 : Vec Ideal S16x1 .f32) (l : Fin 128) :
    kernelRun0_A.sl.r_40 (F := Ideal) c arg1 harg1 arg4 harg4 arg5 harg5 arg6 harg6 arg9 arg10 arg11 x0 x3 x4 x5 (ix2 (0 : Fin 1) l) = (∑ q : Fin 741, kernelRun0_A.sl.v571 (F := Ideal) c arg1 harg1 arg9 x0 (ix3 q (0 : Fin 1) l) * kernelRun0_A.sl.r_32 (F := Ideal) c arg1 harg1 arg4 harg4 arg5 harg5 arg6 harg6 arg9 arg10 arg11 x0 x3 x4 x5 (ix2 q l)) := by
  unfold kernelRun0_A.sl.r_40 k0_pay113
  simp only [addf_apply, mulf_apply, broadcast_apply, extractAt_11, shapeCast_a_1a_apply, pairsum _ _ _ _ l, cast_n1m_nm]
  all_goals rfl

end Cert.KernelIdeal.KValue

end
-- ==== Proof.KOut.lean ====
/-
  The stored block, lane by lane.

  The one store of the output block holds the logistic function of the bias plus the first-order term plus the pooled
  projection, whose last channel is added here.
-/
import proofs.«158778_j51101520888212_2_alg».proof.Proof.Gen.KernelIdeal.Frame
import proofs.«158778_j51101520888212_2_alg».proof.Proof.KOps2
import Idealize.ShloMosaic.Lib.Pipeline.Value
import Idealize.ShloMosaic.Lib.Tactic

set_option maxRecDepth 16384

noncomputable section

namespace Cert.KernelIdeal.KValue

open Idealize.ShloMosaic Idealize.ShloMosaic.TcCoe Idealize.ShloMosaic.Tactic Idealize.SL.Sem
open ValueIdx Cert.KOps Cert.KernelIdeal Cert.KernelIdeal.Gen

theorem out_apply (c : Dev nD) (i : grid0.Coords) (arg1 : Memref sig .tc .vmem S39x16x128 .f32) (harg1 : arg1.IsWhole) (arg2 : Memref sig .tc .vmem S1x128 .f32) (harg2 : arg2.IsWhole) (arg3 : Memref sig .tc .vmem S1x1 .f32) (harg3 : arg3.IsWhole) (arg4 : Memref sig .tc .vmem S16x16 .f32) (harg4 : arg4.IsWhole) (arg5 : Memref sig .tc .vmem S1x16 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S1x128 .f32) (harg8 : arg8.IsWhole) (arg9 : Memref sig .tc .vmem S741x16x128 .f32) (harg9 : arg9.IsWhole) (arg10 : Memref sig .tc .vmem S741x16x128 .f32) (harg10 : arg10.IsWhole) (arg11 : Memref sig .tc .vmem S741x128 .f32) (harg11 : arg11.IsWhole)
    (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (l : Fin 128) :
    out0_A_7 (F := Ideal) c i arg1 harg1 arg2 harg2 arg3 harg3 arg4 harg4 arg5 harg5 arg6 harg6 arg7 harg7 arg8 harg8 arg9 harg9 arg10 harg10 arg11 harg11 x0 x1 x2 x3 x4 x5 x6 (ix2 (0 : Fin 1) l)
      = Ideal.logistic ((x2 (ix2 (0 : Fin 1) (0 : Fin 1)) + x1 (ix2 (0 : Fin 1) l))
          + (kernelRun0_A.sl.r_39 (F := Ideal) c arg1 harg1 arg4 harg4 arg5 harg5 arg6 harg6 arg7 harg7 arg9 arg10 arg11 x0 x3 x4 x5 x6 (ix2 (0 : Fin 1) l) + kernelRun0_A.sl.r_40 (F := Ideal) c arg1 harg1 arg4 harg4 arg5 harg5 arg6 harg6 arg9 arg10 arg11 x0 x3 x4 x5 (ix2 (0 : Fin 1) l) * x6 (ix2 (15 : Fin 16) (0 : Fin 1)))) := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 x0 x1 x2 x3 x4 x5 x6)]
  unfold kernelRun0_A
  dsimp only
  rw [View.canon_unit_zero hz2]
  unfold k0_pay1 kernelRun0_A.sl.r_12 kernelRun0_A.sl.r_13 kernelRun0_A.sl.r_14 k0_pay50 k0_pay51
  simp only [View.readAt_eq_ld, harg7.read_unread, harg3.read_unread, harg2.read_unread, View.ld_unit_zero (S := S16x1) hz2,
    View.ld_unit_zero (S := S1x1) hz2, View.ld_unit_zero (S := S1x128) hz2, shapeCast_self]
  simp only [vlogistic_apply, addf_apply, mulf_apply, broadcast_apply, extractAt_11, col_entry 15 (by decide), bcast_11_1m]
  rfl

end Cert.KernelIdeal.KValue

end
-- ==== Proof.KChain.lean ====
/-
  The body's values, stage by stage, are the function's stages in the order the kernel computes them.

  Lane `l` of a grid point's blocks determines the arguments `laneArgs … l` of the function. Reading the run's named values
  one after the other: the pairwise products are the function's, with the two factors swapped; the dense layer's accumulator
  after `k` steps is the bias plus the first `k` terms; its rectified columns, the logit's accumulator, the softmax weights, the
  pooled channels and the accumulated projection follow in the same way; and the stored lane is the function's value.
-/
import proofs.«158778_j51101520888212_2_alg».proof.Proof.Gen.KernelIdeal.Frame
import proofs.«158778_j51101520888212_2_alg».proof.Proof.KOps2
import proofs.«158778_j51101520888212_2_alg».proof.Proof.KBody0
import proofs.«158778_j51101520888212_2_alg».proof.Proof.KLane
import proofs.«158778_j51101520888212_2_alg».proof.Proof.KBi
import proofs.«158778_j51101520888212_2_alg».proof.Proof.KAtt
import proofs.«158778_j51101520888212_2_alg».proof.Proof.KScore
import proofs.«158778_j51101520888212_2_alg».proof.Proof.KSoft
import proofs.«158778_j51101520888212_2_alg».proof.Proof.KOut
import Idealize.ShloMosaic.Lib.Pipeline.Value
import Idealize.ShloMosaic.Lib.Tactic

set_option maxRecDepth 16384

noncomputable section

namespace Cert.KernelIdeal.KValue

open Idealize.ShloMosaic Idealize.ShloMosaic.TcCoe Idealize.ShloMosaic.Tactic Idealize.SL.Sem
open ValueIdx Cert.KOps Cert.KernelIdeal Cert.KernelIdeal.Gen

open Cert.Spec Cert.KLane

theorem zero_f32 : Ideal.ofBits .f32 0x00000000#32 = (0 : EReal) := Ideal.ofBits_zero_f32

theorem bi_eq0 (c : Dev nD) (arg1 : Memref sig .tc .vmem S39x16x128 .f32) (harg1 : arg1.IsWhole) (arg9 : Memref sig .tc .vmem S741x16x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (p : Fin 741) (l : Fin 128) :
    kernelRun0_A.sl.v361 (F := Ideal) c arg1 harg1 arg9 x0 (ix3 p (0 : Fin 1) l) = bi (laneArgs x0 x1 x2 x3 x4 x5 x6 l) 0 p (0 : Fin 16) := by
  rw [bi_col0, mul_comm]; rfl

theorem bi_eq1 (c : Dev nD) (arg1 : Memref sig .tc .vmem S39x16x128 .f32) (harg1 : arg1.IsWhole) (arg9 : Memref sig .tc .vmem S741x16x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (p : Fin 741) (l : Fin 128) :
    kernelRun0_A.sl.v375 (F := Ideal) c arg1 harg1 arg9 x0 (ix3 p (0 : Fin 1) l) = bi (laneArgs x0 x1 x2 x3 x4 x5 x6 l) 0 p (1 : Fin 16) := by
  rw [bi_col1, mul_comm]; rfl

theorem bi_eq2 (c : Dev nD) (arg1 : Memref sig .tc .vmem S39x16x128 .f32) (harg1 : arg1.IsWhole) (arg9 : Memref sig .tc .vmem S741x16x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (p : Fin 741) (l : Fin 128) :
    kernelRun0_A.sl.v389 (F := Ideal) c arg1 harg1 arg9 x0 (ix3 p (0 : Fin 1) l) = bi (laneArgs x0 x1 x2 x3 x4 x5 x6 l) 0 p (2 : Fin 16) := by
  rw [bi_col2, mul_comm]; rfl

theorem bi_eq3 (c : Dev nD) (arg1 : Memref sig .tc .vmem S39x16x128 .f32) (harg1 : arg1.IsWhole) (arg9 : Memref sig .tc .vmem S741x16x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (p : Fin 741) (l : Fin 128) :
    kernelRun0_A.sl.v403 (F := Ideal) c arg1 harg1 arg9 x0 (ix3 p (0 : Fin 1) l) = bi (laneArgs x0 x1 x2 x3 x4 x5 x6 l) 0 p (3 : Fin 16) := by
  rw [bi_col3, mul_comm]; rfl

theorem bi_eq4 (c : Dev nD) (arg1 : Memref sig .tc .vmem S39x16x128 .f32) (harg1 : arg1.IsWhole) (arg9 : Memref sig .tc .vmem S741x16x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (p : Fin 741) (l : Fin 128) :
    kernelRun0_A.sl.v417 (F := Ideal) c arg1 harg1 arg9 x0 (ix3 p (0 : Fin 1) l) = bi (laneArgs x0 x1 x2 x3 x4 x5 x6 l) 0 p (4 : Fin 16) := by
  rw [bi_col4, mul_comm]; rfl

theorem bi_eq5 (c : Dev nD) (arg1 : Memref sig .tc .vmem S39x16x128 .f32) (harg1 : arg1.IsWhole) (arg9 : Memref sig .tc .vmem S741x16x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (p : Fin 741) (l : Fin 128) :
    kernelRun0_A.sl.v431 (F := Ideal) c arg1 harg1 arg9 x0 (ix3 p (0 : Fin 1) l) = bi (laneArgs x0 x1 x2 x3 x4 x5 x6 l) 0 p (5 : Fin 16) := by
  rw [bi_col5, mul_comm]; rfl

theorem bi_eq6 (c : Dev nD) (arg1 : Memref sig .tc .vmem S39x16x128 .f32) (harg1 : arg1.IsWhole) (arg9 : Memref sig .tc .vmem S741x16x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (p : Fin 741) (l : Fin 128) :
    kernelRun0_A.sl.v445 (F := Ideal) c arg1 harg1 arg9 x0 (ix3 p (0 : Fin 1) l) = bi (laneArgs x0 x1 x2 x3 x4 x5 x6 l) 0 p (6 : Fin 16) := by
  rw [bi_col6, mul_comm]; rfl

theorem bi_eq7 (c : Dev nD) (arg1 : Memref sig .tc .vmem S39x16x128 .f32) (harg1 : arg1.IsWhole) (arg9 : Memref sig .tc .vmem S741x16x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (p : Fin 741) (l : Fin 128) :
    kernelRun0_A.sl.v459 (F := Ideal) c arg1 harg1 arg9 x0 (ix3 p (0 : Fin 1) l) = bi (laneArgs x0 x1 x2 x3 x4 x5 x6 l) 0 p (7 : Fin 16) := by
  rw [bi_col7, mul_comm]; rfl

theorem bi_eq8 (c : Dev nD) (arg1 : Memref sig .tc .vmem S39x16x128 .f32) (harg1 : arg1.IsWhole) (arg9 : Memref sig .tc .vmem S741x16x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (p : Fin 741) (l : Fin 128) :
    kernelRun0_A.sl.v473 (F := Ideal) c arg1 harg1 arg9 x0 (ix3 p (0 : Fin 1) l) = bi (laneArgs x0 x1 x2 x3 x4 x5 x6 l) 0 p (8 : Fin 16) := by
  rw [bi_col8, mul_comm]; rfl

theorem bi_eq9 (c : Dev nD) (arg1 : Memref sig .tc .vmem S39x16x128 .f32) (harg1 : arg1.IsWhole) (arg9 : Memref sig .tc .vmem S741x16x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (p : Fin 741) (l : Fin 128) :
    kernelRun0_A.sl.v487 (F := Ideal) c arg1 harg1 arg9 x0 (ix3 p (0 : Fin 1) l) = bi (laneArgs x0 x1 x2 x3 x4 x5 x6 l) 0 p (9 : Fin 16) := by
  rw [bi_col9, mul_comm]; rfl

theorem bi_eq10 (c : Dev nD) (arg1 : Memref sig .tc .vmem S39x16x128 .f32) (harg1 : arg1.IsWhole) (arg9 : Memref sig .tc .vmem S741x16x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (p : Fin 741) (l : Fin 128) :
    kernelRun0_A.sl.v501 (F := Ideal) c arg1 harg1 arg9 x0 (ix3 p (0 : Fin 1) l) = bi (laneArgs x0 x1 x2 x3 x4 x5 x6 l) 0 p (10 : Fin 16) := by
  rw [bi_col10, mul_comm]; rfl

theorem bi_eq11 (c : Dev nD) (arg1 : Memref sig .tc .vmem S39x16x128 .f32) (harg1 : arg1.IsWhole) (arg9 : Memref sig .tc .vmem S741x16x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (p : Fin 741) (l : Fin 128) :
    kernelRun0_A.sl.v515 (F := Ideal) c arg1 harg1 arg9 x0 (ix3 p (0 : Fin 1) l) = bi (laneArgs x0 x1 x2 x3 x4 x5 x6 l) 0 p (11 : Fin 16) := by
  rw [bi_col11, mul_comm]; rfl

theorem bi_eq12 (c : Dev nD) (arg1 : Memref sig .tc .vmem S39x16x128 .f32) (harg1 : arg1.IsWhole) (arg9 : Memref sig .tc .vmem S741x16x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (p : Fin 741) (l : Fin 128) :
    kernelRun0_A.sl.v529 (F := Ideal) c arg1 harg1 arg9 x0 (ix3 p (0 : Fin 1) l) = bi (laneArgs x0 x1 x2 x3 x4 x5 x6 l) 0 p (12 : Fin 16) := by
  rw [bi_col12, mul_comm]; rfl

theorem bi_eq13 (c : Dev nD) (arg1 : Memref sig .tc .vmem S39x16x128 .f32) (harg1 : arg1.IsWhole) (arg9 : Memref sig .tc .vmem S741x16x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (p : Fin 741) (l : Fin 128) :
    kernelRun0_A.sl.v543 (F := Ideal) c arg1 harg1 arg9 x0 (ix3 p (0 : Fin 1) l) = bi (laneArgs x0 x1 x2 x3 x4 x5 x6 l) 0 p (13 : Fin 16) := by
  rw [bi_col13, mul_comm]; rfl

theorem bi_eq14 (c : Dev nD) (arg1 : Memref sig .tc .vmem S39x16x128 .f32) (harg1 : arg1.IsWhole) (arg9 : Memref sig .tc .vmem S741x16x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (p : Fin 741) (l : Fin 128) :
    kernelRun0_A.sl.v557 (F := Ideal) c arg1 harg1 arg9 x0 (ix3 p (0 : Fin 1) l) = bi (laneArgs x0 x1 x2 x3 x4 x5 x6 l) 0 p (14 : Fin 16) := by
  rw [bi_col14, mul_comm]; rfl

theorem bi_eq15 (c : Dev nD) (arg1 : Memref sig .tc .vmem S39x16x128 .f32) (harg1 : arg1.IsWhole) (arg9 : Memref sig .tc .vmem S741x16x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (p : Fin 741) (l : Fin 128) :
    kernelRun0_A.sl.v571 (F := Ideal) c arg1 harg1 arg9 x0 (ix3 p (0 : Fin 1) l) = bi (laneArgs x0 x1 x2 x3 x4 x5 x6 l) 0 p (15 : Fin 16) := by
  rw [bi_col15, mul_comm]; rfl

theorem att_at0 (c : Dev nD) (arg5 : Memref sig .tc .vmem S1x16 .f32) (harg5 : arg5.IsWhole) (arg10 : Memref sig .tc .vmem S741x16x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (p : Fin 741) (a : Fin 16) (l : Fin 128) :
    kernelRun0_A.sl.v363 (F := Ideal) c arg5 harg5 arg10 x4 (ix3 p a l) = attK (laneArgs x0 x1 x2 x3 x4 x5 x6 l) 0 p a 0 := by
  rw [att_start]; unfold attK; rw [part_zero, add_zero]; rfl

theorem att_at1 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg9 : Memref sig .tc .vmem S741x16x128 .f32) (arg10 : Memref sig .tc .vmem S741x16x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (p : Fin 741) (a : Fin 16) (l : Fin 128) :
    kernelRun0_A.sl.v377 (F := Ideal) c arg1 harg1 arg4 harg4 arg5 harg5 arg9 arg10 x0 x3 x4 (ix3 p a l) = attK (laneArgs x0 x1 x2 x3 x4 x5 x6 l) 0 p a 1 := by
  rw [att_step0, att_at0 c arg5 harg5 arg10 x0 x1 x2 x3 x4 x5 x6 p a l, bi_eq0 c arg1 harg1 arg9 x0 x1 x2 x3 x4 x5 x6 p l]
  unfold attK; rw [part_succ _ 0 (by decide), add_assoc]; rfl

theorem att_at2 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg9 : Memref sig .tc .vmem S741x16x128 .f32) (arg10 : Memref sig .tc .vmem S741x16x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (p : Fin 741) (a : Fin 16) (l : Fin 128) :
    kernelRun0_A.sl.v391 (F := Ideal) c arg1 harg1 arg4 harg4 arg5 harg5 arg9 arg10 x0 x3 x4 (ix3 p a l) = attK (laneArgs x0 x1 x2 x3 x4 x5 x6 l) 0 p a 2 := by
  rw [att_step1, att_at1 c arg1 harg1 arg4 harg4 arg5 harg5 arg9 arg10 x0 x1 x2 x3 x4 x5 x6 p a l, bi_eq1 c arg1 harg1 arg9 x0 x1 x2 x3 x4 x5 x6 p l]
  unfold attK; rw [part_succ _ 1 (by decide), add_assoc]; rfl

theorem att_at3 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg9 : Memref sig .tc .vmem S741x16x128 .f32) (arg10 : Memref sig .tc .vmem S741x16x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (p : Fin 741) (a : Fin 16) (l : Fin 128) :
    kernelRun0_A.sl.v405 (F := Ideal) c arg1 harg1 arg4 harg4 arg5 harg5 arg9 arg10 x0 x3 x4 (ix3 p a l) = attK (laneArgs x0 x1 x2 x3 x4 x5 x6 l) 0 p a 3 := by
  rw [att_step2, att_at2 c arg1 harg1 arg4 harg4 arg5 harg5 arg9 arg10 x0 x1 x2 x3 x4 x5 x6 p a l, bi_eq2 c arg1 harg1 arg9 x0 x1 x2 x3 x4 x5 x6 p l]
  unfold attK; rw [part_succ _ 2 (by decide), add_assoc]; rfl

theorem att_at4 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg9 : Memref sig .tc .vmem S741x16x128 .f32) (arg10 : Memref sig .tc .vmem S741x16x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (p : Fin 741) (a : Fin 16) (l : Fin 128) :
    kernelRun0_A.sl.v419 (F := Ideal) c arg1 harg1 arg4 harg4 arg5 harg5 arg9 arg10 x0 x3 x4 (ix3 p a l) = attK (laneArgs x0 x1 x2 x3 x4 x5 x6 l) 0 p a 4 := by
  rw [att_step3, att_at3 c arg1 harg1 arg4 harg4 arg5 harg5 arg9 arg10 x0 x1 x2 x3 x4 x5 x6 p a l, bi_eq3 c arg1 harg1 arg9 x0 x1 x2 x3 x4 x5 x6 p l]
  unfold attK; rw [part_succ _ 3 (by decide), add_assoc]; rfl

theorem att_at5 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg9 : Memref sig .tc .vmem S741x16x128 .f32) (arg10 : Memref sig .tc .vmem S741x16x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (p : Fin 741) (a : Fin 16) (l : Fin 128) :
    kernelRun0_A.sl.v433 (F := Ideal) c arg1 harg1 arg4 harg4 arg5 harg5 arg9 arg10 x0 x3 x4 (ix3 p a l) = attK (laneArgs x0 x1 x2 x3 x4 x5 x6 l) 0 p a 5 := by
  rw [att_step4, att_at4 c arg1 harg1 arg4 harg4 arg5 harg5 arg9 arg10 x0 x1 x2 x3 x4 x5 x6 p a l, bi_eq4 c arg1 harg1 arg9 x0 x1 x2 x3 x4 x5 x6 p l]
  unfold attK; rw [part_succ _ 4 (by decide), add_assoc]; rfl

theorem att_at6 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg9 : Memref sig .tc .vmem S741x16x128 .f32) (arg10 : Memref sig .tc .vmem S741x16x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (p : Fin 741) (a : Fin 16) (l : Fin 128) :
    kernelRun0_A.sl.v447 (F := Ideal) c arg1 harg1 arg4 harg4 arg5 harg5 arg9 arg10 x0 x3 x4 (ix3 p a l) = attK (laneArgs x0 x1 x2 x3 x4 x5 x6 l) 0 p a 6 := by
  rw [att_step5, att_at5 c arg1 harg1 arg4 harg4 arg5 harg5 arg9 arg10 x0 x1 x2 x3 x4 x5 x6 p a l, bi_eq5 c arg1 harg1 arg9 x0 x1 x2 x3 x4 x5 x6 p l]
  unfold attK; rw [part_succ _ 5 (by decide), add_assoc]; rfl

theorem att_at7 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg9 : Memref sig .tc .vmem S741x16x128 .f32) (arg10 : Memref sig .tc .vmem S741x16x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (p : Fin 741) (a : Fin 16) (l : Fin 128) :
    kernelRun0_A.sl.v461 (F := Ideal) c arg1 harg1 arg4 harg4 arg5 harg5 arg9 arg10 x0 x3 x4 (ix3 p a l) = attK (laneArgs x0 x1 x2 x3 x4 x5 x6 l) 0 p a 7 := by
  rw [att_step6, att_at6 c arg1 harg1 arg4 harg4 arg5 harg5 arg9 arg10 x0 x1 x2 x3 x4 x5 x6 p a l, bi_eq6 c arg1 harg1 arg9 x0 x1 x2 x3 x4 x5 x6 p l]
  unfold attK; rw [part_succ _ 6 (by decide), add_assoc]; rfl

theorem att_at8 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg9 : Memref sig .tc .vmem S741x16x128 .f32) (arg10 : Memref sig .tc .vmem S741x16x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (p : Fin 741) (a : Fin 16) (l : Fin 128) :
    kernelRun0_A.sl.v475 (F := Ideal) c arg1 harg1 arg4 harg4 arg5 harg5 arg9 arg10 x0 x3 x4 (ix3 p a l) = attK (laneArgs x0 x1 x2 x3 x4 x5 x6 l) 0 p a 8 := by
  rw [att_step7, att_at7 c arg1 harg1 arg4 harg4 arg5 harg5 arg9 arg10 x0 x1 x2 x3 x4 x5 x6 p a l, bi_eq7 c arg1 harg1 arg9 x0 x1 x2 x3 x4 x5 x6 p l]
  unfold attK; rw [part_succ _ 7 (by decide), add_assoc]; rfl

theorem att_at9 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg9 : Memref sig .tc .vmem S741x16x128 .f32) (arg10 : Memref sig .tc .vmem S741x16x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (p : Fin 741) (a : Fin 16) (l : Fin 128) :
    kernelRun0_A.sl.v489 (F := Ideal) c arg1 harg1 arg4 harg4 arg5 harg5 arg9 arg10 x0 x3 x4 (ix3 p a l) = attK (laneArgs x0 x1 x2 x3 x4 x5 x6 l) 0 p a 9 := by
  rw [att_step8, att_at8 c arg1 harg1 arg4 harg4 arg5 harg5 arg9 arg10 x0 x1 x2 x3 x4 x5 x6 p a l, bi_eq8 c arg1 harg1 arg9 x0 x1 x2 x3 x4 x5 x6 p l]
  unfold attK; rw [part_succ _ 8 (by decide), add_assoc]; rfl

theorem att_at10 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg9 : Memref sig .tc .vmem S741x16x128 .f32) (arg10 : Memref sig .tc .vmem S741x16x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (p : Fin 741) (a : Fin 16) (l : Fin 128) :
    kernelRun0_A.sl.v503 (F := Ideal) c arg1 harg1 arg4 harg4 arg5 harg5 arg9 arg10 x0 x3 x4 (ix3 p a l) = attK (laneArgs x0 x1 x2 x3 x4 x5 x6 l) 0 p a 10 := by
  rw [att_step9, att_at9 c arg1 harg1 arg4 harg4 arg5 harg5 arg9 arg10 x0 x1 x2 x3 x4 x5 x6 p a l, bi_eq9 c arg1 harg1 arg9 x0 x1 x2 x3 x4 x5 x6 p l]
  unfold attK; rw [part_succ _ 9 (by decide), add_assoc]; rfl

theorem att_at11 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg9 : Memref sig .tc .vmem S741x16x128 .f32) (arg10 : Memref sig .tc .vmem S741x16x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (p : Fin 741) (a : Fin 16) (l : Fin 128) :
    kernelRun0_A.sl.v517 (F := Ideal) c arg1 harg1 arg4 harg4 arg5 harg5 arg9 arg10 x0 x3 x4 (ix3 p a l) = attK (laneArgs x0 x1 x2 x3 x4 x5 x6 l) 0 p a 11 := by
  rw [att_step10, att_at10 c arg1 harg1 arg4 harg4 arg5 harg5 arg9 arg10 x0 x1 x2 x3 x4 x5 x6 p a l, bi_eq10 c arg1 harg1 arg9 x0 x1 x2 x3 x4 x5 x6 p l]
  unfold attK; rw [part_succ _ 10 (by decide), add_assoc]; rfl

theorem att_at12 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg9 : Memref sig .tc .vmem S741x16x128 .f32) (arg10 : Memref sig .tc .vmem S741x16x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (p : Fin 741) (a : Fin 16) (l : Fin 128) :
    kernelRun0_A.sl.v531 (F := Ideal) c arg1 harg1 arg4 harg4 arg5 harg5 arg9 arg10 x0 x3 x4 (ix3 p a l) = attK (laneArgs x0 x1 x2 x3 x4 x5 x6 l) 0 p a 12 := by
  rw [att_step11, att_at11 c arg1 harg1 arg4 harg4 arg5 harg5 arg9 arg10 x0 x1 x2 x3 x4 x5 x6 p a l, bi_eq11 c arg1 harg1 arg9 x0 x1 x2 x3 x4 x5 x6 p l]
  unfold attK; rw [part_succ _ 11 (by decide), add_assoc]; rfl

theorem att_at13 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg9 : Memref sig .tc .vmem S741x16x128 .f32) (arg10 : Memref sig .tc .vmem S741x16x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (p : Fin 741) (a : Fin 16) (l : Fin 128) :
    kernelRun0_A.sl.v545 (F := Ideal) c arg1 harg1 arg4 harg4 arg5 harg5 arg9 arg10 x0 x3 x4 (ix3 p a l) = attK (laneArgs x0 x1 x2 x3 x4 x5 x6 l) 0 p a 13 := by
  rw [att_step12, att_at12 c arg1 harg1 arg4 harg4 arg5 harg5 arg9 arg10 x0 x1 x2 x3 x4 x5 x6 p a l, bi_eq12 c arg1 harg1 arg9 x0 x1 x2 x3 x4 x5 x6 p l]
  unfold attK; rw [part_succ _ 12 (by decide), add_assoc]; rfl

theorem att_at14 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg9 : Memref sig .tc .vmem S741x16x128 .f32) (arg10 : Memref sig .tc .vmem S741x16x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (p : Fin 741) (a : Fin 16) (l : Fin 128) :
    kernelRun0_A.sl.v559 (F := Ideal) c arg1 harg1 arg4 harg4 arg5 harg5 arg9 arg10 x0 x3 x4 (ix3 p a l) = attK (laneArgs x0 x1 x2 x3 x4 x5 x6 l) 0 p a 14 := by
  rw [att_step13, att_at13 c arg1 harg1 arg4 harg4 arg5 harg5 arg9 arg10 x0 x1 x2 x3 x4 x5 x6 p a l, bi_eq13 c arg1 harg1 arg9 x0 x1 x2 x3 x4 x5 x6 p l]
  unfold attK; rw [part_succ _ 13 (by decide), add_assoc]; rfl

theorem att_at15 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg9 : Memref sig .tc .vmem S741x16x128 .f32) (arg10 : Memref sig .tc .vmem S741x16x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (p : Fin 741) (a : Fin 16) (l : Fin 128) :
    kernelRun0_A.sl.v573 (F := Ideal) c arg1 harg1 arg4 harg4 arg5 harg5 arg9 arg10 x0 x3 x4 (ix3 p a l) = attK (laneArgs x0 x1 x2 x3 x4 x5 x6 l) 0 p a 15 := by
  rw [att_step14, att_at14 c arg1 harg1 arg4 harg4 arg5 harg5 arg9 arg10 x0 x1 x2 x3 x4 x5 x6 p a l, bi_eq14 c arg1 harg1 arg9 x0 x1 x2 x3 x4 x5 x6 p l]
  unfold attK; rw [part_succ _ 14 (by decide), add_assoc]; rfl

theorem att_at16 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg9 : Memref sig .tc .vmem S741x16x128 .f32) (arg10 : Memref sig .tc .vmem S741x16x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (p : Fin 741) (a : Fin 16) (l : Fin 128) :
    kernelRun0_A.sl.v583 (F := Ideal) c arg1 harg1 arg4 harg4 arg5 harg5 arg9 arg10 x0 x3 x4 (ix3 p a l) = attK (laneArgs x0 x1 x2 x3 x4 x5 x6 l) 0 p a 16 := by
  rw [att_step15, att_at15 c arg1 harg1 arg4 harg4 arg5 harg5 arg9 arg10 x0 x1 x2 x3 x4 x5 x6 p a l, bi_eq15 c arg1 harg1 arg9 x0 x1 x2 x3 x4 x5 x6 p l]
  unfold attK; rw [part_succ _ 15 (by decide), add_assoc]; rfl

theorem relu_eq0 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg9 : Memref sig .tc .vmem S741x16x128 .f32) (arg10 : Memref sig .tc .vmem S741x16x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (p : Fin 741) (l : Fin 128) :
    kernelRun0_A.sl.v596 (F := Ideal) c arg1 harg1 arg4 harg4 arg5 harg5 arg9 arg10 x0 x3 x4 (ix3 p (0 : Fin 1) l) = reluK (laneArgs x0 x1 x2 x3 x4 x5 x6 l) 0 p (0 : Fin 16) := by
  rw [relu_col0, att_at16 c arg1 harg1 arg4 harg4 arg5 harg5 arg9 arg10 x0 x1 x2 x3 x4 x5 x6 p (0 : Fin 16) l, zero_f32]; rfl

theorem relu_eq1 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg9 : Memref sig .tc .vmem S741x16x128 .f32) (arg10 : Memref sig .tc .vmem S741x16x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (p : Fin 741) (l : Fin 128) :
    kernelRun0_A.sl.v607 (F := Ideal) c arg1 harg1 arg4 harg4 arg5 harg5 arg9 arg10 x0 x3 x4 (ix3 p (0 : Fin 1) l) = reluK (laneArgs x0 x1 x2 x3 x4 x5 x6 l) 0 p (1 : Fin 16) := by
  rw [relu_col1, att_at16 c arg1 harg1 arg4 harg4 arg5 harg5 arg9 arg10 x0 x1 x2 x3 x4 x5 x6 p (1 : Fin 16) l, zero_f32]; rfl

theorem relu_eq2 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg9 : Memref sig .tc .vmem S741x16x128 .f32) (arg10 : Memref sig .tc .vmem S741x16x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (p : Fin 741) (l : Fin 128) :
    kernelRun0_A.sl.v618 (F := Ideal) c arg1 harg1 arg4 harg4 arg5 harg5 arg9 arg10 x0 x3 x4 (ix3 p (0 : Fin 1) l) = reluK (laneArgs x0 x1 x2 x3 x4 x5 x6 l) 0 p (2 : Fin 16) := by
  rw [relu_col2, att_at16 c arg1 harg1 arg4 harg4 arg5 harg5 arg9 arg10 x0 x1 x2 x3 x4 x5 x6 p (2 : Fin 16) l, zero_f32]; rfl

theorem relu_eq3 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg9 : Memref sig .tc .vmem S741x16x128 .f32) (arg10 : Memref sig .tc .vmem S741x16x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (p : Fin 741) (l : Fin 128) :
    kernelRun0_A.sl.v629 (F := Ideal) c arg1 harg1 arg4 harg4 arg5 harg5 arg9 arg10 x0 x3 x4 (ix3 p (0 : Fin 1) l) = reluK (laneArgs x0 x1 x2 x3 x4 x5 x6 l) 0 p (3 : Fin 16) := by
  rw [relu_col3, att_at16 c arg1 harg1 arg4 harg4 arg5 harg5 arg9 arg10 x0 x1 x2 x3 x4 x5 x6 p (3 : Fin 16) l, zero_f32]; rfl

theorem relu_eq4 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg9 : Memref sig .tc .vmem S741x16x128 .f32) (arg10 : Memref sig .tc .vmem S741x16x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (p : Fin 741) (l : Fin 128) :
    kernelRun0_A.sl.v640 (F := Ideal) c arg1 harg1 arg4 harg4 arg5 harg5 arg9 arg10 x0 x3 x4 (ix3 p (0 : Fin 1) l) = reluK (laneArgs x0 x1 x2 x3 x4 x5 x6 l) 0 p (4 : Fin 16) := by
  rw [relu_col4, att_at16 c arg1 harg1 arg4 harg4 arg5 harg5 arg9 arg10 x0 x1 x2 x3 x4 x5 x6 p (4 : Fin 16) l, zero_f32]; rfl

theorem relu_eq5 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg9 : Memref sig .tc .vmem S741x16x128 .f32) (arg10 : Memref sig .tc .vmem S741x16x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (p : Fin 741) (l : Fin 128) :
    kernelRun0_A.sl.v651 (F := Ideal) c arg1 harg1 arg4 harg4 arg5 harg5 arg9 arg10 x0 x3 x4 (ix3 p (0 : Fin 1) l) = reluK (laneArgs x0 x1 x2 x3 x4 x5 x6 l) 0 p (5 : Fin 16) := by
  rw [relu_col5, att_at16 c arg1 harg1 arg4 harg4 arg5 harg5 arg9 arg10 x0 x1 x2 x3 x4 x5 x6 p (5 : Fin 16) l, zero_f32]; rfl

theorem relu_eq6 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg9 : Memref sig .tc .vmem S741x16x128 .f32) (arg10 : Memref sig .tc .vmem S741x16x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (p : Fin 741) (l : Fin 128) :
    kernelRun0_A.sl.v662 (F := Ideal) c arg1 harg1 arg4 harg4 arg5 harg5 arg9 arg10 x0 x3 x4 (ix3 p (0 : Fin 1) l) = reluK (laneArgs x0 x1 x2 x3 x4 x5 x6 l) 0 p (6 : Fin 16) := by
  rw [relu_col6, att_at16 c arg1 harg1 arg4 harg4 arg5 harg5 arg9 arg10 x0 x1 x2 x3 x4 x5 x6 p (6 : Fin 16) l, zero_f32]; rfl

theorem relu_eq7 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg9 : Memref sig .tc .vmem S741x16x128 .f32) (arg10 : Memref sig .tc .vmem S741x16x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (p : Fin 741) (l : Fin 128) :
    kernelRun0_A.sl.v673 (F := Ideal) c arg1 harg1 arg4 harg4 arg5 harg5 arg9 arg10 x0 x3 x4 (ix3 p (0 : Fin 1) l) = reluK (laneArgs x0 x1 x2 x3 x4 x5 x6 l) 0 p (7 : Fin 16) := by
  rw [relu_col7, att_at16 c arg1 harg1 arg4 harg4 arg5 harg5 arg9 arg10 x0 x1 x2 x3 x4 x5 x6 p (7 : Fin 16) l, zero_f32]; rfl

theorem relu_eq8 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg9 : Memref sig .tc .vmem S741x16x128 .f32) (arg10 : Memref sig .tc .vmem S741x16x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (p : Fin 741) (l : Fin 128) :
    kernelRun0_A.sl.v684 (F := Ideal) c arg1 harg1 arg4 harg4 arg5 harg5 arg9 arg10 x0 x3 x4 (ix3 p (0 : Fin 1) l) = reluK (laneArgs x0 x1 x2 x3 x4 x5 x6 l) 0 p (8 : Fin 16) := by
  rw [relu_col8, att_at16 c arg1 harg1 arg4 harg4 arg5 harg5 arg9 arg10 x0 x1 x2 x3 x4 x5 x6 p (8 : Fin 16) l, zero_f32]; rfl

theorem relu_eq9 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg9 : Memref sig .tc .vmem S741x16x128 .f32) (arg10 : Memref sig .tc .vmem S741x16x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (p : Fin 741) (l : Fin 128) :
    kernelRun0_A.sl.v695 (F := Ideal) c arg1 harg1 arg4 harg4 arg5 harg5 arg9 arg10 x0 x3 x4 (ix3 p (0 : Fin 1) l) = reluK (laneArgs x0 x1 x2 x3 x4 x5 x6 l) 0 p (9 : Fin 16) := by
  rw [relu_col9, att_at16 c arg1 harg1 arg4 harg4 arg5 harg5 arg9 arg10 x0 x1 x2 x3 x4 x5 x6 p (9 : Fin 16) l, zero_f32]; rfl

theorem relu_eq10 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg9 : Memref sig .tc .vmem S741x16x128 .f32) (arg10 : Memref sig .tc .vmem S741x16x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (p : Fin 741) (l : Fin 128) :
    kernelRun0_A.sl.v706 (F := Ideal) c arg1 harg1 arg4 harg4 arg5 harg5 arg9 arg10 x0 x3 x4 (ix3 p (0 : Fin 1) l) = reluK (laneArgs x0 x1 x2 x3 x4 x5 x6 l) 0 p (10 : Fin 16) := by
  rw [relu_col10, att_at16 c arg1 harg1 arg4 harg4 arg5 harg5 arg9 arg10 x0 x1 x2 x3 x4 x5 x6 p (10 : Fin 16) l, zero_f32]; rfl

theorem relu_eq11 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg9 : Memref sig .tc .vmem S741x16x128 .f32) (arg10 : Memref sig .tc .vmem S741x16x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (p : Fin 741) (l : Fin 128) :
    kernelRun0_A.sl.v717 (F := Ideal) c arg1 harg1 arg4 harg4 arg5 harg5 arg9 arg10 x0 x3 x4 (ix3 p (0 : Fin 1) l) = reluK (laneArgs x0 x1 x2 x3 x4 x5 x6 l) 0 p (11 : Fin 16) := by
  rw [relu_col11, att_at16 c arg1 harg1 arg4 harg4 arg5 harg5 arg9 arg10 x0 x1 x2 x3 x4 x5 x6 p (11 : Fin 16) l, zero_f32]; rfl

theorem relu_eq12 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg9 : Memref sig .tc .vmem S741x16x128 .f32) (arg10 : Memref sig .tc .vmem S741x16x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (p : Fin 741) (l : Fin 128) :
    kernelRun0_A.sl.v728 (F := Ideal) c arg1 harg1 arg4 harg4 arg5 harg5 arg9 arg10 x0 x3 x4 (ix3 p (0 : Fin 1) l) = reluK (laneArgs x0 x1 x2 x3 x4 x5 x6 l) 0 p (12 : Fin 16) := by
  rw [relu_col12, att_at16 c arg1 harg1 arg4 harg4 arg5 harg5 arg9 arg10 x0 x1 x2 x3 x4 x5 x6 p (12 : Fin 16) l, zero_f32]; rfl

theorem relu_eq13 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg9 : Memref sig .tc .vmem S741x16x128 .f32) (arg10 : Memref sig .tc .vmem S741x16x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (p : Fin 741) (l : Fin 128) :
    kernelRun0_A.sl.v739 (F := Ideal) c arg1 harg1 arg4 harg4 arg5 harg5 arg9 arg10 x0 x3 x4 (ix3 p (0 : Fin 1) l) = reluK (laneArgs x0 x1 x2 x3 x4 x5 x6 l) 0 p (13 : Fin 16) := by
  rw [relu_col13, att_at16 c arg1 harg1 arg4 harg4 arg5 harg5 arg9 arg10 x0 x1 x2 x3 x4 x5 x6 p (13 : Fin 16) l, zero_f32]; rfl

theorem relu_eq14 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg9 : Memref sig .tc .vmem S741x16x128 .f32) (arg10 : Memref sig .tc .vmem S741x16x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (p : Fin 741) (l : Fin 128) :
    kernelRun0_A.sl.v750 (F := Ideal) c arg1 harg1 arg4 harg4 arg5 harg5 arg9 arg10 x0 x3 x4 (ix3 p (0 : Fin 1) l) = reluK (laneArgs x0 x1 x2 x3 x4 x5 x6 l) 0 p (14 : Fin 16) := by
  rw [relu_col14, att_at16 c arg1 harg1 arg4 harg4 arg5 harg5 arg9 arg10 x0 x1 x2 x3 x4 x5 x6 p (14 : Fin 16) l, zero_f32]; rfl

theorem relu_eq15 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg9 : Memref sig .tc .vmem S741x16x128 .f32) (arg10 : Memref sig .tc .vmem S741x16x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (p : Fin 741) (l : Fin 128) :
    kernelRun0_A.sl.v761 (F := Ideal) c arg1 harg1 arg4 harg4 arg5 harg5 arg9 arg10 x0 x3 x4 (ix3 p (0 : Fin 1) l) = reluK (laneArgs x0 x1 x2 x3 x4 x5 x6 l) 0 p (15 : Fin 16) := by
  rw [relu_col15, att_at16 c arg1 harg1 arg4 harg4 arg5 harg5 arg9 arg10 x0 x1 x2 x3 x4 x5 x6 p (15 : Fin 16) l, zero_f32]; rfl

theorem score_at0 (c : Dev nD) (arg11 : Memref sig .tc .vmem S741x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (p : Fin 741) (l : Fin 128) :
    kernelRun0_A.sl.v595 (F := Ideal) c arg11 (ix2 p l) = scoreK (laneArgs x0 x1 x2 x3 x4 x5 x6 l) 0 p 0 := by
  rw [score_start, zero_f32]; unfold scoreK; rw [part_zero, add_zero]

theorem score_at1 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg6 : Memref sig .tc .vmem S16x1 .f32) (harg6 : arg6.IsWhole) (arg9 : Memref sig .tc .vmem S741x16x128 .f32) (arg10 : Memref sig .tc .vmem S741x16x128 .f32) (arg11 : Memref sig .tc .vmem S741x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (p : Fin 741) (l : Fin 128) :
    kernelRun0_A.sl.v606 (F := Ideal) c arg1 harg1 arg4 harg4 arg5 harg5 arg6 harg6 arg9 arg10 arg11 x0 x3 x4 x5 (ix2 p l) = scoreK (laneArgs x0 x1 x2 x3 x4 x5 x6 l) 0 p 1 := by
  rw [score_step0, score_at0 c arg11 x0 x1 x2 x3 x4 x5 x6 p l, relu_eq0 c arg1 harg1 arg4 harg4 arg5 harg5 arg9 arg10 x0 x1 x2 x3 x4 x5 x6 p l]
  unfold scoreK; rw [part_succ _ 0 (by decide), add_assoc]; rfl

theorem score_at2 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg6 : Memref sig .tc .vmem S16x1 .f32) (harg6 : arg6.IsWhole) (arg9 : Memref sig .tc .vmem S741x16x128 .f32) (arg10 : Memref sig .tc .vmem S741x16x128 .f32) (arg11 : Memref sig .tc .vmem S741x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (p : Fin 741) (l : Fin 128) :
    kernelRun0_A.sl.v617 (F := Ideal) c arg1 harg1 arg4 harg4 arg5 harg5 arg6 harg6 arg9 arg10 arg11 x0 x3 x4 x5 (ix2 p l) = scoreK (laneArgs x0 x1 x2 x3 x4 x5 x6 l) 0 p 2 := by
  rw [score_step1, score_at1 c arg1 harg1 arg4 harg4 arg5 harg5 arg6 harg6 arg9 arg10 arg11 x0 x1 x2 x3 x4 x5 x6 p l, relu_eq1 c arg1 harg1 arg4 harg4 arg5 harg5 arg9 arg10 x0 x1 x2 x3 x4 x5 x6 p l]
  unfold scoreK; rw [part_succ _ 1 (by decide), add_assoc]; rfl

theorem score_at3 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg6 : Memref sig .tc .vmem S16x1 .f32) (harg6 : arg6.IsWhole) (arg9 : Memref sig .tc .vmem S741x16x128 .f32) (arg10 : Memref sig .tc .vmem S741x16x128 .f32) (arg11 : Memref sig .tc .vmem S741x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (p : Fin 741) (l : Fin 128) :
    kernelRun0_A.sl.v628 (F := Ideal) c arg1 harg1 arg4 harg4 arg5 harg5 arg6 harg6 arg9 arg10 arg11 x0 x3 x4 x5 (ix2 p l) = scoreK (laneArgs x0 x1 x2 x3 x4 x5 x6 l) 0 p 3 := by
  rw [score_step2, score_at2 c arg1 harg1 arg4 harg4 arg5 harg5 arg6 harg6 arg9 arg10 arg11 x0 x1 x2 x3 x4 x5 x6 p l, relu_eq2 c arg1 harg1 arg4 harg4 arg5 harg5 arg9 arg10 x0 x1 x2 x3 x4 x5 x6 p l]
  unfold scoreK; rw [part_succ _ 2 (by decide), add_assoc]; rfl

theorem score_at4 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg6 : Memref sig .tc .vmem S16x1 .f32) (harg6 : arg6.IsWhole) (arg9 : Memref sig .tc .vmem S741x16x128 .f32) (arg10 : Memref sig .tc .vmem S741x16x128 .f32) (arg11 : Memref sig .tc .vmem S741x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (p : Fin 741) (l : Fin 128) :
    kernelRun0_A.sl.v639 (F := Ideal) c arg1 harg1 arg4 harg4 arg5 harg5 arg6 harg6 arg9 arg10 arg11 x0 x3 x4 x5 (ix2 p l) = scoreK (laneArgs x0 x1 x2 x3 x4 x5 x6 l) 0 p 4 := by
  rw [score_step3, score_at3 c arg1 harg1 arg4 harg4 arg5 harg5 arg6 harg6 arg9 arg10 arg11 x0 x1 x2 x3 x4 x5 x6 p l, relu_eq3 c arg1 harg1 arg4 harg4 arg5 harg5 arg9 arg10 x0 x1 x2 x3 x4 x5 x6 p l]
  unfold scoreK; rw [part_succ _ 3 (by decide), add_assoc]; rfl

theorem score_at5 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg6 : Memref sig .tc .vmem S16x1 .f32) (harg6 : arg6.IsWhole) (arg9 : Memref sig .tc .vmem S741x16x128 .f32) (arg10 : Memref sig .tc .vmem S741x16x128 .f32) (arg11 : Memref sig .tc .vmem S741x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (p : Fin 741) (l : Fin 128) :
    kernelRun0_A.sl.v650 (F := Ideal) c arg1 harg1 arg4 harg4 arg5 harg5 arg6 harg6 arg9 arg10 arg11 x0 x3 x4 x5 (ix2 p l) = scoreK (laneArgs x0 x1 x2 x3 x4 x5 x6 l) 0 p 5 := by
  rw [score_step4, score_at4 c arg1 harg1 arg4 harg4 arg5 harg5 arg6 harg6 arg9 arg10 arg11 x0 x1 x2 x3 x4 x5 x6 p l, relu_eq4 c arg1 harg1 arg4 harg4 arg5 harg5 arg9 arg10 x0 x1 x2 x3 x4 x5 x6 p l]
  unfold scoreK; rw [part_succ _ 4 (by decide), add_assoc]; rfl

theorem score_at6 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg6 : Memref sig .tc .vmem S16x1 .f32) (harg6 : arg6.IsWhole) (arg9 : Memref sig .tc .vmem S741x16x128 .f32) (arg10 : Memref sig .tc .vmem S741x16x128 .f32) (arg11 : Memref sig .tc .vmem S741x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (p : Fin 741) (l : Fin 128) :
    kernelRun0_A.sl.v661 (F := Ideal) c arg1 harg1 arg4 harg4 arg5 harg5 arg6 harg6 arg9 arg10 arg11 x0 x3 x4 x5 (ix2 p l) = scoreK (laneArgs x0 x1 x2 x3 x4 x5 x6 l) 0 p 6 := by
  rw [score_step5, score_at5 c arg1 harg1 arg4 harg4 arg5 harg5 arg6 harg6 arg9 arg10 arg11 x0 x1 x2 x3 x4 x5 x6 p l, relu_eq5 c arg1 harg1 arg4 harg4 arg5 harg5 arg9 arg10 x0 x1 x2 x3 x4 x5 x6 p l]
  unfold scoreK; rw [part_succ _ 5 (by decide), add_assoc]; rfl

theorem score_at7 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg6 : Memref sig .tc .vmem S16x1 .f32) (harg6 : arg6.IsWhole) (arg9 : Memref sig .tc .vmem S741x16x128 .f32) (arg10 : Memref sig .tc .vmem S741x16x128 .f32) (arg11 : Memref sig .tc .vmem S741x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (p : Fin 741) (l : Fin 128) :
    kernelRun0_A.sl.v672 (F := Ideal) c arg1 harg1 arg4 harg4 arg5 harg5 arg6 harg6 arg9 arg10 arg11 x0 x3 x4 x5 (ix2 p l) = scoreK (laneArgs x0 x1 x2 x3 x4 x5 x6 l) 0 p 7 := by
  rw [score_step6, score_at6 c arg1 harg1 arg4 harg4 arg5 harg5 arg6 harg6 arg9 arg10 arg11 x0 x1 x2 x3 x4 x5 x6 p l, relu_eq6 c arg1 harg1 arg4 harg4 arg5 harg5 arg9 arg10 x0 x1 x2 x3 x4 x5 x6 p l]
  unfold scoreK; rw [part_succ _ 6 (by decide), add_assoc]; rfl

theorem score_at8 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg6 : Memref sig .tc .vmem S16x1 .f32) (harg6 : arg6.IsWhole) (arg9 : Memref sig .tc .vmem S741x16x128 .f32) (arg10 : Memref sig .tc .vmem S741x16x128 .f32) (arg11 : Memref sig .tc .vmem S741x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (p : Fin 741) (l : Fin 128) :
    kernelRun0_A.sl.v683 (F := Ideal) c arg1 harg1 arg4 harg4 arg5 harg5 arg6 harg6 arg9 arg10 arg11 x0 x3 x4 x5 (ix2 p l) = scoreK (laneArgs x0 x1 x2 x3 x4 x5 x6 l) 0 p 8 := by
  rw [score_step7, score_at7 c arg1 harg1 arg4 harg4 arg5 harg5 arg6 harg6 arg9 arg10 arg11 x0 x1 x2 x3 x4 x5 x6 p l, relu_eq7 c arg1 harg1 arg4 harg4 arg5 harg5 arg9 arg10 x0 x1 x2 x3 x4 x5 x6 p l]
  unfold scoreK; rw [part_succ _ 7 (by decide), add_assoc]; rfl

theorem score_at9 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg6 : Memref sig .tc .vmem S16x1 .f32) (harg6 : arg6.IsWhole) (arg9 : Memref sig .tc .vmem S741x16x128 .f32) (arg10 : Memref sig .tc .vmem S741x16x128 .f32) (arg11 : Memref sig .tc .vmem S741x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (p : Fin 741) (l : Fin 128) :
    kernelRun0_A.sl.v694 (F := Ideal) c arg1 harg1 arg4 harg4 arg5 harg5 arg6 harg6 arg9 arg10 arg11 x0 x3 x4 x5 (ix2 p l) = scoreK (laneArgs x0 x1 x2 x3 x4 x5 x6 l) 0 p 9 := by
  rw [score_step8, score_at8 c arg1 harg1 arg4 harg4 arg5 harg5 arg6 harg6 arg9 arg10 arg11 x0 x1 x2 x3 x4 x5 x6 p l, relu_eq8 c arg1 harg1 arg4 harg4 arg5 harg5 arg9 arg10 x0 x1 x2 x3 x4 x5 x6 p l]
  unfold scoreK; rw [part_succ _ 8 (by decide), add_assoc]; rfl

theorem score_at10 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg6 : Memref sig .tc .vmem S16x1 .f32) (harg6 : arg6.IsWhole) (arg9 : Memref sig .tc .vmem S741x16x128 .f32) (arg10 : Memref sig .tc .vmem S741x16x128 .f32) (arg11 : Memref sig .tc .vmem S741x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (p : Fin 741) (l : Fin 128) :
    kernelRun0_A.sl.v705 (F := Ideal) c arg1 harg1 arg4 harg4 arg5 harg5 arg6 harg6 arg9 arg10 arg11 x0 x3 x4 x5 (ix2 p l) = scoreK (laneArgs x0 x1 x2 x3 x4 x5 x6 l) 0 p 10 := by
  rw [score_step9, score_at9 c arg1 harg1 arg4 harg4 arg5 harg5 arg6 harg6 arg9 arg10 arg11 x0 x1 x2 x3 x4 x5 x6 p l, relu_eq9 c arg1 harg1 arg4 harg4 arg5 harg5 arg9 arg10 x0 x1 x2 x3 x4 x5 x6 p l]
  unfold scoreK; rw [part_succ _ 9 (by decide), add_assoc]; rfl

theorem score_at11 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg6 : Memref sig .tc .vmem S16x1 .f32) (harg6 : arg6.IsWhole) (arg9 : Memref sig .tc .vmem S741x16x128 .f32) (arg10 : Memref sig .tc .vmem S741x16x128 .f32) (arg11 : Memref sig .tc .vmem S741x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (p : Fin 741) (l : Fin 128) :
    kernelRun0_A.sl.v716 (F := Ideal) c arg1 harg1 arg4 harg4 arg5 harg5 arg6 harg6 arg9 arg10 arg11 x0 x3 x4 x5 (ix2 p l) = scoreK (laneArgs x0 x1 x2 x3 x4 x5 x6 l) 0 p 11 := by
  rw [score_step10, score_at10 c arg1 harg1 arg4 harg4 arg5 harg5 arg6 harg6 arg9 arg10 arg11 x0 x1 x2 x3 x4 x5 x6 p l, relu_eq10 c arg1 harg1 arg4 harg4 arg5 harg5 arg9 arg10 x0 x1 x2 x3 x4 x5 x6 p l]
  unfold scoreK; rw [part_succ _ 10 (by decide), add_assoc]; rfl

theorem score_at12 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg6 : Memref sig .tc .vmem S16x1 .f32) (harg6 : arg6.IsWhole) (arg9 : Memref sig .tc .vmem S741x16x128 .f32) (arg10 : Memref sig .tc .vmem S741x16x128 .f32) (arg11 : Memref sig .tc .vmem S741x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (p : Fin 741) (l : Fin 128) :
    kernelRun0_A.sl.v727 (F := Ideal) c arg1 harg1 arg4 harg4 arg5 harg5 arg6 harg6 arg9 arg10 arg11 x0 x3 x4 x5 (ix2 p l) = scoreK (laneArgs x0 x1 x2 x3 x4 x5 x6 l) 0 p 12 := by
  rw [score_step11, score_at11 c arg1 harg1 arg4 harg4 arg5 harg5 arg6 harg6 arg9 arg10 arg11 x0 x1 x2 x3 x4 x5 x6 p l, relu_eq11 c arg1 harg1 arg4 harg4 arg5 harg5 arg9 arg10 x0 x1 x2 x3 x4 x5 x6 p l]
  unfold scoreK; rw [part_succ _ 11 (by decide), add_assoc]; rfl

theorem score_at13 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg6 : Memref sig .tc .vmem S16x1 .f32) (harg6 : arg6.IsWhole) (arg9 : Memref sig .tc .vmem S741x16x128 .f32) (arg10 : Memref sig .tc .vmem S741x16x128 .f32) (arg11 : Memref sig .tc .vmem S741x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (p : Fin 741) (l : Fin 128) :
    kernelRun0_A.sl.v738 (F := Ideal) c arg1 harg1 arg4 harg4 arg5 harg5 arg6 harg6 arg9 arg10 arg11 x0 x3 x4 x5 (ix2 p l) = scoreK (laneArgs x0 x1 x2 x3 x4 x5 x6 l) 0 p 13 := by
  rw [score_step12, score_at12 c arg1 harg1 arg4 harg4 arg5 harg5 arg6 harg6 arg9 arg10 arg11 x0 x1 x2 x3 x4 x5 x6 p l, relu_eq12 c arg1 harg1 arg4 harg4 arg5 harg5 arg9 arg10 x0 x1 x2 x3 x4 x5 x6 p l]
  unfold scoreK; rw [part_succ _ 12 (by decide), add_assoc]; rfl

theorem score_at14 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg6 : Memref sig .tc .vmem S16x1 .f32) (harg6 : arg6.IsWhole) (arg9 : Memref sig .tc .vmem S741x16x128 .f32) (arg10 : Memref sig .tc .vmem S741x16x128 .f32) (arg11 : Memref sig .tc .vmem S741x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (p : Fin 741) (l : Fin 128) :
    kernelRun0_A.sl.v749 (F := Ideal) c arg1 harg1 arg4 harg4 arg5 harg5 arg6 harg6 arg9 arg10 arg11 x0 x3 x4 x5 (ix2 p l) = scoreK (laneArgs x0 x1 x2 x3 x4 x5 x6 l) 0 p 14 := by
  rw [score_step13, score_at13 c arg1 harg1 arg4 harg4 arg5 harg5 arg6 harg6 arg9 arg10 arg11 x0 x1 x2 x3 x4 x5 x6 p l, relu_eq13 c arg1 harg1 arg4 harg4 arg5 harg5 arg9 arg10 x0 x1 x2 x3 x4 x5 x6 p l]
  unfold scoreK; rw [part_succ _ 13 (by decide), add_assoc]; rfl

theorem score_at15 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg6 : Memref sig .tc .vmem S16x1 .f32) (harg6 : arg6.IsWhole) (arg9 : Memref sig .tc .vmem S741x16x128 .f32) (arg10 : Memref sig .tc .vmem S741x16x128 .f32) (arg11 : Memref sig .tc .vmem S741x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (p : Fin 741) (l : Fin 128) :
    kernelRun0_A.sl.v760 (F := Ideal) c arg1 harg1 arg4 harg4 arg5 harg5 arg6 harg6 arg9 arg10 arg11 x0 x3 x4 x5 (ix2 p l) = scoreK (laneArgs x0 x1 x2 x3 x4 x5 x6 l) 0 p 15 := by
  rw [score_step14, score_at14 c arg1 harg1 arg4 harg4 arg5 harg5 arg6 harg6 arg9 arg10 arg11 x0 x1 x2 x3 x4 x5 x6 p l, relu_eq14 c arg1 harg1 arg4 harg4 arg5 harg5 arg9 arg10 x0 x1 x2 x3 x4 x5 x6 p l]
  unfold scoreK; rw [part_succ _ 14 (by decide), add_assoc]; rfl

theorem score_at16 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg6 : Memref sig .tc .vmem S16x1 .f32) (harg6 : arg6.IsWhole) (arg9 : Memref sig .tc .vmem S741x16x128 .f32) (arg10 : Memref sig .tc .vmem S741x16x128 .f32) (arg11 : Memref sig .tc .vmem S741x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (p : Fin 741) (l : Fin 128) :
    kernelRun0_A.sl.v769 (F := Ideal) c arg1 harg1 arg4 harg4 arg5 harg5 arg6 harg6 arg9 arg10 arg11 x0 x3 x4 x5 (ix2 p l) = scoreK (laneArgs x0 x1 x2 x3 x4 x5 x6 l) 0 p 16 := by
  rw [score_step15, score_at15 c arg1 harg1 arg4 harg4 arg5 harg5 arg6 harg6 arg9 arg10 arg11 x0 x1 x2 x3 x4 x5 x6 p l, relu_eq15 c arg1 harg1 arg4 harg4 arg5 harg5 arg9 arg10 x0 x1 x2 x3 x4 x5 x6 p l]
  unfold scoreK; rw [part_succ _ 15 (by decide), add_assoc]; rfl

theorem top_eq (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg6 : Memref sig .tc .vmem S16x1 .f32) (harg6 : arg6.IsWhole) (arg9 : Memref sig .tc .vmem S741x16x128 .f32) (arg10 : Memref sig .tc .vmem S741x16x128 .f32) (arg11 : Memref sig .tc .vmem S741x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (l : Fin 128) :
    ((Finset.univ : Finset (Fin 741)).fold max (⊥ : EReal) (fun q => kernelRun0_A.sl.v769 (F := Ideal) c arg1 harg1 arg4 harg4 arg5 harg5 arg6 harg6 arg9 arg10 arg11 x0 x3 x4 x5 (ix2 q l))) = topK (laneArgs x0 x1 x2 x3 x4 x5 x6 l) 0 := by
  unfold topK
  exact congrArg (fun f => (Finset.univ : Finset (Fin 741)).fold max (⊥ : EReal) f) (funext fun q => score_at16 c arg1 harg1 arg4 harg4 arg5 harg5 arg6 harg6 arg9 arg10 arg11 x0 x1 x2 x3 x4 x5 x6 q l)

theorem probs_eq (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg6 : Memref sig .tc .vmem S16x1 .f32) (harg6 : arg6.IsWhole) (arg9 : Memref sig .tc .vmem S741x16x128 .f32) (arg10 : Memref sig .tc .vmem S741x16x128 .f32) (arg11 : Memref sig .tc .vmem S741x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (p : Fin 741) (l : Fin 128) :
    kernelRun0_A.sl.r_32 (F := Ideal) c arg1 harg1 arg4 harg4 arg5 harg5 arg6 harg6 arg9 arg10 arg11 x0 x3 x4 x5 (ix2 p l) = probK (laneArgs x0 x1 x2 x3 x4 x5 x6 l) 0 p := by
  rw [probs_apply, top_eq c arg1 harg1 arg4 harg4 arg5 harg5 arg6 harg6 arg9 arg10 arg11 x0 x1 x2 x3 x4 x5 x6 l]
  unfold probK exK denK exK
  rw [score_at16 c arg1 harg1 arg4 harg4 arg5 harg5 arg6 harg6 arg9 arg10 arg11 x0 x1 x2 x3 x4 x5 x6 p l]
  refine congrArg (Ideal.div _) (Finset.sum_congr rfl fun q _ => ?_)
  rw [score_at16 c arg1 harg1 arg4 harg4 arg5 harg5 arg6 harg6 arg9 arg10 arg11 x0 x1 x2 x3 x4 x5 x6 q l]

theorem pool_eq0 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg6 : Memref sig .tc .vmem S16x1 .f32) (harg6 : arg6.IsWhole) (arg9 : Memref sig .tc .vmem S741x16x128 .f32) (arg10 : Memref sig .tc .vmem S741x16x128 .f32) (arg11 : Memref sig .tc .vmem S741x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (l : Fin 128) :
    (∑ q : Fin 741, kernelRun0_A.sl.v361 (F := Ideal) c arg1 harg1 arg9 x0 (ix3 q (0 : Fin 1) l) * kernelRun0_A.sl.r_32 (F := Ideal) c arg1 harg1 arg4 harg4 arg5 harg5 arg6 harg6 arg9 arg10 arg11 x0 x3 x4 x5 (ix2 q l)) = poolK (laneArgs x0 x1 x2 x3 x4 x5 x6 l) 0 (0 : Fin 16) := by
  unfold poolK
  exact Finset.sum_congr rfl fun q _ => by rw [bi_eq0 c arg1 harg1 arg9 x0 x1 x2 x3 x4 x5 x6 q l, probs_eq c arg1 harg1 arg4 harg4 arg5 harg5 arg6 harg6 arg9 arg10 arg11 x0 x1 x2 x3 x4 x5 x6 q l]

theorem pool_eq1 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg6 : Memref sig .tc .vmem S16x1 .f32) (harg6 : arg6.IsWhole) (arg9 : Memref sig .tc .vmem S741x16x128 .f32) (arg10 : Memref sig .tc .vmem S741x16x128 .f32) (arg11 : Memref sig .tc .vmem S741x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (l : Fin 128) :
    (∑ q : Fin 741, kernelRun0_A.sl.v375 (F := Ideal) c arg1 harg1 arg9 x0 (ix3 q (0 : Fin 1) l) * kernelRun0_A.sl.r_32 (F := Ideal) c arg1 harg1 arg4 harg4 arg5 harg5 arg6 harg6 arg9 arg10 arg11 x0 x3 x4 x5 (ix2 q l)) = poolK (laneArgs x0 x1 x2 x3 x4 x5 x6 l) 0 (1 : Fin 16) := by
  unfold poolK
  exact Finset.sum_congr rfl fun q _ => by rw [bi_eq1 c arg1 harg1 arg9 x0 x1 x2 x3 x4 x5 x6 q l, probs_eq c arg1 harg1 arg4 harg4 arg5 harg5 arg6 harg6 arg9 arg10 arg11 x0 x1 x2 x3 x4 x5 x6 q l]

theorem pool_eq2 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg6 : Memref sig .tc .vmem S16x1 .f32) (harg6 : arg6.IsWhole) (arg9 : Memref sig .tc .vmem S741x16x128 .f32) (arg10 : Memref sig .tc .vmem S741x16x128 .f32) (arg11 : Memref sig .tc .vmem S741x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (l : Fin 128) :
    (∑ q : Fin 741, kernelRun0_A.sl.v389 (F := Ideal) c arg1 harg1 arg9 x0 (ix3 q (0 : Fin 1) l) * kernelRun0_A.sl.r_32 (F := Ideal) c arg1 harg1 arg4 harg4 arg5 harg5 arg6 harg6 arg9 arg10 arg11 x0 x3 x4 x5 (ix2 q l)) = poolK (laneArgs x0 x1 x2 x3 x4 x5 x6 l) 0 (2 : Fin 16) := by
  unfold poolK
  exact Finset.sum_congr rfl fun q _ => by rw [bi_eq2 c arg1 harg1 arg9 x0 x1 x2 x3 x4 x5 x6 q l, probs_eq c arg1 harg1 arg4 harg4 arg5 harg5 arg6 harg6 arg9 arg10 arg11 x0 x1 x2 x3 x4 x5 x6 q l]

theorem pool_eq3 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg6 : Memref sig .tc .vmem S16x1 .f32) (harg6 : arg6.IsWhole) (arg9 : Memref sig .tc .vmem S741x16x128 .f32) (arg10 : Memref sig .tc .vmem S741x16x128 .f32) (arg11 : Memref sig .tc .vmem S741x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (l : Fin 128) :
    (∑ q : Fin 741, kernelRun0_A.sl.v403 (F := Ideal) c arg1 harg1 arg9 x0 (ix3 q (0 : Fin 1) l) * kernelRun0_A.sl.r_32 (F := Ideal) c arg1 harg1 arg4 harg4 arg5 harg5 arg6 harg6 arg9 arg10 arg11 x0 x3 x4 x5 (ix2 q l)) = poolK (laneArgs x0 x1 x2 x3 x4 x5 x6 l) 0 (3 : Fin 16) := by
  unfold poolK
  exact Finset.sum_congr rfl fun q _ => by rw [bi_eq3 c arg1 harg1 arg9 x0 x1 x2 x3 x4 x5 x6 q l, probs_eq c arg1 harg1 arg4 harg4 arg5 harg5 arg6 harg6 arg9 arg10 arg11 x0 x1 x2 x3 x4 x5 x6 q l]

theorem pool_eq5 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg6 : Memref sig .tc .vmem S16x1 .f32) (harg6 : arg6.IsWhole) (arg9 : Memref sig .tc .vmem S741x16x128 .f32) (arg10 : Memref sig .tc .vmem S741x16x128 .f32) (arg11 : Memref sig .tc .vmem S741x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (l : Fin 128) :
    (∑ q : Fin 741, kernelRun0_A.sl.v431 (F := Ideal) c arg1 harg1 arg9 x0 (ix3 q (0 : Fin 1) l) * kernelRun0_A.sl.r_32 (F := Ideal) c arg1 harg1 arg4 harg4 arg5 harg5 arg6 harg6 arg9 arg10 arg11 x0 x3 x4 x5 (ix2 q l)) = poolK (laneArgs x0 x1 x2 x3 x4 x5 x6 l) 0 (5 : Fin 16) := by
  unfold poolK
  exact Finset.sum_congr rfl fun q _ => by rw [bi_eq5 c arg1 harg1 arg9 x0 x1 x2 x3 x4 x5 x6 q l, probs_eq c arg1 harg1 arg4 harg4 arg5 harg5 arg6 harg6 arg9 arg10 arg11 x0 x1 x2 x3 x4 x5 x6 q l]

theorem pool_eq6 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg6 : Memref sig .tc .vmem S16x1 .f32) (harg6 : arg6.IsWhole) (arg9 : Memref sig .tc .vmem S741x16x128 .f32) (arg10 : Memref sig .tc .vmem S741x16x128 .f32) (arg11 : Memref sig .tc .vmem S741x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (l : Fin 128) :
    (∑ q : Fin 741, kernelRun0_A.sl.v445 (F := Ideal) c arg1 harg1 arg9 x0 (ix3 q (0 : Fin 1) l) * kernelRun0_A.sl.r_32 (F := Ideal) c arg1 harg1 arg4 harg4 arg5 harg5 arg6 harg6 arg9 arg10 arg11 x0 x3 x4 x5 (ix2 q l)) = poolK (laneArgs x0 x1 x2 x3 x4 x5 x6 l) 0 (6 : Fin 16) := by
  unfold poolK
  exact Finset.sum_congr rfl fun q _ => by rw [bi_eq6 c arg1 harg1 arg9 x0 x1 x2 x3 x4 x5 x6 q l, probs_eq c arg1 harg1 arg4 harg4 arg5 harg5 arg6 harg6 arg9 arg10 arg11 x0 x1 x2 x3 x4 x5 x6 q l]

theorem pool_eq7 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg6 : Memref sig .tc .vmem S16x1 .f32) (harg6 : arg6.IsWhole) (arg9 : Memref sig .tc .vmem S741x16x128 .f32) (arg10 : Memref sig .tc .vmem S741x16x128 .f32) (arg11 : Memref sig .tc .vmem S741x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (l : Fin 128) :
    (∑ q : Fin 741, kernelRun0_A.sl.v459 (F := Ideal) c arg1 harg1 arg9 x0 (ix3 q (0 : Fin 1) l) * kernelRun0_A.sl.r_32 (F := Ideal) c arg1 harg1 arg4 harg4 arg5 harg5 arg6 harg6 arg9 arg10 arg11 x0 x3 x4 x5 (ix2 q l)) = poolK (laneArgs x0 x1 x2 x3 x4 x5 x6 l) 0 (7 : Fin 16) := by
  unfold poolK
  exact Finset.sum_congr rfl fun q _ => by rw [bi_eq7 c arg1 harg1 arg9 x0 x1 x2 x3 x4 x5 x6 q l, probs_eq c arg1 harg1 arg4 harg4 arg5 harg5 arg6 harg6 arg9 arg10 arg11 x0 x1 x2 x3 x4 x5 x6 q l]

theorem pool_eq8 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg6 : Memref sig .tc .vmem S16x1 .f32) (harg6 : arg6.IsWhole) (arg9 : Memref sig .tc .vmem S741x16x128 .f32) (arg10 : Memref sig .tc .vmem S741x16x128 .f32) (arg11 : Memref sig .tc .vmem S741x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (l : Fin 128) :
    (∑ q : Fin 741, kernelRun0_A.sl.v473 (F := Ideal) c arg1 harg1 arg9 x0 (ix3 q (0 : Fin 1) l) * kernelRun0_A.sl.r_32 (F := Ideal) c arg1 harg1 arg4 harg4 arg5 harg5 arg6 harg6 arg9 arg10 arg11 x0 x3 x4 x5 (ix2 q l)) = poolK (laneArgs x0 x1 x2 x3 x4 x5 x6 l) 0 (8 : Fin 16) := by
  unfold poolK
  exact Finset.sum_congr rfl fun q _ => by rw [bi_eq8 c arg1 harg1 arg9 x0 x1 x2 x3 x4 x5 x6 q l, probs_eq c arg1 harg1 arg4 harg4 arg5 harg5 arg6 harg6 arg9 arg10 arg11 x0 x1 x2 x3 x4 x5 x6 q l]

theorem pool_eq9 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg6 : Memref sig .tc .vmem S16x1 .f32) (harg6 : arg6.IsWhole) (arg9 : Memref sig .tc .vmem S741x16x128 .f32) (arg10 : Memref sig .tc .vmem S741x16x128 .f32) (arg11 : Memref sig .tc .vmem S741x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (l : Fin 128) :
    (∑ q : Fin 741, kernelRun0_A.sl.v487 (F := Ideal) c arg1 harg1 arg9 x0 (ix3 q (0 : Fin 1) l) * kernelRun0_A.sl.r_32 (F := Ideal) c arg1 harg1 arg4 harg4 arg5 harg5 arg6 harg6 arg9 arg10 arg11 x0 x3 x4 x5 (ix2 q l)) = poolK (laneArgs x0 x1 x2 x3 x4 x5 x6 l) 0 (9 : Fin 16) := by
  unfold poolK
  exact Finset.sum_congr rfl fun q _ => by rw [bi_eq9 c arg1 harg1 arg9 x0 x1 x2 x3 x4 x5 x6 q l, probs_eq c arg1 harg1 arg4 harg4 arg5 harg5 arg6 harg6 arg9 arg10 arg11 x0 x1 x2 x3 x4 x5 x6 q l]

theorem pool_eq10 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg6 : Memref sig .tc .vmem S16x1 .f32) (harg6 : arg6.IsWhole) (arg9 : Memref sig .tc .vmem S741x16x128 .f32) (arg10 : Memref sig .tc .vmem S741x16x128 .f32) (arg11 : Memref sig .tc .vmem S741x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (l : Fin 128) :
    (∑ q : Fin 741, kernelRun0_A.sl.v501 (F := Ideal) c arg1 harg1 arg9 x0 (ix3 q (0 : Fin 1) l) * kernelRun0_A.sl.r_32 (F := Ideal) c arg1 harg1 arg4 harg4 arg5 harg5 arg6 harg6 arg9 arg10 arg11 x0 x3 x4 x5 (ix2 q l)) = poolK (laneArgs x0 x1 x2 x3 x4 x5 x6 l) 0 (10 : Fin 16) := by
  unfold poolK
  exact Finset.sum_congr rfl fun q _ => by rw [bi_eq10 c arg1 harg1 arg9 x0 x1 x2 x3 x4 x5 x6 q l, probs_eq c arg1 harg1 arg4 harg4 arg5 harg5 arg6 harg6 arg9 arg10 arg11 x0 x1 x2 x3 x4 x5 x6 q l]

theorem pool_eq11 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg6 : Memref sig .tc .vmem S16x1 .f32) (harg6 : arg6.IsWhole) (arg9 : Memref sig .tc .vmem S741x16x128 .f32) (arg10 : Memref sig .tc .vmem S741x16x128 .f32) (arg11 : Memref sig .tc .vmem S741x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (l : Fin 128) :
    (∑ q : Fin 741, kernelRun0_A.sl.v515 (F := Ideal) c arg1 harg1 arg9 x0 (ix3 q (0 : Fin 1) l) * kernelRun0_A.sl.r_32 (F := Ideal) c arg1 harg1 arg4 harg4 arg5 harg5 arg6 harg6 arg9 arg10 arg11 x0 x3 x4 x5 (ix2 q l)) = poolK (laneArgs x0 x1 x2 x3 x4 x5 x6 l) 0 (11 : Fin 16) := by
  unfold poolK
  exact Finset.sum_congr rfl fun q _ => by rw [bi_eq11 c arg1 harg1 arg9 x0 x1 x2 x3 x4 x5 x6 q l, probs_eq c arg1 harg1 arg4 harg4 arg5 harg5 arg6 harg6 arg9 arg10 arg11 x0 x1 x2 x3 x4 x5 x6 q l]

theorem pool_eq12 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg6 : Memref sig .tc .vmem S16x1 .f32) (harg6 : arg6.IsWhole) (arg9 : Memref sig .tc .vmem S741x16x128 .f32) (arg10 : Memref sig .tc .vmem S741x16x128 .f32) (arg11 : Memref sig .tc .vmem S741x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (l : Fin 128) :
    (∑ q : Fin 741, kernelRun0_A.sl.v529 (F := Ideal) c arg1 harg1 arg9 x0 (ix3 q (0 : Fin 1) l) * kernelRun0_A.sl.r_32 (F := Ideal) c arg1 harg1 arg4 harg4 arg5 harg5 arg6 harg6 arg9 arg10 arg11 x0 x3 x4 x5 (ix2 q l)) = poolK (laneArgs x0 x1 x2 x3 x4 x5 x6 l) 0 (12 : Fin 16) := by
  unfold poolK
  exact Finset.sum_congr rfl fun q _ => by rw [bi_eq12 c arg1 harg1 arg9 x0 x1 x2 x3 x4 x5 x6 q l, probs_eq c arg1 harg1 arg4 harg4 arg5 harg5 arg6 harg6 arg9 arg10 arg11 x0 x1 x2 x3 x4 x5 x6 q l]

theorem pool_eq13 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg6 : Memref sig .tc .vmem S16x1 .f32) (harg6 : arg6.IsWhole) (arg9 : Memref sig .tc .vmem S741x16x128 .f32) (arg10 : Memref sig .tc .vmem S741x16x128 .f32) (arg11 : Memref sig .tc .vmem S741x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (l : Fin 128) :
    (∑ q : Fin 741, kernelRun0_A.sl.v543 (F := Ideal) c arg1 harg1 arg9 x0 (ix3 q (0 : Fin 1) l) * kernelRun0_A.sl.r_32 (F := Ideal) c arg1 harg1 arg4 harg4 arg5 harg5 arg6 harg6 arg9 arg10 arg11 x0 x3 x4 x5 (ix2 q l)) = poolK (laneArgs x0 x1 x2 x3 x4 x5 x6 l) 0 (13 : Fin 16) := by
  unfold poolK
  exact Finset.sum_congr rfl fun q _ => by rw [bi_eq13 c arg1 harg1 arg9 x0 x1 x2 x3 x4 x5 x6 q l, probs_eq c arg1 harg1 arg4 harg4 arg5 harg5 arg6 harg6 arg9 arg10 arg11 x0 x1 x2 x3 x4 x5 x6 q l]

theorem pool_eq14 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg6 : Memref sig .tc .vmem S16x1 .f32) (harg6 : arg6.IsWhole) (arg9 : Memref sig .tc .vmem S741x16x128 .f32) (arg10 : Memref sig .tc .vmem S741x16x128 .f32) (arg11 : Memref sig .tc .vmem S741x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (l : Fin 128) :
    (∑ q : Fin 741, kernelRun0_A.sl.v557 (F := Ideal) c arg1 harg1 arg9 x0 (ix3 q (0 : Fin 1) l) * kernelRun0_A.sl.r_32 (F := Ideal) c arg1 harg1 arg4 harg4 arg5 harg5 arg6 harg6 arg9 arg10 arg11 x0 x3 x4 x5 (ix2 q l)) = poolK (laneArgs x0 x1 x2 x3 x4 x5 x6 l) 0 (14 : Fin 16) := by
  unfold poolK
  exact Finset.sum_congr rfl fun q _ => by rw [bi_eq14 c arg1 harg1 arg9 x0 x1 x2 x3 x4 x5 x6 q l, probs_eq c arg1 harg1 arg4 harg4 arg5 harg5 arg6 harg6 arg9 arg10 arg11 x0 x1 x2 x3 x4 x5 x6 q l]

theorem pool_eq15 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg6 : Memref sig .tc .vmem S16x1 .f32) (harg6 : arg6.IsWhole) (arg9 : Memref sig .tc .vmem S741x16x128 .f32) (arg10 : Memref sig .tc .vmem S741x16x128 .f32) (arg11 : Memref sig .tc .vmem S741x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (l : Fin 128) :
    (∑ q : Fin 741, kernelRun0_A.sl.v571 (F := Ideal) c arg1 harg1 arg9 x0 (ix3 q (0 : Fin 1) l) * kernelRun0_A.sl.r_32 (F := Ideal) c arg1 harg1 arg4 harg4 arg5 harg5 arg6 harg6 arg9 arg10 arg11 x0 x3 x4 x5 (ix2 q l)) = poolK (laneArgs x0 x1 x2 x3 x4 x5 x6 l) 0 (15 : Fin 16) := by
  unfold poolK
  exact Finset.sum_congr rfl fun q _ => by rw [bi_eq15 c arg1 harg1 arg9 x0 x1 x2 x3 x4 x5 x6 q l, probs_eq c arg1 harg1 arg4 harg4 arg5 harg5 arg6 harg6 arg9 arg10 arg11 x0 x1 x2 x3 x4 x5 x6 q l]

theorem pool_eq4 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg6 : Memref sig .tc .vmem S16x1 .f32) (harg6 : arg6.IsWhole) (arg9 : Memref sig .tc .vmem S741x16x128 .f32) (arg10 : Memref sig .tc .vmem S741x16x128 .f32) (arg11 : Memref sig .tc .vmem S741x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (l : Fin 128) :
    (∑ q : Fin 741, kernelRun0_A.sl.r_34 (F := Ideal) c arg1 harg1 arg4 harg4 arg5 harg5 arg6 harg6 arg9 arg10 arg11 x0 x3 x4 x5 (ix2 q l)) = poolK (laneArgs x0 x1 x2 x3 x4 x5 x6 l) 0 (4 : Fin 16) := by
  unfold poolK
  exact Finset.sum_congr rfl fun q _ => by rw [pool_b, bi_eq4 c arg1 harg1 arg9 x0 x1 x2 x3 x4 x5 x6 q l, probs_eq c arg1 harg1 arg4 harg4 arg5 harg5 arg6 harg6 arg9 arg10 arg11 x0 x1 x2 x3 x4 x5 x6 q l]

theorem aw_at4 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg6 : Memref sig .tc .vmem S16x1 .f32) (harg6 : arg6.IsWhole) (arg7 : Memref sig .tc .vmem S16x1 .f32) (harg7 : arg7.IsWhole) (arg9 : Memref sig .tc .vmem S741x16x128 .f32) (arg10 : Memref sig .tc .vmem S741x16x128 .f32) (arg11 : Memref sig .tc .vmem S741x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (l : Fin 128) :
    kernelRun0_A.sl.r_33 (F := Ideal) c arg1 harg1 arg4 harg4 arg5 harg5 arg6 harg6 arg7 harg7 arg9 arg10 arg11 x0 x3 x4 x5 x6 (ix2 (0 : Fin 1) l) = awK (laneArgs x0 x1 x2 x3 x4 x5 x6 l) 0 4 := by
  rw [pool_a, zero_f32, pool_eq0 c arg1 harg1 arg4 harg4 arg5 harg5 arg6 harg6 arg9 arg10 arg11 x0 x1 x2 x3 x4 x5 x6 l, pool_eq1 c arg1 harg1 arg4 harg4 arg5 harg5 arg6 harg6 arg9 arg10 arg11 x0 x1 x2 x3 x4 x5 x6 l, pool_eq2 c arg1 harg1 arg4 harg4 arg5 harg5 arg6 harg6 arg9 arg10 arg11 x0 x1 x2 x3 x4 x5 x6 l, pool_eq3 c arg1 harg1 arg4 harg4 arg5 harg5 arg6 harg6 arg9 arg10 arg11 x0 x1 x2 x3 x4 x5 x6 l]
  unfold awK
  rw [part_succ _ 3 (by decide), part_succ _ 2 (by decide), part_succ _ 1 (by decide), part_succ _ 0 (by decide), part_zero]
  simp only [← add_assoc, add_zero]
  rfl

theorem aw_at8 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg6 : Memref sig .tc .vmem S16x1 .f32) (harg6 : arg6.IsWhole) (arg7 : Memref sig .tc .vmem S16x1 .f32) (harg7 : arg7.IsWhole) (arg9 : Memref sig .tc .vmem S741x16x128 .f32) (arg10 : Memref sig .tc .vmem S741x16x128 .f32) (arg11 : Memref sig .tc .vmem S741x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (l : Fin 128) :
    kernelRun0_A.sl.r_35 (F := Ideal) c arg1 harg1 arg4 harg4 arg5 harg5 arg6 harg6 arg7 harg7 arg9 arg10 arg11 x0 x3 x4 x5 x6 (ix2 (0 : Fin 1) l) = awK (laneArgs x0 x1 x2 x3 x4 x5 x6 l) 0 8 := by
  rw [pool_c, aw_at4 c arg1 harg1 arg4 harg4 arg5 harg5 arg6 harg6 arg7 harg7 arg9 arg10 arg11 x0 x1 x2 x3 x4 x5 x6 l, pool_eq4 c arg1 harg1 arg4 harg4 arg5 harg5 arg6 harg6 arg9 arg10 arg11 x0 x1 x2 x3 x4 x5 x6 l, pool_eq5 c arg1 harg1 arg4 harg4 arg5 harg5 arg6 harg6 arg9 arg10 arg11 x0 x1 x2 x3 x4 x5 x6 l, pool_eq6 c arg1 harg1 arg4 harg4 arg5 harg5 arg6 harg6 arg9 arg10 arg11 x0 x1 x2 x3 x4 x5 x6 l, pool_eq7 c arg1 harg1 arg4 harg4 arg5 harg5 arg6 harg6 arg9 arg10 arg11 x0 x1 x2 x3 x4 x5 x6 l]
  unfold awK
  rw [part_succ _ 7 (by decide), part_succ _ 6 (by decide), part_succ _ 5 (by decide), part_succ _ 4 (by decide)]
  simp only [← add_assoc]
  rfl

theorem aw_at13 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg6 : Memref sig .tc .vmem S16x1 .f32) (harg6 : arg6.IsWhole) (arg7 : Memref sig .tc .vmem S16x1 .f32) (harg7 : arg7.IsWhole) (arg9 : Memref sig .tc .vmem S741x16x128 .f32) (arg10 : Memref sig .tc .vmem S741x16x128 .f32) (arg11 : Memref sig .tc .vmem S741x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (l : Fin 128) :
    kernelRun0_A.sl.r_38 (F := Ideal) c arg1 harg1 arg4 harg4 arg5 harg5 arg6 harg6 arg7 harg7 arg9 arg10 arg11 x0 x3 x4 x5 x6 (ix2 (0 : Fin 1) l) = awK (laneArgs x0 x1 x2 x3 x4 x5 x6 l) 0 13 := by
  rw [pool_f, aw_at8 c arg1 harg1 arg4 harg4 arg5 harg5 arg6 harg6 arg7 harg7 arg9 arg10 arg11 x0 x1 x2 x3 x4 x5 x6 l, pool_d, pool_e, pool_eq8 c arg1 harg1 arg4 harg4 arg5 harg5 arg6 harg6 arg9 arg10 arg11 x0 x1 x2 x3 x4 x5 x6 l, pool_eq9 c arg1 harg1 arg4 harg4 arg5 harg5 arg6 harg6 arg9 arg10 arg11 x0 x1 x2 x3 x4 x5 x6 l, pool_eq10 c arg1 harg1 arg4 harg4 arg5 harg5 arg6 harg6 arg9 arg10 arg11 x0 x1 x2 x3 x4 x5 x6 l, pool_eq11 c arg1 harg1 arg4 harg4 arg5 harg5 arg6 harg6 arg9 arg10 arg11 x0 x1 x2 x3 x4 x5 x6 l, pool_eq12 c arg1 harg1 arg4 harg4 arg5 harg5 arg6 harg6 arg9 arg10 arg11 x0 x1 x2 x3 x4 x5 x6 l]
  unfold awK
  rw [part_succ _ 12 (by decide), part_succ _ 11 (by decide), part_succ _ 10 (by decide), part_succ _ 9 (by decide), part_succ _ 8 (by decide)]
  simp only [← add_assoc]
  rfl

theorem aw_at15 (c : Dev nD) (arg1 : Memref sig .tc .vmem S39x16x128 .f32) (harg1 : arg1.IsWhole) (arg4 : Memref sig .tc .vmem S16x16 .f32) (harg4 : arg4.IsWhole) (arg5 : Memref sig .tc .vmem S1x16 .f32) (harg5 : arg5.IsWhole) (arg6 : Memref sig .tc .vmem S16x1 .f32) (harg6 : arg6.IsWhole) (arg7 : Memref sig .tc .vmem S16x1 .f32) (harg7 : arg7.IsWhole) (arg9 : Memref sig .tc .vmem S741x16x128 .f32) (arg10 : Memref sig .tc .vmem S741x16x128 .f32) (arg11 : Memref sig .tc .vmem S741x128 .f32) (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (l : Fin 128) :
    kernelRun0_A.sl.r_39 (F := Ideal) c arg1 harg1 arg4 harg4 arg5 harg5 arg6 harg6 arg7 harg7 arg9 arg10 arg11 x0 x3 x4 x5 x6 (ix2 (0 : Fin 1) l) = awK (laneArgs x0 x1 x2 x3 x4 x5 x6 l) 0 15 := by
  rw [pool_g, aw_at13 c arg1 harg1 arg4 harg4 arg5 harg5 arg6 harg6 arg7 harg7 arg9 arg10 arg11 x0 x1 x2 x3 x4 x5 x6 l, pool_eq13 c arg1 harg1 arg4 harg4 arg5 harg5 arg6 harg6 arg9 arg10 arg11 x0 x1 x2 x3 x4 x5 x6 l, pool_eq14 c arg1 harg1 arg4 harg4 arg5 harg5 arg6 harg6 arg9 arg10 arg11 x0 x1 x2 x3 x4 x5 x6 l]
  unfold awK
  rw [part_succ _ 14 (by decide), part_succ _ 13 (by decide)]
  simp only [← add_assoc]
  rfl

/-- Lane `l` of the stored block is the function of lane `l` of the input blocks. -/
theorem lane_out (c : Dev nD) (i : grid0.Coords) (arg1 : Memref sig .tc .vmem S39x16x128 .f32) (harg1 : arg1.IsWhole) (arg2 : Memref sig .tc .vmem S1x128 .f32) (harg2 : arg2.IsWhole) (arg3 : Memref sig .tc .vmem S1x1 .f32) (harg3 : arg3.IsWhole) (arg4 : Memref sig .tc .vmem S16x16 .f32) (harg4 : arg4.IsWhole) (arg5 : Memref sig .tc .vmem S1x16 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S1x128 .f32) (harg8 : arg8.IsWhole) (arg9 : Memref sig .tc .vmem S741x16x128 .f32) (harg9 : arg9.IsWhole) (arg10 : Memref sig .tc .vmem S741x16x128 .f32) (harg10 : arg10.IsWhole) (arg11 : Memref sig .tc .vmem S741x128 .f32) (harg11 : arg11.IsWhole)
    (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (l : Fin 128) :
    out0_A_7 (F := Ideal) c i arg1 harg1 arg2 harg2 arg3 harg3 arg4 harg4 arg5 harg5 arg6 harg6 arg7 harg7 arg8 harg8 arg9 harg9 arg10 harg10 arg11 harg11 x0 x1 x2 x3 x4 x5 x6 (ix2 (0 : Fin 1) l) = Cert.Spec.out (laneArgs x0 x1 x2 x3 x4 x5 x6 l) 0 := by
  rw [out_apply, aw_at15 c arg1 harg1 arg4 harg4 arg5 harg5 arg6 harg6 arg7 harg7 arg9 arg10 arg11 x0 x1 x2 x3 x4 x5 x6 l, pool_h, pool_eq15 c arg1 harg1 arg4 harg4 arg5 harg5 arg6 harg6 arg9 arg10 arg11 x0 x1 x2 x3 x4 x5 x6 l, ← outK_eq]
  unfold outK awK
  rw [part_succ _ 15 (by decide), add_assoc (0 : EReal)]
  rfl

end Cert.KernelIdeal.KValue

end
-- ==== Proof.KBody.lean ====
/-
  The value one lane of the kernel's body leaves in the output block.

  At a grid point the body sees a block of 128 batch rows on the lane axis: the scaled embeddings `x0 (f, e, l)`, the
  first-order term `x1 (0, l)`, and the small dense parameters whole. Lane `l` of the block it stores is the function
  `Spec.out` of that lane's embeddings alone.
-/
import proofs.«158778_j51101520888212_2_alg».proof.Proof.Gen.KernelIdeal.Frame
import proofs.«158778_j51101520888212_2_alg».proof.Proof.Spec
import proofs.«158778_j51101520888212_2_alg».proof.Proof.KBody0
import proofs.«158778_j51101520888212_2_alg».proof.Proof.KChain
import Idealize.ShloMosaic.Lib.ValueIdx
import Idealize.ShloMosaic.Lib.Pipeline.Value

set_option maxRecDepth 16384

noncomputable section

namespace Cert.KernelIdeal.KValue

open Idealize.ShloMosaic Idealize.ShloMosaic.TcCoe Idealize.SL.Sem ValueIdx
open Cert.KernelIdeal Cert.KernelIdeal.Gen

/-- Lane `l` of the stored block is the function of lane `l` of the input blocks. -/
theorem lane_value (c : Dev nD) (i : grid0.Coords) (arg1 : Memref sig .tc .vmem S39x16x128 .f32) (harg1 : arg1.IsWhole) (arg2 : Memref sig .tc .vmem S1x128 .f32) (harg2 : arg2.IsWhole) (arg3 : Memref sig .tc .vmem S1x1 .f32) (harg3 : arg3.IsWhole) (arg4 : Memref sig .tc .vmem S16x16 .f32) (harg4 : arg4.IsWhole) (arg5 : Memref sig .tc .vmem S1x16 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S1x128 .f32) (harg8 : arg8.IsWhole) (arg9 : Memref sig .tc .vmem S741x16x128 .f32) (harg9 : arg9.IsWhole) (arg10 : Memref sig .tc .vmem S741x16x128 .f32) (harg10 : arg10.IsWhole) (arg11 : Memref sig .tc .vmem S741x128 .f32) (harg11 : arg11.IsWhole)
    (x0 : Vec Ideal S39x16x128 .f32) (x1 : Vec Ideal S1x128 .f32) (x2 : Vec Ideal S1x1 .f32) (x3 : Vec Ideal S16x16 .f32) (x4 : Vec Ideal S1x16 .f32) (x5 : Vec Ideal S16x1 .f32) (x6 : Vec Ideal S16x1 .f32) (l : Fin 128) :
    out0_A_7 (F := Ideal) c i arg1 harg1 arg2 harg2 arg3 harg3 arg4 harg4 arg5 harg5 arg6 harg6 arg7 harg7 arg8 harg8 arg9 harg9 arg10 harg10 arg11 harg11 x0 x1 x2 x3 x4 x5 x6 (ix2 0 l) = Cert.Spec.out (laneArgs x0 x1 x2 x3 x4 x5 x6 l) 0 :=
  lane_out c i arg1 harg1 arg2 harg2 arg3 harg3 arg4 harg4 arg5 harg5 arg6 harg6 arg7 harg7 arg8 harg8 arg9 harg9 arg10 harg10 arg11 harg11 x0 x1 x2 x3 x4 x5 x6 l

end Cert.KernelIdeal.KValue

end
-- ==== Proof.KRun.lean ====
/-
  From the body's lanes to the kernel's result array.

  The output window's block at grid point `t` is columns `128 t … 128 t + 127` of the one-row result array, and the input
  windows' blocks at `t` are the same columns of the transposed embeddings and of the first-order row, the dense
  parameters being staged whole. So every point writes the restriction of ONE function of the array index — column `b`
  holds `Spec.out` at batch row `b` — the 64 blocks cover the 8192 columns, and the array ends holding that function; the
  reshape after the region only drops the unit row axis.
-/
import proofs.«158778_j51101520888212_2_alg».proof.Proof.KBody
import Idealize.ShloMosaic.Lib.ValueIdx
import Idealize.ShloMosaic.Lib.ValueLayout
import Idealize.ShloMosaic.Lib.Pipeline.Value
import Idealize.ShloMosaic.Lib.Tactic

set_option maxRecDepth 16384

noncomputable section

namespace Cert.KernelIdeal.KValue

open Idealize.ShloMosaic Idealize.ShloMosaic.TcCoe Idealize.ShloMosaic.Tactic Idealize.SL.Sem ValueIdx
open Idealize.ShloMosaic.Pipeline (Dat)
open Cert.KernelIdeal Cert.KernelIdeal.Gen

variable (m : (ℓ : Loc nD τ sig) → Buf (Elt Ideal) ℓ) (ρ : Dev nD → PrngReg)

/-- The arguments of the function as the region finds them: the transposed scaled embeddings, the first-order row, the
    bias and the dense layer's bias as one-row arrays, the three dense parameters as given. -/
def kargs (c : Dev nD) : Cert.Spec.Args where
  E b f e := (V m c main_v20 : S39x16x8192.Idx → EReal) (ix3 f e b)
  Y b := (V m c main_v21 : S1x8192.Idx → EReal) (ix2 0 b)
  bias := (V m c main_v22 : S1x1.Idx → EReal) (ix2 0 0)
  aw e a := (V m c main_arg5 : S16x16.Idx → EReal) (ix2 e a)
  ab a := (V m c main_v23 : S1x16.Idx → EReal) (ix2 0 a)
  ph a := (V m c main_arg7 : S16x1.Idx → EReal) (ix2 a 0)
  pp e := (V m c main_arg8 : S16x1.Idx → EReal) (ix2 e 0)

/-- The result array as one function of its index: column `b` of the one row holds the function at batch row `b`. -/
def G (c : Dev nD) : S1x8192.Idx → EReal := fun j => Cert.Spec.out (kargs m c) (j 1)

/-- The function at a batch row depends on the arguments at that row only. -/
theorem out_congr (A A' : Cert.Spec.Args) (b b' : Fin 8192) (hE : A.E b = A'.E b') (hY : A.Y b = A'.Y b') (hb : A.bias = A'.bias)
    (haw : A.aw = A'.aw) (hab : A.ab = A'.ab) (hph : A.ph = A'.ph) (hpp : A.pp = A'.pp) :
    Cert.Spec.out A b = Cert.Spec.out A' b' := by
  unfold Cert.Spec.out Cert.Spec.second Cert.Spec.pooled Cert.Spec.prob Cert.Spec.den Cert.Spec.ex Cert.Spec.top Cert.Spec.score
    Cert.Spec.att Cert.Spec.bi
  rw [hE, hY, hb, haw, hab, hph, hpp]

/-- Where each blocked window's block sits at grid point `t`: block column `t`, every other block coordinate zero. -/
theorem idx_facts : ∀ t : Fin cfg0.N,
    (win0_7.index t (0 : Fin 2) = 0 ∧ win0_7.index t (1 : Fin 2) = t.val)
    ∧ (win0_0.index t (0 : Fin 3) = 0 ∧ win0_0.index t (1 : Fin 3) = 0 ∧ win0_0.index t (2 : Fin 3) = t.val)
    ∧ (win0_1.index t (0 : Fin 2) = 0 ∧ win0_1.index t (1 : Fin 2) = t.val)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0) :=
  (by decide +kernel : ∀ t : Fin grid0.N, _)

/-- An index of the result array is in point `t`'s block iff each coordinate is in the block's range on its axis. -/
theorem mem_blk (t : Fin cfg0.N) (i : S1x8192.Idx) :
    i ∈ ((cfg0.win 7).blk t).view.set ↔ ∀ a : Fin 2, win0_7.index t a * S1x128.size a ≤ (i a).val ∧ (i a).val < win0_7.index t a * S1x128.size a + S1x128.size a := by
  show i ∈ ((View.whole main_v24).slice (win0_7.rect t)).set ↔ _
  rw [View.set_slice_whole, Rect.mem_set_unit]
  exact Iff.rfl

/-- The embeddings' block at point `t`: all fields and channels, columns `128 t …` of the transposed array. -/
theorem iblk0_apply (c : Dev nD) (t : Fin cfg0.N) (y : S39x16x128.Idx) (k : S39x16x8192.Idx)
    (h0 : (k 0).val = (y 0).val) (h1 : (k 1).val = (y 1).val) (h2 : (k 2).val = t.val * 128 + (y 2).val) :
    (iblk m c 0 t : Vec Ideal S39x16x128 .f32) y = (V m c main_v20 : S39x16x8192.Idx → EReal) k := by
  obtain ⟨-, ⟨e0, e1, e2⟩, -⟩ := idx_facts t
  unfold iblk
  rw [View.read_apply]
  show V m c main_v20 _ = V m c main_v20 _
  refine congrArg (V m c main_v20) ?_
  funext a
  apply Fin.ext
  match a with
  | ⟨0, _⟩ => show win0_0.index t 0 * 39 + 1 * (y 0).val = (k 0).val; rw [e0, h0]; omega
  | ⟨1, _⟩ => show win0_0.index t 1 * 16 + 1 * (y 1).val = (k 1).val; rw [e1, h1]; omega
  | ⟨2, _⟩ => show win0_0.index t 2 * 128 + 1 * (y 2).val = (k 2).val; rw [e2, h2]; omega

/-- The first-order row's block at point `t`: columns `128 t …`. -/
theorem iblk1_apply (c : Dev nD) (t : Fin cfg0.N) (y : S1x128.Idx) (k : S1x8192.Idx)
    (h0 : (k 0).val = (y 0).val) (h1 : (k 1).val = t.val * 128 + (y 1).val) :
    (iblk m c 1 t : Vec Ideal S1x128 .f32) y = (V m c main_v21 : S1x8192.Idx → EReal) k := by
  obtain ⟨-, -, ⟨e0, e1⟩, -⟩ := idx_facts t
  unfold iblk
  rw [View.read_apply]
  show V m c main_v21 _ = V m c main_v21 _
  refine congrArg (V m c main_v21) ?_
  funext a
  apply Fin.ext
  match a with
  | ⟨0, _⟩ => show win0_1.index t 0 * 1 + 1 * (y 0).val = (k 0).val; rw [e0, h0]; omega
  | ⟨1, _⟩ => show win0_1.index t 1 * 128 + 1 * (y 1).val = (k 1).val; rw [e1, h1]; omega

/-- The bias is staged whole. -/
theorem iblk2_apply (c : Dev nD) (t : Fin cfg0.N) (y : S1x1.Idx) :
    (iblk m c 2 t : Vec Ideal S1x1 .f32) y = (V m c main_v22 : S1x1.Idx → EReal) y := by
  obtain ⟨-, -, -, ⟨e0, e1⟩, -⟩ := idx_facts t
  unfold iblk
  rw [View.read_apply]
  show V m c main_v22 _ = V m c main_v22 _
  refine congrArg (V m c main_v22) ?_
  funext a
  apply Fin.ext
  match a with
  | ⟨0, _⟩ => show win0_2.index t 0 * 1 + 1 * (y 0).val = (y 0).val; rw [e0]; omega
  | ⟨1, _⟩ => show win0_2.index t 1 * 1 + 1 * (y 1).val = (y 1).val; rw [e1]; omega

/-- The dense layer's matrix is staged whole. -/
theorem iblk3_apply (c : Dev nD) (t : Fin cfg0.N) (y : S16x16.Idx) :
    (iblk m c 3 t : Vec Ideal S16x16 .f32) y = (V m c main_arg5 : S16x16.Idx → EReal) y := by
  obtain ⟨-, -, -, -, ⟨e0, e1⟩, -⟩ := idx_facts t
  unfold iblk
  rw [View.read_apply]
  show V m c main_arg5 _ = V m c main_arg5 _
  refine congrArg (V m c main_arg5) ?_
  funext a
  apply Fin.ext
  match a with
  | ⟨0, _⟩ => show win0_3.index t 0 * 16 + 1 * (y 0).val = (y 0).val; rw [e0]; omega
  | ⟨1, _⟩ => show win0_3.index t 1 * 16 + 1 * (y 1).val = (y 1).val; rw [e1]; omega

/-- The dense layer's bias row is staged whole. -/
theorem iblk4_apply (c : Dev nD) (t : Fin cfg0.N) (y : S1x16.Idx) :
    (iblk m c 4 t : Vec Ideal S1x16 .f32) y = (V m c main_v23 : S1x16.Idx → EReal) y := by
  obtain ⟨-, -, -, -, -, ⟨e0, e1⟩, -⟩ := idx_facts t
  unfold iblk
  rw [View.read_apply]
  show V m c main_v23 _ = V m c main_v23 _
  refine congrArg (V m c main_v23) ?_
  funext a
  apply Fin.ext
  match a with
  | ⟨0, _⟩ => show win0_4.index t 0 * 1 + 1 * (y 0).val = (y 0).val; rw [e0]; omega
  | ⟨1, _⟩ => show win0_4.index t 1 * 16 + 1 * (y 1).val = (y 1).val; rw [e1]; omega

/-- The logit projection is staged whole. -/
theorem iblk5_apply (c : Dev nD) (t : Fin cfg0.N) (y : S16x1.Idx) :
    (iblk m c 5 t : Vec Ideal S16x1 .f32) y = (V m c main_arg7 : S16x1.Idx → EReal) y := by
  obtain ⟨-, -, -, -, -, -, ⟨e0, e1⟩, -⟩ := idx_facts t
  unfold iblk
  rw [View.read_apply]
  show V m c main_arg7 _ = V m c main_arg7 _
  refine congrArg (V m c main_arg7) ?_
  funext a
  apply Fin.ext
  match a with
  | ⟨0, _⟩ => show win0_5.index t 0 * 16 + 1 * (y 0).val = (y 0).val; rw [e0]; omega
  | ⟨1, _⟩ => show win0_5.index t 1 * 1 + 1 * (y 1).val = (y 1).val; rw [e1]; omega

/-- The pooling projection is staged whole. -/
theorem iblk6_apply (c : Dev nD) (t : Fin cfg0.N) (y : S16x1.Idx) :
    (iblk m c 6 t : Vec Ideal S16x1 .f32) y = (V m c main_arg8 : S16x1.Idx → EReal) y := by
  obtain ⟨-, -, -, -, -, -, -, ⟨e0, e1⟩⟩ := idx_facts t
  unfold iblk
  rw [View.read_apply]
  show V m c main_arg8 _ = V m c main_arg8 _
  refine congrArg (V m c main_arg8) ?_
  funext a
  apply Fin.ext
  match a with
  | ⟨0, _⟩ => show win0_6.index t 0 * 16 + 1 * (y 0).val = (y 0).val; rw [e0]; omega
  | ⟨1, _⟩ => show win0_6.index t 1 * 1 + 1 * (y 1).val = (y 1).val; rw [e1]; omega

/-- What point `t` leaves in the output's staging block, lane by lane: the function at batch row `128 t + l`. -/
theorem outs_apply (c : Dev nD) (t : Fin cfg0.N) (j : S1x128.Idx) :
    (outsAt0 m c t : Vec Ideal S1x128 .f32) j = G m c (((cfg0.win 7).blk t).view.emb j) := by
  obtain ⟨u, l, rfl⟩ : ∃ (u : Fin 1) (l : Fin 128), j = ix2 u l := ⟨j 0, j 1, eq_ix2 j⟩
  obtain rfl : u = 0 := Subsingleton.elim _ _
  obtain ⟨⟨e0, e1⟩, -⟩ := idx_facts t
  have hb : ((((cfg0.win 7).blk t).view.emb (ix2 (0 : Fin 1) l) : S1x8192.Idx) 1).val = t.val * 128 + l.val := by
    show win0_7.index t 1 * 128 + 1 * l.val = _; rw [e1]; omega
  unfold outsAt0
  refine (lane_value c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) scM0_0 (Memref.isWhole_whole _) scM0_1 (Memref.isWhole_whole _)
    scM0_2 (Memref.isWhole_whole _) (iblk m c 0 t) (iblk m c 1 t) (iblk m c 2 t) (iblk m c 3 t) (iblk m c 4 t) (iblk m c 5 t)
    (iblk m c 6 t) l).trans ?_
  unfold G
  refine out_congr (laneArgs (iblk m c 0 t) (iblk m c 1 t) (iblk m c 2 t) (iblk m c 3 t) (iblk m c 4 t) (iblk m c 5 t) (iblk m c 6 t) l)
    (kargs m c) 0 _ ?_ ?_ ?_ ?_ ?_ ?_ ?_ <;> dsimp only [laneArgs, kargs]
  · funext f e
    exact iblk0_apply m c t (ix3 f e l) (ix3 f e _) rfl rfl hb
  · exact iblk1_apply m c t (ix2 0 l) (ix2 0 _) rfl hb
  · exact iblk2_apply m c t (ix2 0 0)
  · funext e a; exact iblk3_apply m c t (ix2 e a)
  · funext a; exact iblk4_apply m c t (ix2 0 a)
  · funext a; exact iblk5_apply m c t (ix2 a 0)
  · funext e; exact iblk6_apply m c t (ix2 e 0)

theorem flushed_eq (c : Dev nD) (t : Fin cfg0.N) :
    (dats m 0 c).flushed 7 t = ((cfg0.win 7).blk t).view.read (Elt Ideal) (G m c) := by
  show (cfg0.win 7).cut (grid0.coords t) ((dats m 0 c).after 7 t) = _
  rw [after0_7]
  funext j
  exact outs_apply m c t j

theorem final (c : Dev nD) : (dats m 0 c).arrAt 7 cfg0.N = G m c :=
  (dats m 0 c).arrAt_eq_of_cover 7 (G m c) (fun t _ => flushed_eq m c t) fun i => by
    have hN : cfg0.N = 64 := N_0
    have hi : (i 1 : Nat) < 8192 := (i 1).isLt
    have hi0 : (i 0 : Nat) < 1 := (i 0).isLt
    refine ⟨⟨(i 1 : Nat) / 128, by rw [hN]; omega⟩, flush0_7 _, ?_⟩
    rw [mem_blk]
    intro a
    obtain ⟨⟨h0, h1⟩, -⟩ := idx_facts ⟨(i 1 : Nat) / 128, by rw [hN]; omega⟩
    match a with
    | ⟨0, _⟩ =>
      show win0_7.index _ 0 * 1 ≤ (i 0 : Nat) ∧ (i 0 : Nat) < win0_7.index _ 0 * 1 + 1
      rw [h0]; omega
    | ⟨1, _⟩ =>
      show win0_7.index _ 1 * 128 ≤ (i 1 : Nat) ∧ (i 1 : Nat) < win0_7.index _ 1 * 128 + 128
      rw [h1]; show (i 1 : Nat) / 128 * 128 ≤ (i 1 : Nat) ∧ (i 1 : Nat) < (i 1 : Nat) / 128 * 128 + 128; omega

/-- The kernel's run: the result holds the function at every batch row, the arguments are unchanged. -/
theorem run : θ_run defs (onTc (τ := τ) (main (F := Ideal))) ⟨m, fun _ => 0, ρ⟩ (fun r => ∀ c : Dev nD,
      r.2.mem ((c.tc : Thread nD τ).loc main_v25) = (fun j : S8192.Idx => Cert.Spec.out (kargs m c) (j 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine (θ_run defs _ _).mono (fun r h c => ⟨?_,
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      ((h c).1 3).trans (((dats m 0 c).arrAt_in 3 rfl _).trans ((A_eq m c 3).trans (V_main_arg5 m c))),
      (((h c).2 main_arg6 (Pipeline.mem_restRefs_of main_arg6 (by decide) (by decide))).trans (W_main_arg6 m (dats m) c)),
      ((h c).1 5).trans (((dats m 0 c).arrAt_in 5 rfl _).trans ((A_eq m c 5).trans (V_main_arg7 m c))),
      ((h c).1 6).trans (((dats m 0 c).arrAt_in 6 rfl _).trans ((A_eq m c 6).trans (V_main_arg8 m c)))⟩) (run_main m ρ)
  rw [(h c).2 main_v25 (Pipeline.mem_restRefs_of main_v25 (by decide) (by decide))]
  unfold Pipeline.afterTail₀
  show StableHlo.after hostOps1 _ (Proc.devRef .tc main_v25) = _
  after_results
  have hw : Pipeline.withArrays (cfgs 0).spec c (V0 m c) (fun w => (dats m 0 c).arrAt w (cfgs 0).N) (Proc.tc.devRef main_v24) = G m c :=
    (Pipeline.withArrays_arr spec0 launch0.win.arr_inj c _ _ 7).trans (final m c)
  rw [hw]
  funext j
  obtain ⟨b, rfl⟩ : ∃ b : Fin 8192, j = ix1 b := ⟨j 0, eq_ix1 j⟩
  exact shapeCast_1a_a_apply (G m c) shapeCasts_S1x8192_S8192 b

end Cert.KernelIdeal.KValue

end
-- ==== Proof.RefRun.lean ====
/-
  The run of the reference program, read back.

  The program is a straight line of 81 array operations (78 of its own and the three of the rectifier it calls, listed
  in place over the call's own buffers). Every weakly fair execution ends with the result array equal to the
  operations' composition applied to the nine argument arrays, and the argument arrays unchanged. The composition is
  stated through named stages, each a function of the arrays it reads: the scaled embeddings and the first-order term
  (the only stages that read the two large tables), the pairwise products read through the two constant pair tables,
  the dense layer with its rectifier, the logits, their running maximum, the shifted exponentials, the normalised
  weights, the pooled vector, its projection, and the closing logistic function.
-/
import proofs.«158778_j51101520888212_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The stages -/

/-- The row indices into the two large tables: a negative index is shifted up by the table's height. -/
def tableIdx (a0 : (⟨S8192x39, .i32⟩ : BufTy).Contents (Elt F)) : (⟨S8192x39x1, .i32⟩ : BufTy).Contents (Elt F) :=
  broadcastInDim S8192x39x1 ![0, 1] bcast_S8192x39_S8192x39x1_0_1
    (select (cmpi .slt a0 (broadcastInDim S8192x39 ![] bcast_S_S8192x39 (constantI S_ 32 0#32)))
      (addi a0 (broadcastInDim S8192x39 ![] bcast_S_S8192x39 (constantI S_ 32 1000000#32))) a0)

/-- The feature values with a trailing unit axis. -/
def stage_v0 (a1 : (⟨S8192x39, .f32⟩ : BufTy).Contents (Elt F)) : (⟨S8192x39x1, .f32⟩ : BufTy).Contents (Elt F) :=
  broadcastInDim S8192x39x1 ![0, 1] bcast_S8192x39_S8192x39x1_0_1 a1

/-- The first-order term: the gathered weights times the feature values, summed over the fields. -/
def stage_v10 (a0 : (⟨S8192x39, .i32⟩ : BufTy).Contents (Elt F)) (a1 : (⟨S8192x39, .f32⟩ : BufTy).Contents (Elt F)) (a2 : (⟨S1000000x1, .f32⟩ : BufTy).Contents (Elt F)) :
    (⟨S8192, .f32⟩ : BufTy).Contents (Elt F) :=
  shapeCast S8192
    (Host.reduceAdd (mulf (Host.gather gather_S1000000x1_S8192x39x1_S8192x39x1_2_0_n_n_0_2_11 a2 (tableIdx a0)) (stage_v0 a1))
      (constant S_ .f32 0x00000000#32) reducesTo_S8192x39x1_S8192x1_d1 h_S_)
    shapeCasts_S8192x1_S8192

/-- The scaled embeddings: the gathered rows times the feature values. -/
def stage_v19 (a0 : (⟨S8192x39, .i32⟩ : BufTy).Contents (Elt F)) (a1 : (⟨S8192x39, .f32⟩ : BufTy).Contents (Elt F)) (a3 : (⟨S1000000x16, .f32⟩ : BufTy).Contents (Elt F)) :
    (⟨S8192x39x16, .f32⟩ : BufTy).Contents (Elt F) :=
  mulf (Host.gather gather_S1000000x16_S8192x39x1_S8192x39x16_2_0_n_n_0_2_116 a3 (tableIdx a0))
    (broadcastInDim S8192x39x16 ![0, 1, 2] bcast_S8192x39x1_S8192x39x16_0_1_2 (stage_v0 a1))

/-- A pair table as the index column a gather reads: a negative entry would be shifted up by 39, and none is
    (the selecting mask is constantly false). -/
def pairColumn (t : Fin 741 → BitVec 32) : (⟨S741x1, .i32⟩ : BufTy).Contents (Elt F) :=
  broadcastInDim S741x1 ![0] bcast_S741_S741x1_0
    (select (constantI S741 1 0#1)
      (addi (fun i => t (S741.rowMajor i)) (broadcastInDim S741 ![] bcast_S_S741 (constantI S_ 32 39#32)))
      (fun i => t (S741.rowMajor i)))

/-- One field of every pair: the embeddings read along the field axis through a pair table. -/
def stage_pick (t : Fin 741 → BitVec 32) (x19 : (⟨S8192x39x16, .f32⟩ : BufTy).Contents (Elt F)) : (⟨S8192x741x16, .f32⟩ : BufTy).Contents (Elt F) :=
  Host.gather gather_S8192x39x16_S741x1_S8192x741x16_02_1_n_n_1_1_8192116 x19 (pairColumn (F := F) t)

/-- The pairwise products. -/
def stage_v30 (x19 : (⟨S8192x39x16, .f32⟩ : BufTy).Contents (Elt F)) : (⟨S8192x741x16, .f32⟩ : BufTy).Contents (Elt F) :=
  mulf (stage_pick lit0 x19) (stage_pick lit1 x19)

/-- The dense layer with its bias, rectified. -/
def stage_v35 (x30 : (⟨S8192x741x16, .f32⟩ : BufTy).Contents (Elt F)) (a5 : (⟨S16x16, .f32⟩ : BufTy).Contents (Elt F)) (a6 : (⟨S16, .f32⟩ : BufTy).Contents (Elt F)) :
    (⟨S8192x741x16, .f32⟩ : BufTy).Contents (Elt F) :=
  maximumf
    (addf (Host.dotGeneral dot_S8192x741x16_S16x16_S8192x741x16_2_0_01_1_n_n none x30 a5)
      (broadcastInDim S8192x741x16 ![0, 1, 2] bcast_S1x1x16_S8192x741x16_0_1_2
        (broadcastInDim S1x1x16 ![2] bcast_S16_S1x1x16_2 a6)))
    (broadcastInDim S8192x741x16 ![] bcast_S_S8192x741x16 (constant S_ .f32 0x00000000#32))

/-- One logit per pair. -/
def stage_v36 (x35 : (⟨S8192x741x16, .f32⟩ : BufTy).Contents (Elt F)) (a7 : (⟨S16x1, .f32⟩ : BufTy).Contents (Elt F)) : (⟨S8192x741x1, .f32⟩ : BufTy).Contents (Elt F) :=
  Host.dotGeneral dot_S8192x741x16_S16x1_S8192x741x1_2_0_01_1_n_n none x35 a7

/-- The largest logit of each row (against minus infinity once more). -/
def stage_v39 (x36 : (⟨S8192x741x1, .f32⟩ : BufTy).Contents (Elt F)) : (⟨S8192x1, .f32⟩ : BufTy).Contents (Elt F) :=
  maximumf (broadcastInDim S8192x1 ![] bcast_S_S8192x1 (constant S_ .f32 0xFF800000#32))
    (Host.reduce FloatOps.maximumf x36 (constant S_ .f32 0xFF800000#32) reducesTo_S8192x741x1_S8192x1_d1 h_S_)

/-- A per-row column spread over the pairs. -/
def spread (x : (⟨S8192x1, .f32⟩ : BufTy).Contents (Elt F)) : (⟨S8192x741x1, .f32⟩ : BufTy).Contents (Elt F) :=
  broadcastInDim S8192x741x1 ![0, 1, 2] bcast_S8192x1x1_S8192x741x1_0_1_2
    (broadcastInDim S8192x1x1 ![0, 2] bcast_S8192x1_S8192x1x1_0_2 x)

/-- The shifted exponentials. -/
def stage_v43 (x36 : (⟨S8192x741x1, .f32⟩ : BufTy).Contents (Elt F)) : (⟨S8192x741x1, .f32⟩ : BufTy).Contents (Elt F) :=
  Host.exp (subf x36 (spread (stage_v39 x36)))

/-- The sum of a row's exponentials. -/
def stage_v44 (x43 : (⟨S8192x741x1, .f32⟩ : BufTy).Contents (Elt F)) : (⟨S8192x1, .f32⟩ : BufTy).Contents (Elt F) :=
  Host.reduceAdd x43 (constant S_ .f32 0x00000000#32) reducesTo_S8192x741x1_S8192x1_d1 h_S_

/-- The normalised weights. -/
def stage_v47 (x43 : (⟨S8192x741x1, .f32⟩ : BufTy).Contents (Elt F)) : (⟨S8192x741x1, .f32⟩ : BufTy).Contents (Elt F) :=
  Host.divf x43 (spread (stage_v44 x43))

/-- The weighted pairs pooled per channel. -/
def stage_v50 (x47 : (⟨S8192x741x1, .f32⟩ : BufTy).Contents (Elt F)) (x30 : (⟨S8192x741x16, .f32⟩ : BufTy).Contents (Elt F)) : (⟨S8192x16, .f32⟩ : BufTy).Contents (Elt F) :=
  Host.reduceAdd (mulf (broadcastInDim S8192x741x16 ![0, 1, 2] bcast_S8192x741x1_S8192x741x16_0_1_2 x47) x30)
    (constant S_ .f32 0x00000000#32) reducesTo_S8192x741x16_S8192x16_d1 h_S_

/-- The pooled vector projected to one number per row. -/
def stage_v52 (x50 : (⟨S8192x16, .f32⟩ : BufTy).Contents (Elt F)) (a8 : (⟨S16x1, .f32⟩ : BufTy).Contents (Elt F)) : (⟨S8192, .f32⟩ : BufTy).Contents (Elt F) :=
  shapeCast S8192 (Host.dotGeneral dot_S8192x16_S16x1_S8192x1_1_0_0_1_n_n none x50 a8) shapeCasts_S8192x1_S8192

/-- The bias, the first-order term and the second-order term added, then the logistic function spelt
    one over one plus the exponential of the negation. -/
def stage_v61 (a4 : (⟨S1, .f32⟩ : BufTy).Contents (Elt F)) (x10 x52 : (⟨S8192, .f32⟩ : BufTy).Contents (Elt F)) : (⟨S8192, .f32⟩ : BufTy).Contents (Elt F) :=
  Host.divf (broadcastInDim S8192 ![] bcast_S_S8192 (constant S_ .f32 0x3F800000#32))
    (addf (broadcastInDim S8192 ![] bcast_S_S8192 (constant S_ .f32 0x3F800000#32))
      (Host.exp (Host.negf (addf (addf (broadcastInDim S8192 ![0] bcast_S1_S8192_0 a4) x10) x52))))

/-- Everything after the two reads of the large tables: the result as a function of the scaled embeddings `x19`,
    the first-order term `x10` and the five small arguments. -/
def tail (x19 : (⟨S8192x39x16, .f32⟩ : BufTy).Contents (Elt F)) (x10 : (⟨S8192, .f32⟩ : BufTy).Contents (Elt F)) (a4 : (⟨S1, .f32⟩ : BufTy).Contents (Elt F))
    (a5 : (⟨S16x16, .f32⟩ : BufTy).Contents (Elt F)) (a6 : (⟨S16, .f32⟩ : BufTy).Contents (Elt F)) (a7 a8 : (⟨S16x1, .f32⟩ : BufTy).Contents (Elt F)) : (⟨S8192, .f32⟩ : BufTy).Contents (Elt F) :=
  stage_v61 a4 x10
    (stage_v52 (stage_v50 (stage_v47 (stage_v43 (stage_v36 (stage_v35 (stage_v30 x19) a5 a6) a7))) (stage_v30 x19)) a8)

/-- The result as a function of the nine argument arrays. -/
def result (a0 : (⟨S8192x39, .i32⟩ : BufTy).Contents (Elt F)) (a1 : (⟨S8192x39, .f32⟩ : BufTy).Contents (Elt F)) (a2 : (⟨S1000000x1, .f32⟩ : BufTy).Contents (Elt F))
    (a3 : (⟨S1000000x16, .f32⟩ : BufTy).Contents (Elt F)) (a4 : (⟨S1, .f32⟩ : BufTy).Contents (Elt F)) (a5 : (⟨S16x16, .f32⟩ : BufTy).Contents (Elt F)) (a6 : (⟨S16, .f32⟩ : BufTy).Contents (Elt F))
    (a7 a8 : (⟨S16x1, .f32⟩ : BufTy).Contents (Elt F)) : (⟨S8192, .f32⟩ : BufTy).Contents (Elt F) :=
  tail (stage_v19 a0 a1 a3) (stage_v10 a0 a1 a2) a4 a5 a6 a7 a8

/-! ## The operations and the run -/

/-- The program's 81 operations in order, the rectifier's three listed at its call over the call's buffers. -/
abbrev ops : List (HloOp τ sig (Elt F)) :=
  [
    nullary main_c (fun i => lit0 (S741.rowMajor i)),
    nullary main_c_0 (constantI S741 1 0#1),
    nullary main_c_1 (fun i => lit1 (S741.rowMajor i)),
    nullary main_c_2 (constantI S741 1 0#1),
    unary main_arg1 main_v0 (broadcastInDim S8192x39x1 ![0, 1] bcast_S8192x39_S8192x39x1_0_1 : (⟨S8192x39, .f32⟩ : BufTy).Contents (Elt F) → (⟨S8192x39x1, .f32⟩ : BufTy).Contents (Elt F)),
    nullary main_c_3 (constantI S_ 32 0#32),
    unary main_c_3 main_v1 (broadcastInDim S8192x39 ![] bcast_S_S8192x39 : (⟨S_, .i32⟩ : BufTy).Contents (Elt F) → (⟨S8192x39, .i32⟩ : BufTy).Contents (Elt F)),
    binary main_arg0 main_v1 main_v2 (cmpi .slt : (⟨S8192x39, .i32⟩ : BufTy).Contents (Elt F) → (⟨S8192x39, .i32⟩ : BufTy).Contents (Elt F) → (⟨S8192x39, .i1⟩ : BufTy).Contents (Elt F)),
    nullary main_c_4 (constantI S_ 32 1000000#32),
    unary main_c_4 main_v3 (broadcastInDim S8192x39 ![] bcast_S_S8192x39 : (⟨S_, .i32⟩ : BufTy).Contents (Elt F) → (⟨S8192x39, .i32⟩ : BufTy).Contents (Elt F)),
    binary main_arg0 main_v3 main_v4 (addi : (⟨S8192x39, .i32⟩ : BufTy).Contents (Elt F) → (⟨S8192x39, .i32⟩ : BufTy).Contents (Elt F) → (⟨S8192x39, .i32⟩ : BufTy).Contents (Elt F)),
    ternary main_v2 main_v4 main_arg0 main_v5 (select : (⟨S8192x39, .i1⟩ : BufTy).Contents (Elt F) → (⟨S8192x39, .i32⟩ : BufTy).Contents (Elt F) → (⟨S8192x39, .i32⟩ : BufTy).Contents (Elt F) → (⟨S8192x39, .i32⟩ : BufTy).Contents (Elt F)),
    unary main_v5 main_v6 (broadcastInDim S8192x39x1 ![0, 1] bcast_S8192x39_S8192x39x1_0_1 : (⟨S8192x39, .i32⟩ : BufTy).Contents (Elt F) → (⟨S8192x39x1, .i32⟩ : BufTy).Contents (Elt F)),
    binary main_arg2 main_v6 main_v7 ((fun x i => Host.gather gather_S1000000x1_S8192x39x1_S8192x39x1_2_0_n_n_0_2_11 x i) : (⟨S1000000x1, .f32⟩ : BufTy).Contents (Elt F) → (⟨S8192x39x1, .i32⟩ : BufTy).Contents (Elt F) → (⟨S8192x39x1, .f32⟩ : BufTy).Contents (Elt F)),
    binary main_v7 main_v0 main_v8 (mulf : (⟨S8192x39x1, .f32⟩ : BufTy).Contents (Elt F) → (⟨S8192x39x1, .f32⟩ : BufTy).Contents (Elt F) → (⟨S8192x39x1, .f32⟩ : BufTy).Contents (Elt F)),
    nullary main_cst (constant S_ .f32 0x00000000#32),
    binary main_v8 main_cst main_v9 ((fun x v => Host.reduceAdd x v reducesTo_S8192x39x1_S8192x1_d1 h_S_) : (⟨S8192x39x1, .f32⟩ : BufTy).Contents (Elt F) → (⟨S_, .f32⟩ : BufTy).Contents (Elt F) → (⟨S8192x1, .f32⟩ : BufTy).Contents (Elt F)),
    reshape main_v9 main_v10 rfl shapeCasts_S8192x1_S8192,
    nullary main_c_5 (constantI S_ 32 0#32),
    unary main_c_5 main_v11 (broadcastInDim S8192x39 ![] bcast_S_S8192x39 : (⟨S_, .i32⟩ : BufTy).Contents (Elt F) → (⟨S8192x39, .i32⟩ : BufTy).Contents (Elt F)),
    binary main_arg0 main_v11 main_v12 (cmpi .slt : (⟨S8192x39, .i32⟩ : BufTy).Contents (Elt F) → (⟨S8192x39, .i32⟩ : BufTy).Contents (Elt F) → (⟨S8192x39, .i1⟩ : BufTy).Contents (Elt F)),
    nullary main_c_6 (constantI S_ 32 1000000#32),
    unary main_c_6 main_v13 (broadcastInDim S8192x39 ![] bcast_S_S8192x39 : (⟨S_, .i32⟩ : BufTy).Contents (Elt F) → (⟨S8192x39, .i32⟩ : BufTy).Contents (Elt F)),
    binary main_arg0 main_v13 main_v14 (addi : (⟨S8192x39, .i32⟩ : BufTy).Contents (Elt F) → (⟨S8192x39, .i32⟩ : BufTy).Contents (Elt F) → (⟨S8192x39, .i32⟩ : BufTy).Contents (Elt F)),
    ternary main_v12 main_v14 main_arg0 main_v15 (select : (⟨S8192x39, .i1⟩ : BufTy).Contents (Elt F) → (⟨S8192x39, .i32⟩ : BufTy).Contents (Elt F) → (⟨S8192x39, .i32⟩ : BufTy).Contents (Elt F) → (⟨S8192x39, .i32⟩ : BufTy).Contents (Elt F)),
    unary main_v15 main_v16 (broadcastInDim S8192x39x1 ![0, 1] bcast_S8192x39_S8192x39x1_0_1 : (⟨S8192x39, .i32⟩ : BufTy).Contents (Elt F) → (⟨S8192x39x1, .i32⟩ : BufTy).Contents (Elt F)),
    binary main_arg3 main_v16 main_v17 ((fun x i => Host.gather gather_S1000000x16_S8192x39x1_S8192x39x16_2_0_n_n_0_2_116 x i) : (⟨S1000000x16, .f32⟩ : BufTy).Contents (Elt F) → (⟨S8192x39x1, .i32⟩ : BufTy).Contents (Elt F) → (⟨S8192x39x16, .f32⟩ : BufTy).Contents (Elt F)),
    unary main_v0 main_v18 (broadcastInDim S8192x39x16 ![0, 1, 2] bcast_S8192x39x1_S8192x39x16_0_1_2 : (⟨S8192x39x1, .f32⟩ : BufTy).Contents (Elt F) → (⟨S8192x39x16, .f32⟩ : BufTy).Contents (Elt F)),
    binary main_v17 main_v18 main_v19 (mulf : (⟨S8192x39x16, .f32⟩ : BufTy).Contents (Elt F) → (⟨S8192x39x16, .f32⟩ : BufTy).Contents (Elt F) → (⟨S8192x39x16, .f32⟩ : BufTy).Contents (Elt F)),
    nullary main_c_7 (constantI S_ 32 39#32),
    unary main_c_7 main_v20 (broadcastInDim S741 ![] bcast_S_S741 : (⟨S_, .i32⟩ : BufTy).Contents (Elt F) → (⟨S741, .i32⟩ : BufTy).Contents (Elt F)),
    binary main_c main_v20 main_v21 (addi : (⟨S741, .i32⟩ : BufTy).Contents (Elt F) → (⟨S741, .i32⟩ : BufTy).Contents (Elt F) → (⟨S741, .i32⟩ : BufTy).Contents (Elt F)),
    ternary main_c_0 main_v21 main_c main_v22 (select : (⟨S741, .i1⟩ : BufTy).Contents (Elt F) → (⟨S741, .i32⟩ : BufTy).Contents (Elt F) → (⟨S741, .i32⟩ : BufTy).Contents (Elt F) → (⟨S741, .i32⟩ : BufTy).Contents (Elt F)),
    unary main_v22 main_v23 (broadcastInDim S741x1 ![0] bcast_S741_S741x1_0 : (⟨S741, .i32⟩ : BufTy).Contents (Elt F) → (⟨S741x1, .i32⟩ : BufTy).Contents (Elt F)),
    binary main_v19 main_v23 main_v24 ((fun x i => Host.gather gather_S8192x39x16_S741x1_S8192x741x16_02_1_n_n_1_1_8192116 x i) : (⟨S8192x39x16, .f32⟩ : BufTy).Contents (Elt F) → (⟨S741x1, .i32⟩ : BufTy).Contents (Elt F) → (⟨S8192x741x16, .f32⟩ : BufTy).Contents (Elt F)),
    nullary main_c_8 (constantI S_ 32 39#32),
    unary main_c_8 main_v25 (broadcastInDim S741 ![] bcast_S_S741 : (⟨S_, .i32⟩ : BufTy).Contents (Elt F) → (⟨S741, .i32⟩ : BufTy).Contents (Elt F)),
    binary main_c_1 main_v25 main_v26 (addi : (⟨S741, .i32⟩ : BufTy).Contents (Elt F) → (⟨S741, .i32⟩ : BufTy).Contents (Elt F) → (⟨S741, .i32⟩ : BufTy).Contents (Elt F)),
    ternary main_c_2 main_v26 main_c_1 main_v27 (select : (⟨S741, .i1⟩ : BufTy).Contents (Elt F) → (⟨S741, .i32⟩ : BufTy).Contents (Elt F) → (⟨S741, .i32⟩ : BufTy).Contents (Elt F) → (⟨S741, .i32⟩ : BufTy).Contents (Elt F)),
    unary main_v27 main_v28 (broadcastInDim S741x1 ![0] bcast_S741_S741x1_0 : (⟨S741, .i32⟩ : BufTy).Contents (Elt F) → (⟨S741x1, .i32⟩ : BufTy).Contents (Elt F)),
    binary main_v19 main_v28 main_v29 ((fun x i => Host.gather gather_S8192x39x16_S741x1_S8192x741x16_02_1_n_n_1_1_8192116 x i) : (⟨S8192x39x16, .f32⟩ : BufTy).Contents (Elt F) → (⟨S741x1, .i32⟩ : BufTy).Contents (Elt F) → (⟨S8192x741x16, .f32⟩ : BufTy).Contents (Elt F)),
    binary main_v24 main_v29 main_v30 (mulf : (⟨S8192x741x16, .f32⟩ : BufTy).Contents (Elt F) → (⟨S8192x741x16, .f32⟩ : BufTy).Contents (Elt F) → (⟨S8192x741x16, .f32⟩ : BufTy).Contents (Elt F)),
    binary main_v30 main_arg5 main_v31 ((fun l r => Host.dotGeneral dot_S8192x741x16_S16x16_S8192x741x16_2_0_01_1_n_n none l r) : (⟨S8192x741x16, .f32⟩ : BufTy).Contents (Elt F) → (⟨S16x16, .f32⟩ : BufTy).Contents (Elt F) → (⟨S8192x741x16, .f32⟩ : BufTy).Contents (Elt F)),
    unary main_arg6 main_v32 (broadcastInDim S1x1x16 ![2] bcast_S16_S1x1x16_2 : (⟨S16, .f32⟩ : BufTy).Contents (Elt F) → (⟨S1x1x16, .f32⟩ : BufTy).Contents (Elt F)),
    unary main_v32 main_v33 (broadcastInDim S8192x741x16 ![0, 1, 2] bcast_S1x1x16_S8192x741x16_0_1_2 : (⟨S1x1x16, .f32⟩ : BufTy).Contents (Elt F) → (⟨S8192x741x16, .f32⟩ : BufTy).Contents (Elt F)),
    binary main_v31 main_v33 main_v34 (addf : (⟨S8192x741x16, .f32⟩ : BufTy).Contents (Elt F) → (⟨S8192x741x16, .f32⟩ : BufTy).Contents (Elt F) → (⟨S8192x741x16, .f32⟩ : BufTy).Contents (Elt F)),
    TRef.nullary main_call0.cst (constant S_ .f32 0x00000000#32),
    TRef.unary main_call0.cst main_call0.v0 (broadcastInDim S8192x741x16 ![] bcast_S_S8192x741x16),
    TRef.binary (.of main_v34 : TRef sig ⟨S8192x741x16, .f32⟩) main_call0.v0 main_call0.v1 maximumf,
    binary main_v35 main_arg7 main_v36 ((fun l r => Host.dotGeneral dot_S8192x741x16_S16x1_S8192x741x1_2_0_01_1_n_n none l r) : (⟨S8192x741x16, .f32⟩ : BufTy).Contents (Elt F) → (⟨S16x1, .f32⟩ : BufTy).Contents (Elt F) → (⟨S8192x741x1, .f32⟩ : BufTy).Contents (Elt F)),
    nullary main_cst_9 (constant S_ .f32 0xFF800000#32),
    binary main_v36 main_cst_9 main_v37 ((fun x v => Host.reduce FloatOps.maximumf x v reducesTo_S8192x741x1_S8192x1_d1 h_S_) : (⟨S8192x741x1, .f32⟩ : BufTy).Contents (Elt F) → (⟨S_, .f32⟩ : BufTy).Contents (Elt F) → (⟨S8192x1, .f32⟩ : BufTy).Contents (Elt F)),
    nullary main_cst_10 (constant S_ .f32 0xFF800000#32),
    unary main_cst_10 main_v38 (broadcastInDim S8192x1 ![] bcast_S_S8192x1 : (⟨S_, .f32⟩ : BufTy).Contents (Elt F) → (⟨S8192x1, .f32⟩ : BufTy).Contents (Elt F)),
    binary main_v38 main_v37 main_v39 (maximumf : (⟨S8192x1, .f32⟩ : BufTy).Contents (Elt F) → (⟨S8192x1, .f32⟩ : BufTy).Contents (Elt F) → (⟨S8192x1, .f32⟩ : BufTy).Contents (Elt F)),
    unary main_v39 main_v40 (broadcastInDim S8192x1x1 ![0, 2] bcast_S8192x1_S8192x1x1_0_2 : (⟨S8192x1, .f32⟩ : BufTy).Contents (Elt F) → (⟨S8192x1x1, .f32⟩ : BufTy).Contents (Elt F)),
    unary main_v40 main_v41 (broadcastInDim S8192x741x1 ![0, 1, 2] bcast_S8192x1x1_S8192x741x1_0_1_2 : (⟨S8192x1x1, .f32⟩ : BufTy).Contents (Elt F) → (⟨S8192x741x1, .f32⟩ : BufTy).Contents (Elt F)),
    binary main_v36 main_v41 main_v42 (subf : (⟨S8192x741x1, .f32⟩ : BufTy).Contents (Elt F) → (⟨S8192x741x1, .f32⟩ : BufTy).Contents (Elt F) → (⟨S8192x741x1, .f32⟩ : BufTy).Contents (Elt F)),
    unary main_v42 main_v43 (Host.exp : (⟨S8192x741x1, .f32⟩ : BufTy).Contents (Elt F) → (⟨S8192x741x1, .f32⟩ : BufTy).Contents (Elt F)),
    nullary main_cst_11 (constant S_ .f32 0x00000000#32),
    binary main_v43 main_cst_11 main_v44 ((fun x v => Host.reduceAdd x v reducesTo_S8192x741x1_S8192x1_d1 h_S_) : (⟨S8192x741x1, .f32⟩ : BufTy).Contents (Elt F) → (⟨S_, .f32⟩ : BufTy).Contents (Elt F) → (⟨S8192x1, .f32⟩ : BufTy).Contents (Elt F)),
    unary main_v44 main_v45 (broadcastInDim S8192x1x1 ![0, 2] bcast_S8192x1_S8192x1x1_0_2 : (⟨S8192x1, .f32⟩ : BufTy).Contents (Elt F) → (⟨S8192x1x1, .f32⟩ : BufTy).Contents (Elt F)),
    unary main_v45 main_v46 (broadcastInDim S8192x741x1 ![0, 1, 2] bcast_S8192x1x1_S8192x741x1_0_1_2 : (⟨S8192x1x1, .f32⟩ : BufTy).Contents (Elt F) → (⟨S8192x741x1, .f32⟩ : BufTy).Contents (Elt F)),
    binary main_v43 main_v46 main_v47 (Host.divf : (⟨S8192x741x1, .f32⟩ : BufTy).Contents (Elt F) → (⟨S8192x741x1, .f32⟩ : BufTy).Contents (Elt F) → (⟨S8192x741x1, .f32⟩ : BufTy).Contents (Elt F)),
    unary main_v47 main_v48 (broadcastInDim S8192x741x16 ![0, 1, 2] bcast_S8192x741x1_S8192x741x16_0_1_2 : (⟨S8192x741x1, .f32⟩ : BufTy).Contents (Elt F) → (⟨S8192x741x16, .f32⟩ : BufTy).Contents (Elt F)),
    binary main_v48 main_v30 main_v49 (mulf : (⟨S8192x741x16, .f32⟩ : BufTy).Contents (Elt F) → (⟨S8192x741x16, .f32⟩ : BufTy).Contents (Elt F) → (⟨S8192x741x16, .f32⟩ : BufTy).Contents (Elt F)),
    nullary main_cst_12 (constant S_ .f32 0x00000000#32),
    binary main_v49 main_cst_12 main_v50 ((fun x v => Host.reduceAdd x v reducesTo_S8192x741x16_S8192x16_d1 h_S_) : (⟨S8192x741x16, .f32⟩ : BufTy).Contents (Elt F) → (⟨S_, .f32⟩ : BufTy).Contents (Elt F) → (⟨S8192x16, .f32⟩ : BufTy).Contents (Elt F)),
    binary main_v50 main_arg8 main_v51 ((fun l r => Host.dotGeneral dot_S8192x16_S16x1_S8192x1_1_0_0_1_n_n none l r) : (⟨S8192x16, .f32⟩ : BufTy).Contents (Elt F) → (⟨S16x1, .f32⟩ : BufTy).Contents (Elt F) → (⟨S8192x1, .f32⟩ : BufTy).Contents (Elt F)),
    reshape main_v51 main_v52 rfl shapeCasts_S8192x1_S8192,
    unary main_arg4 main_v53 (broadcastInDim S8192 ![0] bcast_S1_S8192_0 : (⟨S1, .f32⟩ : BufTy).Contents (Elt F) → (⟨S8192, .f32⟩ : BufTy).Contents (Elt F)),
    binary main_v53 main_v10 main_v54 (addf : (⟨S8192, .f32⟩ : BufTy).Contents (Elt F) → (⟨S8192, .f32⟩ : BufTy).Contents (Elt F) → (⟨S8192, .f32⟩ : BufTy).Contents (Elt F)),
    binary main_v54 main_v52 main_v55 (addf : (⟨S8192, .f32⟩ : BufTy).Contents (Elt F) → (⟨S8192, .f32⟩ : BufTy).Contents (Elt F) → (⟨S8192, .f32⟩ : BufTy).Contents (Elt F)),
    unary main_v55 main_v56 (Host.negf : (⟨S8192, .f32⟩ : BufTy).Contents (Elt F) → (⟨S8192, .f32⟩ : BufTy).Contents (Elt F)),
    unary main_v56 main_v57 (Host.exp : (⟨S8192, .f32⟩ : BufTy).Contents (Elt F) → (⟨S8192, .f32⟩ : BufTy).Contents (Elt F)),
    nullary main_cst_13 (constant S_ .f32 0x3F800000#32),
    unary main_cst_13 main_v58 (broadcastInDim S8192 ![] bcast_S_S8192 : (⟨S_, .f32⟩ : BufTy).Contents (Elt F) → (⟨S8192, .f32⟩ : BufTy).Contents (Elt F)),
    binary main_v58 main_v57 main_v59 (addf : (⟨S8192, .f32⟩ : BufTy).Contents (Elt F) → (⟨S8192, .f32⟩ : BufTy).Contents (Elt F) → (⟨S8192, .f32⟩ : BufTy).Contents (Elt F)),
    nullary main_cst_14 (constant S_ .f32 0x3F800000#32),
    unary main_cst_14 main_v60 (broadcastInDim S8192 ![] bcast_S_S8192 : (⟨S_, .f32⟩ : BufTy).Contents (Elt F) → (⟨S8192, .f32⟩ : BufTy).Contents (Elt F)),
    binary main_v60 main_v59 main_v61 (Host.divf : (⟨S8192, .f32⟩ : BufTy).Contents (Elt F) → (⟨S8192, .f32⟩ : BufTy).Contents (Elt F) → (⟨S8192, .f32⟩ : BufTy).Contents (Elt F)) ]

set_option maxRecDepth 8192 in
set_option maxHeartbeats 4000000 in
/-- The program is that straight line: its two windows and the called function unfolded, the sequencing
    re-associated. -/
theorem main_eq (c : Dev nD) : main (F := F) c = seq ops := by
  simp only [main, main_part0, main_part1, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨nullary_bufs_sub .., nullary_bufs_sub .., nullary_bufs_sub .., nullary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., binary_bufs_sub .., nullary_bufs_sub .., binary_bufs_sub .., binary_bufs_sub .., reshape_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub ..⟩

/-- The buffers the operations write: none of them an argument. -/
abbrev ops_W : List (Ref sig .tc) := [main_c, main_c_0, main_c_1, main_c_2, main_v0, main_c_3, main_v1, main_v2, main_c_4, main_v3, main_v4, main_v5, main_v6, main_v7, main_v8, main_cst, main_v9, main_v10, main_c_5, main_v11, main_v12, main_c_6, main_v13, main_v14, main_v15, main_v16, main_v17, main_v18, main_v19, main_c_7, main_v20, main_v21, main_v22, main_v23, main_v24, main_c_8, main_v25, main_v26, main_v27, main_v28, main_v29, main_v30, main_v31, main_v32, main_v33, main_v34, main_call0_cst, main_call0_v0, main_v35, main_v36, main_cst_9, main_v37, main_cst_10, main_v38, main_v39, main_v40, main_v41, main_v42, main_v43, main_cst_11, main_v44, main_v45, main_v46, main_v47, main_v48, main_v49, main_cst_12, main_v50, main_v51, main_v52, main_v53, main_v54, main_v55, main_v56, main_v57, main_cst_13, main_v58, main_v59, main_cst_14, main_v60, main_v61]

set_option maxRecDepth 8192 in
set_option maxHeartbeats 4000000 in
theorem ops_writes : (ops : List (HloOp τ sig (Elt F))).Forall fun op =>
    op.writes ⊆ (ops_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

attribute [local irreducible] Host.reduce Host.reduceAdd Host.gather in
set_option maxRecDepth 8192 in
set_option maxHeartbeats 32400000 in
/-- What the result buffer holds after the operations: the composition of the stages. -/
theorem after_v61 (V : Valuation τ sig (Elt F)) :
    after ops V (main_v61 : DevRef τ sig)
      = result (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig)) := by
  after_results_simp
  rfl

/-- An argument buffer holds after the operations what it held before: no operation writes it. -/
theorem after_arg (V : Valuation τ sig (Elt F)) (r : Ref sig .tc) (h : r ∉ ops_W) :
    after ops V (Proc.devRef .tc r) = V (Proc.devRef .tc r) :=
  after_of_writes_sub ops V ops_writes h

/-- On every device, for any float values, from any memory with zero counters: every weakly fair execution of the
    program terminates with the result array at `result` of the argument arrays, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v61) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v61).trans (after_v61 (launchContents m c)),
      (h c main_arg0).trans (after_arg (launchContents m c) main_arg0 (by decide)),
      (h c main_arg1).trans (after_arg (launchContents m c) main_arg1 (by decide)),
      (h c main_arg2).trans (after_arg (launchContents m c) main_arg2 (by decide)),
      (h c main_arg3).trans (after_arg (launchContents m c) main_arg3 (by decide)),
      (h c main_arg4).trans (after_arg (launchContents m c) main_arg4 (by decide)),
      (h c main_arg5).trans (after_arg (launchContents m c) main_arg5 (by decide)),
      (h c main_arg6).trans (after_arg (launchContents m c) main_arg6 (by decide)),
      (h c main_arg7).trans (after_arg (launchContents m c) main_arg7 (by decide)),
      (h c main_arg8).trans (after_arg (launchContents m c) main_arg8 (by decide))⟩)
    (run_seq scopedRefs_eq scopedSems_eq defs main (fun _ => ops) main_eq (fun _ => ops_sub) m ρ)

end Cert.ReferenceIdeal.RefValue

end
-- ==== Proof.KHost.lean ====
/-
  What the kernel's region finds in its input arrays, as the arguments of the specification.

  Before the region the kernel's program computes, with the reference's own operations, the scaled embeddings (then
  transposed so that the batch axis comes last) and the first-order term (the gathered weights reshaped to a matrix,
  multiplied by the feature values and summed along each row, where the reference multiplies arrays with a trailing
  unit axis and reshapes after the sum: both are the initial zero plus the sum over the 39 fields of the same
  products), and recasts the bias and the dense layer's bias as one-row arrays. The three dense matrices are not
  touched. So the arguments the region finds are those the reference's stages compute from the same argument arrays.
-/
import proofs.«158778_j51101520888212_2_alg».proof.Proof.KRun
import proofs.«158778_j51101520888212_2_alg».proof.Proof.RefRun
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

namespace Cert.KernelIdeal.KValue

open Idealize.ShloMosaic Idealize.ShloMosaic.TcCoe Idealize.SL.Sem ValueIdx Idealize.ShloMosaic.StableHlo
open Cert.KernelIdeal Cert.KernelIdeal.Gen
open scoped BigOperators

variable (m : (ℓ : Loc nD τ sig) → Buf (Elt Ideal) ℓ)

/-! ## The arrays the region finds, as terms of the argument arrays -/

/-- The gathered first-order weights, one per row and field, with a trailing unit axis. -/
def firstGather (a0 : (⟨S8192x39, .i32⟩ : BufTy).Contents (Elt Ideal)) (a2 : FVec Ideal S1000000x1 .f32) :
    FVec Ideal S8192x39x1 .f32 :=
  Host.gather Cert.ReferenceIdeal.gather_S1000000x1_S8192x39x1_S8192x39x1_2_0_n_n_0_2_11 a2 (Cert.ReferenceIdeal.RefValue.tableIdx (F := Ideal) a0)

attribute [local irreducible] Host.gather Host.reduceAdd in
set_option maxRecDepth 8192 in
set_option maxHeartbeats 4000000 in
/-- The transposed embeddings the region finds are the reference's scaled embeddings, transposed. -/
theorem V_v20 (c : Dev nD) :
    (V m c main_v20 : S39x16x8192.Idx → EReal)
      = transpose S39x16x8192 [1, 2, 0] (Cert.ReferenceIdeal.RefValue.stage_v19 (F := Ideal) (m ((c.tc : Thread nD τ).loc main_arg0)) (m ((c.tc : Thread nD τ).loc main_arg1)) (m ((c.tc : Thread nD τ).loc main_arg3)))
          transposes_S8192x39x16_S39x16x8192_1_2_0 := by
  show StableHlo.after hostOps0 (fun b => m (c, b)) (Proc.devRef .tc main_v20) = _
  after_results_simp
  rfl

attribute [local irreducible] Host.gather Host.reduceAdd in
set_option maxRecDepth 8192 in
set_option maxHeartbeats 4000000 in
/-- The first-order row the region finds: the gathered weights as a matrix, times the feature values, summed along
    each row, as one row. -/
theorem V_v21 (c : Dev nD) :
    (V m c main_v21 : S1x8192.Idx → EReal)
      = shapeCast S1x8192
          (Host.reduceAdd
            (mulf (shapeCast S8192x39 (firstGather (m ((c.tc : Thread nD τ).loc main_arg0)) (m ((c.tc : Thread nD τ).loc main_arg2))) shapeCasts_S8192x39x1_S8192x39) (m ((c.tc : Thread nD τ).loc main_arg1)))
            (constant (F := Ideal) S_ .f32 0x00000000#32) reducesTo_S8192x39_S8192_d1 h_S_)
          shapeCasts_S8192_S1x8192 := by
  show StableHlo.after hostOps0 (fun b => m (c, b)) (Proc.devRef .tc main_v21) = _
  after_results_simp
  rfl

set_option maxRecDepth 8192 in
/-- The bias the region finds: the one-entry argument as a one-by-one array. -/
theorem V_v22 (c : Dev nD) :
    (V m c main_v22 : S1x1.Idx → EReal) = shapeCast S1x1 (m ((c.tc : Thread nD τ).loc main_arg4)) shapeCasts_S1_S1x1 := by
  show StableHlo.after hostOps0 (fun b => m (c, b)) (Proc.devRef .tc main_v22) = _
  after_results
  rfl

set_option maxRecDepth 8192 in
/-- The dense layer's bias the region finds: the argument as one row. -/
theorem V_v23 (c : Dev nD) :
    (V m c main_v23 : S1x16.Idx → EReal) = shapeCast S1x16 (m ((c.tc : Thread nD τ).loc main_arg6)) shapeCasts_S16_S1x16 := by
  show StableHlo.after hostOps0 (fun b => m (c, b)) (Proc.devRef .tc main_v23) = _
  after_results
  rfl

/-! ## The first-order term, on both sides the zero plus the sum over the fields of weight times value -/

/-- The kernel's side: the row sum of the matrix of products. -/
theorem first_kernel (a0 : (⟨S8192x39, .i32⟩ : BufTy).Contents (Elt Ideal)) (a1 : FVec Ideal S8192x39 .f32)
    (a2 : FVec Ideal S1000000x1 .f32) (b : Fin 8192) :
    shapeCast S1x8192
        (Host.reduceAdd (mulf (shapeCast S8192x39 (firstGather a0 a2) shapeCasts_S8192x39x1_S8192x39) a1)
          (constant (F := Ideal) S_ .f32 0x00000000#32) reducesTo_S8192x39_S8192_d1 h_S_)
        shapeCasts_S8192_S1x8192 (ix2 (0 : Fin 1) b)
      = 0 + ∑ f : Fin 39, firstGather a0 a2 (ix3 b f (0 : Fin 1)) * a1 (ix2 b f) := by
  rw [shapeCast_a_1a_apply]
  simp only [Host.reduceAdd, Ideal.hostReduceAdd_def]
  rw [Ideal.hostReduceAdd_single reducesTo_S8192x39_S8192_d1 (by decide), constant_apply, Ideal.ofBits_zero_f32]
  refine congrArg (0 + ·) (Finset.sum_congr rfl fun (f : Fin 39) _ => ?_)
  have hi : Shape.Reduces.lift (s := S8192x39) (t := S8192) (a := (1 : Fin 2)) (by decide) (ix1 b) f = ix2 b f :=
    funext fun d => Fin.ext (by match d with | ⟨0, _⟩ => rfl | ⟨1, _⟩ => rfl)
  rw [hi, mulf_apply, shapeCast_apply _ _ (ix2 b f) (ix3 b f (0 : Fin 1)) (by
    rw [Shape.rowMajor_val_three, Shape.rowMajor_val_two]
    show (b.val * 39 + f.val) * 1 + 0 = b.val * 39 + f.val
    omega)]

/-- The reference's side: the sum of the products with a trailing unit axis, recast as a vector. -/
theorem first_reference (a0 : (⟨S8192x39, .i32⟩ : BufTy).Contents (Elt Ideal)) (a1 : FVec Ideal S8192x39 .f32)
    (a2 : FVec Ideal S1000000x1 .f32) (b : Fin 8192) :
    Cert.ReferenceIdeal.RefValue.stage_v10 (F := Ideal) a0 a1 a2 (ix1 b)
      = 0 + ∑ f : Fin 39, firstGather a0 a2 (ix3 b f (0 : Fin 1)) * a1 (ix2 b f) := by
  unfold Cert.ReferenceIdeal.RefValue.stage_v10
  rw [shapeCast_apply _ _ (ix1 b) (ix2 b (0 : Fin 1)) (by
    rw [Shape.rowMajor_val_two, Shape.rowMajor_val_one]
    show b.val * 1 + 0 = b.val
    omega)]
  simp only [Host.reduceAdd, Ideal.hostReduceAdd_def]
  rw [Ideal.hostReduceAdd_single Cert.ReferenceIdeal.Gen.reducesTo_S8192x39x1_S8192x1_d1 (by decide), constant_apply, Ideal.ofBits_zero_f32]
  refine congrArg (0 + ·) (Finset.sum_congr rfl fun (f : Fin 39) _ => ?_)
  have hi : Shape.Reduces.lift (s := Cert.ReferenceIdeal.S8192x39x1) (t := Cert.ReferenceIdeal.S8192x1) (a := (1 : Fin 3)) (by decide) (ix2 b (0 : Fin 1)) f
      = ix3 b f (0 : Fin 1) :=
    funext fun d => Fin.ext (by match d with | ⟨0, _⟩ => rfl | ⟨1, _⟩ => rfl | ⟨2, _⟩ => rfl)
  rw [hi, mulf_apply]
  unfold Cert.ReferenceIdeal.RefValue.stage_v0
  rw [broadcastInDim_apply _ _ _ (ix3 b f (0 : Fin 1)) (ix2 b f)
    (fun d => by match d with | ⟨0, _⟩ => rfl | ⟨1, _⟩ => rfl)]
  rfl

/-! ## The arguments the region finds -/

/-- The arguments of the specification as the region finds them are those the reference's stages compute from the
    same argument arrays. -/
theorem kargs_eq (c : Dev nD) :
    kargs m c
      = ⟨fun b f e => Cert.ReferenceIdeal.RefValue.stage_v19 (F := Ideal) (m ((c.tc : Thread nD τ).loc main_arg0)) (m ((c.tc : Thread nD τ).loc main_arg1)) (m ((c.tc : Thread nD τ).loc main_arg3)) (ix3 b f e),
          fun b => Cert.ReferenceIdeal.RefValue.stage_v10 (F := Ideal) (m ((c.tc : Thread nD τ).loc main_arg0)) (m ((c.tc : Thread nD τ).loc main_arg1)) (m ((c.tc : Thread nD τ).loc main_arg2)) (ix1 b),
          (m ((c.tc : Thread nD τ).loc main_arg4)) (ix1 (0 : Fin 1)),
          fun e a => (m ((c.tc : Thread nD τ).loc main_arg5)) (ix2 e a),
          fun a => (m ((c.tc : Thread nD τ).loc main_arg6)) (ix1 a),
          fun a => (m ((c.tc : Thread nD τ).loc main_arg7)) (ix2 a (0 : Fin 1)),
          fun e => (m ((c.tc : Thread nD τ).loc main_arg8)) (ix2 e (0 : Fin 1))⟩ := by
  unfold kargs
  rw [Cert.Spec.Args.mk.injEq]
  refine ⟨?_, ?_, ?_, ?_, ?_, ?_, ?_⟩
  · funext b f e
    rw [V_v20]
    exact transpose_apply _ _ _ (ix3 f e b) (ix3 b f e)
      (fun d => by match d with | ⟨0, _⟩ => rfl | ⟨1, _⟩ => rfl | ⟨2, _⟩ => rfl)
  · funext b
    rw [V_v21, first_kernel, first_reference]
  · rw [V_v22]
    exact shapeCast_a_1a_apply _ _ (0 : Fin 1) (0 : Fin 1)
  · funext e a
    rw [V_main_arg5]
  · funext a
    rw [V_v23]
    exact shapeCast_a_1a_apply _ _ (0 : Fin 1) a
  · funext a
    rw [V_main_arg7]
  · funext e
    rw [V_main_arg8]

end Cert.KernelIdeal.KValue

end
-- ==== Proof.RefReadPairs.lean ====
/-
  The pairwise products of the reference, read at an index.

  Each of the two constant pair tables lists, for every one of the 741 pairs in row-major order of the strict upper
  triangle, one field of the pair: the first table the smaller field, the second the larger. A gather along the
  field axis through a table therefore reads, at pair `p`, the embeddings of that field; the shift of a negative
  table entry by 39 never applies, its mask being constantly false, and the clamp of an entry into the field range
  changes none of them.
-/
import proofs.«158778_j51101520888212_2_alg».proof.Proof.RefRun
import proofs.«158778_j51101520888212_2_alg».proof.Proof.Spec
import Idealize.ShloMosaic.Lib.ValueIdx
import Idealize.ShloMosaic.Lib.Pipeline.Value

noncomputable section

namespace Cert.ReferenceIdeal.RefValue

open Cert.ReferenceIdeal Cert.ReferenceIdeal.Gen Idealize.ShloMosaic Idealize.ShloMosaic.ValueIdx

variable {F : FTy → Type} [FloatOps F]

/-! ## The tables -/

/-- Entry `p` of the first table, read signed and clamped into the field range, is the smaller field of pair `p`. -/
theorem table0 : ∀ p : Fin 741, min (lit0 p).toInt.toNat (39 - 1) = (Cert.Spec.iu p).val := by decide +kernel

/-- Entry `p` of the second table, read signed and clamped into the field range, is the larger field of pair `p`. -/
theorem table1 : ∀ p : Fin 741, min (lit1 p).toInt.toNat (39 - 1) = (Cert.Spec.ju p).val := by decide +kernel

/-- The index column of a table holds the table's entry `p` in row `p`: the mask of the shift is constantly false. -/
theorem pairColumn_apply (t : Fin 741 → BitVec 32) (p : Fin 741) :
    pairColumn (F := F) t (ix2 p (0 : Fin 1)) = t p := by
  unfold pairColumn
  rw [broadcastInDim_apply _ _ _ (ix2 p (0 : Fin 1)) (ix1 p) (fun a => by match a with | ⟨0, _⟩ => rfl)]
  rw [select_apply]
  show Scalar.select 0#1 _ _ = _
  rw [select_zero]
  exact congrArg t (Fin.ext (Shape.rowMajor_val_one _))

/-! ## The gather along the field axis -/

local notation "G" => gather_S8192x39x16_S741x1_S8192x741x16_02_1_n_n_1_1_8192116

/-- The gather read at `(b, p, e)`: the operand at row `b`, channel `e`, and the field the index column holds in row `p`,
    read signed and clamped into the field range. -/
theorem gather_field_apply {α : Type} {w : Nat} (x : S8192x39x16.Idx → α) (idx : IVec S741x1 w)
    (b : Fin 8192) (p : Fin 741) (e : Fin 16) :
    Host.gather G x idx (ix3 b p e)
      = x (ix3 b ⟨min (idx (ix2 p (0 : Fin 1))).toInt.toNat (39 - 1), by omega⟩ e) := by
  have h0 : (GatherDims.operandIdx G (ix3 b p e) idx (0 : Fin 3)).val = b.val := by
    show GatherDims.start G (ix3 b p e) idx (0 : Fin 3) + GatherDims.batchCoord G (ix3 b p e) (0 : Fin 3)
      + GatherDims.offCoord G (ix3 b p e) (0 : Fin 3) = _
    rw [GatherDims.batchCoord_eq_zero _ _ _ List.not_mem_nil]
    have hs : GatherDims.start G (ix3 b p e) idx (0 : Fin 3) = 0 := by
      unfold GatherDims.start; rw [dif_neg (by decide)]
    rw [hs]
    unfold GatherDims.offCoord
    rw [dif_pos (show (0 : Fin 3) ∈ GatherDims.sKept G by decide)]
    simp only [Nat.zero_add]
    rfl
  have h1 : (GatherDims.operandIdx G (ix3 b p e) idx (1 : Fin 3)).val
      = min (idx (ix2 p (0 : Fin 1))).toInt.toNat (39 - 1) := by
    show GatherDims.start G (ix3 b p e) idx (1 : Fin 3) + GatherDims.batchCoord G (ix3 b p e) (1 : Fin 3)
      + GatherDims.offCoord G (ix3 b p e) (1 : Fin 3) = _
    rw [GatherDims.batchCoord_eq_zero _ _ _ List.not_mem_nil,
      GatherDims.offCoord_eq_zero _ _ _ (show (1 : Fin 3) ∉ GatherDims.sKept G by decide)]
    simp only [Nat.add_zero]
    unfold GatherDims.start
    rw [dif_pos (show (1 : Fin 3) ∈ GatherDims.startIndexMap G by decide)]
    have hsi : GatherDims.siIdx G (ix3 b p e) ⟨List.idxOf (1 : Fin 3) (GatherDims.startIndexMap G),
        List.idxOf_lt_length_iff.2 (show (1 : Fin 3) ∈ GatherDims.startIndexMap G by decide)⟩ = ix2 p (0 : Fin 1) := by
      funext c; refine Fin.ext ?_
      match c with
      | ⟨0, _⟩ => rfl
      | ⟨1, _⟩ => rfl
    rw [hsi]
    rfl
  have h2 : (GatherDims.operandIdx G (ix3 b p e) idx (2 : Fin 3)).val = e.val := by
    show GatherDims.start G (ix3 b p e) idx (2 : Fin 3) + GatherDims.batchCoord G (ix3 b p e) (2 : Fin 3)
      + GatherDims.offCoord G (ix3 b p e) (2 : Fin 3) = _
    rw [GatherDims.batchCoord_eq_zero _ _ _ List.not_mem_nil]
    have hs : GatherDims.start G (ix3 b p e) idx (2 : Fin 3) = 0 := by
      unfold GatherDims.start; rw [dif_neg (by decide)]
    rw [hs]
    unfold GatherDims.offCoord
    rw [dif_pos (show (2 : Fin 3) ∈ GatherDims.sKept G by decide)]
    simp only [Nat.zero_add]
    rfl
  unfold Host.gather
  refine congrArg x (funext fun a => Fin.ext ?_)
  match a with
  | ⟨0, _⟩ => exact h0
  | ⟨1, _⟩ => exact h1
  | ⟨2, _⟩ => exact h2

/-- The smaller field of every pair: the embeddings read through the first table. -/
theorem stage_pick_lit0 (x : FVec F S8192x39x16 .f32) (b : Fin 8192) (p : Fin 741) (e : Fin 16) :
    stage_pick lit0 x (ix3 b p e) = x (ix3 b (Cert.Spec.iu p) e) := by
  unfold stage_pick
  rw [gather_field_apply]
  exact congrArg x (congrArg (fun f => ix3 b f e) (Fin.ext (by
    show min (BitVec.toInt (pairColumn (F := F) lit0 (ix2 p (0 : Fin 1)))).toNat (39 - 1) = _
    rw [pairColumn_apply]; exact table0 p)))

/-- The larger field of every pair: the embeddings read through the second table. -/
theorem stage_pick_lit1 (x : FVec F S8192x39x16 .f32) (b : Fin 8192) (p : Fin 741) (e : Fin 16) :
    stage_pick lit1 x (ix3 b p e) = x (ix3 b (Cert.Spec.ju p) e) := by
  unfold stage_pick
  rw [gather_field_apply]
  exact congrArg x (congrArg (fun f => ix3 b f e) (Fin.ext (by
    show min (BitVec.toInt (pairColumn (F := F) lit1 (ix2 p (0 : Fin 1)))).toNat (39 - 1) = _
    rw [pairColumn_apply]; exact table1 p)))

/-- The pairwise products at `(b, p, e)`: the two fields of pair `p` multiplied, channel by channel. -/
theorem stage_v30_apply (x : FVec Ideal S8192x39x16 .f32) (b : Fin 8192) (p : Fin 741) (e : Fin 16) :
    stage_v30 (F := Ideal) x (ix3 b p e) = x (ix3 b (Cert.Spec.iu p) e) * x (ix3 b (Cert.Spec.ju p) e) := by
  unfold stage_v30
  rw [mulf_apply, stage_pick_lit0, stage_pick_lit1]

end Cert.ReferenceIdeal.RefValue

end
-- ==== Proof.RefReadDots.lean ====
/-
  The three contractions of the reference, read at an index.

  Each contracts one axis of extent 16: the dense layer `(b, p, e) × (e, a) → (b, p, a)`, the projection of the
  rectified layer to one logit per pair `(b, p, a) × (a, ·) → (b, p, ·)`, and the projection of the pooled vector
  `(b, e) × (e, ·) → (b, ·)`. At the extended reals each is the plain sum over the contracted coordinate of the
  products of the two operands' entries.
-/
import proofs.«158778_j51101520888212_2_alg».proof.Proof.RefRun
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.ValueIdx
open scoped BigOperators

/-! ## The dense layer: `(b, p, e) × (e, a)` -/

theorem lhsA_0 (i : S8192x741x16.Idx) (q : (dot_S8192x741x16_S16x16_S8192x741x16_2_0_01_1_n_n).contr.Idx) :
    (DotDims.lhsIdx dot_S8192x741x16_S16x16_S8192x741x16_2_0_01_1_n_n i q 0).val = (i 0).val := by
  unfold DotDims.lhsIdx
  rw [dif_neg (show ¬(0 : Fin S8192x741x16.rank) ∈ DotDims.lhsBatch dot_S8192x741x16_S16x16_S8192x741x16_2_0_01_1_n_n by decide), dif_pos (show (0 : Fin S8192x741x16.rank) ∈ DotDims.lhsNonContracting dot_S8192x741x16_S16x16_S8192x741x16_2_0_01_1_n_n by decide)]
  rfl

theorem lhsA_1 (i : S8192x741x16.Idx) (q : (dot_S8192x741x16_S16x16_S8192x741x16_2_0_01_1_n_n).contr.Idx) :
    (DotDims.lhsIdx dot_S8192x741x16_S16x16_S8192x741x16_2_0_01_1_n_n i q 1).val = (i 1).val := by
  unfold DotDims.lhsIdx
  rw [dif_neg (show ¬(1 : Fin S8192x741x16.rank) ∈ DotDims.lhsBatch dot_S8192x741x16_S16x16_S8192x741x16_2_0_01_1_n_n by decide), dif_pos (show (1 : Fin S8192x741x16.rank) ∈ DotDims.lhsNonContracting dot_S8192x741x16_S16x16_S8192x741x16_2_0_01_1_n_n by decide)]
  rfl

theorem lhsA_2 (i : S8192x741x16.Idx) (q : (dot_S8192x741x16_S16x16_S8192x741x16_2_0_01_1_n_n).contr.Idx) :
    (DotDims.lhsIdx dot_S8192x741x16_S16x16_S8192x741x16_2_0_01_1_n_n i q 2).val = (q ⟨0, by decide⟩).val :=
  DotDims.lhsIdx_val_of_single dot_S8192x741x16_S16x16_S8192x741x16_2_0_01_1_n_n rfl i q

theorem rhsA_0 (i : S8192x741x16.Idx) (q : (dot_S8192x741x16_S16x16_S8192x741x16_2_0_01_1_n_n).contr.Idx) :
    (DotDims.rhsIdx dot_S8192x741x16_S16x16_S8192x741x16_2_0_01_1_n_n i q 0).val = (q ⟨0, by decide⟩).val :=
  DotDims.rhsIdx_val_of_single dot_S8192x741x16_S16x16_S8192x741x16_2_0_01_1_n_n rfl i q

theorem rhsA_1 (i : S8192x741x16.Idx) (q : (dot_S8192x741x16_S16x16_S8192x741x16_2_0_01_1_n_n).contr.Idx) :
    (DotDims.rhsIdx dot_S8192x741x16_S16x16_S8192x741x16_2_0_01_1_n_n i q 1).val = (i 2).val := by
  unfold DotDims.rhsIdx
  rw [dif_neg (show ¬(1 : Fin S16x16.rank) ∈ DotDims.rhsBatch dot_S8192x741x16_S16x16_S8192x741x16_2_0_01_1_n_n by decide), dif_pos (show (1 : Fin S16x16.rank) ∈ DotDims.rhsNonContracting dot_S8192x741x16_S16x16_S8192x741x16_2_0_01_1_n_n by decide)]
  rfl

/-- The dense layer at `(b, p, a)`: the sum over the channels of pair entry times weight. -/
theorem dense_apply (x : FVec Ideal S8192x741x16 .f32) (w : FVec Ideal S16x16 .f32) (b : Fin 8192) (p : Fin 741) (a : Fin 16) :
    Host.dotGeneral dot_S8192x741x16_S16x16_S8192x741x16_2_0_01_1_n_n none x w (ix3 b p a) = ∑ e : Fin 16, x (ix3 b p e) * w (ix2 e a) := by
  simp only [Host.dotGeneral]
  rw [Ideal.dotGeneral_apply, ← Equiv.sum_comp (ValueIdx.contrEquiv1 dot_S8192x741x16_S16x16_S8192x741x16_2_0_01_1_n_n 16 rfl rfl).symm]
  refine Finset.sum_congr rfl fun k _ => ?_
  have hk := ValueIdx.contrEquiv1_symm_val dot_S8192x741x16_S16x16_S8192x741x16_2_0_01_1_n_n 16 rfl rfl k
  have el : DotDims.lhsIdx dot_S8192x741x16_S16x16_S8192x741x16_2_0_01_1_n_n (ix3 b p a) ((ValueIdx.contrEquiv1 dot_S8192x741x16_S16x16_S8192x741x16_2_0_01_1_n_n 16 rfl rfl).symm k) = ix3 b p k :=
    funext fun c => Fin.ext (by
      match c with
      | ⟨0, _⟩ => exact lhsA_0 _ _
      | ⟨1, _⟩ => exact lhsA_1 _ _
      | ⟨2, _⟩ => exact (lhsA_2 _ _).trans hk)
  have er : DotDims.rhsIdx dot_S8192x741x16_S16x16_S8192x741x16_2_0_01_1_n_n (ix3 b p a) ((ValueIdx.contrEquiv1 dot_S8192x741x16_S16x16_S8192x741x16_2_0_01_1_n_n 16 rfl rfl).symm k) = ix2 k a :=
    funext fun c => Fin.ext (by
      match c with
      | ⟨0, _⟩ => exact (rhsA_0 _ _).trans hk
      | ⟨1, _⟩ => exact rhsA_1 _ _)
  rw [el, er]

/-! ## The logits: `(b, p, a) × (a, ·)` -/

theorem lhsB_0 (i : S8192x741x1.Idx) (q : (dot_S8192x741x16_S16x1_S8192x741x1_2_0_01_1_n_n).contr.Idx) :
    (DotDims.lhsIdx dot_S8192x741x16_S16x1_S8192x741x1_2_0_01_1_n_n i q 0).val = (i 0).val := by
  unfold DotDims.lhsIdx
  rw [dif_neg (show ¬(0 : Fin S8192x741x16.rank) ∈ DotDims.lhsBatch dot_S8192x741x16_S16x1_S8192x741x1_2_0_01_1_n_n by decide), dif_pos (show (0 : Fin S8192x741x16.rank) ∈ DotDims.lhsNonContracting dot_S8192x741x16_S16x1_S8192x741x1_2_0_01_1_n_n by decide)]
  rfl

theorem lhsB_1 (i : S8192x741x1.Idx) (q : (dot_S8192x741x16_S16x1_S8192x741x1_2_0_01_1_n_n).contr.Idx) :
    (DotDims.lhsIdx dot_S8192x741x16_S16x1_S8192x741x1_2_0_01_1_n_n i q 1).val = (i 1).val := by
  unfold DotDims.lhsIdx
  rw [dif_neg (show ¬(1 : Fin S8192x741x16.rank) ∈ DotDims.lhsBatch dot_S8192x741x16_S16x1_S8192x741x1_2_0_01_1_n_n by decide), dif_pos (show (1 : Fin S8192x741x16.rank) ∈ DotDims.lhsNonContracting dot_S8192x741x16_S16x1_S8192x741x1_2_0_01_1_n_n by decide)]
  rfl

theorem lhsB_2 (i : S8192x741x1.Idx) (q : (dot_S8192x741x16_S16x1_S8192x741x1_2_0_01_1_n_n).contr.Idx) :
    (DotDims.lhsIdx dot_S8192x741x16_S16x1_S8192x741x1_2_0_01_1_n_n i q 2).val = (q ⟨0, by decide⟩).val :=
  DotDims.lhsIdx_val_of_single dot_S8192x741x16_S16x1_S8192x741x1_2_0_01_1_n_n rfl i q

theorem rhsB_0 (i : S8192x741x1.Idx) (q : (dot_S8192x741x16_S16x1_S8192x741x1_2_0_01_1_n_n).contr.Idx) :
    (DotDims.rhsIdx dot_S8192x741x16_S16x1_S8192x741x1_2_0_01_1_n_n i q 0).val = (q ⟨0, by decide⟩).val :=
  DotDims.rhsIdx_val_of_single dot_S8192x741x16_S16x1_S8192x741x1_2_0_01_1_n_n rfl i q

theorem rhsB_1 (i : S8192x741x1.Idx) (q : (dot_S8192x741x16_S16x1_S8192x741x1_2_0_01_1_n_n).contr.Idx) :
    (DotDims.rhsIdx dot_S8192x741x16_S16x1_S8192x741x1_2_0_01_1_n_n i q 1).val = (i 2).val := by
  unfold DotDims.rhsIdx
  rw [dif_neg (show ¬(1 : Fin S16x1.rank) ∈ DotDims.rhsBatch dot_S8192x741x16_S16x1_S8192x741x1_2_0_01_1_n_n by decide), dif_pos (show (1 : Fin S16x1.rank) ∈ DotDims.rhsNonContracting dot_S8192x741x16_S16x1_S8192x741x1_2_0_01_1_n_n by decide)]
  rfl

/-- The logit of pair `p` in row `b`: the sum over the sixteen units of the layer's entry times the projection's. -/
theorem logit_apply (x : FVec Ideal S8192x741x16 .f32) (w : FVec Ideal S16x1 .f32) (b : Fin 8192) (p : Fin 741) :
    Host.dotGeneral dot_S8192x741x16_S16x1_S8192x741x1_2_0_01_1_n_n none x w (ix3 b p (0 : Fin 1)) = ∑ a : Fin 16, x (ix3 b p a) * w (ix2 a (0 : Fin 1)) := by
  simp only [Host.dotGeneral]
  rw [Ideal.dotGeneral_apply, ← Equiv.sum_comp (ValueIdx.contrEquiv1 dot_S8192x741x16_S16x1_S8192x741x1_2_0_01_1_n_n 16 rfl rfl).symm]
  refine Finset.sum_congr rfl fun k _ => ?_
  have hk := ValueIdx.contrEquiv1_symm_val dot_S8192x741x16_S16x1_S8192x741x1_2_0_01_1_n_n 16 rfl rfl k
  have el : DotDims.lhsIdx dot_S8192x741x16_S16x1_S8192x741x1_2_0_01_1_n_n (ix3 b p (0 : Fin 1)) ((ValueIdx.contrEquiv1 dot_S8192x741x16_S16x1_S8192x741x1_2_0_01_1_n_n 16 rfl rfl).symm k) = ix3 b p k :=
    funext fun c => Fin.ext (by
      match c with
      | ⟨0, _⟩ => exact lhsB_0 _ _
      | ⟨1, _⟩ => exact lhsB_1 _ _
      | ⟨2, _⟩ => exact (lhsB_2 _ _).trans hk)
  have er : DotDims.rhsIdx dot_S8192x741x16_S16x1_S8192x741x1_2_0_01_1_n_n (ix3 b p (0 : Fin 1)) ((ValueIdx.contrEquiv1 dot_S8192x741x16_S16x1_S8192x741x1_2_0_01_1_n_n 16 rfl rfl).symm k) = ix2 k (0 : Fin 1) :=
    funext fun c => Fin.ext (by
      match c with
      | ⟨0, _⟩ => exact (rhsB_0 _ _).trans hk
      | ⟨1, _⟩ => exact rhsB_1 _ _)
  rw [el, er]

/-! ## The projection of the pooled vector: `(b, e) × (e, ·)` -/

theorem lhsC_0 (i : S8192x1.Idx) (q : (dot_S8192x16_S16x1_S8192x1_1_0_0_1_n_n).contr.Idx) :
    (DotDims.lhsIdx dot_S8192x16_S16x1_S8192x1_1_0_0_1_n_n i q 0).val = (i 0).val := by
  unfold DotDims.lhsIdx
  rw [dif_neg (show ¬(0 : Fin S8192x16.rank) ∈ DotDims.lhsBatch dot_S8192x16_S16x1_S8192x1_1_0_0_1_n_n by decide), dif_pos (show (0 : Fin S8192x16.rank) ∈ DotDims.lhsNonContracting dot_S8192x16_S16x1_S8192x1_1_0_0_1_n_n by decide)]
  rfl

theorem lhsC_1 (i : S8192x1.Idx) (q : (dot_S8192x16_S16x1_S8192x1_1_0_0_1_n_n).contr.Idx) :
    (DotDims.lhsIdx dot_S8192x16_S16x1_S8192x1_1_0_0_1_n_n i q 1).val = (q ⟨0, by decide⟩).val :=
  DotDims.lhsIdx_val_of_single dot_S8192x16_S16x1_S8192x1_1_0_0_1_n_n rfl i q

theorem rhsC_0 (i : S8192x1.Idx) (q : (dot_S8192x16_S16x1_S8192x1_1_0_0_1_n_n).contr.Idx) :
    (DotDims.rhsIdx dot_S8192x16_S16x1_S8192x1_1_0_0_1_n_n i q 0).val = (q ⟨0, by decide⟩).val :=
  DotDims.rhsIdx_val_of_single dot_S8192x16_S16x1_S8192x1_1_0_0_1_n_n rfl i q

theorem rhsC_1 (i : S8192x1.Idx) (q : (dot_S8192x16_S16x1_S8192x1_1_0_0_1_n_n).contr.Idx) :
    (DotDims.rhsIdx dot_S8192x16_S16x1_S8192x1_1_0_0_1_n_n i q 1).val = (i 1).val := by
  unfold DotDims.rhsIdx
  rw [dif_neg (show ¬(1 : Fin S16x1.rank) ∈ DotDims.rhsBatch dot_S8192x16_S16x1_S8192x1_1_0_0_1_n_n by decide), dif_pos (show (1 : Fin S16x1.rank) ∈ DotDims.rhsNonContracting dot_S8192x16_S16x1_S8192x1_1_0_0_1_n_n by decide)]
  rfl

/-- The pooled vector of row `b` projected: the sum over the channels of pooled entry times weight. -/
theorem project_apply (x : FVec Ideal S8192x16 .f32) (w : FVec Ideal S16x1 .f32) (b : Fin 8192) :
    Host.dotGeneral dot_S8192x16_S16x1_S8192x1_1_0_0_1_n_n none x w (ix2 b (0 : Fin 1)) = ∑ e : Fin 16, x (ix2 b e) * w (ix2 e (0 : Fin 1)) := by
  simp only [Host.dotGeneral]
  rw [Ideal.dotGeneral_apply, ← Equiv.sum_comp (ValueIdx.contrEquiv1 dot_S8192x16_S16x1_S8192x1_1_0_0_1_n_n 16 rfl rfl).symm]
  refine Finset.sum_congr rfl fun k _ => ?_
  have hk := ValueIdx.contrEquiv1_symm_val dot_S8192x16_S16x1_S8192x1_1_0_0_1_n_n 16 rfl rfl k
  have el : DotDims.lhsIdx dot_S8192x16_S16x1_S8192x1_1_0_0_1_n_n (ix2 b (0 : Fin 1)) ((ValueIdx.contrEquiv1 dot_S8192x16_S16x1_S8192x1_1_0_0_1_n_n 16 rfl rfl).symm k) = ix2 b k :=
    funext fun c => Fin.ext (by
      match c with
      | ⟨0, _⟩ => exact lhsC_0 _ _
      | ⟨1, _⟩ => exact (lhsC_1 _ _).trans hk)
  have er : DotDims.rhsIdx dot_S8192x16_S16x1_S8192x1_1_0_0_1_n_n (ix2 b (0 : Fin 1)) ((ValueIdx.contrEquiv1 dot_S8192x16_S16x1_S8192x1_1_0_0_1_n_n 16 rfl rfl).symm k) = ix2 k (0 : Fin 1) :=
    funext fun c => Fin.ext (by
      match c with
      | ⟨0, _⟩ => exact (rhsC_0 _ _).trans hk
      | ⟨1, _⟩ => exact rhsC_1 _ _)
  rw [el, er]

end Cert.ReferenceIdeal.RefValue

end
-- ==== Proof.RefReadStages.lean ====
/-
  The stages after the pairwise products, each read at an index over the extended reals.

  The dense layer with its bias and rectifier, the logit of each pair, the largest logit of a row, the shifted
  exponentials and their sum, the normalised weights, the pooled vector, its projection, and the closing logistic
  function. Every stage is read as a function of the arrays it is applied to, so that the readings compose by
  substitution.
-/
import proofs.«158778_j51101520888212_2_alg».proof.Proof.RefReadDots
import Idealize.ShloMosaic.Lib.Pipeline.Value
import Idealize.ShloMosaic.Lib.IdealHost

noncomputable section

namespace Cert.ReferenceIdeal.RefValue

open Cert.ReferenceIdeal Cert.ReferenceIdeal.Gen Idealize.ShloMosaic Idealize.ShloMosaic.ValueIdx
open scoped BigOperators

variable {F : FTy → Type} [FloatOps F]

/-! ## Layout reads -/

/-- A per-row column spread over the pairs reads, at every pair, the row's entry. -/
theorem spread_apply (x : FVec F S8192x1 .f32) (b : Fin 8192) (p : Fin 741) :
    spread x (ix3 b p (0 : Fin 1)) = x (ix2 b (0 : Fin 1)) := by
  unfold spread
  rw [broadcastInDim_apply _ _ _ (ix3 b p (0 : Fin 1)) (ix3 b (0 : Fin 1) (0 : Fin 1))
      (fun a => by match a with | ⟨0, _⟩ => rfl | ⟨1, _⟩ => rfl | ⟨2, _⟩ => rfl),
    broadcastInDim_apply _ _ _ (ix3 b (0 : Fin 1) (0 : Fin 1)) (ix2 b (0 : Fin 1))
      (fun a => by match a with | ⟨0, _⟩ => rfl | ⟨1, _⟩ => rfl)]

/-- The bias of the dense layer spread over rows and pairs reads, at unit `a`, the bias of that unit. -/
theorem bias_apply (a6 : FVec F S16 .f32) (b : Fin 8192) (p : Fin 741) (a : Fin 16) :
    broadcastInDim S8192x741x16 ![0, 1, 2] bcast_S1x1x16_S8192x741x16_0_1_2
        (broadcastInDim S1x1x16 ![2] bcast_S16_S1x1x16_2 a6) (ix3 b p a) = a6 (ix1 a) := by
  rw [broadcastInDim_apply _ _ _ (ix3 b p a) (ix3 (0 : Fin 1) (0 : Fin 1) a)
      (fun c => by match c with | ⟨0, _⟩ => rfl | ⟨1, _⟩ => rfl | ⟨2, _⟩ => rfl),
    broadcastInDim_apply _ _ _ (ix3 (0 : Fin 1) (0 : Fin 1) a) (ix1 a)
      (fun c => by match c with | ⟨0, _⟩ => rfl)]

/-- A weight of a pair spread over the channels reads, at every channel, the pair's weight. -/
theorem weight_apply (x : FVec F S8192x741x1 .f32) (b : Fin 8192) (p : Fin 741) (e : Fin 16) :
    broadcastInDim S8192x741x16 ![0, 1, 2] bcast_S8192x741x1_S8192x741x16_0_1_2 x (ix3 b p e)
      = x (ix3 b p (0 : Fin 1)) :=
  broadcastInDim_apply _ _ _ (ix3 b p e) (ix3 b p (0 : Fin 1))
    (fun c => by match c with | ⟨0, _⟩ => rfl | ⟨1, _⟩ => rfl | ⟨2, _⟩ => rfl)

/-- The one-entry bias spread over the rows reads that entry. -/
theorem bias0_apply (a4 : FVec F S1 .f32) (b : Fin 8192) :
    broadcastInDim S8192 ![0] bcast_S1_S8192_0 a4 (ix1 b) = a4 (ix1 (0 : Fin 1)) :=
  broadcastInDim_apply _ _ _ (ix1 b) (ix1 (0 : Fin 1)) (fun c => by match c with | ⟨0, _⟩ => rfl)

/-- A column `[8192, 1]` recast as a vector reads, at row `b`, the column's entry of that row. -/
theorem column_apply {α : Type} (x : S8192x1.Idx → α) (b : Fin 8192) :
    shapeCast S8192 x shapeCasts_S8192x1_S8192 (ix1 b) = x (ix2 b (0 : Fin 1)) :=
  shapeCast_apply x _ (ix1 b) (ix2 b (0 : Fin 1)) (by
    rw [Shape.rowMajor_val_two, Shape.rowMajor_val_one]
    show b.val * 1 + 0 = b.val
    omega)

/-! ## The constants -/

/-- The word of minus infinity is the least extended real. -/
theorem ofBits_neg_inf : Ideal.ofBits .f32 0xFF800000#32 = ⊥ := by simp [Ideal.ofBits, Ideal.ieee]

/-! ## The stages -/

/-- The dense layer with its bias, rectified, at `(b, p, a)`. -/
theorem stage_v35_apply (x30 : FVec Ideal S8192x741x16 .f32) (a5 : FVec Ideal S16x16 .f32) (a6 : FVec Ideal S16 .f32)
    (b : Fin 8192) (p : Fin 741) (a : Fin 16) :
    stage_v35 (F := Ideal) x30 a5 a6 (ix3 b p a)
      = max (∑ e : Fin 16, x30 (ix3 b p e) * a5 (ix2 e a) + a6 (ix1 a)) 0 := by
  unfold stage_v35
  rw [maximumf_apply, addf_apply, dense_apply, bias_apply, broadcastInDim_scalar_apply, constant_apply,
    Ideal.ofBits_zero_f32]

/-- The logit of pair `p` in row `b`. -/
theorem stage_v36_apply (x35 : FVec Ideal S8192x741x16 .f32) (a7 : FVec Ideal S16x1 .f32) (b : Fin 8192) (p : Fin 741) :
    stage_v36 (F := Ideal) x35 a7 (ix3 b p (0 : Fin 1)) = ∑ a : Fin 16, x35 (ix3 b p a) * a7 (ix2 a (0 : Fin 1)) := by
  unfold stage_v36
  exact logit_apply x35 a7 b p

/-- The largest logit of row `b`: the supremum over the pairs (the fold of the maximum from minus infinity, and the
    maximum with minus infinity once more, which changes nothing). -/
theorem stage_v39_apply (x36 : FVec Ideal S8192x741x1 .f32) (b : Fin 8192) :
    stage_v39 (F := Ideal) x36 (ix2 b (0 : Fin 1)) = Finset.univ.sup fun p : Fin 741 => x36 (ix3 b p (0 : Fin 1)) := by
  unfold stage_v39
  rw [maximumf_apply, broadcastInDim_scalar_apply, constant_apply, ofBits_neg_inf, max_eq_right bot_le,
    Host.reduce_eq_fold_single FloatOps.maximumf x36 _ reducesTo_S8192x741x1_S8192x1_d1 (by decide) h_S_
      (ix2 b (0 : Fin 1)),
    constant_apply, ofBits_neg_inf]
  have hl : (x36 ∘ Shape.Reduces.lift (s := S8192x741x1) (t := S8192x1) (a := (1 : Fin 3)) (by decide) (ix2 b (0 : Fin 1)))
      = fun p : Fin 741 => x36 (ix3 b p (0 : Fin 1)) :=
    funext fun k => congrArg x36 (funext fun c => Fin.ext (by
      match c with | ⟨0, _⟩ => rfl | ⟨1, _⟩ => rfl | ⟨2, _⟩ => rfl))
  rw [hl]
  rfl

/-- The shifted exponential of pair `p` in row `b`. -/
theorem stage_v43_apply (x36 : FVec Ideal S8192x741x1 .f32) (b : Fin 8192) (p : Fin 741) :
    stage_v43 (F := Ideal) x36 (ix3 b p (0 : Fin 1))
      = Ideal.exp (x36 (ix3 b p (0 : Fin 1)) - Finset.univ.sup fun q : Fin 741 => x36 (ix3 b q (0 : Fin 1))) := by
  unfold stage_v43
  show Ideal.exp (subf x36 (spread (stage_v39 (F := Ideal) x36)) (ix3 b p (0 : Fin 1))) = _
  rw [subf_apply, spread_apply, stage_v39_apply]

/-- The sum of row `b`'s exponentials (from a zero initial value). -/
theorem stage_v44_apply (x43 : FVec Ideal S8192x741x1 .f32) (b : Fin 8192) :
    stage_v44 (F := Ideal) x43 (ix2 b (0 : Fin 1)) = ∑ p : Fin 741, x43 (ix3 b p (0 : Fin 1)) := by
  unfold stage_v44
  simp only [Host.reduceAdd, Ideal.hostReduceAdd_def]
  rw [Ideal.hostReduceAdd_single reducesTo_S8192x741x1_S8192x1_d1 (by decide), constant_apply, Ideal.ofBits_zero_f32,
    zero_add]
  refine Finset.sum_congr rfl fun k _ => ?_
  exact congrArg x43 (funext fun c => Fin.ext (by match c with | ⟨0, _⟩ => rfl | ⟨1, _⟩ => rfl | ⟨2, _⟩ => rfl))

/-- The normalised weight of pair `p` in row `b`. -/
theorem stage_v47_apply (x43 : FVec Ideal S8192x741x1 .f32) (b : Fin 8192) (p : Fin 741) :
    stage_v47 (F := Ideal) x43 (ix3 b p (0 : Fin 1))
      = Ideal.div (x43 (ix3 b p (0 : Fin 1))) (∑ q : Fin 741, x43 (ix3 b q (0 : Fin 1))) := by
  unfold stage_v47
  show Ideal.div (x43 (ix3 b p (0 : Fin 1))) (spread (stage_v44 (F := Ideal) x43) (ix3 b p (0 : Fin 1))) = _
  rw [spread_apply, stage_v44_apply]

/-- The pooled vector of row `b` at channel `e`: the weighted pairs summed (from a zero initial value). -/
theorem stage_v50_apply (x47 : FVec Ideal S8192x741x1 .f32) (x30 : FVec Ideal S8192x741x16 .f32) (b : Fin 8192) (e : Fin 16) :
    stage_v50 (F := Ideal) x47 x30 (ix2 b e) = ∑ p : Fin 741, x47 (ix3 b p (0 : Fin 1)) * x30 (ix3 b p e) := by
  unfold stage_v50
  simp only [Host.reduceAdd, Ideal.hostReduceAdd_def]
  rw [Ideal.hostReduceAdd_single reducesTo_S8192x741x16_S8192x16_d1 (by decide), constant_apply, Ideal.ofBits_zero_f32,
    zero_add]
  refine Finset.sum_congr rfl fun (k : Fin 741) _ => ?_
  have hi : Shape.Reduces.lift (s := S8192x741x16) (t := S8192x16) (a := (1 : Fin 3)) (by decide) (ix2 b e) k = ix3 b k e :=
    funext fun c => Fin.ext (by match c with | ⟨0, _⟩ => rfl | ⟨1, _⟩ => rfl | ⟨2, _⟩ => rfl)
  rw [hi, mulf_apply, weight_apply]

/-- The pooled vector of row `b` projected to one number. -/
theorem stage_v52_apply (x50 : FVec Ideal S8192x16 .f32) (a8 : FVec Ideal S16x1 .f32) (b : Fin 8192) :
    stage_v52 (F := Ideal) x50 a8 (ix1 b) = ∑ e : Fin 16, x50 (ix2 b e) * a8 (ix2 e (0 : Fin 1)) := by
  unfold stage_v52
  rw [column_apply, project_apply]

/-- The result at row `b`: the logistic function of the bias plus the first-order term plus the second-order term. -/
theorem stage_v61_apply (a4 : FVec Ideal S1 .f32) (x10 x52 : FVec Ideal S8192 .f32) (b : Fin 8192) :
    stage_v61 (F := Ideal) a4 x10 x52 (ix1 b)
      = Ideal.logistic ((a4 (ix1 (0 : Fin 1)) + x10 (ix1 b)) + x52 (ix1 b)) := by
  unfold stage_v61
  show Ideal.div (broadcastInDim S8192 ![] bcast_S_S8192 (constant (F := Ideal) S_ .f32 0x3F800000#32) (ix1 b))
      (broadcastInDim S8192 ![] bcast_S_S8192 (constant (F := Ideal) S_ .f32 0x3F800000#32) (ix1 b)
        + Ideal.exp (-((broadcastInDim S8192 ![0] bcast_S1_S8192_0 a4 (ix1 b) + x10 (ix1 b)) + x52 (ix1 b)))) = _
  rw [broadcastInDim_scalar_apply, constant_apply, Ideal.ofBits_one_f32, bias0_apply]
  rfl

end Cert.ReferenceIdeal.RefValue

end
-- ==== Proof.RefRead.lean ====
/-
  The reference's result, read at a batch row over the extended reals, is the function of the specification.

  The readings of the stages compose by substitution: the result at row `b` is the logistic function of the bias plus the
  first-order term plus the projected pooled vector; the pooled vector is the sum over the 741 pairs of the softmax weight
  times the pairwise product; the weight is the shifted exponential of the pair's logit over the sum of the row's; the
  logit is the projection of the rectified dense layer of the pairwise products; and the pairwise product of pair `p` is
  the product of the scaled embeddings of its two fields. The scaled embeddings and the first-order term, the only stages
  that read the two large tables, stay unopened.
-/
import proofs.«158778_j51101520888212_2_alg».proof.Proof.RefReadPairs
import proofs.«158778_j51101520888212_2_alg».proof.Proof.RefReadStages
import proofs.«158778_j51101520888212_2_alg».proof.Proof.Spec

noncomputable section

namespace Cert.ReferenceIdeal.RefValue

open Cert.ReferenceIdeal Cert.ReferenceIdeal.Gen Idealize.ShloMosaic Idealize.ShloMosaic.ValueIdx
open scoped BigOperators

/-- Everything after the two reads of the large tables, at row `b`: the specification's function of the scaled
    embeddings, the first-order term and the five small arguments. -/
theorem tail_apply (x19 : FVec Ideal S8192x39x16 .f32) (x10 : FVec Ideal S8192 .f32) (a4 : FVec Ideal S1 .f32) (a5 : FVec Ideal S16x16 .f32)
    (a6 : FVec Ideal S16 .f32) (a7 a8 : FVec Ideal S16x1 .f32) (b : Fin 8192) :
    tail (F := Ideal) x19 x10 a4 a5 a6 a7 a8 (ix1 b)
      = Cert.Spec.out ⟨fun b f e => x19 (ix3 b f e), fun b => x10 (ix1 b), a4 (ix1 (0 : Fin 1)),
          fun e a => a5 (ix2 e a), fun a => a6 (ix1 a), fun a => a7 (ix2 a (0 : Fin 1)),
          fun e => a8 (ix2 e (0 : Fin 1))⟩ b := by
  unfold tail
  rw [stage_v61_apply, stage_v52_apply]
  simp only [stage_v50_apply, stage_v47_apply, stage_v43_apply, stage_v36_apply, stage_v35_apply, stage_v30_apply]
  rfl

/-- The reference's result at row `b`: the specification's function, with the scaled embeddings and the first-order term
    the two stages that read the large tables. -/
theorem result_apply (a0 : (⟨S8192x39, .i32⟩ : BufTy).Contents (Elt Ideal)) (a1 : FVec Ideal S8192x39 .f32)
    (a2 : FVec Ideal S1000000x1 .f32) (a3 : FVec Ideal S1000000x16 .f32) (a4 : FVec Ideal S1 .f32) (a5 : FVec Ideal S16x16 .f32)
    (a6 : FVec Ideal S16 .f32) (a7 a8 : FVec Ideal S16x1 .f32) (b : Fin 8192) :
    result (F := Ideal) a0 a1 a2 a3 a4 a5 a6 a7 a8 (ix1 b)
      = Cert.Spec.out ⟨fun b f e => stage_v19 (F := Ideal) a0 a1 a3 (ix3 b f e),
          fun b => stage_v10 (F := Ideal) a0 a1 a2 (ix1 b), a4 (ix1 (0 : Fin 1)),
          fun e a => a5 (ix2 e a), fun a => a6 (ix1 a), fun a => a7 (ix2 a (0 : Fin 1)),
          fun e => a8 (ix2 e (0 : Fin 1))⟩ b := by
  unfold result
  exact tail_apply _ _ a4 a5 a6 a7 a8 b

end Cert.ReferenceIdeal.RefValue

end
-- ==== Proof.lean ====
/-
  The certificate of the attentional factorization machine: the kernel, its idealization and the reference.

  The three frames: the two kernel programs run a single region over 64 grid points between host operations, and their
  frames are read from the symbolic run of the body at each point; the reference is a straight line of host
  operations, and its frame is its run with the result dropped. The idealization rewrote no operation of the kernel,
  so there is nothing to preserve. For the values, both idealized programs end with the same function of the argument
  arrays at every batch row: the logistic function of the bias plus the first-order term plus the projection of the
  pairwise products pooled under softmax weights (`Cert.Spec.out`). The kernel's region finds the scaled embeddings
  and the first-order term that the reference's first stages compute from the same arrays, and each program applies
  to them the function of the specification.
-/
import proofs.«158778_j51101520888212_2_alg».proof.Defs
import proofs.«158778_j51101520888212_2_alg».proof.Proof.Gen.Kernel
import proofs.«158778_j51101520888212_2_alg».proof.Proof.Gen.Kernel.Skeleton
import proofs.«158778_j51101520888212_2_alg».proof.Proof.Gen.Kernel.Launch
import proofs.«158778_j51101520888212_2_alg».proof.Proof.Gen.Kernel.Points
import proofs.«158778_j51101520888212_2_alg».proof.Proof.Gen.Kernel.Frame
import proofs.«158778_j51101520888212_2_alg».proof.Proof.Gen.KernelIdeal
import proofs.«158778_j51101520888212_2_alg».proof.Proof.Gen.KernelIdeal.Skeleton
import proofs.«158778_j51101520888212_2_alg».proof.Proof.Gen.KernelIdeal.Launch
import proofs.«158778_j51101520888212_2_alg».proof.Proof.Gen.KernelIdeal.Points
import proofs.«158778_j51101520888212_2_alg».proof.Proof.Gen.KernelIdeal.Frame
import proofs.«158778_j51101520888212_2_alg».proof.Proof.Gen.ReferenceIdeal
import proofs.«158778_j51101520888212_2_alg».proof.Proof.Gen.Pre_finite_inputs
import proofs.«158778_j51101520888212_2_alg».proof.Proof.KHost
import proofs.«158778_j51101520888212_2_alg».proof.Proof.RefRead
import Idealize.ShloMosaic.Adequacy
import Idealize.ShloMosaic.Init

noncomputable section

namespace Cert.Proof

open Idealize.ShloMosaic Idealize.SL.Sem Idealize.ShloMosaic.ValueIdx

/-- The word-level kernel runs and leaves its arguments as they were. -/
theorem frame_Kernel : Cert.frame_Kernel :=
  fun m ρ _ => Cert.Kernel.Gen.frame m ρ

/-- The idealized kernel runs and leaves its arguments as they were. -/
theorem frame_KernelIdeal : Cert.frame_KernelIdeal :=
  fun m ρ _ => Cert.KernelIdeal.Gen.frame m ρ

/-- The reference runs and leaves its arguments as they were: its run, with the result dropped. -/
theorem frame_ReferenceIdeal : Cert.frame_ReferenceIdeal :=
  fun m ρ _ => (θ_run Cert.ReferenceIdeal.defs _ _).mono (fun _ h c => (h c).2)
    (Cert.ReferenceIdeal.RefValue.run (F := Ideal) m ρ)

/-- From memories that agree on the arguments both idealized programs end with the specification's function of the
    same arguments at every batch row. -/
theorem algebraic : Cert.algebraic_KernelIdeal_ReferenceIdeal := by
  intro m ρ m' ρ' _ hagree
  refine ⟨fun c => (fun j : Cert.KernelIdeal.S8192.Idx => Cert.Spec.out (Cert.KernelIdeal.KValue.kargs m c) (j 0)),
    Cert.KernelIdeal.KValue.run m ρ, ?_⟩
  refine (θ_run Cert.ReferenceIdeal.defs _ _).mono (fun r h c => ⟨?_, (h c).2⟩)
    (Cert.ReferenceIdeal.RefValue.run (F := Ideal) m' ρ')
  obtain ⟨h0, h1, h2, h3, h4, h5, h6, h7, h8⟩ := hagree c
  rw [(h c).1]
  funext j
  obtain ⟨b, rfl⟩ : ∃ b : Fin 8192, j = ix1 b := ⟨j 0, eq_ix1 j⟩
  show Cert.ReferenceIdeal.RefValue.result (F := Ideal) _ _ _ _ _ _ _ _ _ (ix1 b)
    = Cert.Spec.out (Cert.KernelIdeal.KValue.kargs m c) b
  rw [Cert.ReferenceIdeal.RefValue.result_apply, Cert.KernelIdeal.KValue.kargs_eq m c, h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, trivial, algebraic⟩

end Cert.Proof

end
